-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S192x4x768 : Shape := ⟨3, ![192, 4, 768]⟩
abbrev S192x4 : Shape := ⟨2, ![192, 4]⟩
abbrev S768x1536 : Shape := ⟨2, ![768, 1536]⟩
abbrev S768 : Shape := ⟨1, ![768]⟩
abbrev S768x2304 : Shape := ⟨2, ![768, 2304]⟩
abbrev S16x768 : Shape := ⟨2, ![16, 768]⟩
abbrev S16 : Shape := ⟨1, ![16]⟩
abbrev S_ : Shape := ⟨0, ![]⟩

class Facts : Prop where
  bcast_S_S192x4x768 : S_.BroadcastsInDim S192x4x768 (![] : Fin 0 → Fin S192x4x768.rank)
  reducesTo_S192x4x768_S_d0_1_2 : S192x4x768.ReducesTo [0, 1, 2] S_
  h_S_ : 0 < S_.numel
  bcast_S_S192x4 : S_.BroadcastsInDim S192x4 (![] : Fin 0 → Fin S192x4.rank)
  reducesTo_S192x4_S_d0_1 : S192x4.ReducesTo [0, 1] S_
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_
  bcast_S_S768x2304 : S_.BroadcastsInDim S768x2304 (![] : Fin 0 → Fin S768x2304.rank)
  reducesTo_S768x2304_S_d0_1 : S768x2304.ReducesTo [0, 1] S_
  bcast_S_S16x768 : S_.BroadcastsInDim S16x768 (![] : Fin 0 → Fin S16x768.rank)
  reducesTo_S16x768_S_d0_1 : S16x768.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S768 .f32) (main_arg8 : FVec F S768 .f32) (main_arg9 : FVec F S16x768 .f32) (main_arg10 : FVec F S16 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S16x768 .f32 := Host.absf main_arg9
  let main_cst_16 : FVec F S_ .f32 := constant S_ .f32 0x7F800000#32
  let main_v45 : FVec F S16x768 .f32 := broadcastInDim S16x768 ![] bcast_S_S16x768 main_cst_16
  let main_v46 : IVec S16x768 1 := cmpf .olt main_v44 main_v45
  let main_c_17 : IVec S_ 1 := constantI S_ 1 1#1
  let main_v47 : IVec S_ 1 := (fun x v => Host.reduce IntOp.andi x v reducesTo_S16x768_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S768 .f32) (main_arg5 : FVec F S768x2304 .f32) (main_arg6 : FVec F S768 .f32) (main_arg7 : FVec F S768 .f32) (main_arg8 : FVec F S768 .f32) (main_arg9 : FVec F S16x768 .f32) (main_arg10 : FVec F S16 .f32) (main_v13 : IVec S_ 1) (main_v16 : IVec S768x1536 1) : IVec S_ 1 :=
  let main_c_5 : IVec S_ 1 := constantI S_ 1 1#1
  let main_v17 : IVec S_ 1 := (fun x v => Host.reduce IntOp.andi x v reducesTo_S768x1536_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x2304 .f32 := Host.absf main_arg5
  let main_cst_8 : FVec F S_ .f32 := constant S_ .f32 0x7F800000#32
  let main_v25 : FVec F S768x2304 .f32 := broadcastInDim S768x2304 ![] bcast_S_S768x2304 main_cst_8
  let main_v26 : IVec S768x2304 1 := cmpf .olt main_v24 main_v25
  let main_c_9 : IVec S_ 1 := constantI S_ 1 1#1
  let main_v27 : IVec S_ 1 := (fun x v => Host.reduce IntOp.andi x v reducesTo_S768x2304_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S192x4x768 .f32) (main_arg1 : FVec F S192x4x768 .f32) (main_arg2 : FVec F S192x4 .f32) (main_arg3 : FVec F S768x1536 .f32) (main_arg4 : FVec F S768 .f32) (main_arg5 : FVec F S768x2304 .f32) (main_arg6 : FVec F S768 .f32) (main_arg7 : FVec F S768 .f32) (main_arg8 : FVec F S768 .f32) (main_arg9 : FVec F S16x768 .f32) (main_arg10 : FVec F S16 .f32) : IVec S_ 1 :=
  let main_v0 : FVec F S192x4x768 .f32 := Host.absf main_arg0
  let main_cst : FVec F S_ .f32 := constant S_ .f32 0x7F800000#32
  let main_v1 : FVec F S192x4x768 .f32 := broadcastInDim S192x4x768 ![] bcast_S_S192x4x768 main_cst
  let main_v2 : IVec S192x4x768 1 := cmpf .olt main_v0 main_v1
  let main_c : IVec S_ 1 := constantI S_ 1 1#1
  let main_v3 : IVec S_ 1 := (fun x v => Host.reduce IntOp.andi x v reducesTo_S192x4x768_S_d0_1_2 h_S_) main_v2 main_c
  let main_v4 : FVec F S192x4x768 .f32 := Host.absf main_arg1
  let main_cst_0 : FVec F S_ .f32 := constant S_ .f32 0x7F800000#32
  let main_v5 : FVec F S192x4x768 .f32 := broadcastInDim S192x4x768 ![] bcast_S_S192x4x768 main_cst_0
  let main_v6 : IVec S192x4x768 1 := cmpf .olt main_v4 main_v5
  let main_c_1 : IVec S_ 1 := constantI S_ 1 1#1
  let main_v7 : IVec S_ 1 := (fun x v => Host.reduce IntOp.andi x v reducesTo_S192x4x768_S_d0_1_2 h_S_) main_v6 main_c_1
  let main_v8 : IVec S_ 1 := andi main_v3 main_v7
  let main_v9 : FVec F S192x4 .f32 := Host.absf main_arg2
  let main_cst_2 : FVec F S_ .f32 := constant S_ .f32 0x7F800000#32
  let main_v10 : FVec F S192x4 .f32 := broadcastInDim S192x4 ![] bcast_S_S192x4 main_cst_2
  let main_v11 : IVec S192x4 1 := cmpf .olt main_v9 main_v10
  let main_c_3 : IVec S_ 1 := constantI S_ 1 1#1
  let main_v12 : IVec S_ 1 := (fun x v => Host.reduce IntOp.andi x v reducesTo_S192x4_S_d0_1 h_S_) main_v11 main_c_3
  let main_v13 : IVec S_ 1 := andi main_v8 main_v12
  let main_v14 : FVec F S768x1536 .f32 := Host.absf main_arg3
  let main_cst_4 : FVec F S_ .f32 := constant S_ .f32 0x7F800000#32
  let main_v15 : FVec F S768x1536 .f32 := broadcastInDim S768x1536 ![] bcast_S_S768x1536 main_cst_4
  let main_v16 : IVec S768x1536 1 := cmpf .olt main_v14 main_v15
  fn_part1 (F := F) main_arg4 main_arg5 main_arg6 main_arg7 main_arg8 main_arg9 main_arg10 main_v13 main_v16
-- ==== Kernel.lean ====
abbrev S192x4x768 : Shape := ⟨3, ![192, 4, 768]⟩
abbrev S192x4 : Shape := ⟨2, ![192, 4]⟩
abbrev S768x1536 : Shape := ⟨2, ![768, 1536]⟩
abbrev S768 : Shape := ⟨1, ![768]⟩
abbrev S768x2304 : Shape := ⟨2, ![768, 2304]⟩
abbrev S16x768 : Shape := ⟨2, ![16, 768]⟩
abbrev S16 : Shape := ⟨1, ![16]⟩
abbrev S768x768 : Shape := ⟨2, ![768, 768]⟩
abbrev S768x16 : Shape := ⟨2, ![768, 16]⟩
abbrev S4x768 : Shape := ⟨2, ![4, 768]⟩
abbrev S64x4x768 : Shape := ⟨3, ![64, 4, 768]⟩
abbrev S256x768 : Shape := ⟨2, ![256, 768]⟩
abbrev S1x1x768 : Shape := ⟨3, ![1, 1, 768]⟩
abbrev S192x192x4x16 : Shape := ⟨4, ![192, 192, 4, 16]⟩
abbrev S24x4x768 : Shape := ⟨3, ![24, 4, 768]⟩
abbrev S24x4 : Shape := ⟨2, ![24, 4]⟩
abbrev S24x24x4x16 : Shape := ⟨4, ![24, 24, 4, 16]⟩
abbrev S24x1x4x768 : Shape := ⟨4, ![24, 1, 4, 768]⟩
abbrev S1x24x4x768 : Shape := ⟨4, ![1, 24, 4, 768]⟩
abbrev S24x24x4x768 : Shape := ⟨4, ![24, 24, 4, 768]⟩
abbrev S1x1x4x768 : Shape := ⟨4, ![1, 1, 4, 768]⟩
abbrev S1x1x1x768 : Shape := ⟨4, ![1, 1, 1, 768]⟩
abbrev S24x24x4 : Shape := ⟨3, ![24, 24, 4]⟩
abbrev S24x24x4x1 : Shape := ⟨4, ![24, 24, 4, 1]⟩
abbrev S2304x768 : Shape := ⟨2, ![2304, 768]⟩
abbrev S2304x16 : Shape := ⟨2, ![2304, 16]⟩
abbrev S1x16 : Shape := ⟨2, ![1, 16]⟩
abbrev S24x24 : Shape := ⟨2, ![24, 24]⟩
abbrev S24x1x4 : Shape := ⟨3, ![24, 1, 4]⟩
abbrev S1x24x4 : Shape := ⟨3, ![1, 24, 4]⟩
abbrev S24x24x1 : Shape := ⟨3, ![24, 24, 1]⟩

abbrev nBuf : Space → Nat
  | .hbm => 34
  | .vmem => 32
  | .smem => 0
  | _ => 0

abbrev bufTy : (tb : Table) → Fin (tcTables nBuf tb) → BufTy
  | .hbm, ⟨0, _⟩ => ⟨S192x4x768, .f32⟩
  | .hbm, ⟨1, _⟩ => ⟨S192x4x768, .f32⟩
  | .hbm, ⟨2, _⟩ => ⟨S192x4, .f32⟩
  | .hbm, ⟨3, _⟩ => ⟨S768x1536, .f32⟩
  | .hbm, ⟨4, _⟩ => ⟨S768, .f32⟩
  | .hbm, ⟨5, _⟩ => ⟨S768x2304, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S16x768, .f32⟩
  | .hbm, ⟨10, _⟩ => ⟨S16, .f32⟩
  | .hbm, ⟨11, _⟩ => ⟨S768x768, .f32⟩
  | .hbm, ⟨12, _⟩ => ⟨S768x768, .f32⟩
  | .hbm, ⟨13, _⟩ => ⟨S768x768, .f32⟩
  | .hbm, ⟨14, _⟩ => ⟨S768x768, .bf16⟩
  | .hbm, ⟨15, _⟩ => ⟨S768x768, .f32⟩
  | .hbm, ⟨16, _⟩ => ⟨S768x768, .bf16⟩
  | .hbm, ⟨17, _⟩ => ⟨S768x768, .f32⟩
  | .hbm, ⟨18, _⟩ => ⟨S768x768, .f32⟩
  | .hbm, ⟨19, _⟩ => ⟨S768x768, .f32⟩
  | .hbm, ⟨20, _⟩ => ⟨S768x768, .f32⟩
  | .hbm, ⟨21, _⟩ => ⟨S768x768, .bf16⟩
  | .hbm, ⟨22, _⟩ => ⟨S768x768, .f32⟩
  | .hbm, ⟨23, _⟩ => ⟨S768x768, .bf16⟩
  | .hbm, ⟨24, _⟩ => ⟨S768x768, .f32⟩
  | .hbm, ⟨25, _⟩ => ⟨S768x768, .bf16⟩
  | .hbm, ⟨26, _⟩ => ⟨S768x16, .f32⟩
  | .hbm, ⟨27, _⟩ => ⟨S768x16, .bf16⟩
  | .hbm, ⟨28, _⟩ => ⟨S192x4x768, .bf16⟩
  | .hbm, ⟨29, _⟩ => ⟨S192x4x768, .bf16⟩
  | .hbm, ⟨30, _⟩ => ⟨S192x4x768, .f32⟩
  | .hbm, ⟨31, _⟩ => ⟨S192x4x768, .f32⟩
  | .hbm, ⟨32, _⟩ => ⟨S4x768, .f32⟩
  | .hbm, ⟨33, _⟩ => ⟨S192x192x4x16, .f32⟩
  | .local _ .vmem, ⟨0, _⟩ => ⟨S64x4x768, .bf16⟩
  | .local _ .vmem, ⟨1, _⟩ => ⟨S64x4x768, .bf16⟩
  | .local _ .vmem, ⟨2, _⟩ => ⟨S64x4x768, .bf16⟩
  | .local _ .vmem, ⟨3, _⟩ => ⟨S64x4x768, .bf16⟩
  | .local _ .vmem, ⟨4, _⟩ => ⟨S768x768, .bf16⟩
  | .local _ .vmem, ⟨5, _⟩ => ⟨S768x768, .bf16⟩
  | .local _ .vmem, ⟨6, _⟩ => ⟨S768, .f32⟩
  | .local _ .vmem, ⟨7, _⟩ => ⟨S768x768, .bf16⟩
  | .local _ .vmem, ⟨8, _⟩ => ⟨S768x768, .bf16⟩
  | .local _ .vmem, ⟨9, _⟩ => ⟨S768x768, .bf16⟩
  | .local _ .vmem, ⟨10, _⟩ => ⟨S64x4x768, .f32⟩
  | .local _ .vmem, ⟨11, _⟩ => ⟨S64x4x768, .f32⟩
  | .local _ .vmem, ⟨12, _⟩ => ⟨S64x4x768, .f32⟩
  | .local _ .vmem, ⟨13, _⟩ => ⟨S64x4x768, .f32⟩
  | .local _ .vmem, ⟨14, _⟩ => ⟨S4x768, .f32⟩
  | .local _ .vmem, ⟨15, _⟩ => ⟨S4x768, .f32⟩
  | .local _ .vmem, ⟨16, _⟩ => ⟨S24x4x768, .f32⟩
  | .local _ .vmem, ⟨17, _⟩ => ⟨S24x4x768, .f32⟩
  | .local _ .vmem, ⟨18, _⟩ => ⟨S24x4x768, .f32⟩
  | .local _ .vmem, ⟨19, _⟩ => ⟨S24x4x768, .f32⟩
  | .local _ .vmem, ⟨20, _⟩ => ⟨S4x768, .f32⟩
  | .local _ .vmem, ⟨21, _⟩ => ⟨S768, .f32⟩
  | .local _ .vmem, ⟨22, _⟩ => ⟨S768, .f32⟩
  | .local _ .vmem, ⟨23, _⟩ => ⟨S768, .f32⟩
  | .local _ .vmem, ⟨24, _⟩ => ⟨S768x16, .bf16⟩
  | .local _ .vmem, ⟨25, _⟩ => ⟨S16, .f32⟩
  | .local _ .vmem, ⟨26, _⟩ => ⟨S24x4, .f32⟩
  | .local _ .vmem, ⟨27, _⟩ => ⟨S24x4, .f32⟩
  | .local _ .vmem, ⟨28, _⟩ => ⟨S24x4, .f32⟩
  | .local _ .vmem, ⟨29, _⟩ => ⟨S24x4, .f32⟩
  | .local _ .vmem, ⟨30, _⟩ => ⟨S24x24x4x16, .f32⟩
  | .local _ .vmem, ⟨31, _⟩ => ⟨S24x24x4x16, .f32⟩
  | _, _ => ⟨S192x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_scratch0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem8_1 : DmaSem sig := 26
abbrev cc1_sem9_0 : DmaSem sig := 27
abbrev cc1_sem9_1 : DmaSem sig := 28
abbrev cc1_sem10_0 : DmaSem sig := 29
abbrev cc1_sem10_1 : DmaSem sig := 30

abbrev nD : Nat := 1
abbrev τ : Topo := Topo.v7x

variable {F : FTy → Type} [FloatOps F]

abbrev grid0 : Pipeline.Grid := ⟨1, ![3], ![false]⟩

def k0_cond2 (i : grid0.Coords) : BitVec 1 :=
  let arg0 : BitVec 32 := BitVec.ofNat 32 (i 0).val
  let c2_i32 : BitVec 32 := 2#32
  let v38 : BitVec 1 := Scalar.cmpi .eq arg0 c2_i32
  let v39 : BitVec 32 := Scalar.extui v38
  let c0_i32_29 : BitVec 32 := 0#32
  let v40 : BitVec 1 := Scalar.cmpi .ne v39 c0_i32_29
  v40

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x4x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x4x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S24x4x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S24x4x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S4x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S768x16 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S24x4 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S24x4 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S24x24x4x16 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  slices_S768x1536_S768x768_0_0 : S768x1536.Slices ![0, 0] S768x768
  slices_S768x1536_S768x768_0_768 : S768x1536.Slices ![0, 768] S768x768
  transposes_S768x768_S768x768_1_0 : S768x768.Transposes [1, 0] S768x768
  bitsLt_bf16_f32 : FTy.bits .bf16 < FTy.bits .f32
  slices_S768x2304_S768x768_0_0 : S768x2304.Slices ![0, 0] S768x768
  slices_S768x2304_S768x768_0_768 : S768x2304.Slices ![0, 768] S768x768
  slices_S768x2304_S768x768_0_1536 : S768x2304.Slices ![0, 1536] S768x768
  transposes_S16x768_S768x16_1_0 : S16x768.Transposes [1, 0] S768x16
  inb_S4x768_S4x768_0_0 : ∀ a, (![0, 0] : Fin 2 → Nat) a + S4x768.size a ≤ S4x768.size a
  h_S4x768 : 0 < S4x768.numel
  shapeCasts_S4x768_S4x768 : S4x768.ShapeCasts S4x768
  inb_S64x4x768_S64x4x768_0_0_0 : ∀ a, (![0, 0, 0] : Fin 3 → Nat) a + S64x4x768.size a ≤ S64x4x768.size a
  h_S64x4x768 : 0 < S64x4x768.numel
  shapeCasts_S64x4x768_S64x4x768 : S64x4x768.ShapeCasts S64x4x768
  shapeCasts_S64x4x768_S256x768 : S64x4x768.ShapeCasts S256x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S256x768_S64x4x768 : S256x768.ShapeCasts S64x4x768
  inb_S768_S768_0 : ∀ a, (![0] : Fin 1 → Nat) a + S768.size a ≤ S768.size a
  h_S768 : 0 < S768.numel
  shapeCasts_S768_S1x1x768 : S768.ShapeCasts S1x1x768
  broadcasts_S1x1x768_S64x4x768 : S1x1x768.Broadcasts S64x4x768
  reduces_S64x4x768_S4x768 : S64x4x768.Reduces [0] S4x768
  inb_S24x4x768_S24x4x768_0_0_0 : ∀ a, (![0, 0, 0] : Fin 3 → Nat) a + S24x4x768.size a ≤ S24x4x768.size a
  h_S24x4x768 : 0 < S24x4x768.numel
  shapeCasts_S24x4x768_S24x4x768 : S24x4x768.ShapeCasts S24x4x768
  shapeCasts_S24x4x768_S24x1x4x768 : S24x4x768.ShapeCasts S24x1x4x768
  shapeCasts_S24x4x768_S1x24x4x768 : S24x4x768.ShapeCasts S1x24x4x768
  broadcasts_S24x1x4x768_S24x24x4x768 : S24x1x4x768.Broadcasts S24x24x4x768
  broadcasts_S1x24x4x768_S24x24x4x768 : S1x24x4x768.Broadcasts S24x24x4x768
  shapeCasts_S4x768_S1x1x4x768 : S4x768.ShapeCasts S1x1x4x768
  broadcasts_S1x1x4x768_S24x24x4x768 : S1x1x4x768.Broadcasts S24x24x4x768
  shapeCasts_S768_S1x1x1x768 : S768.ShapeCasts S1x1x1x768
  broadcasts_S1x1x1x768_S24x24x4x768 : S1x1x1x768.Broadcasts S24x24x4x768
  reduces_S24x24x4x768_S24x24x4 : S24x24x4x768.Reduces [3] S24x24x4
  shapeCasts_S24x24x4_S24x24x4x1 : S24x24x4.ShapeCasts S24x24x4x1
  broadcasts_S24x24x4x1_S24x24x4x768 : S24x24x4x1.Broadcasts S24x24x4x768
  shapeCasts_S24x24x4x768_S2304x768 : S24x24x4x768.ShapeCasts S2304x768
  inb_S768x16_S768x16_0_0 : ∀ a, (![0, 0] : Fin 2 → Nat) a + S768x16.size a ≤ S768x16.size a
  h_S768x16 : 0 < S768x16.numel
  shapeCasts_S768x16_S768x16 : S768x16.ShapeCasts S768x16
  inb_S16_S16_0 : ∀ a, (![0] : Fin 1 → Nat) a + S16.size a ≤ S16.size a
  h_S16 : 0 < S16.numel
  shapeCasts_S16_S1x16 : S16.ShapeCasts S1x16
  broadcasts_S1x16_S2304x16 : S1x16.Broadcasts S2304x16
  shapeCasts_S2304x16_S24x24x4x16 : S2304x16.ShapeCasts S24x24x4x16
  iota_S24x24_d0_w32 : S24x24.Iotas .tc 32 [0]
  iota_S24x24_d1_w32 : S24x24.Iotas .tc 32 [1]
  natLt_1_32 : 1 < 32
  inb_S24x4_S24x4_0_0 : ∀ a, (![0, 0] : Fin 2 → Nat) a + S24x4.size a ≤ S24x4.size a
  h_S24x4 : 0 < S24x4.numel
  shapeCasts_S24x4_S24x1x4 : S24x4.ShapeCasts S24x1x4
  shapeCasts_S24x4_S1x24x4 : S24x4.ShapeCasts S1x24x4
  broadcasts_S24x1x4_S24x24x4 : S24x1x4.Broadcasts S24x24x4
  broadcasts_S1x24x4_S24x24x4 : S1x24x4.Broadcasts S24x24x4
  shapeCasts_S24x24_S24x24x1 : S24x24.ShapeCasts S24x24x1
  broadcasts_S24x24x1_S24x24x4 : S24x24x1.Broadcasts S24x24x4
  broadcasts_S24x24x4x1_S24x24x4x16 : S24x24x4x1.Broadcasts S24x24x4x16
  inb_S24x24x4x16_S24x24x4x16_0_0_0_0 : ∀ a, (![0, 0, 0, 0] : Fin 4 → Nat) a + S24x24x4x16.size a ≤ S24x24x4x16.size a
  h_S24x24x4x16 : 0 < S24x24x4x16.numel
  dot_S256x768_S768x768_S256x768_1_0_0_1_n_n_wf : DotDims.WF S256x768 S768x768 S256x768 [1] [0] [0] [1] [] []
  dot_S4x768_S768x768_S4x768_1_0_0_1_n_n_wf : DotDims.WF S4x768 S768x768 S4x768 [1] [0] [0] [1] [] []
  dot_S2304x768_S768x16_S2304x16_1_0_0_1_n_n_wf : DotDims.WF S2304x768 S768x16 S2304x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4x768.size a ≤ S192x4x768.size a
  hwx0_0 : ∀ i : grid0.Coords, EltTy.bits .bf16 = 32 ∨ (Rect.block (s := S192x4x768) S64x4x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4x768.size a ≤ S192x4x768.size a
  hwx0_1 : ∀ i : grid0.Coords, EltTy.bits .bf16 = 32 ∨ (Rect.block (s := S192x4x768) S64x4x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .bf16 = 32 ∨ (Rect.block (s := S768x768) S768x768.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .bf16 = 32 ∨ (Rect.block (s := S768x768) S768x768.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x768.size a ≤ S768x768.size a
  hwx0_7 : ∀ i : grid0.Coords, EltTy.bits .bf16 = 32 ∨ (Rect.block (s := S768x768) S768x768.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x4x768.size a ≤ S192x4x768.size a
  hwx0_8 : ∀ i : grid0.Coords, EltTy.bits .f32 = 32 ∨ (Rect.block (s := S192x4x768) S64x4x768.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x4x768.size a ≤ S192x4x768.size a
  hwx0_9 : ∀ i : grid0.Coords, EltTy.bits .f32 = 32 ∨ (Rect.block (s := S192x4x768) S64x4x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x768.size a ≤ S4x768.size a
  hwx0_10 : ∀ i : grid0.Coords, EltTy.bits .f32 = 32 ∨ (Rect.block (s := S4x768) S4x768.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S24x4x768.size a ≤ S192x4x768.size a
  hwx1_0 : ∀ i : grid1.Coords, EltTy.bits .f32 = 32 ∨ (Rect.block (s := S192x4x768) S24x4x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S24x4x768.size a ≤ S192x4x768.size a
  hwx1_1 : ∀ i : grid1.Coords, EltTy.bits .f32 = 32 ∨ (Rect.block (s := S192x4x768) S24x4x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x768.size a ≤ S4x768.size a
  hwx1_2 : ∀ i : grid1.Coords, EltTy.bits .f32 = 32 ∨ (Rect.block (s := S4x768) S4x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768.size a ≤ S768.size a
  hwx1_3 : ∀ i : grid1.Coords, EltTy.bits .f32 = 32 ∨ (Rect.block (s := S768) S768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768.size a ≤ S768.size a
  hwx1_4 : ∀ i : grid1.Coords, EltTy.bits .f32 = 32 ∨ (Rect.block (s := S768) S768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S768.size a ≤ S768.size a
  hwx1_5 : ∀ i : grid1.Coords, EltTy.bits .f32 = 32 ∨ (Rect.block (s := S768) S768.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S768x16.size a ≤ S768x16.size a
  hwx1_6 : ∀ i : grid1.Coords, EltTy.bits .bf16 = 32 ∨ (Rect.block (s := S768x16) S768x16.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16.size a ≤ S16.size a
  hwx1_7 : ∀ i : grid1.Coords, EltTy.bits .f32 = 32 ∨ (Rect.block (s := S16) S16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S24x4.size a ≤ S192x4.size a
  hwx1_8 : ∀ i : grid1.Coords, EltTy.bits .f32 = 32 ∨ (Rect.block (s := S192x4) S24x4.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S24x4.size a ≤ S192x4.size a
  hwx1_9 : ∀ i : grid1.Coords, EltTy.bits .f32 = 32 ∨ (Rect.block (s := S192x4) S24x4.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S24x24x4x16.size a ≤ S192x192x4x16.size a
  hwx1_10 : ∀ i : grid1.Coords, EltTy.bits .f32 = 32 ∨ (Rect.block (s := S192x192x4x16) S24x24x4x16.size (cc1_transform_10 i) (hinb1_10 i)).WholeWords (EltTy.packing .f32)

variable [Facts₀]

def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf
def dot_S4x768_S768x768_S4x768_1_0_0_1_n_n : DotDims S4x768 S768x768 S4x768 where
  lhsContracting := [1]
  rhsContracting := [0]
  lhsNonContracting := [0]
  rhsNonContracting := [1]
  lhsBatch := []
  rhsBatch := []
  wf := dot_S4x768_S768x768_S4x768_1_0_0_1_n_n_wf
def dot_S2304x768_S768x16_S2304x16_1_0_0_1_n_n : DotDims S2304x768 S768x16 S2304x16 where
  lhsContracting := [1]
  rhsContracting := [0]
  lhsNonContracting := [0]
  rhsNonContracting := [1]
  lhsBatch := []
  rhsBatch := []
  wf := dot_S2304x768_S768x16_S2304x16_1_0_0_1_n_n_wf

abbrev win0_0 : Pipeline.Window sig grid0 :=
  Pipeline.Window.ofSpec (Memref.whole main_v17) S64x4x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S64x4x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S768x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v19_0) S64x4x768.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v19_1) S64x4x768.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v19_2) S4x768.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v19_0) S24x4x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_1) S24x4x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19_2) S4x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S768x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg2) S24x4.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_arg2) S24x4.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v20) S24x24x4x16.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S192x4x768 : Shape := ⟨3, ![192, 4, 768]⟩
abbrev S192x4 : Shape := ⟨2, ![192, 4]⟩
abbrev S768x1536 : Shape := ⟨2, ![768, 1536]⟩
abbrev S768 : Shape := ⟨1, ![768]⟩
abbrev S768x2304 : Shape := ⟨2, ![768, 2304]⟩
abbrev S16x768 : Shape := ⟨2, ![16, 768]⟩
abbrev S16 : Shape := ⟨1, ![16]⟩
abbrev S768x768 : Shape := ⟨2, ![768, 768]⟩
abbrev S1x1x768 : Shape := ⟨3, ![1, 1, 768]⟩
abbrev S_ : Shape := ⟨0, ![]⟩
abbrev S4x768 : Shape := ⟨2, ![4, 768]⟩
abbrev S192x1x4x768 : Shape := ⟨4, ![192, 1, 4, 768]⟩
abbrev S1x192x4x768 : Shape := ⟨4, ![1, 192, 4, 768]⟩
abbrev S192x192x4x768 : Shape := ⟨4, ![192, 192, 4, 768]⟩
abbrev S1x1x4x768 : Shape := ⟨4, ![1, 1, 4, 768]⟩
abbrev S1x1x1x768 : Shape := ⟨4, ![1, 1, 1, 768]⟩
abbrev S192x192x4 : Shape := ⟨3, ![192, 192, 4]⟩
abbrev S192x192x4x1 : Shape := ⟨4, ![192, 192, 4, 1]⟩
abbrev S192x192x4x16 : Shape := ⟨4, ![192, 192, 4, 16]⟩
abbrev S1x1x1x16 : Shape := ⟨4, ![1, 1, 1, 16]⟩
abbrev S192x192 : Shape := ⟨2, ![192, 192]⟩
abbrev S192x1x4 : Shape := ⟨3, ![192, 1, 4]⟩
abbrev S1x192x4 : Shape := ⟨3, ![1, 192, 4]⟩
abbrev S192x192x1 : Shape := ⟨3, ![192, 192, 1]⟩

abbrev nBuf : Space → Nat
  | .hbm => 117
  | .vmem => 0
  | .smem => 0
  | _ => 0

abbrev bufTy : (tb : Table) → Fin (tcTables nBuf tb) → BufTy
  | .hbm, ⟨0, _⟩ => ⟨S192x4x768, .f32⟩
  | .hbm, ⟨1, _⟩ => ⟨S192x4x768, .f32⟩
  | .hbm, ⟨2, _⟩ => ⟨S192x4, .f32⟩
  | .hbm, ⟨3, _⟩ => ⟨S768x1536, .f32⟩
  | .hbm, ⟨4, _⟩ => ⟨S768, .f32⟩
  | .hbm, ⟨5, _⟩ => ⟨S768x2304, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S16x768, .f32⟩
  | .hbm, ⟨10, _⟩ => ⟨S16, .f32⟩
  | .hbm, ⟨11, _⟩ => ⟨S768x768, .f32⟩
  | .hbm, ⟨12, _⟩ => ⟨S768x768, .f32⟩
  | .hbm, ⟨13, _⟩ => ⟨S192x4x768, .f32⟩
  | .hbm, ⟨14, _⟩ => ⟨S192x4x768, .f32⟩
  | .hbm, ⟨15, _⟩ => ⟨S192x4x768, .f32⟩
  | .hbm, ⟨16, _⟩ => ⟨S1x1x768, .f32⟩
  | .hbm, ⟨17, _⟩ => ⟨S192x4x768, .f32⟩
  | .hbm, ⟨18, _⟩ => ⟨S192x4x768, .f32⟩
  | .hbm, ⟨19, _⟩ => ⟨S192x4x768, .f32⟩
  | .hbm, ⟨20, _⟩ => ⟨S_, .f32⟩
  | .hbm, ⟨21, _⟩ => ⟨S4x768, .f32⟩
  | .hbm, ⟨22, _⟩ => ⟨S768x768, .f32⟩
  | .hbm, ⟨23, _⟩ => ⟨S768x768, .f32⟩
  | .hbm, ⟨24, _⟩ => ⟨S768x768, .f32⟩
  | .hbm, ⟨25, _⟩ => ⟨S192x4x768, .f32⟩
  | .hbm, ⟨26, _⟩ => ⟨S192x4x768, .f32⟩
  | .hbm, ⟨27, _⟩ => ⟨S4x768, .f32⟩
  | .hbm, ⟨28, _⟩ => ⟨S192x1x4x768, .f32⟩
  | .hbm, ⟨29, _⟩ => ⟨S1x192x4x768, .f32⟩
  | .hbm, ⟨30, _⟩ => ⟨S192x192x4x768, .f32⟩
  | .hbm, ⟨31, _⟩ => ⟨S192x192x4x768, .f32⟩
  | .hbm, ⟨32, _⟩ => ⟨S192x192x4x768, .f32⟩
  | .hbm, ⟨33, _⟩ => ⟨S1x1x4x768, .f32⟩
  | .hbm, ⟨34, _⟩ => ⟨S192x192x4x768, .f32⟩
  | .hbm, ⟨35, _⟩ => ⟨S192x192x4x768, .f32⟩
  | .hbm, ⟨36, _⟩ => ⟨S1x1x1x768, .f32⟩
  | .hbm, ⟨37, _⟩ => ⟨S192x192x4x768, .f32⟩
  | .hbm, ⟨38, _⟩ => ⟨S192x192x4x768, .f32⟩
  | .hbm, ⟨39, _⟩ => ⟨S_, .f32⟩
  | .hbm, ⟨40, _⟩ => ⟨S192x192x4, .f32⟩
  | .hbm, ⟨41, _⟩ => ⟨S192x192x4x1, .f32⟩
  | .hbm, ⟨42, _⟩ => ⟨S_, .f32⟩
  | .hbm, ⟨43, _⟩ => ⟨S192x192x4x1, .f32⟩
  | .hbm, ⟨44, _⟩ => ⟨S192x192x4x1, .f32⟩
  | .hbm, ⟨45, _⟩ => ⟨S192x192x4x768, .f32⟩
  | .hbm, ⟨46, _⟩ => ⟨S192x192x4x768, .f32⟩
  | .hbm, ⟨47, _⟩ => ⟨S192x192x4x768, .f32⟩
  | .hbm, ⟨48, _⟩ => ⟨S_, .f32⟩
  | .hbm, ⟨49, _⟩ => ⟨S192x192x4, .f32⟩
  | .hbm, ⟨50, _⟩ => ⟨S192x192x4x1, .f32⟩
  | .hbm, ⟨51, _⟩ => ⟨S_, .f32⟩
  | .hbm, ⟨52, _⟩ => ⟨S192x192x4x1, .f32⟩
  | .hbm, ⟨53, _⟩ => ⟨S192x192x4x1, .f32⟩
  | .hbm, ⟨54, _⟩ => ⟨S192x192x4x768, .f32⟩
  | .hbm, ⟨55, _⟩ => ⟨S192x192x4x768, .f32⟩
  | .hbm, ⟨56, _⟩ => ⟨S_, .f32⟩
  | .hbm, ⟨57, _⟩ => ⟨S192x192x4x1, .f32⟩
  | .hbm, ⟨58, _⟩ => ⟨S192x192x4x1, .f32⟩
  | .hbm, ⟨59, _⟩ => ⟨S192x192x4x1, .f32⟩
  | .hbm, ⟨60, _⟩ => ⟨S192x192x4x768, .f32⟩
  | .hbm, ⟨61, _⟩ => ⟨S192x192x4x768, .f32⟩
  | .hbm, ⟨62, _⟩ => ⟨S1x1x1x768, .f32⟩
  | .hbm, ⟨63, _⟩ => ⟨S192x192x4x768, .f32⟩
  | .hbm, ⟨64, _⟩ => ⟨S192x192x4x768, .f32⟩
  | .hbm, ⟨65, _⟩ => ⟨S1x1x1x768, .f32⟩
  | .hbm, ⟨66, _⟩ => ⟨S192x192x4x768, .f32⟩
  | .hbm, ⟨67, _⟩ => ⟨S192x192x4x768, .f32⟩
  | .hbm, ⟨68, _⟩ => ⟨S_, .f32⟩
  | .hbm, ⟨69, _⟩ => ⟨S192x192x4x768, .f32⟩
  | .hbm, ⟨70, _⟩ => ⟨S192x192x4x768, .i1⟩
  | .hbm, ⟨71, _⟩ => ⟨S_, .f32⟩
  | .hbm, ⟨72, _⟩ => ⟨S192x192x4x768, .f32⟩
  | .hbm, ⟨73, _⟩ => ⟨S192x192x4x768, .i1⟩
  | .hbm, ⟨74, _⟩ => ⟨S_, .f32⟩
  | .hbm, ⟨75, _⟩ => ⟨S_, .f32⟩
  | .hbm, ⟨76, _⟩ => ⟨S192x192x4x768, .f32⟩
  | .hbm, ⟨77, _⟩ => ⟨S192x192x4x768, .f32⟩
  | .hbm, ⟨78, _⟩ => ⟨S192x192x4x768, .f32⟩
  | .hbm, ⟨79, _⟩ => ⟨S_, .f32⟩
  | .hbm, ⟨80, _⟩ => ⟨S192x192x4x768, .f32⟩
  | .hbm, ⟨81, _⟩ => ⟨S192x192x4x768, .f32⟩
  | .hbm, ⟨82, _⟩ => ⟨S192x192x4x768, .f32⟩
  | .hbm, ⟨83, _⟩ => ⟨S192x192x4x16, .f32⟩
  | .hbm, ⟨84, _⟩ => ⟨S1x1x1x16, .f32⟩
  | .hbm, ⟨85, _⟩ => ⟨S192x192x4x16, .f32⟩
  | .hbm, ⟨86, _⟩ => ⟨S192x192x4x16, .f32⟩
  | .hbm, ⟨87, _⟩ => ⟨S192x192x4x16, .f32⟩
  | .hbm, ⟨88, _⟩ => ⟨S192x192x4x16, .f32⟩
  | .hbm, ⟨89, _⟩ => ⟨S_, .f32⟩
  | .hbm, ⟨90, _⟩ => ⟨S192x192x4x16, .f32⟩
  | .hbm, ⟨91, _⟩ => ⟨S192x192x4x16, .f32⟩
  | .hbm, ⟨92, _⟩ => ⟨S_, .f32⟩
  | .hbm, ⟨93, _⟩ => ⟨S192x192x4x16, .f32⟩
  | .hbm, ⟨94, _⟩ => ⟨S192x192x4x16, .f32⟩
  | .hbm, ⟨95, _⟩ => ⟨S_, .f32⟩
  | .hbm, ⟨96, _⟩ => ⟨S192x192, .f32⟩
  | .hbm, ⟨97, _⟩ => ⟨S192x192, .i32⟩
  | .hbm, ⟨98, _⟩ => ⟨S_, .i32⟩
  | .hbm, ⟨99, _⟩ => ⟨S192x192, .i32⟩
  | .hbm, ⟨100, _⟩ => ⟨S192x192, .i32⟩
  | .hbm, ⟨101, _⟩ => ⟨S192x192, .i32⟩
  | .hbm, ⟨102, _⟩ => ⟨S192x192, .i1⟩
  | .hbm, ⟨103, _⟩ => ⟨S_, .f32⟩
  | .hbm, ⟨104, _⟩ => ⟨S192x192, .f32⟩
  | .hbm, ⟨105, _⟩ => ⟨S192x192, .f32⟩
  | .hbm, ⟨106, _⟩ => ⟨S192x1x4, .f32⟩
  | .hbm, ⟨107, _⟩ => ⟨S1x192x4, .f32⟩
  | .hbm, ⟨108, _⟩ => ⟨S192x192x4, .f32⟩
  | .hbm, ⟨109, _⟩ => ⟨S192x192x4, .f32⟩
  | .hbm, ⟨110, _⟩ => ⟨S192x192x4, .f32⟩
  | .hbm, ⟨111, _⟩ => ⟨S192x192x1, .f32⟩
  | .hbm, ⟨112, _⟩ => ⟨S192x192x4, .f32⟩
  | .hbm, ⟨113, _⟩ => ⟨S192x192x4, .f32⟩
  | .hbm, ⟨114, _⟩ => ⟨S192x192x4x1, .f32⟩
  | .hbm, ⟨115, _⟩ => ⟨S192x192x4x16, .f32⟩
  | .hbm, ⟨116, _⟩ => ⟨S192x192x4x16, .f32⟩
  | _, _ => ⟨S192x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_cst_1 : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_v4 : Ref sig .tc := ⟨.hbm, 77, rfl⟩
abbrev main_call0_v5 : Ref sig .tc := ⟨.hbm, 78, rfl⟩
abbrev main_call0_cst_2 : Ref sig .tc := ⟨.hbm, 79, rfl⟩
abbrev main_call0_v6 : Ref sig .tc := ⟨.hbm, 80, rfl⟩
abbrev main_call0_v7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_5 : Ref sig .tc := ⟨.hbm, 89, rfl⟩
abbrev main_v58 : Ref sig .tc := ⟨.hbm, 90, rfl⟩
abbrev main_v59 : Ref sig .tc := ⟨.hbm, 91, rfl⟩
abbrev main_cst_6 : Ref sig .tc := ⟨.hbm, 92, rfl⟩
abbrev main_v60 : Ref sig .tc := ⟨.hbm, 93, rfl⟩
abbrev main_v61 : Ref sig .tc := ⟨.hbm, 94, rfl⟩
abbrev main_cst_7 : Ref sig .tc := ⟨.hbm, 95, rfl⟩
abbrev main_v62 : Ref sig .tc := ⟨.hbm, 96, rfl⟩
abbrev main_call1_v0 : Ref sig .tc := ⟨.hbm, 97, rfl⟩
abbrev main_call1_c : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_cst : Ref sig .tc := ⟨.hbm, 103, rfl⟩
abbrev main_call1_v5 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩

abbrev nD : Nat := 1
abbrev τ : Topo := Topo.v7x

variable {F : FTy → Type} [FloatOps F]

class Facts₀ : Prop where
  slices_S768x1536_S768x768_0_0 : S768x1536.Slices ![0, 0] S768x768
  slices_S768x1536_S768x768_0_768 : S768x1536.Slices ![0, 768] S768x768
  bcast_S768_S1x1x768_2 : S768.BroadcastsInDim S1x1x768 (![2] : Fin 1 → Fin S1x1x768.rank)
  bcast_S1x1x768_S192x4x768_0_1_2 : S1x1x768.BroadcastsInDim S192x4x768 (![0, 1, 2] : Fin 3 → Fin S192x4x768.rank)
  reducesTo_S192x4x768_S4x768_d0 : S192x4x768.ReducesTo [0] S4x768
  h_S_ : 0 < S_.numel
  slices_S768x2304_S768x768_0_0 : S768x2304.Slices ![0, 0] S768x768
  slices_S768x2304_S768x768_0_768 : S768x2304.Slices ![0, 768] S768x768
  slices_S768x2304_S768x768_0_1536 : S768x2304.Slices ![0, 1536] S768x768
  bcast_S192x4x768_S192x1x4x768_0_2_3 : S192x4x768.BroadcastsInDim S192x1x4x768 (![0, 2, 3] : Fin 3 → Fin S192x1x4x768.rank)
  bcast_S192x4x768_S1x192x4x768_1_2_3 : S192x4x768.BroadcastsInDim S1x192x4x768 (![1, 2, 3] : Fin 3 → Fin S1x192x4x768.rank)
  bcast_S192x1x4x768_S192x192x4x768_0_1_2_3 : S192x1x4x768.BroadcastsInDim S192x192x4x768 (![0, 1, 2, 3] : Fin 4 → Fin S192x192x4x768.rank)
  bcast_S1x192x4x768_S192x192x4x768_0_1_2_3 : S1x192x4x768.BroadcastsInDim S192x192x4x768 (![0, 1, 2, 3] : Fin 4 → Fin S192x192x4x768.rank)
  bcast_S4x768_S1x1x4x768_2_3 : S4x768.BroadcastsInDim S1x1x4x768 (![2, 3] : Fin 2 → Fin S1x1x4x768.rank)
  bcast_S1x1x4x768_S192x192x4x768_0_1_2_3 : S1x1x4x768.BroadcastsInDim S192x192x4x768 (![0, 1, 2, 3] : Fin 4 → Fin S192x192x4x768.rank)
  bcast_S768_S1x1x1x768_3 : S768.BroadcastsInDim S1x1x1x768 (![3] : Fin 1 → Fin S1x1x1x768.rank)
  bcast_S1x1x1x768_S192x192x4x768_0_1_2_3 : S1x1x1x768.BroadcastsInDim S192x192x4x768 (![0, 1, 2, 3] : Fin 4 → Fin S192x192x4x768.rank)
  reducesTo_S192x192x4x768_S192x192x4_d3 : S192x192x4x768.ReducesTo [3] S192x192x4
  bcast_S192x192x4_S192x192x4x1_0_1_2 : S192x192x4.BroadcastsInDim S192x192x4x1 (![0, 1, 2] : Fin 3 → Fin S192x192x4x1.rank)
  bcast_S_S192x192x4x1 : S_.BroadcastsInDim S192x192x4x1 (![] : Fin 0 → Fin S192x192x4x1.rank)
  bcast_S192x192x4x1_S192x192x4x768_0_1_2_3 : S192x192x4x1.BroadcastsInDim S192x192x4x768 (![0, 1, 2, 3] : Fin 4 → Fin S192x192x4x768.rank)
  bcast_S_S192x192x4x768 : S_.BroadcastsInDim S192x192x4x768 (![] : Fin 0 → Fin S192x192x4x768.rank)
  bcast_S16_S1x1x1x16_3 : S16.BroadcastsInDim S1x1x1x16 (![3] : Fin 1 → Fin S1x1x1x16.rank)
  bcast_S1x1x1x16_S192x192x4x16_0_1_2_3 : S1x1x1x16.BroadcastsInDim S192x192x4x16 (![0, 1, 2, 3] : Fin 4 → Fin S192x192x4x16.rank)
  bcast_S_S192x192x4x16 : S_.BroadcastsInDim S192x192x4x16 (![] : Fin 0 → Fin S192x192x4x16.rank)
  bcast_S_S192x192 : S_.BroadcastsInDim S192x192 (![] : Fin 0 → Fin S192x192.rank)
  bcast_S192x4_S192x1x4_0_2 : S192x4.BroadcastsInDim S192x1x4 (![0, 2] : Fin 2 → Fin S192x1x4.rank)
  bcast_S192x4_S1x192x4_1_2 : S192x4.BroadcastsInDim S1x192x4 (![1, 2] : Fin 2 → Fin S1x192x4.rank)
  bcast_S192x1x4_S192x192x4_0_1_2 : S192x1x4.BroadcastsInDim S192x192x4 (![0, 1, 2] : Fin 3 → Fin S192x192x4.rank)
  bcast_S1x192x4_S192x192x4_0_1_2 : S1x192x4.BroadcastsInDim S192x192x4 (![0, 1, 2] : Fin 3 → Fin S192x192x4.rank)
  bcast_S192x192_S192x192x1_0_1 : S192x192.BroadcastsInDim S192x192x1 (![0, 1] : Fin 2 → Fin S192x192x1.rank)
  bcast_S192x192x1_S192x192x4_0_1_2 : S192x192x1.BroadcastsInDim S192x192x4 (![0, 1, 2] : Fin 3 → Fin S192x192x4.rank)
  bcast_S192x192x4x1_S192x192x4x16_0_1_2_3 : S192x192x4x1.BroadcastsInDim S192x192x4x16 (![0, 1, 2, 3] : Fin 4 → Fin S192x192x4x16.rank)
  dot_S192x4x768_S768x768_S192x4x768_2_1_01_0_n_n_wf : DotDims.WF S192x4x768 S768x768 S192x4x768 [2] [1] [0, 1] [0] [] []
  dot_S4x768_S768x768_S4x768_1_1_0_0_n_n_wf : DotDims.WF S4x768 S768x768 S4x768 [1] [1] [0] [0] [] []
  dot_S192x192x4x768_S16x768_S192x192x4x16_3_1_012_0_n_n_wf : DotDims.WF S192x192x4x768 S16x768 S192x192x4x16 [3] [1] [0, 1, 2] [0] [] []

variable [Facts₀]

def dot_S192x4x768_S768x768_S192x4x768_2_1_01_0_n_n : DotDims S192x4x768 S768x768 S192x4x768 where
  lhsContracting := [2]
  rhsContracting := [1]
  lhsNonContracting := [0, 1]
  rhsNonContracting := [0]
  lhsBatch := []
  rhsBatch := []
  wf := dot_S192x4x768_S768x768_S192x4x768_2_1_01_0_n_n_wf
def dot_S4x768_S768x768_S4x768_1_1_0_0_n_n : DotDims S4x768 S768x768 S4x768 where
  lhsContracting := [1]
  rhsContracting := [1]
  lhsNonContracting := [0]
  rhsNonContracting := [0]
  lhsBatch := []
  rhsBatch := []
  wf := dot_S4x768_S768x768_S4x768_1_1_0_0_n_n_wf
def dot_S192x192x4x768_S16x768_S192x192x4x16_3_1_012_0_n_n : DotDims S192x192x4x768 S16x768 S192x192x4x16 where
  lhsContracting := [3]
  rhsContracting := [1]
  lhsNonContracting := [0, 1, 2]
  rhsNonContracting := [0]
  lhsBatch := []
  rhsBatch := []
  wf := dot_S192x192x4x768_S16x768_S192x192x4x16_3_1_012_0_n_n_wf

class Facts : Prop extends Facts₀ where

variable [Facts]
-- ==== Proof.K0Pre.lean ====
import proofs.«124299_j40209483825381_1_alg».proof.Proof.Gen.KernelIdeal.Launch
import proofs.«124299_j40209483825381_1_alg».proof.Proof.Gen.KernelIdeal.Skeleton
import proofs.«124299_j40209483825381_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's region: the projections and the running maximum over the 3 length tiles

Eleven windows — the two activations' tiles, the five weight matrices and the bias (fetched once), the two projections'
tiles (written back at every point) and the global term (written back at the last point only) — and one scratch
buffer, which carries the running maximum from point to point. -/

section Region0Pre

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions over the grid -/

/-- The first condition (the scratch is reset): the scalar chain of the body's first `scf.if`. -/
abbrev condA (i : grid0.Coords) : Prop := (Scalar.cmpi .ne (Scalar.extui (Scalar.cmpi .eq (BitVec.ofNat 32 (i 0).val) 0#32)) 0#32) = 1#1
/-- It holds at the first point only. -/
theorem hcondA : ∀ t : Fin cfg0.N, condA (grid0.coords t) ↔ t.val = 0 :=
  (by decide +kernel : ∀ t : Fin grid0.N, condA (grid0.coords t) ↔ t.val = 0)
/-- The second condition (the global term is computed and stored). -/
abbrev condC (i : grid0.Coords) : Prop := k0_cond2 i = 1#1
/-- It holds at the last point only. -/
theorem hcondC : ∀ t : Fin cfg0.N, condC (grid0.coords t) ↔ t.val = 2 :=
  (by decide +kernel : ∀ t : Fin grid0.N, condC (grid0.coords t) ↔ t.val = 2)

/-! ## Where the global term's window is idle -/

theorem liveAt0 (w : Fin cfg0.W) (hw : w ≠ 10) : ∀ t : Fin cfg0.N, cfg0.idle w (grid0.coords t) = false := by
  revert w; decide +kernel
theorem idleAt0_10 : ∀ t : Fin cfg0.N, t.val ≠ 2 → cfg0.idle 10 (grid0.coords t) = true := by decide +kernel
theorem noFlush0_10 : ∀ t : Fin cfg0.N, t.val ≠ 2 → (cfg0.win 10).flush t = false := by decide +kernel
theorem liveAt0_10 : ∀ t : Fin cfg0.N, t.val = 2 → cfg0.idle 10 (grid0.coords t) = false := by decide +kernel

/-- The scratch operand: a whole scoped buffer of the kernel's own, passed beside the windows. -/
abbrev scM : Memref sig .tc .vmem S4x768 .f32 := Memref.whole cc0_scratch0

end Region0Pre

end Cert.KernelIdeal.Gen2

end
-- ==== Proof.Body0.lean ====
import proofs.«124299_j40209483825381_1_alg».proof.Proof.Gen.KernelIdeal.Launch
import proofs.«124299_j40209483825381_1_alg».proof.Proof.Gen.KernelIdeal.Skeleton
import proofs.«124299_j40209483825381_1_alg».proof.Proof.Gen.KernelIdeal.Points
import Idealize.ShloMosaic.Lib.Pipeline.FrameBody
import Idealize.ShloMosaic.Lib.Ring
import Idealize.ShloMosaic.Lib.Tactic

-- membership in a rectangle of large extents: the elaborator's structural look recurses once per coordinate of
-- the long axes
set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body: a running maximum in a scratch block, per control case -/

/-! ## The body's accesses: every load and every store takes the whole block -/

abbrev rX : Rect S64x4x768 := Rect.unit (s := S64x4x768) ![0, 0, 0] S64x4x768.size inb_S64x4x768_S64x4x768_0_0_0
abbrev rW : Rect S768x768 := Rect.unit (s := S768x768) ![0, 0] S768x768.size inb_S768x768_S768x768_0_0
abbrev rV : Rect S768 := Rect.unit (s := S768) ![0] S768.size inb_S768_S768_0
abbrev rS : Rect S4x768 := Rect.unit (s := S4x768) ![0, 0] S4x768.size inb_S4x768_S4x768_0_0

/-! ## The body's two branch conditions, from the grid coordinate -/

/-- The condition of the first branch (the scratch block is filled with -inf): the grid coordinate is 0. -/
abbrev cond0_0 (i : grid0.Coords) : Prop :=
  (Scalar.cmpi .ne (Scalar.extui (Scalar.cmpi .eq (BitVec.ofNat 32 (i 0).val) 0#32)) 0#32) = 1#1
/-- The condition of the last branch (the projected maximum is stored): the grid coordinate is 2. -/
abbrev cond0_1 (i : grid0.Coords) : Prop := k0_cond2 i = 1#1

theorem cond0_0_of_zero (i : grid0.Coords) (hi : (i 0).val = 0) : cond0_0 i := by
  unfold cond0_0; rw [hi]; decide
theorem not_cond0_0_of_one (i : grid0.Coords) (hi : (i 0).val = 1) : ¬ cond0_0 i := by
  unfold cond0_0; rw [hi]; decide
theorem not_cond0_0_of_two (i : grid0.Coords) (hi : (i 0).val = 2) : ¬ cond0_0 i := by
  unfold cond0_0; rw [hi]; decide
theorem not_cond0_1_of_zero (i : grid0.Coords) (hi : (i 0).val = 0) : ¬ cond0_1 i := by
  unfold cond0_1 k0_cond2; rw [hi]; decide
theorem not_cond0_1_of_one (i : grid0.Coords) (hi : (i 0).val = 1) : ¬ cond0_1 i := by
  unfold cond0_1 k0_cond2; rw [hi]; decide
theorem cond0_1_of_two (i : grid0.Coords) (hi : (i 0).val = 2) : cond0_1 i := by
  unfold cond0_1 k0_cond2; rw [hi]; decide

/-! ## What the body leaves in each block it stores into -/

/-- The first output block after the body: its one store as a piece. -/
def out0_8 (x0 : Vec F S64x4x768 .bf16) (x5 : Vec F S768x768 .bf16) : Vec F S64x4x768 .f32 :=
  View.canon [⟨rX, k0_pay6 (View.ld x0 rX) (View.ld x5 rW)⟩]

/-- The second output block after the body: its one store as a piece. -/
def out0_9 (x0 : Vec F S64x4x768 .bf16) (x6 : Vec F S768x768 .bf16) : Vec F S64x4x768 .f32 :=
  View.canon [⟨rX, k0_pay7 (View.ld x0 rX) (View.ld x6 rW)⟩]

/-- The point's own value block: the hyperbolic tangent of the two projections' sum plus the bias. -/
abbrev val0 (x0 x1 : Vec F S64x4x768 .bf16) (x2 x3 : Vec F S768x768 .bf16) (x4 : Vec F S768 .f32) : FVec F S64x4x768 .f32 :=
  k0_pay5 (View.ld x0 rX) (View.ld x1 rX) (View.ld x2 rW) (View.ld x3 rW) (View.ld x4 rV)

/-- The scratch block after the body at a point that finds it at contents `s`: the maximum of `s` and the
    point's value block along the leading axis, stored over the whole block. -/
def sc_B (x0 x1 : Vec F S64x4x768 .bf16) (x2 x3 : Vec F S768x768 .bf16) (x4 : Vec F S768 .f32) (s : Vec F S4x768 .f32) :
    Vec F S4x768 .f32 :=
  View.canon [⟨rS, k0_pay1 (val0 x0 x1 x2 x3 x4) (View.ld s rS)⟩]

/-- The scratch block once the first branch has filled it with -inf. -/
def sc_init : Vec F S4x768 .f32 := View.canon [⟨rS, k0_pay3 (F := F)⟩]

/-- The scratch block after the body at the first point: filled with -inf, then the running maximum of that. -/
def sc_A (x0 x1 : Vec F S64x4x768 .bf16) (x2 x3 : Vec F S768x768 .bf16) (x4 : Vec F S768 .f32) : Vec F S4x768 .f32 :=
  sc_B x0 x1 x2 x3 x4 sc_init

/-- The third output block after the body at the last point, from the scratch block `sc` the body's own store
    left: the projection of the running maximum. -/
def out0_10 (x7 : Vec F S768x768 .bf16) (sc : Vec F S4x768 .f32) : Vec F S4x768 .f32 :=
  View.canon [⟨rS, k0_pay2 (View.ld x7 rW) (View.ld sc rS)⟩]

/-- A store of a whole block covers it (checked by evaluation). -/
theorem coverX (p0 : Vec F S64x4x768 .f32) (y : S64x4x768.Idx) :
    ∃ pc ∈ ([⟨rX, p0⟩] : List (View.Piece (Elt F) S64x4x768 .f32)), y ∈ pc.1.set :=
  View.cover_of_tiled [⟨rX, p0⟩] S64x4x768.size (by rfl) y
theorem coverS (p0 : Vec F S4x768 .f32) (y : S4x768.Idx) :
    ∃ pc ∈ ([⟨rS, p0⟩] : List (View.Piece (Elt F) S4x768 .f32)), y ∈ pc.1.set :=
  View.cover_of_tiled [⟨rS, p0⟩] S4x768.size (by rfl) y
/-- So does a second whole-block store over a first. -/
theorem coverS2 (p0 p1 : Vec F S4x768 .f32) (y : S4x768.Idx) :
    ∃ pc ∈ ([⟨rS, p0⟩, ⟨rS, p1⟩] : List (View.Piece (Elt F) S4x768 .f32)), y ∈ pc.1.set :=
  ⟨⟨rS, p0⟩, List.mem_cons_self, by
    obtain ⟨pc, hm, hy⟩ := coverS p0 y
    rcases List.mem_singleton.mp hm with rfl
    exact hy⟩

/-- Under a later whole-block store, an earlier one is not read: the canon of the two is the canon of the later. -/
theorem canon_two (p0 p1 : Vec F S4x768 .f32) :
    View.canon ([⟨rS, p0⟩, ⟨rS, p1⟩] : List (View.Piece (Elt F) S4x768 .f32)) = View.canon [⟨rS, p0⟩] := by
  funext y
  obtain ⟨pc, hm, hy⟩ := coverS p0 y
  rcases List.mem_singleton.mp hm with rfl
  obtain ⟨x, rfl⟩ : ∃ x, rS.emb x = y := rS.exists_idx_of_mem hy
  rw [View.canon_cons_emb, View.canon_cons_emb]

/-! ## The body's triples, one per control case

Each on whole memrefs: the eight inputs' at read contents `xW` (any share) and handed back as they were, the first
two outputs' at anything and handed back at `out0_8`, `out0_9`. -/

set_option maxHeartbeats 1000000 in
/-- CASE A (the first branch taken, the last not: the first grid point). The scratch block comes in at anything and
    goes out filled with -inf and then maximized (`sc_A`); the third output is not touched. -/
theorem sound_kernel0_A (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hc0 : cond0_0 i) (hc1 : ¬ cond0_1 i)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (y : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ owns (c : Thread nD τ) arg11 fullShare y ∗ (∃ d, owns (c : Thread nD τ) arg12 fullShare d)
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare y ∗ owns (c : Thread nD τ) arg12 fullShare (sc_A x0 x1 x2 x3 x4)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, ⟨%f10, %hf10, H10⟩, ⟨%d11, %f11, -, H11⟩, Hk⟩
  subst hf0 hf1 hf2 hf3 hf4 hf5 hf6 hf7 hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverX _)
  isplitl [H9]
  · iexists _; isplitr
    swap; · iexact H9
    ipureintro
    exact View.read_writes_eq_canon _ _ _ (coverX _)
  isplitl [H10]
  · iexists f10; isplitr; · ipureintro; rfl
    iexact H10
  iexists _; isplitr
  swap; · iexact H11
  ipureintro
  sl_unfold_run_names
  rw [View.read_writes_eq_canon _ _ _ (coverS2 _ _), canon_two, View.readCov_eq_canon_ld _ _ rS (coverS _)]
  rfl

set_option maxHeartbeats 1000000 in
/-- CASE B (neither branch taken: a middle grid point). The scratch block comes in at contents `s` and goes out
    maximized (`sc_B … s`); the third output is not touched. -/
theorem sound_kernel0_B (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hc0 : ¬ cond0_0 i) (hc1 : ¬ cond0_1 i)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (y s : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ owns (c : Thread nD τ) arg11 fullShare y ∗ owns (c : Thread nD τ) arg12 fullShare s
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare y ∗ owns (c : Thread nD τ) arg12 fullShare (sc_B x0 x1 x2 x3 x4 s)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, ⟨%f10, %hf10, H10⟩, ⟨%f11, %hf11, H11⟩, Hk⟩
  subst hf0 hf1 hf2 hf3 hf4 hf5 hf6 hf7 hf10 hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverX _)
  isplitl [H9]
  · iexists _; isplitr
    swap; · iexact H9
    ipureintro
    exact View.read_writes_eq_canon _ _ _ (coverX _)
  isplitl [H10]
  · iexists f10; isplitr; · ipureintro; rfl
    iexact H10
  iexists _; isplitr
  swap; · iexact H11
  ipureintro
  sl_unfold_run_names
  exact View.read_writes_eq_canon _ _ _ (coverS _)

set_option maxHeartbeats 1000000 in
/-- CASE C (the last branch taken, the first not: the last grid point). The scratch block comes in at contents `s`
    and goes out maximized (`sc_B … s`); the third output comes in at anything and goes out at the projection of
    that maximum (`out0_10`). -/
theorem sound_kernel0_C (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hc0 : ¬ cond0_0 i) (hc1 : cond0_1 i)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (s : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ (∃ d, owns (c : Thread nD τ) arg11 fullShare d) ∗ owns (c : Thread nD τ) arg12 fullShare s
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare (out0_10 x7 (sc_B x0 x1 x2 x3 x4 s)) ∗ owns (c : Thread nD τ) arg12 fullShare (sc_B x0 x1 x2 x3 x4 s)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, ⟨%d10, %f10, -, H10⟩, ⟨%f11, %hf11, H11⟩, Hk⟩
  subst hf0 hf1 hf2 hf3 hf4 hf5 hf6 hf7 hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverX _)
  isplitl [H9]
  · iexists _; isplitr
    swap; · iexact H9
    ipureintro
    exact View.read_writes_eq_canon _ _ _ (coverX _)
  isplitl [H10]
  · iexists _; isplitr
    swap; · iexact H10
    ipureintro
    sl_unfold_run_names
    rw [View.read_writes_eq_canon _ _ _ (coverS _), View.readCov_eq_canon_ld _ _ rS (coverS _)]
    rfl
  iexists _; isplitr
  swap; · iexact H11
  ipureintro
  sl_unfold_run_names
  exact View.read_writes_eq_canon _ _ _ (coverS _)

/-! ## The same three triples from the grid coordinate's value -/

/-- Case A at the first grid point, from the coordinate's value. -/
theorem sound_kernel0_at0 (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hi : (i 0).val = 0)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (y : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ owns (c : Thread nD τ) arg11 fullShare y ∗ (∃ d, owns (c : Thread nD τ) arg12 fullShare d)
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare y ∗ owns (c : Thread nD τ) arg12 fullShare (sc_A x0 x1 x2 x3 x4)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K :=
  sound_kernel0_A c E i arg1 harg1 arg2 harg2 arg3 harg3 arg4 harg4 arg5 harg5 arg6 harg6 arg7 harg7 arg8 harg8
    arg9 harg9 arg10 harg10 arg11 harg11 arg12 harg12
    (cond0_0_of_zero i hi) (not_cond0_1_of_zero i hi) q0 q1 q2 q3 q4 q5 q6 q7 x0 x1 x2 x3 x4 x5 x6 x7 y K

/-- Case B at the middle grid point, from the coordinate's value. -/
theorem sound_kernel0_at1 (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hi : (i 0).val = 1)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (y s : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ owns (c : Thread nD τ) arg11 fullShare y ∗ owns (c : Thread nD τ) arg12 fullShare s
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare y ∗ owns (c : Thread nD τ) arg12 fullShare (sc_B x0 x1 x2 x3 x4 s)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K :=
  sound_kernel0_B c E i arg1 harg1 arg2 harg2 arg3 harg3 arg4 harg4 arg5 harg5 arg6 harg6 arg7 harg7 arg8 harg8
    arg9 harg9 arg10 harg10 arg11 harg11 arg12 harg12
    (not_cond0_0_of_one i hi) (not_cond0_1_of_one i hi) q0 q1 q2 q3 q4 q5 q6 q7 x0 x1 x2 x3 x4 x5 x6 x7 y s K

/-- Case C at the last grid point, from the coordinate's value. -/
theorem sound_kernel0_at2 (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hi : (i 0).val = 2)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (s : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ (∃ d, owns (c : Thread nD τ) arg11 fullShare d) ∗ owns (c : Thread nD τ) arg12 fullShare s
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare (out0_10 x7 (sc_B x0 x1 x2 x3 x4 s)) ∗ owns (c : Thread nD τ) arg12 fullShare (sc_B x0 x1 x2 x3 x4 s)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K :=
  sound_kernel0_C c E i arg1 harg1 arg2 harg2 arg3 harg3 arg4 harg4 arg5 harg5 arg6 harg6 arg7 harg7 arg8 harg8
    arg9 harg9 arg10 harg10 arg11 harg11 arg12 harg12
    (not_cond0_0_of_two i hi) (cond0_1_of_two i hi) q0 q1 q2 q3 q4 q5 q6 q7 x0 x1 x2 x3 x4 x5 x6 x7 s K

/-- The first point's scratch block is the later points' step from the -inf fill. -/
theorem sc_A_eq (x0 x1 : Vec F S64x4x768 .bf16) (x2 x3 : Vec F S768x768 .bf16) (x4 : Vec F S768 .f32) :
    sc_A x0 x1 x2 x3 x4 = sc_B x0 x1 x2 x3 x4 (sc_init (F := F)) := rfl

end Cert.KernelIdeal.Gen2

end
-- ==== Proof.K0.lean ====
import proofs.«124299_j40209483825381_1_alg».proof.Proof.K0Pre
import proofs.«124299_j40209483825381_1_alg».proof.Proof.Body0

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's region: the proof data and the body obligation

The scratch block carries the running maximum from point to point, so the region's invariant names its contents after
every point; the third output's window is idle, and not written back, at every point but the last. -/

section Region0

-- the TensorCore's buffer contents when the region is entered
variable (V : (c : Dev nD) → (b : Ref sig .tc) → Buf (Elt F) ((c : Thread nD τ).loc b))

/-! ## The scratch block after each point -/

/-- The scratch block after the body at position `n`: at the first point the -inf fill maximized with the point's
    value block, afterwards what the point before left maximized with this point's. -/
def acc0 (c : Dev nD) : (n : ℕ) → n < cfg0.N → Vec F S4x768 .f32
  | 0, h => sc_A (iblk0 V c 0 ⟨0, h⟩) (iblk0 V c 1 ⟨0, h⟩) (iblk0 V c 2 ⟨0, h⟩) (iblk0 V c 3 ⟨0, h⟩) (iblk0 V c 4 ⟨0, h⟩)
  | n + 1, h => sc_B (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (acc0 c n (Nat.lt_of_succ_lt h))

theorem acc0_zero (c : Dev nD) (t : Fin cfg0.N) (hz : t.val = 0) :
    acc0 V c t.val t.isLt = sc_A (iblk0 V c 0 t) (iblk0 V c 1 t) (iblk0 V c 2 t) (iblk0 V c 3 t) (iblk0 V c 4 t) := by
  obtain ⟨n, hn⟩ := t
  cases n with
  | zero => rfl
  | succ n => exact absurd hz (Nat.succ_ne_zero n)

theorem acc0_pos (c : Dev nD) (t : Fin cfg0.N) (hz : t.val ≠ 0) :
    acc0 V c t.val t.isLt = sc_B (iblk0 V c 0 t) (iblk0 V c 1 t) (iblk0 V c 2 t) (iblk0 V c 3 t) (iblk0 V c 4 t)
      (acc0 V c (t.val - 1) (Nat.lt_of_le_of_lt (Nat.sub_le _ _) t.isLt)) := by
  obtain ⟨n, hn⟩ := t
  cases n with
  | zero => exact absurd rfl hz
  | succ n => rfl

/-! ## The region's invariant: the scoped buffers with the scratch block named -/

/-- The core's scoped buffers that are neither a staging buffer of this kernel nor its scratch, each whole at some
    contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg8_1), ((c : Thread nD τ).loc cc1_stg8_1) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg9_1), ((c : Thread nD τ).loc cc1_stg9_1) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg10_1), ((c : Thread nD τ).loc cc1_stg10_1) ↦{fullShare} f))

/-- The class's invariant with the scratch block as a memref owned at some contents. -/
theorem PhiA0_eq (c : Dev nD) :
    (Pipeline.ΦA spec0 c : sProp 𝕄)
      = iprop((iprop(∃ d, owns (c : Thread nD τ) scM fullShare d) ∗ restS0 (F := F) c) ∗ (∃ r, prngReg c r)) := by
  unfold Pipeline.ΦA restS0; rw [scopedRest0_eq]; simp only [scM, owns_whole]; try rfl

/-- The region invariant before position `n`: before the first point the class's (the scratch block at anything);
    afterwards the same with the scratch block at what the point before left in it. -/
def PhiS0 (c : Dev nD) : (n : ℕ) → n ≤ cfg0.N → sProp 𝕄
  | 0, _ => Pipeline.ΦA spec0 c
  | n + 1, hn => iprop((owns (c : Thread nD τ) scM fullShare (acc0 V c n hn) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM fullShare (acc0 V c n hn) ∗ restS0 (F := F) c) ∗ (∃ r, prngReg c r)) := rfl

theorem PhiS0_pos (c : Dev nD) (n : ℕ) (h : n ≤ cfg0.N) (hz : n ≠ 0) :
    PhiS0 V c n h = iprop((owns (c : Thread nD τ) scM fullShare (acc0 V c (n - 1) (by omega)) ∗ restS0 (F := F) c) ∗ (∃ r, prngReg c r)) := by
  cases n with
  | zero => exact absurd rfl hz
  | succ n => rfl

/-! ## The pipeline's proof data -/

/-- The proof data of the first pipeline on core `c`: the arrays as the region finds them; after the body each input's
    buffer at its block, the two projections' at their blocks' products, the third output's at the projection of the
    running maximum so far; the invariant with the scratch block named; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 5 t)
    | ⟨9, _⟩ => out0_9 (iblk0 V c 0 t) (iblk0 V c 6 t)
    | ⟨10, _⟩ => out0_10 (iblk0 V c 7 t) (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 5 t) := by dsimp only [dat0]
theorem after0_9 (c : Dev nD) (t : Fin cfg0.N) : (dat0 V c).after 9 t = out0_9 (iblk0 V c 0 t) (iblk0 V c 6 t) := by dsimp only [dat0]
theorem after0_10 (c : Dev nD) (t : Fin cfg0.N) : (dat0 V c).after 10 t = out0_10 (iblk0 V c 7 t) (acc0 V c t.val t.isLt) := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 4000000 in
/-- The body at any point: the inputs' memrefs hold their blocks; the point's position says which control case it is
    in; the invariant hands the body the scratch block at what the point before left (at anything at the first point)
    and takes it back at this point's contents; the third output's buffer is handed back as found at the points that
    leave it idle; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0 0 (by decide) t], after0_0]
  rw [show (dat0 V c).leavesExact 1 t = owns (c : Thread nD τ) (st0_1 t) fullShare ((dat0 V c).after 1 t) from by
    unfold Dat.leavesExact; rw [liveAt0 1 (by decide) t], after0_1]
  rw [show (dat0 V c).leavesExact 2 t = owns (c : Thread nD τ) (st0_2 t) fullShare ((dat0 V c).after 2 t) from by
    unfold Dat.leavesExact; rw [liveAt0 2 (by decide) t], after0_2]
  rw [show (dat0 V c).leavesExact 3 t = owns (c : Thread nD τ) (st0_3 t) fullShare ((dat0 V c).after 3 t) from by
    unfold Dat.leavesExact; rw [liveAt0 3 (by decide) t], after0_3]
  rw [show (dat0 V c).leavesExact 4 t = owns (c : Thread nD τ) (st0_4 t) fullShare ((dat0 V c).after 4 t) from by
    unfold Dat.leavesExact; rw [liveAt0 4 (by decide) t], after0_4]
  rw [show (dat0 V c).leavesExact 5 t = owns (c : Thread nD τ) (st0_5 t) fullShare ((dat0 V c).after 5 t) from by
    unfold Dat.leavesExact; rw [liveAt0 5 (by decide) t], after0_5]
  rw [show (dat0 V c).leavesExact 6 t = owns (c : Thread nD τ) (st0_6 t) fullShare ((dat0 V c).after 6 t) from by
    unfold Dat.leavesExact; rw [liveAt0 6 (by decide) t], after0_6]
  rw [show (dat0 V c).leavesExact 7 t = owns (c : Thread nD τ) (st0_7 t) fullShare ((dat0 V c).after 7 t) from by
    unfold Dat.leavesExact; rw [liveAt0 7 (by decide) t], after0_7]
  rw [show (dat0 V c).leavesExact 8 t = owns (c : Thread nD τ) (st0_8 t) fullShare ((dat0 V c).after 8 t) from by
    unfold Dat.leavesExact; rw [liveAt0 8 (by decide) t], after0_8]
  rw [show (dat0 V c).leavesExact 9 t = owns (c : Thread nD τ) (st0_9 t) fullShare ((dat0 V c).after 9 t) from by
    unfold Dat.leavesExact; rw [liveAt0 9 (by decide) t], after0_9]
  have hN : t.val < 3 := lt_of_lt_of_eq t.isLt (show cfg0.N = 3 from N_0)
  by_cases hz : t.val = 0
  · -- the first point: the scratch block comes in at anything
    rw [Dat.leavesExact_idle (dat0 V c) 10 t (idleAt0_10 t (by omega)) (noFlush0_10 t (by omega))]
    rw [acc0_zero V c t hz]
    rw [PhiS0_castSucc V c t, PhiS0_zero V c _ _ hz, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_A c Set.univ (grid0.coords t) _ _ _ _ _ _ _ _ _ _ _ _ _ _ _ _ _ _ _ _ _ _ _ _
      ((hcondA t).mpr hz) (fun h => by have := (hcondC t).mp h; omega) fullShare fullShare fullShare fullShare fullShare fullShare fullShare fullShare
      (iblk0 V c 0 t) (iblk0 V c 1 t) (iblk0 V c 2 t) (iblk0 V c 3 t) (iblk0 V c 4 t) (iblk0 V c 5 t) (iblk0 V c 6 t) (iblk0 V c 7 t) ((dat0 V c).before 10 t d10) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS]; · iexact HS
    iintro ⟨H0, H1, H2, H3, H4, H5, H6, H7, H8, H9, H10, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h2 : t.val = 2
    · -- the last point: the third output is stored
      rw [show (dat0 V c).leavesExact 10 t = owns (c : Thread nD τ) (st0_10 t) fullShare ((dat0 V c).after 10 t) from by
        unfold Dat.leavesExact; rw [liveAt0_10 t h2], after0_10]
      rw [acc0_pos V c t hz]
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel0_C c Set.univ (grid0.coords t) _ _ _ _ _ _ _ _ _ _ _ _ _ _ _ _ _ _ _ _ _ _ _ _
        (fun h => hz ((hcondA t).mp h)) ((hcondC t).mpr h2) fullShare fullShare fullShare fullShare fullShare fullShare fullShare fullShare
        (iblk0 V c 0 t) (iblk0 V c 1 t) (iblk0 V c 2 t) (iblk0 V c 3 t) (iblk0 V c 4 t) (iblk0 V c 5 t) (iblk0 V c 6 t) (iblk0 V c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS]; · iexact HS
      iintro ⟨H0, H1, H2, H3, H4, H5, H6, H7, H8, H9, H10, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- a middle point: neither branch is taken
      rw [Dat.leavesExact_idle (dat0 V c) 10 t (idleAt0_10 t h2) (noFlush0_10 t h2)]
      rw [acc0_pos V c t hz]
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel0_B c Set.univ (grid0.coords t) _ _ _ _ _ _ _ _ _ _ _ _ _ _ _ _ _ _ _ _ _ _ _ _
        (fun h => hz ((hcondA t).mp h)) (fun h => h2 ((hcondC t).mp h)) fullShare fullShare fullShare fullShare fullShare fullShare fullShare fullShare
        (iblk0 V c 0 t) (iblk0 V c 1 t) (iblk0 V c 2 t) (iblk0 V c 3 t) (iblk0 V c 4 t) (iblk0 V c 5 t) (iblk0 V c 6 t) (iblk0 V c 7 t) ((dat0 V c).before 10 t d10) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [HS]; · iexact HS
      iintro ⟨H0, H1, H2, H3, H4, H5, H6, H7, H8, H9, H10, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but none the invariant gives the class's back: the scratch block's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]; · iexists _; iexact HS
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 3 := N_0; omega)

end Region0

end Cert.KernelIdeal.Gen2

end
-- ==== Proof.Body1.lean ====
import proofs.«124299_j40209483825381_1_alg».proof.Proof.Gen.KernelIdeal.Launch
import proofs.«124299_j40209483825381_1_alg».proof.Proof.Gen.KernelIdeal.Skeleton
import proofs.«124299_j40209483825381_1_alg».proof.Proof.Gen.KernelIdeal.Points
import Idealize.ShloMosaic.Lib.Pipeline.FrameBody
import Idealize.ShloMosaic.Lib.Ring
import Idealize.ShloMosaic.Lib.Tactic

-- membership in a rectangle of large extents: the elaborator's structural look recurses once per coordinate of
-- the long axes
set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body: ten whole-block loads, one whole-block store -/

/-! ## The body's accesses: every load and the store take the whole block -/

abbrev rA : Rect S24x4x768 := Rect.unit (s := S24x4x768) ![0, 0, 0] S24x4x768.size inb_S24x4x768_S24x4x768_0_0_0
abbrev rB : Rect S4x768 := Rect.unit (s := S4x768) ![0, 0] S4x768.size inb_S4x768_S4x768_0_0
abbrev rC : Rect S768 := Rect.unit (s := S768) ![0] S768.size inb_S768_S768_0
abbrev rD : Rect S768x16 := Rect.unit (s := S768x16) ![0, 0] S768x16.size inb_S768x16_S768x16_0_0
abbrev rE : Rect S16 := Rect.unit (s := S16) ![0] S16.size inb_S16_S16_0
abbrev rG : Rect S24x4 := Rect.unit (s := S24x4) ![0, 0] S24x4.size inb_S24x4_S24x4_0_0
abbrev rO : Rect S24x24x4x16 := Rect.unit (s := S24x24x4x16) ![0, 0, 0, 0] S24x24x4x16.size inb_S24x24x4x16_S24x24x4x16_0_0_0_0

/-! ## What the body leaves in the output block -/

/-- The output block after the body, from the ten input blocks at grid point `i`: its one store as a piece, the
    payload the skeleton's, over what the loads read. -/
def out1 (i : grid1.Coords) (x0 x1 : Vec F S24x4x768 .f32) (x2 : Vec F S4x768 .f32) (x3 x4 x5 : Vec F S768 .f32)
    (x6 : Vec F S768x16 .bf16) (x7 : Vec F S16 .f32) (x8 x9 : Vec F S24x4 .f32) : Vec F S24x24x4x16 .f32 :=
  View.canon [⟨rO, k1_pay2 (BitVec.ofNat 32 (i 0).val) (BitVec.ofNat 32 (i 1).val)
    (k1_pay1 (View.ld x0 rA) (View.ld x1 rA) (View.ld x2 rB) (View.ld x3 rC) (View.ld x4 rC) (View.ld x5 rC))
    (View.ld x6 rD) (View.ld x7 rE) (View.ld x8 rG) (View.ld x9 rG)⟩]

/-- The store takes the whole block (checked by evaluation), so it covers it. -/
theorem cover1 (p0 : Vec F S24x24x4x16 .f32) (y : S24x24x4x16.Idx) :
    ∃ pc ∈ ([⟨rO, p0⟩] : List (View.Piece (Elt F) S24x24x4x16 .f32)), y ∈ pc.1.set :=
  View.cover_of_tiled [⟨rO, p0⟩] S24x24x4x16.size (by rfl) y

/-! ## The body's triple -/

set_option maxHeartbeats 1000000 in
/-- The kernel body on whole memrefs, the inputs' at read contents `xW` (any share) and the output's at anything,
    runs to the continuation holding the inputs' as they were and the output's at `out1` of the inputs. -/
theorem sound_kernel1 (c : Dev nD) (E : Set ℕ) (i : grid1.Coords)
    (arg2 : Memref sig .tc .vmem S24x4x768 .f32) (harg2 : arg2.IsWhole) (arg3 : Memref sig .tc .vmem S24x4x768 .f32) (harg3 : arg3.IsWhole)
    (arg4 : Memref sig .tc .vmem S4x768 .f32) (harg4 : arg4.IsWhole) (arg5 : Memref sig .tc .vmem S768 .f32) (harg5 : arg5.IsWhole)
    (arg6 : Memref sig .tc .vmem S768 .f32) (harg6 : arg6.IsWhole) (arg7 : Memref sig .tc .vmem S768 .f32) (harg7 : arg7.IsWhole)
    (arg8 : Memref sig .tc .vmem S768x16 .bf16) (harg8 : arg8.IsWhole) (arg9 : Memref sig .tc .vmem S16 .f32) (harg9 : arg9.IsWhole)
    (arg10 : Memref sig .tc .vmem S24x4 .f32) (harg10 : arg10.IsWhole) (arg11 : Memref sig .tc .vmem S24x4 .f32) (harg11 : arg11.IsWhole)
    (arg12 : Memref sig .tc .vmem S24x24x4x16 .f32) (harg12 : arg12.IsWhole)
    (q0 q1 q2 q3 q4 q5 q6 q7 q8 q9 : PosShare TreeShare)
    (x0 x1 : Vec F S24x4x768 .f32) (x2 : Vec F S4x768 .f32) (x3 x4 x5 : Vec F S768 .f32)
    (x6 : Vec F S768x16 .bf16) (x7 : Vec F S16 .f32) (x8 x9 : Vec F S24x4 .f32) (K : PUnit → sProp 𝕄) :
    iprop(owns (c : Thread nD τ) arg2 q0 x0 ∗ owns (c : Thread nD τ) arg3 q1 x1 ∗ owns (c : Thread nD τ) arg4 q2 x2
        ∗ owns (c : Thread nD τ) arg5 q3 x3 ∗ owns (c : Thread nD τ) arg6 q4 x4 ∗ owns (c : Thread nD τ) arg7 q5 x5
        ∗ owns (c : Thread nD τ) arg8 q6 x6 ∗ owns (c : Thread nD τ) arg9 q7 x7 ∗ owns (c : Thread nD τ) arg10 q8 x8
        ∗ owns (c : Thread nD τ) arg11 q9 x9 ∗ (∃ d, owns (c : Thread nD τ) arg12 fullShare d)
        ∗ (iprop(owns (c : Thread nD τ) arg2 q0 x0 ∗ owns (c : Thread nD τ) arg3 q1 x1 ∗ owns (c : Thread nD τ) arg4 q2 x2
            ∗ owns (c : Thread nD τ) arg5 q3 x3 ∗ owns (c : Thread nD τ) arg6 q4 x4 ∗ owns (c : Thread nD τ) arg7 q5 x5
            ∗ owns (c : Thread nD τ) arg8 q6 x6 ∗ owns (c : Thread nD τ) arg9 q7 x7 ∗ owns (c : Thread nD τ) arg10 q8 x8
            ∗ owns (c : Thread nD τ) arg11 q9 x9
            ∗ owns (c : Thread nD τ) arg12 fullShare (out1 i x0 x1 x2 x3 x4 x5 x6 x7 x8 x9)) -∗ K ⟨⟩))
      ⊢ wp frame (wpE (defs₀ (F := F)) Variants.none c none) E
          (cc1__main_kernel i arg2 harg2 arg3 harg3 arg4 harg4 arg5 harg5 arg6 harg6 arg7 harg7 arg8 harg8 arg9 harg9
            arg10 harg10 arg11 harg11 arg12 harg12) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1 _)

end Cert.KernelIdeal.Gen2

end
-- ==== Proof.K1.lean ====
import proofs.«124299_j40209483825381_1_alg».proof.Proof.Gen.KernelIdeal.Launch
import proofs.«124299_j40209483825381_1_alg».proof.Proof.Gen.KernelIdeal.Skeleton
import proofs.«124299_j40209483825381_1_alg».proof.Proof.Gen.KernelIdeal.Points
import proofs.«124299_j40209483825381_1_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's region: the span-pair kernel over the 8 x 8 grid

Eleven windows: the start rows, the end rows, the global term, the three affine vectors, the tag matrix, the tag bias,
the mask's start rows and the mask's end rows (two windows of ONE array), and the output block. -/

section Region1

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`: the arrays as the region finds them; after the body each input's
    buffer at its block and the output's at `out1` of the point and the input blocks; the invariant the scoped rest and the
    generator register, untouched; nothing owed; the mask's array, read through two windows, held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1 (grid1.coords t) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t)
  Φ _ := Pipeline.ΦA spec1 c
  q w := match w with
    | ⟨8, _⟩ => fullShare.left
    | ⟨9, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1 (grid1.coords t) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d
theorem before1_6 (c : Dev nD) (t : Fin cfg1.N) (d) : (dat1 V c).before 6 t d = iblk1 V c 6 t := before1_6_of V (dat1 V c) (A_eq1 V c 6) (after1_6 V c) t d
theorem before1_7 (c : Dev nD) (t : Fin cfg1.N) (d) : (dat1 V c).before 7 t d = iblk1 V c 7 t := before1_7_of V (dat1 V c) (A_eq1 V c 7) (after1_7 V c) t d
theorem before1_8 (c : Dev nD) (t : Fin cfg1.N) (d) : (dat1 V c).before 8 t d = iblk1 V c 8 t := before1_8_of V (dat1 V c) (A_eq1 V c 8) (after1_8 V c) t d
theorem before1_9 (c : Dev nD) (t : Fin cfg1.N) (d) : (dat1 V c).before 9 t d = iblk1 V c 9 t := before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ fullShare fullShare fullShare fullShare fullShare fullShare fullShare fullShare fullShare fullShare
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The arrays' shares: the mask's array is read through two windows -/

theorem share1 (c : Dev nD) (w : Fin cfg1.W) : (dat1 V c).share w = match w with
    | ⟨8, _⟩ => fullShare.left
    | ⟨9, _⟩ => fullShare.right
    | _ => fullShare := by
  unfold Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl

/-- The pipeline's arrays, window by window: every array whole at the full share, the mask's at the two halves. -/
theorem arrays1_eq (c : Dev nD) (G : (w : Fin cfg1.W) → Buf (Elt F) ((cfg1.win w).arr.view.loc (c.tc : Thread nD τ))) :
    ((dat1 V c).arrays G : sProp 𝕄) = iprop(
      (((c : Thread nD τ).loc main_v19_0) ↦{fullShare} G 0) ∗ (((c : Thread nD τ).loc main_v19_1) ↦{fullShare} G 1)
      ∗ (((c : Thread nD τ).loc main_v19_2) ↦{fullShare} G 2) ∗ (((c : Thread nD τ).loc main_arg6) ↦{fullShare} G 3)
      ∗ (((c : Thread nD τ).loc main_arg7) ↦{fullShare} G 4) ∗ (((c : Thread nD τ).loc main_arg8) ↦{fullShare} G 5)
      ∗ (((c : Thread nD τ).loc main_v16) ↦{fullShare} G 6) ∗ (((c : Thread nD τ).loc main_arg10) ↦{fullShare} G 7)
      ∗ (((c : Thread nD τ).loc main_arg2) ↦{fullShare.left} G 8) ∗ (((c : Thread nD τ).loc main_arg2) ↦{fullShare.right} G 9)
      ∗ (((c : Thread nD τ).loc main_v20) ↦{fullShare} G 10)) := by
  unfold Dat.arrays
  rw [bigSep_W1]
  simp only [View.set_whole, share1]
  rfl

/-- The ten distinct buffers behind the eleven windows, each whole at the full share. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄) = iprop(
      (((c : Thread nD τ).loc main_v19_0) ↦{fullShare} V' main_v19_0) ∗ (((c : Thread nD τ).loc main_v19_1) ↦{fullShare} V' main_v19_1)
      ∗ (((c : Thread nD τ).loc main_v19_2) ↦{fullShare} V' main_v19_2) ∗ (((c : Thread nD τ).loc main_arg6) ↦{fullShare} V' main_arg6)
      ∗ (((c : Thread nD τ).loc main_arg7) ↦{fullShare} V' main_arg7) ∗ (((c : Thread nD τ).loc main_arg8) ↦{fullShare} V' main_arg8)
      ∗ (((c : Thread nD τ).loc main_v16) ↦{fullShare} V' main_v16) ∗ (((c : Thread nD τ).loc main_arg10) ↦{fullShare} V' main_arg10)
      ∗ (((c : Thread nD τ).loc main_arg2) ↦{fullShare} V' main_arg2) ∗ (((c : Thread nD τ).loc main_v20) ↦{fullShare} V' main_v20)) := by
  unfold Pipeline.arrBufs
  rw [bigSep_eq_bigSepL_of_eq [main_v19_0, main_v19_1, main_v19_2, main_arg6, main_arg7, main_arg8, main_v16, main_arg10, main_arg2, main_v20] (by decide) (by decide)]
  rfl

/-- ENTRY: the ten buffers at the entry contents make the pipeline's arrays, the mask's array split in two halves. -/
theorem arrays_of_arrBufs1 (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq, arrays1_eq]
  iintro ⟨H0, H1, H2, H3, H4, H5, H6, H7, H8, H10⟩
  ihave H89 := (pointsTo_share (PosShare.mem_left_op_right fullShare)).1 $$ H8
  icases H89 with ⟨H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's arrays at contents that are, window by window, those of a valuation of the ten buffers give the ten
    buffers at that valuation: the mask's two halves, holding the same contents, joined. -/
theorem arrBufs_of_arrays1' (c : Dev nD) (V' : (b : Ref sig .tc) → Buf (Elt F) ((c : Thread nD τ).loc b))
    (G : (w : Fin cfg1.W) → Buf (Elt F) ((cfg1.win w).arr.view.loc (c.tc : Thread nD τ)))
    (h0 : G 0 = V' main_v19_0) (h1 : G 1 = V' main_v19_1) (h2 : G 2 = V' main_v19_2) (h3 : G 3 = V' main_arg6) (h4 : G 4 = V' main_arg7)
    (h5 : G 5 = V' main_arg8) (h6 : G 6 = V' main_v16) (h7 : G 7 = V' main_arg10) (h8 : G 8 = V' main_arg2) (h9 : G 9 = V' main_arg2)
    (h10 : G 10 = V' main_v20) :
    ((dat1 V c).arrays G : sProp 𝕄) ⊢ Pipeline.arrBufs (Ix := Unit) (Name := ℕ) (U := UR sig nD τ) (Lvl := ℕ) spec1 c V' := by
  rw [arrBufs1_eq, arrays1_eq, h0, h1, h2, h3, h4, h5, h6, h7, h8, h9, h10]
  iintro ⟨H0, H1, H2, H3, H4, H5, H6, H7, H8, H9, H10⟩
  ihave H89 := (pointsTo_share (PosShare.mem_left_op_right fullShare)).2 $$ [H8 H9]
  · isplitl [H8] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H89]; · iexact H89
  iexact H10

/-- EXIT: the arrays after the last point — every input as entered, the output at what its write-backs left — are the ten
    buffers at the entry contents but for the output's. -/
theorem arrBufs_of_arrays1 (c : Dev nD) (V' : (b : Ref sig .tc) → Buf (Elt F) ((c : Thread nD τ).loc b))
    (hin : ∀ b, b ≠ main_v20 → V' b = V c b) (hout : V' main_v20 = (dat1 V c).arrAt 10 cfg1.N) :
    ((dat1 V c).arrays ((dat1 V c).arrAt · cfg1.N) : sProp 𝕄) ⊢ Pipeline.arrBufs (Ix := Unit) (Name := ℕ) (U := UR sig nD τ) (Lvl := ℕ) spec1 c V' :=
  arrBufs_of_arrays1' V c V' _
    ((((dat1 V c).arrAt_in 0 rfl _).trans (A_eq1 V c 0)).trans (hin main_v19_0 (by decide)).symm)
    ((((dat1 V c).arrAt_in 1 rfl _).trans (A_eq1 V c 1)).trans (hin main_v19_1 (by decide)).symm)
    ((((dat1 V c).arrAt_in 2 rfl _).trans (A_eq1 V c 2)).trans (hin main_v19_2 (by decide)).symm)
    ((((dat1 V c).arrAt_in 3 rfl _).trans (A_eq1 V c 3)).trans (hin main_arg6 (by decide)).symm)
    ((((dat1 V c).arrAt_in 4 rfl _).trans (A_eq1 V c 4)).trans (hin main_arg7 (by decide)).symm)
    ((((dat1 V c).arrAt_in 5 rfl _).trans (A_eq1 V c 5)).trans (hin main_arg8 (by decide)).symm)
    ((((dat1 V c).arrAt_in 6 rfl _).trans (A_eq1 V c 6)).trans (hin main_v16 (by decide)).symm)
    ((((dat1 V c).arrAt_in 7 rfl _).trans (A_eq1 V c 7)).trans (hin main_arg10 (by decide)).symm)
    ((((dat1 V c).arrAt_in 8 rfl _).trans (A_eq1 V c 8)).trans (hin main_arg2 (by decide)).symm)
    ((((dat1 V c).arrAt_in 9 rfl _).trans (A_eq1 V c 9)).trans (hin main_arg2 (by decide)).symm)
    hout.symm

end Region1

end Cert.KernelIdeal.Gen2

end
-- ==== Proof.KRun.lean ====
import proofs.«124299_j40209483825381_1_alg».proof.Proof.Gen.KernelIdeal.Regions

noncomputable section

namespace Cert.KernelIdeal.Gen2

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The result buffer after the last region is what that region left there. -/
theorem V3_main_v20 (m : (ℓ : Loc nD τ sig) → Buf (Elt F) ℓ) (outs : Outs (F := F)) (c : Dev nD) :
    V3 m outs c main_v20 = outs 3 main_v20 c := by
  simp only [V3, Function.update_self]

set_option backward.isDefEq.respectTransparency.types false in
/-- THE RUN WITH ITS RESULT, given the regions' records: as the conditional frame, and the result buffer ends holding
    what the last region left in it (`outs 3 main_v20`). The segments, the chaining and the launch are the conditional
    frame's; the last valuation is read at the result buffer as well as at the arguments. -/
theorem value_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v20) = outs 3 main_v20 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨.rfl, hpre0 c, (hpost0 c).trans (hpre1 c), (hpost1 c).trans (sep_mono .rfl (hE2 c))⟩)
    (hinit := ?_) (QY := fun c s => s.mem ((c.tc : Thread nD τ).loc main_v20) = outs 3 main_v20 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are held at the launch contents; the rest makes the first thread state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨(h (Proc.devRef .tc main_v20) (Finset.mem_filter.mpr ⟨StableHlo.devRef_mem_tcRefs main_v20, by decide⟩)).trans (V3_main_v20 m outs c),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c),
        (h (Proc.devRef .tc main_arg4) (Finset.mem_filter.mpr ⟨StableHlo.devRef_mem_tcRefs main_arg4, by decide⟩)).trans (V3_main_arg4 m outs c),
        (h (Proc.devRef .tc main_arg5) (Finset.mem_filter.mpr ⟨StableHlo.devRef_mem_tcRefs main_arg5, by decide⟩)).trans (V3_main_arg5 m outs c),
        (h (Proc.devRef .tc main_arg6) (Finset.mem_filter.mpr ⟨StableHlo.devRef_mem_tcRefs main_arg6, by decide⟩)).trans (V3_main_arg6 m outs c),
        (h (Proc.devRef .tc main_arg7) (Finset.mem_filter.mpr ⟨StableHlo.devRef_mem_tcRefs main_arg7, by decide⟩)).trans (V3_main_arg7 m outs c),
        (h (Proc.devRef .tc main_arg8) (Finset.mem_filter.mpr ⟨StableHlo.devRef_mem_tcRefs main_arg8, by decide⟩)).trans (V3_main_arg8 m outs c),
        (h (Proc.devRef .tc main_arg9) (Finset.mem_filter.mpr ⟨StableHlo.devRef_mem_tcRefs main_arg9, by decide⟩)).trans (V3_main_arg9 m outs c),
        (h (Proc.devRef .tc main_arg10) (Finset.mem_filter.mpr ⟨StableHlo.devRef_mem_tcRefs main_arg10, by decide⟩)).trans (V3_main_arg10 m outs c)⟩
    · iexact HSI

end Cert.KernelIdeal.Gen2

end
-- ==== Proof.KFrame.lean ====
import proofs.«124299_j40209483825381_1_alg».proof.Proof.Gen.KernelIdeal.Launch
import proofs.«124299_j40209483825381_1_alg».proof.Proof.Gen.KernelIdeal.Skeleton
import proofs.«124299_j40209483825381_1_alg».proof.Proof.Gen.KernelIdeal.Points
import proofs.«124299_j40209483825381_1_alg».proof.Proof.Gen.KernelIdeal.Regions
import proofs.«124299_j40209483825381_1_alg».proof.Proof.K0
import proofs.«124299_j40209483825381_1_alg».proof.Proof.K1
import proofs.«124299_j40209483825381_1_alg».proof.Proof.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! # The two regions as segments of @main, and the run

Between two items of @main a core holds every unscoped buffer whole: at the launch contents, then after the host
operations, then with the first region's three results at what its write-backs left, then with the second region's
result likewise. Beside the buffers rides the core's generator register at some state and its `owes`, at nothing. -/

section Run

variable (m : (ℓ : Loc nD τ sig) → Buf (Elt F) ℓ)

/-- The first region's entry contents, read at the TensorCore's references. -/
abbrev VA (c : Dev nD) (b : Ref sig .tc) : Buf (Elt F) ((c : Thread nD τ).loc b) := V1 m c b

/-- What the first region leaves: its three results at the write-backs' fold, every other buffer as entered. -/
def T2 (c : Dev nD) : Valuation τ sig (Elt F) :=
  Function.update (Function.update (Function.update (V1 m c) main_v19_0 ((dat0 (VA m) c).arrAt 8 cfg0.N))
    main_v19_1 ((dat0 (VA m) c).arrAt 9 cfg0.N)) main_v19_2 ((dat0 (VA m) c).arrAt 10 cfg0.N)

/-- The regions' results so far: the first region's. -/
def outsA : Outs (F := F) := fun _ r c => T2 m c r

/-- The second region's entry contents, read at the TensorCore's references. -/
abbrev VB (c : Dev nD) (b : Ref sig .tc) : Buf (Elt F) ((c : Thread nD τ).loc b) := V2 m (outsA m) c b

/-- What the second region leaves: its result at the write-backs' fold, every other buffer as entered. -/
def T3 (c : Dev nD) : Valuation τ sig (Elt F) :=
  Function.update (V2 m (outsA m) c) main_v20 ((dat1 (VB m) c).arrAt 10 cfg1.N)

/-- What the regions leave in the buffers they may change. -/
def outs : Outs (F := F) := fun J r c => if J = 2 then T2 m c r else T3 m c r

theorem outs_two (r : Ref sig .tc) (c : Dev nD) : outs m 2 r c = T2 m c r := if_pos rfl
theorem outs_three (r : Ref sig .tc) (c : Dev nD) : outs m 3 r c = T3 m c r := if_neg (by decide)

theorem V2_outs (c : Dev nD) : V2 m (outs m) c = V2 m (outsA m) c := by
  simp only [V2, outs_two, outsA]

theorem T2_0 (c : Dev nD) : T2 m c main_v19_0 = (dat0 (VA m) c).arrAt 8 cfg0.N := by
  unfold T2
  rw [Function.update_of_ne (StableHlo.devRef_ne_of_ne (by decide) : (Proc.devRef .tc main_v19_0 : DevRef τ sig) ≠ Proc.devRef .tc main_v19_2),
    Function.update_of_ne (StableHlo.devRef_ne_of_ne (by decide) : (Proc.devRef .tc main_v19_0 : DevRef τ sig) ≠ Proc.devRef .tc main_v19_1),
    Function.update_self]
theorem T2_1 (c : Dev nD) : T2 m c main_v19_1 = (dat0 (VA m) c).arrAt 9 cfg0.N := by
  unfold T2
  rw [Function.update_of_ne (StableHlo.devRef_ne_of_ne (by decide) : (Proc.devRef .tc main_v19_1 : DevRef τ sig) ≠ Proc.devRef .tc main_v19_2),
    Function.update_self]
theorem T2_2 (c : Dev nD) : T2 m c main_v19_2 = (dat0 (VA m) c).arrAt 10 cfg0.N := by
  unfold T2
  rw [Function.update_self]

/-- The second valuation at the first region's results. -/
theorem V2_0 (c : Dev nD) : V2 m (outs m) c main_v19_0 = (dat0 (VA m) c).arrAt 8 cfg0.N := by
  simp only [V2, outs_two]
  rw [Function.update_of_ne (StableHlo.devRef_ne_of_ne (by decide) : (Proc.devRef .tc main_v19_0 : DevRef τ sig) ≠ Proc.devRef .tc main_v19_2),
    Function.update_of_ne (StableHlo.devRef_ne_of_ne (by decide) : (Proc.devRef .tc main_v19_0 : DevRef τ sig) ≠ Proc.devRef .tc main_v19_1),
    Function.update_self, T2_0]
theorem V2_1 (c : Dev nD) : V2 m (outs m) c main_v19_1 = (dat0 (VA m) c).arrAt 9 cfg0.N := by
  simp only [V2, outs_two]
  rw [Function.update_of_ne (StableHlo.devRef_ne_of_ne (by decide) : (Proc.devRef .tc main_v19_1 : DevRef τ sig) ≠ Proc.devRef .tc main_v19_2),
    Function.update_self, T2_1]
theorem V2_2 (c : Dev nD) : V2 m (outs m) c main_v19_2 = (dat0 (VA m) c).arrAt 10 cfg0.N := by
  simp only [V2, outs_two]
  rw [Function.update_self, T2_2]

/-- The last valuation at the second region's result. -/
theorem V3_result (c : Dev nD) : V3 m (outs m) c main_v20 = (dat1 (VB m) c).arrAt 10 cfg1.N := by
  rw [V3_main_v20, outs_three]
  unfold T3
  rw [Function.update_self]

end Run

/-! ## The proof data family, the thread state, and the regions as segments -/

section Segments

variable (m : (ℓ : Loc nD τ sig) → Buf (Elt F) ℓ)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state and its `owes`,
    at nothing. -/
abbrev Rr (c : Dev nD) : sProp 𝕄 := iprop((∃ r, prngReg c r) ∗ ∃ W, owes (c : Thread nD τ) (0 : CellTallies nD τ sig Unit) W)
abbrev Er : Fin 3 → Dev nD → sProp 𝕄 := fun _ c => Rr c

/-! ### The first region -/

theorem hF0 (c : Dev nD) (w : Fin cfg0.W) :
    (pdats m 0 c).arrAt w cfg0.N = (fun b : Ref sig .tc => (V2 m (outs m) c b : Buf (Elt F) ((c : Thread nD τ).loc b))) (Pipeline.arrRef spec0 w) := by
  have hin : ∀ (w : Fin cfg0.W) (hw : (cfg0.win w).isOut = false) (hne : Pipeline.arrRef spec0 w ∉ ([main_v19_0, main_v19_1, main_v19_2] : List (Ref sig .tc))),
      (pdats m 0 c).arrAt w cfg0.N = V2 m (outs m) c (Pipeline.arrRef spec0 w) := fun w hw hne =>
    (((pdats m 0 c).arrAt_in w hw _).trans (A_eq0 (VA m) c w)).trans (V2_of m (outs m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact (V2_0 m c).symm
  | ⟨9, _⟩ => exact (V2_1 m c).symm
  | ⟨10, _⟩ => exact (V2_2 m c).symm

theorem hrest0 (c : Dev nD) : ∀ b : Ref sig .tc, b ∉ Finset.univ.image (Pipeline.arrRef spec0) →
    (V2 m (outs m) c b : Buf (Elt F) ((c : Thread nD τ).loc b)) = VA m c b := fun b hb =>
  V2_of m (outs m) c b (fun hmem => hb (by
    simp only [List.mem_cons, List.mem_nil_iff, or_false] at hmem
    rcases hmem with rfl | rfl | rfl
    · exact Finset.mem_image.mpr ⟨8, Finset.mem_univ _, rfl⟩
    · exact Finset.mem_image.mpr ⟨9, Finset.mem_univ _, rfl⟩
    · exact Finset.mem_image.mpr ⟨10, Finset.mem_univ _, rfl⟩))

set_option backward.isDefEq.respectTransparency.types false in
/-- THE FIRST REGION over the thread state: entered from every unscoped buffer after the host operations, left with
    its three results at the write-backs' fold. Its arrays split out of the unscoped buffers and put back at the exit
    contents; the generator register into the invariant and out; nothing owed; no semaphore of the kernel's own. -/
def reg0 : RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) (A_eq0 (VA m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (VA m) c)
    unfold Pipeline.ΦA
    iintro ⟨Hp, -, Hr⟩
    isplitl [Hr]; · iexact Hr
    iexact Hp
  hout c := by
    refine (hout0 (VA m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Segments

/-! ### The second region: one array read through two windows -/

section Segments2

variable (m : (ℓ : Loc nD τ sig) → Buf (Elt F) ℓ)

/-- The second region's exit contents, read at the TensorCore's references. -/
abbrev VC (c : Dev nD) (b : Ref sig .tc) : Buf (Elt F) ((c : Thread nD τ).loc b) := V3 m (outs m) c b

theorem VC_of_ne (c : Dev nD) (b : Ref sig .tc) (hb : b ≠ main_v20) : VC m c b = VB m c b := by
  show V3 m (outs m) c b = V2 m (outsA m) c b
  rw [V3_of m (outs m) c b (by simp only [List.mem_singleton]; exact hb), V2_outs]

/-- The buffers no window of the second region stages are as the region found them. -/
theorem rest1_congr (c : Dev nD) :
    (Pipeline.unscopedRest (Ix := Unit) (Name := ℕ) (U := UR sig nD τ) (Lvl := ℕ) spec1 c (VC m c) : sProp 𝕄)
      = Pipeline.unscopedRest (Ix := Unit) (Name := ℕ) (U := UR sig nD τ) (Lvl := ℕ) spec1 c (VB m c) := by
  unfold Pipeline.unscopedRest
  exact bigSep_congr fun b hb => by
    rw [VC_of_ne m c b (fun h => (Finset.mem_sdiff.mp hb).2 (h ▸ Finset.mem_image.mpr ⟨10, Finset.mem_univ _, rfl⟩))]

set_option backward.isDefEq.respectTransparency.types false in
/-- THE SECOND REGION over the thread state: entered from the first region's exit contents, left with its result at
    the write-backs' fold. The ten buffers behind its eleven windows split out of the unscoped buffers — the mask's in
    two halves — and put back; the generator register into the invariant and out; nothing owed. -/
def reg1 : RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ Lz lvz 1 fun _ _ => rfl
  pre c := iprop(StableHlo.held (c : Thread nD τ) (Pipeline.ucRefs τ sig) (V2 m (outs m) c) ∗ Rr c)
  post c := iprop(StableHlo.held (c : Thread nD τ) (Pipeline.ucRefs τ sig) (V3 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V2_outs]
    have hsplit : (unscopedBufs c (VB m c) : sProp 𝕄)
        ⊢ iprop((pdats m 1 c).arrays ((pdats m 1 c).arrAt · 0) ∗ Pipeline.unscopedRest (Ix := Unit) (Name := ℕ) (U := UR sig nD τ) (Lvl := ℕ) spec1 c (VB m c)) := by
      rw [Pipeline.unscopedBufs_split₀ cfgs 1 winFacts₀1.arr_unscoped c (VB m c)]
      exact sep_mono (arrays_of_arrBufs1 (VB m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (VB m c))
        ⊢ (unscopedBufs c (VC m c) : sProp 𝕄) :=
      (BI.sep_mono (arrBufs_of_arrays1 (VB m) c (VC m c) (fun b hb => VC_of_ne m c b hb) (V3_result m c)) (Entails.of_eq (rest1_congr m c).symm)).trans
        (Entails.of_eq (Pipeline.unscopedBufs_split₀ cfgs 1 winFacts₀1.arr_unscoped c (VC m c)).symm)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, the frame and the run with its result -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (Er (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (Er (F := F) 0) : sProp 𝕄) :=
    bigSep_mono fun c _ => (show (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ Rr (F := F) c from by
      iintro ⟨-, HO, -, Hp, -⟩
      isplitl [Hp]; · iexists _; iexact Hp
      iexists ∅; iexact HO)
  iintro ⟨H, -⟩
  imodintro
  iapply hmono
  iexact H

theorem hE2 (c : Dev nD) : Er (F := F) 2 c ⊢ (iprop(∃ W, owes (c : Thread nD τ) (0 : CellTallies nD τ sig Unit) W) : sProp 𝕄) := by
  iintro ⟨-, H⟩; iexact H

/-- THE FRAME, at any float instance: every weakly fair execution of @main terminates without a fault and leaves the
    argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () 𝒱₀ Lz lvz (fun _ _ => rfl) ρ (outs m) (pdats m) 0 (fun _ => iprop(emp))
    (initOf (Pipeline.cells cfgs cellOf_inj) (Pipeline.launchToks cfgs cellOf_inj)) hu₀ Er (hE0 ρ) hE2
    (reg0 m) (fun _ => .rfl) (fun _ => .rfl) (reg1 m) (fun _ => .rfl) (fun _ => .rfl)

/-- THE RUN WITH ITS RESULT: moreover the result buffer ends at the fold of the second region's write-backs. -/
theorem run_value (ρ : Dev nD → PrngReg) : θ_run defs (onTc (τ := τ) (main (F := F))) ⟨m, fun _ => 0, ρ⟩ (fun r => ∀ c : Dev nD,
      r.2.mem ((c.tc : Thread nD τ).loc main_v20) = (dat1 (VB m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans ((V3_main_v20 m (outs m) c).symm.trans (V3_result m c)), (h c).2⟩)
    (value_cond m emb₁ () 𝒱₀ Lz lvz (fun _ _ => rfl) ρ (outs m) (pdats m) 0 (fun _ => iprop(emp))
      (initOf (Pipeline.cells cfgs cellOf_inj) (Pipeline.launchToks cfgs cellOf_inj)) hu₀ Er (hE0 ρ) hE2
      (reg0 m) (fun _ => .rfl) (fun _ => .rfl) (reg1 m) (fun _ => .rfl) (fun _ => .rfl))

end Segments2

end Cert.KernelIdeal.Gen2

end
-- ==== Proof.Bits.K0Pre.lean ====
import proofs.«124299_j40209483825381_1_alg».proof.Proof.Gen.Kernel.Launch
import proofs.«124299_j40209483825381_1_alg».proof.Proof.Gen.Kernel.Skeleton
import proofs.«124299_j40209483825381_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's region: the projections and the running maximum over the 3 length tiles

Eleven windows — the two activations' tiles, the five weight matrices and the bias (fetched once), the two projections'
tiles (written back at every point) and the global term (written back at the last point only) — and one scratch
buffer, which carries the running maximum from point to point. -/

section Region0Pre

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input window's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions over the grid -/

/-- The first condition (the scratch is reset): the scalar chain of the body's first `scf.if`. -/
abbrev condA (i : grid0.Coords) : Prop := (Scalar.cmpi .ne (Scalar.extui (Scalar.cmpi .eq (BitVec.ofNat 32 (i 0).val) 0#32)) 0#32) = 1#1
/-- It holds at the first point only. -/
theorem hcondA : ∀ t : Fin cfg0.N, condA (grid0.coords t) ↔ t.val = 0 :=
  (by decide +kernel : ∀ t : Fin grid0.N, condA (grid0.coords t) ↔ t.val = 0)
/-- The second condition (the global term is computed and stored). -/
abbrev condC (i : grid0.Coords) : Prop := k0_cond2 i = 1#1
/-- It holds at the last point only. -/
theorem hcondC : ∀ t : Fin cfg0.N, condC (grid0.coords t) ↔ t.val = 2 :=
  (by decide +kernel : ∀ t : Fin grid0.N, condC (grid0.coords t) ↔ t.val = 2)

/-! ## Where the global term's window is idle -/

theorem liveAt0 (w : Fin cfg0.W) (hw : w ≠ 10) : ∀ t : Fin cfg0.N, cfg0.idle w (grid0.coords t) = false := by
  revert w; decide +kernel
theorem idleAt0_10 : ∀ t : Fin cfg0.N, t.val ≠ 2 → cfg0.idle 10 (grid0.coords t) = true := by decide +kernel
theorem noFlush0_10 : ∀ t : Fin cfg0.N, t.val ≠ 2 → (cfg0.win 10).flush t = false := by decide +kernel
theorem liveAt0_10 : ∀ t : Fin cfg0.N, t.val = 2 → cfg0.idle 10 (grid0.coords t) = false := by decide +kernel

/-- The scratch operand: a whole scoped buffer of the kernel's own, passed beside the windows. -/
abbrev scM : Memref sig .tc .vmem S4x768 .f32 := Memref.whole cc0_scratch0

end Region0Pre

end Cert.Kernel.Gen2

end
-- ==== Proof.Bits.Body0.lean ====
import proofs.«124299_j40209483825381_1_alg».proof.Proof.Gen.Kernel.Launch
import proofs.«124299_j40209483825381_1_alg».proof.Proof.Gen.Kernel.Skeleton
import proofs.«124299_j40209483825381_1_alg».proof.Proof.Gen.Kernel.Points
import Idealize.ShloMosaic.Lib.Pipeline.FrameBody
import Idealize.ShloMosaic.Lib.Ring
import Idealize.ShloMosaic.Lib.Tactic

-- membership in a rectangle of large extents: the elaborator's structural look recurses once per coordinate of
-- the long axes
set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's body: a running maximum in a scratch block, per control case -/

/-! ## The body's accesses: every load and every store takes the whole block -/

abbrev rX : Rect S64x4x768 := Rect.unit (s := S64x4x768) ![0, 0, 0] S64x4x768.size inb_S64x4x768_S64x4x768_0_0_0
abbrev rW : Rect S768x768 := Rect.unit (s := S768x768) ![0, 0] S768x768.size inb_S768x768_S768x768_0_0
abbrev rV : Rect S768 := Rect.unit (s := S768) ![0] S768.size inb_S768_S768_0
abbrev rS : Rect S4x768 := Rect.unit (s := S4x768) ![0, 0] S4x768.size inb_S4x768_S4x768_0_0

/-! ## The body's two branch conditions, from the grid coordinate -/

/-- The condition of the first branch (the scratch block is filled with -inf): the grid coordinate is 0. -/
abbrev cond0_0 (i : grid0.Coords) : Prop :=
  (Scalar.cmpi .ne (Scalar.extui (Scalar.cmpi .eq (BitVec.ofNat 32 (i 0).val) 0#32)) 0#32) = 1#1
/-- The condition of the last branch (the projected maximum is stored): the grid coordinate is 2. -/
abbrev cond0_1 (i : grid0.Coords) : Prop := k0_cond2 i = 1#1

theorem cond0_0_of_zero (i : grid0.Coords) (hi : (i 0).val = 0) : cond0_0 i := by
  unfold cond0_0; rw [hi]; decide
theorem not_cond0_0_of_one (i : grid0.Coords) (hi : (i 0).val = 1) : ¬ cond0_0 i := by
  unfold cond0_0; rw [hi]; decide
theorem not_cond0_0_of_two (i : grid0.Coords) (hi : (i 0).val = 2) : ¬ cond0_0 i := by
  unfold cond0_0; rw [hi]; decide
theorem not_cond0_1_of_zero (i : grid0.Coords) (hi : (i 0).val = 0) : ¬ cond0_1 i := by
  unfold cond0_1 k0_cond2; rw [hi]; decide
theorem not_cond0_1_of_one (i : grid0.Coords) (hi : (i 0).val = 1) : ¬ cond0_1 i := by
  unfold cond0_1 k0_cond2; rw [hi]; decide
theorem cond0_1_of_two (i : grid0.Coords) (hi : (i 0).val = 2) : cond0_1 i := by
  unfold cond0_1 k0_cond2; rw [hi]; decide

/-! ## What the body leaves in each block it stores into -/

/-- The first output block after the body: its one store as a piece. -/
def out0_8 (x0 : Vec F S64x4x768 .bf16) (x5 : Vec F S768x768 .bf16) : Vec F S64x4x768 .f32 :=
  View.canon [⟨rX, k0_pay6 (View.ld x0 rX) (View.ld x5 rW)⟩]

/-- The second output block after the body: its one store as a piece. -/
def out0_9 (x0 : Vec F S64x4x768 .bf16) (x6 : Vec F S768x768 .bf16) : Vec F S64x4x768 .f32 :=
  View.canon [⟨rX, k0_pay7 (View.ld x0 rX) (View.ld x6 rW)⟩]

/-- The point's own value block: the hyperbolic tangent of the two projections' sum plus the bias. -/
abbrev val0 (x0 x1 : Vec F S64x4x768 .bf16) (x2 x3 : Vec F S768x768 .bf16) (x4 : Vec F S768 .f32) : FVec F S64x4x768 .f32 :=
  k0_pay5 (View.ld x0 rX) (View.ld x1 rX) (View.ld x2 rW) (View.ld x3 rW) (View.ld x4 rV)

/-- The scratch block after the body at a point that finds it at contents `s`: the maximum of `s` and the
    point's value block along the leading axis, stored over the whole block. -/
def sc_B (x0 x1 : Vec F S64x4x768 .bf16) (x2 x3 : Vec F S768x768 .bf16) (x4 : Vec F S768 .f32) (s : Vec F S4x768 .f32) :
    Vec F S4x768 .f32 :=
  View.canon [⟨rS, k0_pay1 (val0 x0 x1 x2 x3 x4) (View.ld s rS)⟩]

/-- The scratch block once the first branch has filled it with -inf. -/
def sc_init : Vec F S4x768 .f32 := View.canon [⟨rS, k0_pay3 (F := F)⟩]

/-- The scratch block after the body at the first point: filled with -inf, then the running maximum of that. -/
def sc_A (x0 x1 : Vec F S64x4x768 .bf16) (x2 x3 : Vec F S768x768 .bf16) (x4 : Vec F S768 .f32) : Vec F S4x768 .f32 :=
  sc_B x0 x1 x2 x3 x4 sc_init

/-- The third output block after the body at the last point, from the scratch block `sc` the body's own store
    left: the projection of the running maximum. -/
def out0_10 (x7 : Vec F S768x768 .bf16) (sc : Vec F S4x768 .f32) : Vec F S4x768 .f32 :=
  View.canon [⟨rS, k0_pay2 (View.ld x7 rW) (View.ld sc rS)⟩]

/-- A store of a whole block covers it (checked by evaluation). -/
theorem coverX (p0 : Vec F S64x4x768 .f32) (y : S64x4x768.Idx) :
    ∃ pc ∈ ([⟨rX, p0⟩] : List (View.Piece (Elt F) S64x4x768 .f32)), y ∈ pc.1.set :=
  View.cover_of_tiled [⟨rX, p0⟩] S64x4x768.size (by rfl) y
theorem coverS (p0 : Vec F S4x768 .f32) (y : S4x768.Idx) :
    ∃ pc ∈ ([⟨rS, p0⟩] : List (View.Piece (Elt F) S4x768 .f32)), y ∈ pc.1.set :=
  View.cover_of_tiled [⟨rS, p0⟩] S4x768.size (by rfl) y
/-- So does a second whole-block store over a first. -/
theorem coverS2 (p0 p1 : Vec F S4x768 .f32) (y : S4x768.Idx) :
    ∃ pc ∈ ([⟨rS, p0⟩, ⟨rS, p1⟩] : List (View.Piece (Elt F) S4x768 .f32)), y ∈ pc.1.set :=
  ⟨⟨rS, p0⟩, List.mem_cons_self, by
    obtain ⟨pc, hm, hy⟩ := coverS p0 y
    rcases List.mem_singleton.mp hm with rfl
    exact hy⟩

/-- Under a later whole-block store, an earlier one is not read: the canon of the two is the canon of the later. -/
theorem canon_two (p0 p1 : Vec F S4x768 .f32) :
    View.canon ([⟨rS, p0⟩, ⟨rS, p1⟩] : List (View.Piece (Elt F) S4x768 .f32)) = View.canon [⟨rS, p0⟩] := by
  funext y
  obtain ⟨pc, hm, hy⟩ := coverS p0 y
  rcases List.mem_singleton.mp hm with rfl
  obtain ⟨x, rfl⟩ : ∃ x, rS.emb x = y := rS.exists_idx_of_mem hy
  rw [View.canon_cons_emb, View.canon_cons_emb]

/-! ## The body's triples, one per control case

Each on whole memrefs: the eight inputs' at read contents `xW` (any share) and handed back as they were, the first
two outputs' at anything and handed back at `out0_8`, `out0_9`. -/

set_option maxHeartbeats 1000000 in
/-- CASE A (the first branch taken, the last not: the first grid point). The scratch block comes in at anything and
    goes out filled with -inf and then maximized (`sc_A`); the third output is not touched. -/
theorem sound_kernel0_A (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hc0 : cond0_0 i) (hc1 : ¬ cond0_1 i)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (y : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ owns (c : Thread nD τ) arg11 fullShare y ∗ (∃ d, owns (c : Thread nD τ) arg12 fullShare d)
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare y ∗ owns (c : Thread nD τ) arg12 fullShare (sc_A x0 x1 x2 x3 x4)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, ⟨%f10, %hf10, H10⟩, ⟨%d11, %f11, -, H11⟩, Hk⟩
  subst hf0 hf1 hf2 hf3 hf4 hf5 hf6 hf7 hf10
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverX _)
  isplitl [H9]
  · iexists _; isplitr
    swap; · iexact H9
    ipureintro
    exact View.read_writes_eq_canon _ _ _ (coverX _)
  isplitl [H10]
  · iexists f10; isplitr; · ipureintro; rfl
    iexact H10
  iexists _; isplitr
  swap; · iexact H11
  ipureintro
  sl_unfold_run_names
  rw [View.read_writes_eq_canon _ _ _ (coverS2 _ _), canon_two, View.readCov_eq_canon_ld _ _ rS (coverS _)]
  rfl

set_option maxHeartbeats 1000000 in
/-- CASE B (neither branch taken: a middle grid point). The scratch block comes in at contents `s` and goes out
    maximized (`sc_B … s`); the third output is not touched. -/
theorem sound_kernel0_B (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hc0 : ¬ cond0_0 i) (hc1 : ¬ cond0_1 i)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (y s : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ owns (c : Thread nD τ) arg11 fullShare y ∗ owns (c : Thread nD τ) arg12 fullShare s
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare y ∗ owns (c : Thread nD τ) arg12 fullShare (sc_B x0 x1 x2 x3 x4 s)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, ⟨%f10, %hf10, H10⟩, ⟨%f11, %hf11, H11⟩, Hk⟩
  subst hf0 hf1 hf2 hf3 hf4 hf5 hf6 hf7 hf10 hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverX _)
  isplitl [H9]
  · iexists _; isplitr
    swap; · iexact H9
    ipureintro
    exact View.read_writes_eq_canon _ _ _ (coverX _)
  isplitl [H10]
  · iexists f10; isplitr; · ipureintro; rfl
    iexact H10
  iexists _; isplitr
  swap; · iexact H11
  ipureintro
  sl_unfold_run_names
  exact View.read_writes_eq_canon _ _ _ (coverS _)

set_option maxHeartbeats 1000000 in
/-- CASE C (the last branch taken, the first not: the last grid point). The scratch block comes in at contents `s`
    and goes out maximized (`sc_B … s`); the third output comes in at anything and goes out at the projection of
    that maximum (`out0_10`). -/
theorem sound_kernel0_C (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hc0 : ¬ cond0_0 i) (hc1 : cond0_1 i)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (s : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ (∃ d, owns (c : Thread nD τ) arg11 fullShare d) ∗ owns (c : Thread nD τ) arg12 fullShare s
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare (out0_10 x7 (sc_B x0 x1 x2 x3 x4 s)) ∗ owns (c : Thread nD τ) arg12 fullShare (sc_B x0 x1 x2 x3 x4 s)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%d8, %f8, -, H8⟩, ⟨%d9, %f9, -, H9⟩, ⟨%d10, %f10, -, H10⟩, ⟨%f11, %hf11, H11⟩, Hk⟩
  subst hf0 hf1 hf2 hf3 hf4 hf5 hf6 hf7 hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverX _)
  isplitl [H9]
  · iexists _; isplitr
    swap; · iexact H9
    ipureintro
    exact View.read_writes_eq_canon _ _ _ (coverX _)
  isplitl [H10]
  · iexists _; isplitr
    swap; · iexact H10
    ipureintro
    sl_unfold_run_names
    rw [View.read_writes_eq_canon _ _ _ (coverS _), View.readCov_eq_canon_ld _ _ rS (coverS _)]
    rfl
  iexists _; isplitr
  swap; · iexact H11
  ipureintro
  sl_unfold_run_names
  exact View.read_writes_eq_canon _ _ _ (coverS _)

/-! ## The same three triples from the grid coordinate's value -/

/-- Case A at the first grid point, from the coordinate's value. -/
theorem sound_kernel0_at0 (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hi : (i 0).val = 0)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (y : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ owns (c : Thread nD τ) arg11 fullShare y ∗ (∃ d, owns (c : Thread nD τ) arg12 fullShare d)
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare y ∗ owns (c : Thread nD τ) arg12 fullShare (sc_A x0 x1 x2 x3 x4)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K :=
  sound_kernel0_A c E i arg1 harg1 arg2 harg2 arg3 harg3 arg4 harg4 arg5 harg5 arg6 harg6 arg7 harg7 arg8 harg8
    arg9 harg9 arg10 harg10 arg11 harg11 arg12 harg12
    (cond0_0_of_zero i hi) (not_cond0_1_of_zero i hi) q0 q1 q2 q3 q4 q5 q6 q7 x0 x1 x2 x3 x4 x5 x6 x7 y K

/-- Case B at the middle grid point, from the coordinate's value. -/
theorem sound_kernel0_at1 (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hi : (i 0).val = 1)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (y s : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ owns (c : Thread nD τ) arg11 fullShare y ∗ owns (c : Thread nD τ) arg12 fullShare s
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare y ∗ owns (c : Thread nD τ) arg12 fullShare (sc_B x0 x1 x2 x3 x4 s)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K :=
  sound_kernel0_B c E i arg1 harg1 arg2 harg2 arg3 harg3 arg4 harg4 arg5 harg5 arg6 harg6 arg7 harg7 arg8 harg8
    arg9 harg9 arg10 harg10 arg11 harg11 arg12 harg12
    (not_cond0_0_of_one i hi) (not_cond0_1_of_one i hi) q0 q1 q2 q3 q4 q5 q6 q7 x0 x1 x2 x3 x4 x5 x6 x7 y s K

/-- Case C at the last grid point, from the coordinate's value. -/
theorem sound_kernel0_at2 (c : Dev nD) (E : Set ℕ) (i : grid0.Coords)
    (arg1 : Memref sig .tc .vmem S64x4x768 .bf16) (harg1 : arg1.IsWhole) (arg2 : Memref sig .tc .vmem S64x4x768 .bf16) (harg2 : arg2.IsWhole)
    (arg3 : Memref sig .tc .vmem S768x768 .bf16) (harg3 : arg3.IsWhole) (arg4 : Memref sig .tc .vmem S768x768 .bf16) (harg4 : arg4.IsWhole)
    (arg5 : Memref sig .tc .vmem S768 .f32) (harg5 : arg5.IsWhole) (arg6 : Memref sig .tc .vmem S768x768 .bf16) (harg6 : arg6.IsWhole)
    (arg7 : Memref sig .tc .vmem S768x768 .bf16) (harg7 : arg7.IsWhole) (arg8 : Memref sig .tc .vmem S768x768 .bf16) (harg8 : arg8.IsWhole)
    (arg9 : Memref sig .tc .vmem S64x4x768 .f32) (harg9 : arg9.IsWhole) (arg10 : Memref sig .tc .vmem S64x4x768 .f32) (harg10 : arg10.IsWhole)
    (arg11 : Memref sig .tc .vmem S4x768 .f32) (harg11 : arg11.IsWhole) (arg12 : Memref sig .tc .vmem S4x768 .f32) (harg12 : arg12.IsWhole)
    (hi : (i 0).val = 2)
    (q0 q1 q2 q3 q4 q5 q6 q7 : PosShare TreeShare)
    (x0 x1 : Vec F S64x4x768 .bf16) (x2 x3 : Vec F S768x768 .bf16) (x4 : Vec F S768 .f32) (x5 x6 x7 : Vec F S768x768 .bf16) (s : Vec F S4x768 .f32) (K : PUnit → sProp 𝕄) :
    iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
        ∗ (∃ d, owns (c : Thread nD τ) arg9 fullShare d) ∗ (∃ d, owns (c : Thread nD τ) arg10 fullShare d)
        ∗ (∃ d, owns (c : Thread nD τ) arg11 fullShare d) ∗ owns (c : Thread nD τ) arg12 fullShare s
        ∗ (iprop(owns (c : Thread nD τ) arg1 q0 x0 ∗ owns (c : Thread nD τ) arg2 q1 x1 ∗ owns (c : Thread nD τ) arg3 q2 x2 ∗ owns (c : Thread nD τ) arg4 q3 x3 ∗ owns (c : Thread nD τ) arg5 q4 x4 ∗ owns (c : Thread nD τ) arg6 q5 x5 ∗ owns (c : Thread nD τ) arg7 q6 x6 ∗ owns (c : Thread nD τ) arg8 q7 x7
            ∗ owns (c : Thread nD τ) arg9 fullShare (out0_8 x0 x5) ∗ owns (c : Thread nD τ) arg10 fullShare (out0_9 x0 x6)
            ∗ owns (c : Thread nD τ) arg11 fullShare (out0_10 x7 (sc_B x0 x1 x2 x3 x4 s)) ∗ owns (c : Thread nD τ) arg12 fullShare (sc_B x0 x1 x2 x3 x4 s)) -∗ K ⟨⟩))
      ⊢ wp frame (wpE (defs₀ (F := F)) Variants.none c none) E
          (cc0__proj_kernel i arg1 harg1 arg2 harg2 arg3 harg3 arg4 harg4 arg5 harg5 arg6 harg6 arg7 harg7 arg8 harg8
            arg9 harg9 arg10 harg10 arg11 harg11 arg12 harg12) K :=
  sound_kernel0_C c E i arg1 harg1 arg2 harg2 arg3 harg3 arg4 harg4 arg5 harg5 arg6 harg6 arg7 harg7 arg8 harg8
    arg9 harg9 arg10 harg10 arg11 harg11 arg12 harg12
    (not_cond0_0_of_two i hi) (cond0_1_of_two i hi) q0 q1 q2 q3 q4 q5 q6 q7 x0 x1 x2 x3 x4 x5 x6 x7 s K

/-- The first point's scratch block is the later points' step from the -inf fill. -/
theorem sc_A_eq (x0 x1 : Vec F S64x4x768 .bf16) (x2 x3 : Vec F S768x768 .bf16) (x4 : Vec F S768 .f32) :
    sc_A x0 x1 x2 x3 x4 = sc_B x0 x1 x2 x3 x4 (sc_init (F := F)) := rfl

end Cert.Kernel.Gen2

end
-- ==== Proof.Bits.K0.lean ====
import proofs.«124299_j40209483825381_1_alg».proof.Proof.Bits.K0Pre
import proofs.«124299_j40209483825381_1_alg».proof.Proof.Bits.Body0

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first kernel's region: the proof data and the body obligation

The scratch block carries the running maximum from point to point, so the region's invariant names its contents after
every point; the third output's window is idle, and not written back, at every point but the last. -/

section Region0

-- the TensorCore's buffer contents when the region is entered
variable (V : (c : Dev nD) → (b : Ref sig .tc) → Buf (Elt F) ((c : Thread nD τ).loc b))

/-! ## The scratch block after each point -/

/-- The scratch block after the body at position `n`: at the first point the -inf fill maximized with the point's
    value block, afterwards what the point before left maximized with this point's. -/
def acc0 (c : Dev nD) : (n : ℕ) → n < cfg0.N → Vec F S4x768 .f32
  | 0, h => sc_A (iblk0 V c 0 ⟨0, h⟩) (iblk0 V c 1 ⟨0, h⟩) (iblk0 V c 2 ⟨0, h⟩) (iblk0 V c 3 ⟨0, h⟩) (iblk0 V c 4 ⟨0, h⟩)
  | n + 1, h => sc_B (iblk0 V c 0 ⟨n + 1, h⟩) (iblk0 V c 1 ⟨n + 1, h⟩) (iblk0 V c 2 ⟨n + 1, h⟩) (iblk0 V c 3 ⟨n + 1, h⟩) (iblk0 V c 4 ⟨n + 1, h⟩)
      (acc0 c n (Nat.lt_of_succ_lt h))

theorem acc0_zero (c : Dev nD) (t : Fin cfg0.N) (hz : t.val = 0) :
    acc0 V c t.val t.isLt = sc_A (iblk0 V c 0 t) (iblk0 V c 1 t) (iblk0 V c 2 t) (iblk0 V c 3 t) (iblk0 V c 4 t) := by
  obtain ⟨n, hn⟩ := t
  cases n with
  | zero => rfl
  | succ n => exact absurd hz (Nat.succ_ne_zero n)

theorem acc0_pos (c : Dev nD) (t : Fin cfg0.N) (hz : t.val ≠ 0) :
    acc0 V c t.val t.isLt = sc_B (iblk0 V c 0 t) (iblk0 V c 1 t) (iblk0 V c 2 t) (iblk0 V c 3 t) (iblk0 V c 4 t)
      (acc0 V c (t.val - 1) (Nat.lt_of_le_of_lt (Nat.sub_le _ _) t.isLt)) := by
  obtain ⟨n, hn⟩ := t
  cases n with
  | zero => exact absurd rfl hz
  | succ n => rfl

/-! ## The region's invariant: the scoped buffers with the scratch block named -/

/-- The core's scoped buffers that are neither a staging buffer of this kernel nor its scratch, each whole at some
    contents. -/
def restS0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg8_1), ((c : Thread nD τ).loc cc1_stg8_1) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg9_1), ((c : Thread nD τ).loc cc1_stg9_1) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg10_1), ((c : Thread nD τ).loc cc1_stg10_1) ↦{fullShare} f))

/-- The class's invariant with the scratch block as a memref owned at some contents. -/
theorem PhiA0_eq (c : Dev nD) :
    (Pipeline.ΦA spec0 c : sProp 𝕄)
      = iprop((iprop(∃ d, owns (c : Thread nD τ) scM fullShare d) ∗ restS0 (F := F) c) ∗ (∃ r, prngReg c r)) := by
  unfold Pipeline.ΦA restS0; rw [scopedRest0_eq]; simp only [scM, owns_whole]; try rfl

/-- The region invariant before position `n`: before the first point the class's (the scratch block at anything);
    afterwards the same with the scratch block at what the point before left in it. -/
def PhiS0 (c : Dev nD) : (n : ℕ) → n ≤ cfg0.N → sProp 𝕄
  | 0, _ => Pipeline.ΦA spec0 c
  | n + 1, hn => iprop((owns (c : Thread nD τ) scM fullShare (acc0 V c n hn) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM fullShare (acc0 V c n hn) ∗ restS0 (F := F) c) ∗ (∃ r, prngReg c r)) := rfl

theorem PhiS0_pos (c : Dev nD) (n : ℕ) (h : n ≤ cfg0.N) (hz : n ≠ 0) :
    PhiS0 V c n h = iprop((owns (c : Thread nD τ) scM fullShare (acc0 V c (n - 1) (by omega)) ∗ restS0 (F := F) c) ∗ (∃ r, prngReg c r)) := by
  cases n with
  | zero => exact absurd rfl hz
  | succ n => rfl

/-! ## The pipeline's proof data -/

/-- The proof data of the first pipeline on core `c`: the arrays as the region finds them; after the body each input's
    buffer at its block, the two projections' at their blocks' products, the third output's at the projection of the
    running maximum so far; the invariant with the scratch block named; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 5 t)
    | ⟨9, _⟩ => out0_9 (iblk0 V c 0 t) (iblk0 V c 6 t)
    | ⟨10, _⟩ => out0_10 (iblk0 V c 7 t) (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 5 t) := by dsimp only [dat0]
theorem after0_9 (c : Dev nD) (t : Fin cfg0.N) : (dat0 V c).after 9 t = out0_9 (iblk0 V c 0 t) (iblk0 V c 6 t) := by dsimp only [dat0]
theorem after0_10 (c : Dev nD) (t : Fin cfg0.N) : (dat0 V c).after 10 t = out0_10 (iblk0 V c 7 t) (acc0 V c t.val t.isLt) := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d
theorem before0_3 (c : Dev nD) (t : Fin cfg0.N) (d) : (dat0 V c).before 3 t d = iblk0 V c 3 t := before0_3_of V (dat0 V c) (A_eq0 V c 3) (after0_3 V c) t d
theorem before0_4 (c : Dev nD) (t : Fin cfg0.N) (d) : (dat0 V c).before 4 t d = iblk0 V c 4 t := before0_4_of V (dat0 V c) (A_eq0 V c 4) (after0_4 V c) t d
theorem before0_5 (c : Dev nD) (t : Fin cfg0.N) (d) : (dat0 V c).before 5 t d = iblk0 V c 5 t := before0_5_of V (dat0 V c) (A_eq0 V c 5) (after0_5 V c) t d
theorem before0_6 (c : Dev nD) (t : Fin cfg0.N) (d) : (dat0 V c).before 6 t d = iblk0 V c 6 t := before0_6_of V (dat0 V c) (A_eq0 V c 6) (after0_6 V c) t d
theorem before0_7 (c : Dev nD) (t : Fin cfg0.N) (d) : (dat0 V c).before 7 t d = iblk0 V c 7 t := before0_7_of V (dat0 V c) (A_eq0 V c 7) (after0_7 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 4000000 in
/-- The body at any point: the inputs' memrefs hold their blocks; the point's position says which control case it is
    in; the invariant hands the body the scratch block at what the point before left (at anything at the first point)
    and takes it back at this point's contents; the third output's buffer is handed back as found at the points that
    leave it idle; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0 0 (by decide) t], after0_0]
  rw [show (dat0 V c).leavesExact 1 t = owns (c : Thread nD τ) (st0_1 t) fullShare ((dat0 V c).after 1 t) from by
    unfold Dat.leavesExact; rw [liveAt0 1 (by decide) t], after0_1]
  rw [show (dat0 V c).leavesExact 2 t = owns (c : Thread nD τ) (st0_2 t) fullShare ((dat0 V c).after 2 t) from by
    unfold Dat.leavesExact; rw [liveAt0 2 (by decide) t], after0_2]
  rw [show (dat0 V c).leavesExact 3 t = owns (c : Thread nD τ) (st0_3 t) fullShare ((dat0 V c).after 3 t) from by
    unfold Dat.leavesExact; rw [liveAt0 3 (by decide) t], after0_3]
  rw [show (dat0 V c).leavesExact 4 t = owns (c : Thread nD τ) (st0_4 t) fullShare ((dat0 V c).after 4 t) from by
    unfold Dat.leavesExact; rw [liveAt0 4 (by decide) t], after0_4]
  rw [show (dat0 V c).leavesExact 5 t = owns (c : Thread nD τ) (st0_5 t) fullShare ((dat0 V c).after 5 t) from by
    unfold Dat.leavesExact; rw [liveAt0 5 (by decide) t], after0_5]
  rw [show (dat0 V c).leavesExact 6 t = owns (c : Thread nD τ) (st0_6 t) fullShare ((dat0 V c).after 6 t) from by
    unfold Dat.leavesExact; rw [liveAt0 6 (by decide) t], after0_6]
  rw [show (dat0 V c).leavesExact 7 t = owns (c : Thread nD τ) (st0_7 t) fullShare ((dat0 V c).after 7 t) from by
    unfold Dat.leavesExact; rw [liveAt0 7 (by decide) t], after0_7]
  rw [show (dat0 V c).leavesExact 8 t = owns (c : Thread nD τ) (st0_8 t) fullShare ((dat0 V c).after 8 t) from by
    unfold Dat.leavesExact; rw [liveAt0 8 (by decide) t], after0_8]
  rw [show (dat0 V c).leavesExact 9 t = owns (c : Thread nD τ) (st0_9 t) fullShare ((dat0 V c).after 9 t) from by
    unfold Dat.leavesExact; rw [liveAt0 9 (by decide) t], after0_9]
  have hN : t.val < 3 := lt_of_lt_of_eq t.isLt (show cfg0.N = 3 from N_0)
  by_cases hz : t.val = 0
  · -- the first point: the scratch block comes in at anything
    rw [Dat.leavesExact_idle (dat0 V c) 10 t (idleAt0_10 t (by omega)) (noFlush0_10 t (by omega))]
    rw [acc0_zero V c t hz]
    rw [PhiS0_castSucc V c t, PhiS0_zero V c _ _ hz, PhiA0_eq]
    iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_A c Set.univ (grid0.coords t) _ _ _ _ _ _ _ _ _ _ _ _ _ _ _ _ _ _ _ _ _ _ _ _
      ((hcondA t).mpr hz) (fun h => by have := (hcondC t).mp h; omega) fullShare fullShare fullShare fullShare fullShare fullShare fullShare fullShare
      (iblk0 V c 0 t) (iblk0 V c 1 t) (iblk0 V c 2 t) (iblk0 V c 3 t) (iblk0 V c 4 t) (iblk0 V c 5 t) (iblk0 V c 6 t) (iblk0 V c 7 t) ((dat0 V c).before 10 t d10) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS]; · iexact HS
    iintro ⟨H0, H1, H2, H3, H4, H5, H6, H7, H8, H9, H10, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · by_cases h2 : t.val = 2
    · -- the last point: the third output is stored
      rw [show (dat0 V c).leavesExact 10 t = owns (c : Thread nD τ) (st0_10 t) fullShare ((dat0 V c).after 10 t) from by
        unfold Dat.leavesExact; rw [liveAt0_10 t h2], after0_10]
      rw [acc0_pos V c t hz]
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel0_C c Set.univ (grid0.coords t) _ _ _ _ _ _ _ _ _ _ _ _ _ _ _ _ _ _ _ _ _ _ _ _
        (fun h => hz ((hcondA t).mp h)) ((hcondC t).mpr h2) fullShare fullShare fullShare fullShare fullShare fullShare fullShare fullShare
        (iblk0 V c 0 t) (iblk0 V c 1 t) (iblk0 V c 2 t) (iblk0 V c 3 t) (iblk0 V c 4 t) (iblk0 V c 5 t) (iblk0 V c 6 t) (iblk0 V c 7 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS]; · iexact HS
      iintro ⟨H0, H1, H2, H3, H4, H5, H6, H7, H8, H9, H10, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · -- a middle point: neither branch is taken
      rw [Dat.leavesExact_idle (dat0 V c) 10 t (idleAt0_10 t h2) (noFlush0_10 t h2)]
      rw [acc0_pos V c t hz]
      rw [PhiS0_castSucc V c t, PhiS0_pos V c _ _ hz]
      iintro ⟨⟨⟨HS, Hrest⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel0_B c Set.univ (grid0.coords t) _ _ _ _ _ _ _ _ _ _ _ _ _ _ _ _ _ _ _ _ _ _ _ _
        (fun h => hz ((hcondA t).mp h)) (fun h => h2 ((hcondC t).mp h)) fullShare fullShare fullShare fullShare fullShare fullShare fullShare fullShare
        (iblk0 V c 0 t) (iblk0 V c 1 t) (iblk0 V c 2 t) (iblk0 V c 3 t) (iblk0 V c 4 t) (iblk0 V c 5 t) (iblk0 V c 6 t) (iblk0 V c 7 t) ((dat0 V c).before 10 t d10) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      isplitl [HS]; · iexact HS
      iintro ⟨H0, H1, H2, H3, H4, H5, H6, H7, H8, H9, H10, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but none the invariant gives the class's back: the scratch block's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]; · iexists _; iexact HS
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 3 := N_0; omega)

end Region0

end Cert.Kernel.Gen2

end
-- ==== Proof.Bits.Body1.lean ====
import proofs.«124299_j40209483825381_1_alg».proof.Proof.Gen.Kernel.Launch
import proofs.«124299_j40209483825381_1_alg».proof.Proof.Gen.Kernel.Skeleton
import proofs.«124299_j40209483825381_1_alg».proof.Proof.Gen.Kernel.Points
import Idealize.ShloMosaic.Lib.Pipeline.FrameBody
import Idealize.ShloMosaic.Lib.Ring
import Idealize.ShloMosaic.Lib.Tactic

-- membership in a rectangle of large extents: the elaborator's structural look recurses once per coordinate of
-- the long axes
set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's body: ten whole-block loads, one whole-block store -/

/-! ## The body's accesses: every load and the store take the whole block -/

abbrev rA : Rect S24x4x768 := Rect.unit (s := S24x4x768) ![0, 0, 0] S24x4x768.size inb_S24x4x768_S24x4x768_0_0_0
abbrev rB : Rect S4x768 := Rect.unit (s := S4x768) ![0, 0] S4x768.size inb_S4x768_S4x768_0_0
abbrev rC : Rect S768 := Rect.unit (s := S768) ![0] S768.size inb_S768_S768_0
abbrev rD : Rect S768x16 := Rect.unit (s := S768x16) ![0, 0] S768x16.size inb_S768x16_S768x16_0_0
abbrev rE : Rect S16 := Rect.unit (s := S16) ![0] S16.size inb_S16_S16_0
abbrev rG : Rect S24x4 := Rect.unit (s := S24x4) ![0, 0] S24x4.size inb_S24x4_S24x4_0_0
abbrev rO : Rect S24x24x4x16 := Rect.unit (s := S24x24x4x16) ![0, 0, 0, 0] S24x24x4x16.size inb_S24x24x4x16_S24x24x4x16_0_0_0_0

/-! ## What the body leaves in the output block -/

/-- The output block after the body, from the ten input blocks at grid point `i`: its one store as a piece, the
    payload the skeleton's, over what the loads read. -/
def out1 (i : grid1.Coords) (x0 x1 : Vec F S24x4x768 .f32) (x2 : Vec F S4x768 .f32) (x3 x4 x5 : Vec F S768 .f32)
    (x6 : Vec F S768x16 .bf16) (x7 : Vec F S16 .f32) (x8 x9 : Vec F S24x4 .f32) : Vec F S24x24x4x16 .f32 :=
  View.canon [⟨rO, k1_pay2 (BitVec.ofNat 32 (i 0).val) (BitVec.ofNat 32 (i 1).val)
    (k1_pay1 (View.ld x0 rA) (View.ld x1 rA) (View.ld x2 rB) (View.ld x3 rC) (View.ld x4 rC) (View.ld x5 rC))
    (View.ld x6 rD) (View.ld x7 rE) (View.ld x8 rG) (View.ld x9 rG)⟩]

/-- The store takes the whole block (checked by evaluation), so it covers it. -/
theorem cover1 (p0 : Vec F S24x24x4x16 .f32) (y : S24x24x4x16.Idx) :
    ∃ pc ∈ ([⟨rO, p0⟩] : List (View.Piece (Elt F) S24x24x4x16 .f32)), y ∈ pc.1.set :=
  View.cover_of_tiled [⟨rO, p0⟩] S24x24x4x16.size (by rfl) y

/-! ## The body's triple -/

set_option maxHeartbeats 1000000 in
/-- The kernel body on whole memrefs, the inputs' at read contents `xW` (any share) and the output's at anything,
    runs to the continuation holding the inputs' as they were and the output's at `out1` of the inputs. -/
theorem sound_kernel1 (c : Dev nD) (E : Set ℕ) (i : grid1.Coords)
    (arg2 : Memref sig .tc .vmem S24x4x768 .f32) (harg2 : arg2.IsWhole) (arg3 : Memref sig .tc .vmem S24x4x768 .f32) (harg3 : arg3.IsWhole)
    (arg4 : Memref sig .tc .vmem S4x768 .f32) (harg4 : arg4.IsWhole) (arg5 : Memref sig .tc .vmem S768 .f32) (harg5 : arg5.IsWhole)
    (arg6 : Memref sig .tc .vmem S768 .f32) (harg6 : arg6.IsWhole) (arg7 : Memref sig .tc .vmem S768 .f32) (harg7 : arg7.IsWhole)
    (arg8 : Memref sig .tc .vmem S768x16 .bf16) (harg8 : arg8.IsWhole) (arg9 : Memref sig .tc .vmem S16 .f32) (harg9 : arg9.IsWhole)
    (arg10 : Memref sig .tc .vmem S24x4 .f32) (harg10 : arg10.IsWhole) (arg11 : Memref sig .tc .vmem S24x4 .f32) (harg11 : arg11.IsWhole)
    (arg12 : Memref sig .tc .vmem S24x24x4x16 .f32) (harg12 : arg12.IsWhole)
    (q0 q1 q2 q3 q4 q5 q6 q7 q8 q9 : PosShare TreeShare)
    (x0 x1 : Vec F S24x4x768 .f32) (x2 : Vec F S4x768 .f32) (x3 x4 x5 : Vec F S768 .f32)
    (x6 : Vec F S768x16 .bf16) (x7 : Vec F S16 .f32) (x8 x9 : Vec F S24x4 .f32) (K : PUnit → sProp 𝕄) :
    iprop(owns (c : Thread nD τ) arg2 q0 x0 ∗ owns (c : Thread nD τ) arg3 q1 x1 ∗ owns (c : Thread nD τ) arg4 q2 x2
        ∗ owns (c : Thread nD τ) arg5 q3 x3 ∗ owns (c : Thread nD τ) arg6 q4 x4 ∗ owns (c : Thread nD τ) arg7 q5 x5
        ∗ owns (c : Thread nD τ) arg8 q6 x6 ∗ owns (c : Thread nD τ) arg9 q7 x7 ∗ owns (c : Thread nD τ) arg10 q8 x8
        ∗ owns (c : Thread nD τ) arg11 q9 x9 ∗ (∃ d, owns (c : Thread nD τ) arg12 fullShare d)
        ∗ (iprop(owns (c : Thread nD τ) arg2 q0 x0 ∗ owns (c : Thread nD τ) arg3 q1 x1 ∗ owns (c : Thread nD τ) arg4 q2 x2
            ∗ owns (c : Thread nD τ) arg5 q3 x3 ∗ owns (c : Thread nD τ) arg6 q4 x4 ∗ owns (c : Thread nD τ) arg7 q5 x5
            ∗ owns (c : Thread nD τ) arg8 q6 x6 ∗ owns (c : Thread nD τ) arg9 q7 x7 ∗ owns (c : Thread nD τ) arg10 q8 x8
            ∗ owns (c : Thread nD τ) arg11 q9 x9
            ∗ owns (c : Thread nD τ) arg12 fullShare (out1 i x0 x1 x2 x3 x4 x5 x6 x7 x8 x9)) -∗ K ⟨⟩))
      ⊢ wp frame (wpE (defs₀ (F := F)) Variants.none c none) E
          (cc1__main_kernel i arg2 harg2 arg3 harg3 arg4 harg4 arg5 harg5 arg6 harg6 arg7 harg7 arg8 harg8 arg9 harg9
            arg10 harg10 arg11 harg11 arg12 harg12) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1 _)

end Cert.Kernel.Gen2

end
-- ==== Proof.Bits.K1.lean ====
import proofs.«124299_j40209483825381_1_alg».proof.Proof.Gen.Kernel.Launch
import proofs.«124299_j40209483825381_1_alg».proof.Proof.Gen.Kernel.Skeleton
import proofs.«124299_j40209483825381_1_alg».proof.Proof.Gen.Kernel.Points
import proofs.«124299_j40209483825381_1_alg».proof.Proof.Bits.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel's region: the span-pair kernel over the 8 x 8 grid

Eleven windows: the start rows, the end rows, the global term, the three affine vectors, the tag matrix, the tag bias,
the mask's start rows and the mask's end rows (two windows of ONE array), and the output block. -/

section Region1

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## An input window's staging buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- The proof data of the second pipeline on core `c`: the arrays as the region finds them; after the body each input's
    buffer at its block and the output's at `out1` of the point and the input blocks; the invariant the scoped rest and the
    generator register, untouched; nothing owed; the mask's array, read through two windows, held half and half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1 (grid1.coords t) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t)
  Φ _ := Pipeline.ΦA spec1 c
  q w := match w with
    | ⟨8, _⟩ => fullShare.left
    | ⟨9, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1 (grid1.coords t) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d
theorem before1_5 (c : Dev nD) (t : Fin cfg1.N) (d) : (dat1 V c).before 5 t d = iblk1 V c 5 t := before1_5_of V (dat1 V c) (A_eq1 V c 5) (after1_5 V c) t d
theorem before1_6 (c : Dev nD) (t : Fin cfg1.N) (d) : (dat1 V c).before 6 t d = iblk1 V c 6 t := before1_6_of V (dat1 V c) (A_eq1 V c 6) (after1_6 V c) t d
theorem before1_7 (c : Dev nD) (t : Fin cfg1.N) (d) : (dat1 V c).before 7 t d = iblk1 V c 7 t := before1_7_of V (dat1 V c) (A_eq1 V c 7) (after1_7 V c) t d
theorem before1_8 (c : Dev nD) (t : Fin cfg1.N) (d) : (dat1 V c).before 8 t d = iblk1 V c 8 t := before1_8_of V (dat1 V c) (A_eq1 V c 8) (after1_8 V c) t d
theorem before1_9 (c : Dev nD) (t : Fin cfg1.N) (d) : (dat1 V c).before 9 t d = iblk1 V c 9 t := before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks, so the body's triple applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ fullShare fullShare fullShare fullShare fullShare fullShare fullShare fullShare fullShare fullShare
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The arrays' shares: the mask's array is read through two windows -/

theorem share1 (c : Dev nD) (w : Fin cfg1.W) : (dat1 V c).share w = match w with
    | ⟨8, _⟩ => fullShare.left
    | ⟨9, _⟩ => fullShare.right
    | _ => fullShare := by
  unfold Dat.share
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl

/-- The pipeline's arrays, window by window: every array whole at the full share, the mask's at the two halves. -/
theorem arrays1_eq (c : Dev nD) (G : (w : Fin cfg1.W) → Buf (Elt F) ((cfg1.win w).arr.view.loc (c.tc : Thread nD τ))) :
    ((dat1 V c).arrays G : sProp 𝕄) = iprop(
      (((c : Thread nD τ).loc main_v19_0) ↦{fullShare} G 0) ∗ (((c : Thread nD τ).loc main_v19_1) ↦{fullShare} G 1)
      ∗ (((c : Thread nD τ).loc main_v19_2) ↦{fullShare} G 2) ∗ (((c : Thread nD τ).loc main_arg6) ↦{fullShare} G 3)
      ∗ (((c : Thread nD τ).loc main_arg7) ↦{fullShare} G 4) ∗ (((c : Thread nD τ).loc main_arg8) ↦{fullShare} G 5)
      ∗ (((c : Thread nD τ).loc main_v16) ↦{fullShare} G 6) ∗ (((c : Thread nD τ).loc main_arg10) ↦{fullShare} G 7)
      ∗ (((c : Thread nD τ).loc main_arg2) ↦{fullShare.left} G 8) ∗ (((c : Thread nD τ).loc main_arg2) ↦{fullShare.right} G 9)
      ∗ (((c : Thread nD τ).loc main_v20) ↦{fullShare} G 10)) := by
  unfold Dat.arrays
  rw [bigSep_W1]
  simp only [View.set_whole, share1]
  rfl

/-- The ten distinct buffers behind the eleven windows, each whole at the full share. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄) = iprop(
      (((c : Thread nD τ).loc main_v19_0) ↦{fullShare} V' main_v19_0) ∗ (((c : Thread nD τ).loc main_v19_1) ↦{fullShare} V' main_v19_1)
      ∗ (((c : Thread nD τ).loc main_v19_2) ↦{fullShare} V' main_v19_2) ∗ (((c : Thread nD τ).loc main_arg6) ↦{fullShare} V' main_arg6)
      ∗ (((c : Thread nD τ).loc main_arg7) ↦{fullShare} V' main_arg7) ∗ (((c : Thread nD τ).loc main_arg8) ↦{fullShare} V' main_arg8)
      ∗ (((c : Thread nD τ).loc main_v16) ↦{fullShare} V' main_v16) ∗ (((c : Thread nD τ).loc main_arg10) ↦{fullShare} V' main_arg10)
      ∗ (((c : Thread nD τ).loc main_arg2) ↦{fullShare} V' main_arg2) ∗ (((c : Thread nD τ).loc main_v20) ↦{fullShare} V' main_v20)) := by
  unfold Pipeline.arrBufs
  rw [bigSep_eq_bigSepL_of_eq [main_v19_0, main_v19_1, main_v19_2, main_arg6, main_arg7, main_arg8, main_v16, main_arg10, main_arg2, main_v20] (by decide) (by decide)]
  rfl

/-- ENTRY: the ten buffers at the entry contents make the pipeline's arrays, the mask's array split in two halves. -/
theorem arrays_of_arrBufs1 (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs1_eq, arrays1_eq]
  iintro ⟨H0, H1, H2, H3, H4, H5, H6, H7, H8, H10⟩
  ihave H89 := (pointsTo_share (PosShare.mem_left_op_right fullShare)).1 $$ H8
  icases H89 with ⟨H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The pipeline's arrays at contents that are, window by window, those of a valuation of the ten buffers give the ten
    buffers at that valuation: the mask's two halves, holding the same contents, joined. -/
theorem arrBufs_of_arrays1' (c : Dev nD) (V' : (b : Ref sig .tc) → Buf (Elt F) ((c : Thread nD τ).loc b))
    (G : (w : Fin cfg1.W) → Buf (Elt F) ((cfg1.win w).arr.view.loc (c.tc : Thread nD τ)))
    (h0 : G 0 = V' main_v19_0) (h1 : G 1 = V' main_v19_1) (h2 : G 2 = V' main_v19_2) (h3 : G 3 = V' main_arg6) (h4 : G 4 = V' main_arg7)
    (h5 : G 5 = V' main_arg8) (h6 : G 6 = V' main_v16) (h7 : G 7 = V' main_arg10) (h8 : G 8 = V' main_arg2) (h9 : G 9 = V' main_arg2)
    (h10 : G 10 = V' main_v20) :
    ((dat1 V c).arrays G : sProp 𝕄) ⊢ Pipeline.arrBufs (Ix := Unit) (Name := ℕ) (U := UR sig nD τ) (Lvl := ℕ) spec1 c V' := by
  rw [arrBufs1_eq, arrays1_eq, h0, h1, h2, h3, h4, h5, h6, h7, h8, h9, h10]
  iintro ⟨H0, H1, H2, H3, H4, H5, H6, H7, H8, H9, H10⟩
  ihave H89 := (pointsTo_share (PosShare.mem_left_op_right fullShare)).2 $$ [H8 H9]
  · isplitl [H8] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H89]; · iexact H89
  iexact H10

/-- EXIT: the arrays after the last point — every input as entered, the output at what its write-backs left — are the ten
    buffers at the entry contents but for the output's. -/
theorem arrBufs_of_arrays1 (c : Dev nD) (V' : (b : Ref sig .tc) → Buf (Elt F) ((c : Thread nD τ).loc b))
    (hin : ∀ b, b ≠ main_v20 → V' b = V c b) (hout : V' main_v20 = (dat1 V c).arrAt 10 cfg1.N) :
    ((dat1 V c).arrays ((dat1 V c).arrAt · cfg1.N) : sProp 𝕄) ⊢ Pipeline.arrBufs (Ix := Unit) (Name := ℕ) (U := UR sig nD τ) (Lvl := ℕ) spec1 c V' :=
  arrBufs_of_arrays1' V c V' _
    ((((dat1 V c).arrAt_in 0 rfl _).trans (A_eq1 V c 0)).trans (hin main_v19_0 (by decide)).symm)
    ((((dat1 V c).arrAt_in 1 rfl _).trans (A_eq1 V c 1)).trans (hin main_v19_1 (by decide)).symm)
    ((((dat1 V c).arrAt_in 2 rfl _).trans (A_eq1 V c 2)).trans (hin main_v19_2 (by decide)).symm)
    ((((dat1 V c).arrAt_in 3 rfl _).trans (A_eq1 V c 3)).trans (hin main_arg6 (by decide)).symm)
    ((((dat1 V c).arrAt_in 4 rfl _).trans (A_eq1 V c 4)).trans (hin main_arg7 (by decide)).symm)
    ((((dat1 V c).arrAt_in 5 rfl _).trans (A_eq1 V c 5)).trans (hin main_arg8 (by decide)).symm)
    ((((dat1 V c).arrAt_in 6 rfl _).trans (A_eq1 V c 6)).trans (hin main_v16 (by decide)).symm)
    ((((dat1 V c).arrAt_in 7 rfl _).trans (A_eq1 V c 7)).trans (hin main_arg10 (by decide)).symm)
    ((((dat1 V c).arrAt_in 8 rfl _).trans (A_eq1 V c 8)).trans (hin main_arg2 (by decide)).symm)
    ((((dat1 V c).arrAt_in 9 rfl _).trans (A_eq1 V c 9)).trans (hin main_arg2 (by decide)).symm)
    hout.symm

end Region1

end Cert.Kernel.Gen2

end
-- ==== Proof.Bits.KRun.lean ====
import proofs.«124299_j40209483825381_1_alg».proof.Proof.Gen.Kernel.Regions

noncomputable section

namespace Cert.Kernel.Gen2

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The result buffer after the last region is what that region left there. -/
theorem V3_main_v20 (m : (ℓ : Loc nD τ sig) → Buf (Elt F) ℓ) (outs : Outs (F := F)) (c : Dev nD) :
    V3 m outs c main_v20 = outs 3 main_v20 c := by
  simp only [V3, Function.update_self]

set_option backward.isDefEq.respectTransparency.types false in
/-- THE RUN WITH ITS RESULT, given the regions' records: as the conditional frame, and the result buffer ends holding
    what the last region left in it (`outs 3 main_v20`). The segments, the chaining and the launch are the conditional
    frame's; the last valuation is read at the result buffer as well as at the arguments. -/
theorem value_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      r.2.mem ((c.tc : Thread nD τ).loc main_v20) = outs 3 main_v20 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine Pipeline.θ_run_regions_kit_dev (pcfgs (F := F)) adm pdats ι cellOf_inj EP defs₀ 𝒱₀ L lv m ρ main
    (segs m 𝒱₀ L lv E ι pdats R0 R1)
    (fun c Q => by
      rewrite [main_chain c, Seg.run_eq_chain,
        show (segs m 𝒱₀ L lv E ι pdats R0 R1 c).map Seg.prog = [
          StableHlo.seq hostOps0,
          Prog.lift (.customCall (Pipeline.entry 0) ()),
          Prog.lift (.customCall (Pipeline.entry 1) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨.rfl, hpre0 c, (hpost0 c).trans (hpre1 c), (hpost1 c).trans (sep_mono .rfl (hE2 c))⟩)
    (hinit := ?_) (QY := fun c s => s.mem ((c.tc : Thread nD τ).loc main_v20) = outs 3 main_v20 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10))
    (hfin := fun c s' => ?_) (hQ := fun _ h => h)
  · -- the launch: the unscoped buffers are held at the launch contents; the rest makes the first thread state on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨(h (Proc.devRef .tc main_v20) (Finset.mem_filter.mpr ⟨StableHlo.devRef_mem_tcRefs main_v20, by decide⟩)).trans (V3_main_v20 m outs c),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c),
        (h (Proc.devRef .tc main_arg2) (Finset.mem_filter.mpr ⟨StableHlo.devRef_mem_tcRefs main_arg2, by decide⟩)).trans (V3_main_arg2 m outs c),
        (h (Proc.devRef .tc main_arg3) (Finset.mem_filter.mpr ⟨StableHlo.devRef_mem_tcRefs main_arg3, by decide⟩)).trans (V3_main_arg3 m outs c),
        (h (Proc.devRef .tc main_arg4) (Finset.mem_filter.mpr ⟨StableHlo.devRef_mem_tcRefs main_arg4, by decide⟩)).trans (V3_main_arg4 m outs c),
        (h (Proc.devRef .tc main_arg5) (Finset.mem_filter.mpr ⟨StableHlo.devRef_mem_tcRefs main_arg5, by decide⟩)).trans (V3_main_arg5 m outs c),
        (h (Proc.devRef .tc main_arg6) (Finset.mem_filter.mpr ⟨StableHlo.devRef_mem_tcRefs main_arg6, by decide⟩)).trans (V3_main_arg6 m outs c),
        (h (Proc.devRef .tc main_arg7) (Finset.mem_filter.mpr ⟨StableHlo.devRef_mem_tcRefs main_arg7, by decide⟩)).trans (V3_main_arg7 m outs c),
        (h (Proc.devRef .tc main_arg8) (Finset.mem_filter.mpr ⟨StableHlo.devRef_mem_tcRefs main_arg8, by decide⟩)).trans (V3_main_arg8 m outs c),
        (h (Proc.devRef .tc main_arg9) (Finset.mem_filter.mpr ⟨StableHlo.devRef_mem_tcRefs main_arg9, by decide⟩)).trans (V3_main_arg9 m outs c),
        (h (Proc.devRef .tc main_arg10) (Finset.mem_filter.mpr ⟨StableHlo.devRef_mem_tcRefs main_arg10, by decide⟩)).trans (V3_main_arg10 m outs c)⟩
    · iexact HSI

end Cert.Kernel.Gen2

end
-- ==== Proof.Bits.KFrame.lean ====
import proofs.«124299_j40209483825381_1_alg».proof.Proof.Gen.Kernel.Launch
import proofs.«124299_j40209483825381_1_alg».proof.Proof.Gen.Kernel.Skeleton
import proofs.«124299_j40209483825381_1_alg».proof.Proof.Gen.Kernel.Points
import proofs.«124299_j40209483825381_1_alg».proof.Proof.Gen.Kernel.Regions
import proofs.«124299_j40209483825381_1_alg».proof.Proof.Bits.K0
import proofs.«124299_j40209483825381_1_alg».proof.Proof.Bits.K1
import proofs.«124299_j40209483825381_1_alg».proof.Proof.Bits.KRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! # The two regions as segments of @main, and the run

Between two items of @main a core holds every unscoped buffer whole: at the launch contents, then after the host
operations, then with the first region's three results at what its write-backs left, then with the second region's
result likewise. Beside the buffers rides the core's generator register at some state and its `owes`, at nothing. -/

section Run

variable (m : (ℓ : Loc nD τ sig) → Buf (Elt F) ℓ)

/-- The first region's entry contents, read at the TensorCore's references. -/
abbrev VA (c : Dev nD) (b : Ref sig .tc) : Buf (Elt F) ((c : Thread nD τ).loc b) := V1 m c b

/-- What the first region leaves: its three results at the write-backs' fold, every other buffer as entered. -/
def T2 (c : Dev nD) : Valuation τ sig (Elt F) :=
  Function.update (Function.update (Function.update (V1 m c) main_v19_0 ((dat0 (VA m) c).arrAt 8 cfg0.N))
    main_v19_1 ((dat0 (VA m) c).arrAt 9 cfg0.N)) main_v19_2 ((dat0 (VA m) c).arrAt 10 cfg0.N)

/-- The regions' results so far: the first region's. -/
def outsA : Outs (F := F) := fun _ r c => T2 m c r

/-- The second region's entry contents, read at the TensorCore's references. -/
abbrev VB (c : Dev nD) (b : Ref sig .tc) : Buf (Elt F) ((c : Thread nD τ).loc b) := V2 m (outsA m) c b

/-- What the second region leaves: its result at the write-backs' fold, every other buffer as entered. -/
def T3 (c : Dev nD) : Valuation τ sig (Elt F) :=
  Function.update (V2 m (outsA m) c) main_v20 ((dat1 (VB m) c).arrAt 10 cfg1.N)

/-- What the regions leave in the buffers they may change. -/
def outs : Outs (F := F) := fun J r c => if J = 2 then T2 m c r else T3 m c r

theorem outs_two (r : Ref sig .tc) (c : Dev nD) : outs m 2 r c = T2 m c r := if_pos rfl
theorem outs_three (r : Ref sig .tc) (c : Dev nD) : outs m 3 r c = T3 m c r := if_neg (by decide)

theorem V2_outs (c : Dev nD) : V2 m (outs m) c = V2 m (outsA m) c := by
  simp only [V2, outs_two, outsA]

theorem T2_0 (c : Dev nD) : T2 m c main_v19_0 = (dat0 (VA m) c).arrAt 8 cfg0.N := by
  unfold T2
  rw [Function.update_of_ne (StableHlo.devRef_ne_of_ne (by decide) : (Proc.devRef .tc main_v19_0 : DevRef τ sig) ≠ Proc.devRef .tc main_v19_2),
    Function.update_of_ne (StableHlo.devRef_ne_of_ne (by decide) : (Proc.devRef .tc main_v19_0 : DevRef τ sig) ≠ Proc.devRef .tc main_v19_1),
    Function.update_self]
theorem T2_1 (c : Dev nD) : T2 m c main_v19_1 = (dat0 (VA m) c).arrAt 9 cfg0.N := by
  unfold T2
  rw [Function.update_of_ne (StableHlo.devRef_ne_of_ne (by decide) : (Proc.devRef .tc main_v19_1 : DevRef τ sig) ≠ Proc.devRef .tc main_v19_2),
    Function.update_self]
theorem T2_2 (c : Dev nD) : T2 m c main_v19_2 = (dat0 (VA m) c).arrAt 10 cfg0.N := by
  unfold T2
  rw [Function.update_self]

/-- The second valuation at the first region's results. -/
theorem V2_0 (c : Dev nD) : V2 m (outs m) c main_v19_0 = (dat0 (VA m) c).arrAt 8 cfg0.N := by
  simp only [V2, outs_two]
  rw [Function.update_of_ne (StableHlo.devRef_ne_of_ne (by decide) : (Proc.devRef .tc main_v19_0 : DevRef τ sig) ≠ Proc.devRef .tc main_v19_2),
    Function.update_of_ne (StableHlo.devRef_ne_of_ne (by decide) : (Proc.devRef .tc main_v19_0 : DevRef τ sig) ≠ Proc.devRef .tc main_v19_1),
    Function.update_self, T2_0]
theorem V2_1 (c : Dev nD) : V2 m (outs m) c main_v19_1 = (dat0 (VA m) c).arrAt 9 cfg0.N := by
  simp only [V2, outs_two]
  rw [Function.update_of_ne (StableHlo.devRef_ne_of_ne (by decide) : (Proc.devRef .tc main_v19_1 : DevRef τ sig) ≠ Proc.devRef .tc main_v19_2),
    Function.update_self, T2_1]
theorem V2_2 (c : Dev nD) : V2 m (outs m) c main_v19_2 = (dat0 (VA m) c).arrAt 10 cfg0.N := by
  simp only [V2, outs_two]
  rw [Function.update_self, T2_2]

/-- The last valuation at the second region's result. -/
theorem V3_result (c : Dev nD) : V3 m (outs m) c main_v20 = (dat1 (VB m) c).arrAt 10 cfg1.N := by
  rw [V3_main_v20, outs_three]
  unfold T3
  rw [Function.update_self]

end Run

/-! ## The proof data family, the thread state, and the regions as segments -/

section Segments

variable (m : (ℓ : Loc nD τ sig) → Buf (Elt F) ℓ)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c

abbrev 𝒱₀ : Variants := Variants.none
/-- No core owes another anything: no level is assigned. -/
abbrev Lz : GSem nD τ sig → Finset Unit := fun _ => ∅
abbrev lvz : GSem nD τ sig → Unit → ℕ := fun _ _ => 0
/-- What rides beside the buffers through every segment: the core's generator register at some state and its `owes`,
    at nothing. -/
abbrev Rr (c : Dev nD) : sProp 𝕄 := iprop((∃ r, prngReg c r) ∗ ∃ W, owes (c : Thread nD τ) (0 : CellTallies nD τ sig Unit) W)
abbrev Er : Fin 3 → Dev nD → sProp 𝕄 := fun _ c => Rr c

/-! ### The first region -/

theorem hF0 (c : Dev nD) (w : Fin cfg0.W) :
    (pdats m 0 c).arrAt w cfg0.N = (fun b : Ref sig .tc => (V2 m (outs m) c b : Buf (Elt F) ((c : Thread nD τ).loc b))) (Pipeline.arrRef spec0 w) := by
  have hin : ∀ (w : Fin cfg0.W) (hw : (cfg0.win w).isOut = false) (hne : Pipeline.arrRef spec0 w ∉ ([main_v19_0, main_v19_1, main_v19_2] : List (Ref sig .tc))),
      (pdats m 0 c).arrAt w cfg0.N = V2 m (outs m) c (Pipeline.arrRef spec0 w) := fun w hw hne =>
    (((pdats m 0 c).arrAt_in w hw _).trans (A_eq0 (VA m) c w)).trans (V2_of m (outs m) c _ hne).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact hin 6 rfl (by decide)
  | ⟨7, _⟩ => exact hin 7 rfl (by decide)
  | ⟨8, _⟩ => exact (V2_0 m c).symm
  | ⟨9, _⟩ => exact (V2_1 m c).symm
  | ⟨10, _⟩ => exact (V2_2 m c).symm

theorem hrest0 (c : Dev nD) : ∀ b : Ref sig .tc, b ∉ Finset.univ.image (Pipeline.arrRef spec0) →
    (V2 m (outs m) c b : Buf (Elt F) ((c : Thread nD τ).loc b)) = VA m c b := fun b hb =>
  V2_of m (outs m) c b (fun hmem => hb (by
    simp only [List.mem_cons, List.mem_nil_iff, or_false] at hmem
    rcases hmem with rfl | rfl | rfl
    · exact Finset.mem_image.mpr ⟨8, Finset.mem_univ _, rfl⟩
    · exact Finset.mem_image.mpr ⟨9, Finset.mem_univ _, rfl⟩
    · exact Finset.mem_image.mpr ⟨10, Finset.mem_univ _, rfl⟩))

set_option backward.isDefEq.respectTransparency.types false in
/-- THE FIRST REGION over the thread state: entered from every unscoped buffer after the host operations, left with
    its three results at the write-backs' fold. Its arrays split out of the unscoped buffers and put back at the exit
    contents; the generator register into the invariant and out; nothing owed; no semaphore of the kernel's own. -/
def reg0 : RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ Lz lvz 0 fun _ _ => rfl
  pre c := iprop(StableHlo.held (c : Thread nD τ) (Pipeline.ucRefs τ sig) (V1 m c) ∗ Rr c)
  post c := iprop(StableHlo.held (c : Thread nD τ) (Pipeline.ucRefs τ sig) (V2 m (outs m) c) ∗ Rr c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) (A_eq0 (VA m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ Pipeline.ΦA spec0 c).trans (hin0 (VA m) c)
    unfold Pipeline.ΦA
    iintro ⟨Hp, -, Hr⟩
    isplitl [Hr]; · iexact Hr
    iexact Hp
  hout c := by
    refine (hout0 (VA m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (fun b => V2 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Segments

/-! ### The second region: one array read through two windows -/

section Segments2

variable (m : (ℓ : Loc nD τ sig) → Buf (Elt F) ℓ)

/-- The second region's exit contents, read at the TensorCore's references. -/
abbrev VC (c : Dev nD) (b : Ref sig .tc) : Buf (Elt F) ((c : Thread nD τ).loc b) := V3 m (outs m) c b

theorem VC_of_ne (c : Dev nD) (b : Ref sig .tc) (hb : b ≠ main_v20) : VC m c b = VB m c b := by
  show V3 m (outs m) c b = V2 m (outsA m) c b
  rw [V3_of m (outs m) c b (by simp only [List.mem_singleton]; exact hb), V2_outs]

/-- The buffers no window of the second region stages are as the region found them. -/
theorem rest1_congr (c : Dev nD) :
    (Pipeline.unscopedRest (Ix := Unit) (Name := ℕ) (U := UR sig nD τ) (Lvl := ℕ) spec1 c (VC m c) : sProp 𝕄)
      = Pipeline.unscopedRest (Ix := Unit) (Name := ℕ) (U := UR sig nD τ) (Lvl := ℕ) spec1 c (VB m c) := by
  unfold Pipeline.unscopedRest
  exact bigSep_congr fun b hb => by
    rw [VC_of_ne m c b (fun h => (Finset.mem_sdiff.mp hb).2 (h ▸ Finset.mem_image.mpr ⟨10, Finset.mem_univ _, rfl⟩))]

set_option backward.isDefEq.respectTransparency.types false in
/-- THE SECOND REGION over the thread state: entered from the first region's exit contents, left with its result at
    the write-backs' fold. The ten buffers behind its eleven windows split out of the unscoped buffers — the mask's in
    two halves — and put back; the generator register into the invariant and out; nothing owed. -/
def reg1 : RegionSeg (pcfgs (F := F)) adm (pdats m) () defs₀ 𝒱₀ Lz lvz 1 where
  win := winFacts₀1
  block_pos := block_pos1
  stage_whole := stage_whole1
  K := PEmpty
  osem k := k.elim
  ho := Pipeline.OwnSemFacts.none _
  hbody c := (body_obligation1 (VB m) c).loose
  hwaits := Pipeline.hwaits_of_owed_zero _ _ _ _ Lz lvz 1 fun _ _ => rfl
  pre c := iprop(StableHlo.held (c : Thread nD τ) (Pipeline.ucRefs τ sig) (V2 m (outs m) c) ∗ Rr c)
  post c := iprop(StableHlo.held (c : Thread nD τ) (Pipeline.ucRefs τ sig) (V3 m (outs m) c) ∗ Rr c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none, V2_outs]
    have hsplit : (unscopedBufs c (VB m c) : sProp 𝕄)
        ⊢ iprop((pdats m 1 c).arrays ((pdats m 1 c).arrAt · 0) ∗ Pipeline.unscopedRest (Ix := Unit) (Name := ℕ) (U := UR sig nD τ) (Lvl := ℕ) spec1 c (VB m c)) := by
      rw [Pipeline.unscopedBufs_split₀ cfgs 1 winFacts₀1.arr_unscoped c (VB m c)]
      exact sep_mono (arrays_of_arrBufs1 (VB m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (VB m c))
        ⊢ (unscopedBufs c (VC m c) : sProp 𝕄) :=
      (BI.sep_mono (arrBufs_of_arrays1 (VB m) c (VC m c) (fun b hb => VC_of_ne m c b hb) (V3_result m c)) (Entails.of_eq (rest1_congr m c).symm)).trans
        (Entails.of_eq (Pipeline.unscopedBufs_split₀ cfgs 1 winFacts₀1.arr_unscoped c (VC m c)).symm)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch, the frame and the run with its result -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (Er (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (Er (F := F) 0) : sProp 𝕄) :=
    bigSep_mono fun c _ => (show (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄) ⊢ Rr (F := F) c from by
      iintro ⟨-, HO, -, Hp, -⟩
      isplitl [Hp]; · iexists _; iexact Hp
      iexists ∅; iexact HO)
  iintro ⟨H, -⟩
  imodintro
  iapply hmono
  iexact H

theorem hE2 (c : Dev nD) : Er (F := F) 2 c ⊢ (iprop(∃ W, owes (c : Thread nD τ) (0 : CellTallies nD τ sig Unit) W) : sProp 𝕄) := by
  iintro ⟨-, H⟩; iexact H

/-- THE FRAME, at any float instance: every weakly fair execution of @main terminates without a fault and leaves the
    argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () 𝒱₀ Lz lvz (fun _ _ => rfl) ρ (outs m) (pdats m) 0 (fun _ => iprop(emp))
    (initOf (Pipeline.cells cfgs cellOf_inj) (Pipeline.launchToks cfgs cellOf_inj)) hu₀ Er (hE0 ρ) hE2
    (reg0 m) (fun _ => .rfl) (fun _ => .rfl) (reg1 m) (fun _ => .rfl) (fun _ => .rfl)

/-- THE RUN WITH ITS RESULT: moreover the result buffer ends at the fold of the second region's write-backs. -/
theorem run_value (ρ : Dev nD → PrngReg) : θ_run defs (onTc (τ := τ) (main (F := F))) ⟨m, fun _ => 0, ρ⟩ (fun r => ∀ c : Dev nD,
      r.2.mem ((c.tc : Thread nD τ).loc main_v20) = (dat1 (VB m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).1.trans ((V3_main_v20 m (outs m) c).symm.trans (V3_result m c)), (h c).2⟩)
    (value_cond m emb₁ () 𝒱₀ Lz lvz (fun _ _ => rfl) ρ (outs m) (pdats m) 0 (fun _ => iprop(emp))
      (initOf (Pipeline.cells cfgs cellOf_inj) (Pipeline.launchToks cfgs cellOf_inj)) hu₀ Er (hE0 ρ) hE2
      (reg0 m) (fun _ => .rfl) (fun _ => .rfl) (reg1 m) (fun _ => .rfl) (fun _ => .rfl))

end Segments2

end Cert.Kernel.Gen2

end
-- ==== Proof.RefOps.lean ====
/-
  The reference program as a list of host operations.

  The program is a straight line of tensor operations in two windows, with two outlined functions
  called from it: the exponential linear unit (which itself calls two selections) and the upper
  triangle (diagonal included).  A call executes the callee's body on the operands, so the callee's operations
  are listed at the call site over that call's own buffers; the whole program is then one list,
  and running the program is running the list in order.
-/
import proofs.«124299_j40209483825381_1_alg».proof.ReferenceIdeal
import proofs.«124299_j40209483825381_1_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first window of the program: its operations in order, the body of the exponential-linear-unit function (and of the two selections it calls) listed at the call. -/
abbrev ops_part0 : List (HloOp τ sig (Elt F)) :=
  [ StableHlo.unary main_arg3 main_v0 ((extractStridedSlice S768x768 ![0, 0] · slices_S768x1536_S768x768_0_0) : (⟨S768x1536, .f32⟩ : BufTy).Contents (Elt F) → (⟨S768x768, .f32⟩ : BufTy).Contents (Elt F)),
    StableHlo.unary main_arg3 main_v1 ((extractStridedSlice S768x768 ![0, 768] · slices_S768x1536_S768x768_0_768) : (⟨S768x1536, .f32⟩ : BufTy).Contents (Elt F) → (⟨S768x768, .f32⟩ : BufTy).Contents (Elt F)),
    StableHlo.binary main_arg1 main_v0 main_v2 ((fun l r => Host.dotGeneral dot_S192x4x768_S768x768_S192x4x768_2_1_01_0_n_n none l r) : (⟨S192x4x768, .f32⟩ : BufTy).Contents (Elt F) → (⟨S768x768, .f32⟩ : BufTy).Contents (Elt F) → (⟨S192x4x768, .f32⟩ : BufTy).Contents (Elt F)),
    StableHlo.binary main_arg0 main_v1 main_v3 ((fun l r => Host.dotGeneral dot_S192x4x768_S768x768_S192x4x768_2_1_01_0_n_n none l r) : (⟨S192x4x768, .f32⟩ : BufTy).Contents (Elt F) → (⟨S768x768, .f32⟩ : BufTy).Contents (Elt F) → (⟨S192x4x768, .f32⟩ : BufTy).Contents (Elt F)),
    StableHlo.binary main_v2 main_v3 main_v4 (addf : (⟨S192x4x768, .f32⟩ : BufTy).Contents (Elt F) → (⟨S192x4x768, .f32⟩ : BufTy).Contents (Elt F) → (⟨S192x4x768, .f32⟩ : BufTy).Contents (Elt F)),
    StableHlo.unary main_arg4 main_v5 (broadcastInDim S1x1x768 ![2] bcast_S768_S1x1x768_2 : (⟨S768, .f32⟩ : BufTy).Contents (Elt F) → (⟨S1x1x768, .f32⟩ : BufTy).Contents (Elt F)),
    StableHlo.unary main_v5 main_v6 (broadcastInDim S192x4x768 ![0, 1, 2] bcast_S1x1x768_S192x4x768_0_1_2 : (⟨S1x1x768, .f32⟩ : BufTy).Contents (Elt F) → (⟨S192x4x768, .f32⟩ : BufTy).Contents (Elt F)),
    StableHlo.binary main_v4 main_v6 main_v7 (addf : (⟨S192x4x768, .f32⟩ : BufTy).Contents (Elt F) → (⟨S192x4x768, .f32⟩ : BufTy).Contents (Elt F) → (⟨S192x4x768, .f32⟩ : BufTy).Contents (Elt F)),
    StableHlo.unary main_v7 main_v8 (Host.tanh : (⟨S192x4x768, .f32⟩ : BufTy).Contents (Elt F) → (⟨S192x4x768, .f32⟩ : BufTy).Contents (Elt F)),
    StableHlo.nullary main_cst (constant S_ .f32 0xFF800000#32),
    StableHlo.binary main_v8 main_cst main_v9 ((fun x v => Host.reduce FloatOps.maximumf x v reducesTo_S192x4x768_S4x768_d0 h_S_) : (⟨S192x4x768, .f32⟩ : BufTy).Contents (Elt F) → (⟨S_, .f32⟩ : BufTy).Contents (Elt F) → (⟨S4x768, .f32⟩ : BufTy).Contents (Elt F)),
    StableHlo.unary main_arg5 main_v10 ((extractStridedSlice S768x768 ![0, 0] · slices_S768x2304_S768x768_0_0) : (⟨S768x2304, .f32⟩ : BufTy).Contents (Elt F) → (⟨S768x768, .f32⟩ : BufTy).Contents (Elt F)),
    StableHlo.unary main_arg5 main_v11 ((extractStridedSlice S768x768 ![0, 768] · slices_S768x2304_S768x768_0_768) : (⟨S768x2304, .f32⟩ : BufTy).Contents (Elt F) → (⟨S768x768, .f32⟩ : BufTy).Contents (Elt F)),
    StableHlo.unary main_arg5 main_v12 ((extractStridedSlice S768x768 ![0, 1536] · slices_S768x2304_S768x768_0_1536) : (⟨S768x2304, .f32⟩ : BufTy).Contents (Elt F) → (⟨S768x768, .f32⟩ : BufTy).Contents (Elt F)),
    StableHlo.binary main_arg0 main_v10 main_v13 ((fun l r => Host.dotGeneral dot_S192x4x768_S768x768_S192x4x768_2_1_01_0_n_n none l r) : (⟨S192x4x768, .f32⟩ : BufTy).Contents (Elt F) → (⟨S768x768, .f32⟩ : BufTy).Contents (Elt F) → (⟨S192x4x768, .f32⟩ : BufTy).Contents (Elt F)),
    StableHlo.binary main_arg0 main_v11 main_v14 ((fun l r => Host.dotGeneral dot_S192x4x768_S768x768_S192x4x768_2_1_01_0_n_n none l r) : (⟨S192x4x768, .f32⟩ : BufTy).Contents (Elt F) → (⟨S768x768, .f32⟩ : BufTy).Contents (Elt F) → (⟨S192x4x768, .f32⟩ : BufTy).Contents (Elt F)),
    StableHlo.binary main_v9 main_v12 main_v15 ((fun l r => Host.dotGeneral dot_S4x768_S768x768_S4x768_1_1_0_0_n_n none l r) : (⟨S4x768, .f32⟩ : BufTy).Contents (Elt F) → (⟨S768x768, .f32⟩ : BufTy).Contents (Elt F) → (⟨S4x768, .f32⟩ : BufTy).Contents (Elt F)),
    StableHlo.unary main_v13 main_v16 (broadcastInDim S192x1x4x768 ![0, 2, 3] bcast_S192x4x768_S192x1x4x768_0_2_3 : (⟨S192x4x768, .f32⟩ : BufTy).Contents (Elt F) → (⟨S192x1x4x768, .f32⟩ : BufTy).Contents (Elt F)),
    StableHlo.unary main_v14 main_v17 (broadcastInDim S1x192x4x768 ![1, 2, 3] bcast_S192x4x768_S1x192x4x768_1_2_3 : (⟨S192x4x768, .f32⟩ : BufTy).Contents (Elt F) → (⟨S1x192x4x768, .f32⟩ : BufTy).Contents (Elt F)),
    StableHlo.unary main_v16 main_v18 (broadcastInDim S192x192x4x768 ![0, 1, 2, 3] bcast_S192x1x4x768_S192x192x4x768_0_1_2_3 : (⟨S192x1x4x768, .f32⟩ : BufTy).Contents (Elt F) → (⟨S192x192x4x768, .f32⟩ : BufTy).Contents (Elt F)),
    StableHlo.unary main_v17 main_v19 (broadcastInDim S192x192x4x768 ![0, 1, 2, 3] bcast_S1x192x4x768_S192x192x4x768_0_1_2_3 : (⟨S1x192x4x768, .f32⟩ : BufTy).Contents (Elt F) → (⟨S192x192x4x768, .f32⟩ : BufTy).Contents (Elt F)),
    StableHlo.binary main_v18 main_v19 main_v20 (addf : (⟨S192x192x4x768, .f32⟩ : BufTy).Contents (Elt F) → (⟨S192x192x4x768, .f32⟩ : BufTy).Contents (Elt F) → (⟨S192x192x4x768, .f32⟩ : BufTy).Contents (Elt F)),
    StableHlo.unary main_v15 main_v21 (broadcastInDim S1x1x4x768 ![2, 3] bcast_S4x768_S1x1x4x768_2_3 : (⟨S4x768, .f32⟩ : BufTy).Contents (Elt F) → (⟨S1x1x4x768, .f32⟩ : BufTy).Contents (Elt F)),
    StableHlo.unary main_v21 main_v22 (broadcastInDim S192x192x4x768 ![0, 1, 2, 3] bcast_S1x1x4x768_S192x192x4x768_0_1_2_3 : (⟨S1x1x4x768, .f32⟩ : BufTy).Contents (Elt F) → (⟨S192x192x4x768, .f32⟩ : BufTy).Contents (Elt F)),
    StableHlo.binary main_v20 main_v22 main_v23 (addf : (⟨S192x192x4x768, .f32⟩ : BufTy).Contents (Elt F) → (⟨S192x192x4x768, .f32⟩ : BufTy).Contents (Elt F) → (⟨S192x192x4x768, .f32⟩ : BufTy).Contents (Elt F)),
    StableHlo.unary main_arg6 main_v24 (broadcastInDim S1x1x1x768 ![3] bcast_S768_S1x1x1x768_3 : (⟨S768, .f32⟩ : BufTy).Contents (Elt F) → (⟨S1x1x1x768, .f32⟩ : BufTy).Contents (Elt F)),
    StableHlo.unary main_v24 main_v25 (broadcastInDim S192x192x4x768 ![0, 1, 2, 3] bcast_S1x1x1x768_S192x192x4x768_0_1_2_3 : (⟨S1x1x1x768, .f32⟩ : BufTy).Contents (Elt F) → (⟨S192x192x4x768, .f32⟩ : BufTy).Contents (Elt F)),
    StableHlo.binary main_v23 main_v25 main_v26 (addf : (⟨S192x192x4x768, .f32⟩ : BufTy).Contents (Elt F) → (⟨S192x192x4x768, .f32⟩ : BufTy).Contents (Elt F) → (⟨S192x192x4x768, .f32⟩ : BufTy).Contents (Elt F)),
    StableHlo.nullary main_cst_0 (constant S_ .f32 0x00000000#32),
    StableHlo.binary main_v26 main_cst_0 main_v27 ((fun x v => Host.reduceAdd x v reducesTo_S192x192x4x768_S192x192x4_d3 h_S_) : (⟨S192x192x4x768, .f32⟩ : BufTy).Contents (Elt F) → (⟨S_, .f32⟩ : BufTy).Contents (Elt F) → (⟨S192x192x4, .f32⟩ : BufTy).Contents (Elt F)),
    StableHlo.unary main_v27 main_v28 (broadcastInDim S192x192x4x1 ![0, 1, 2] bcast_S192x192x4_S192x192x4x1_0_1_2 : (⟨S192x192x4, .f32⟩ : BufTy).Contents (Elt F) → (⟨S192x192x4x1, .f32⟩ : BufTy).Contents (Elt F)),
    StableHlo.nullary main_cst_1 (constant S_ .f32 0x44400000#32),
    StableHlo.unary main_cst_1 main_v29 (broadcastInDim S192x192x4x1 ![] bcast_S_S192x192x4x1 : (⟨S_, .f32⟩ : BufTy).Contents (Elt F) → (⟨S192x192x4x1, .f32⟩ : BufTy).Contents (Elt F)),
    StableHlo.binary main_v28 main_v29 main_v30 (Host.divf : (⟨S192x192x4x1, .f32⟩ : BufTy).Contents (Elt F) → (⟨S192x192x4x1, .f32⟩ : BufTy).Contents (Elt F) → (⟨S192x192x4x1, .f32⟩ : BufTy).Contents (Elt F)),
    StableHlo.unary main_v30 main_v31 (broadcastInDim S192x192x4x768 ![0, 1, 2, 3] bcast_S192x192x4x1_S192x192x4x768_0_1_2_3 : (⟨S192x192x4x1, .f32⟩ : BufTy).Contents (Elt F) → (⟨S192x192x4x768, .f32⟩ : BufTy).Contents (Elt F)),
    StableHlo.binary main_v26 main_v31 main_v32 (subf : (⟨S192x192x4x768, .f32⟩ : BufTy).Contents (Elt F) → (⟨S192x192x4x768, .f32⟩ : BufTy).Contents (Elt F) → (⟨S192x192x4x768, .f32⟩ : BufTy).Contents (Elt F)),
    StableHlo.binary main_v32 main_v32 main_v33 (mulf : (⟨S192x192x4x768, .f32⟩ : BufTy).Contents (Elt F) → (⟨S192x192x4x768, .f32⟩ : BufTy).Contents (Elt F) → (⟨S192x192x4x768, .f32⟩ : BufTy).Contents (Elt F)),
    StableHlo.nullary main_cst_2 (constant S_ .f32 0x00000000#32),
    StableHlo.binary main_v33 main_cst_2 main_v34 ((fun x v => Host.reduceAdd x v reducesTo_S192x192x4x768_S192x192x4_d3 h_S_) : (⟨S192x192x4x768, .f32⟩ : BufTy).Contents (Elt F) → (⟨S_, .f32⟩ : BufTy).Contents (Elt F) → (⟨S192x192x4, .f32⟩ : BufTy).Contents (Elt F)),
    StableHlo.unary main_v34 main_v35 (broadcastInDim S192x192x4x1 ![0, 1, 2] bcast_S192x192x4_S192x192x4x1_0_1_2 : (⟨S192x192x4, .f32⟩ : BufTy).Contents (Elt F) → (⟨S192x192x4x1, .f32⟩ : BufTy).Contents (Elt F)),
    StableHlo.nullary main_cst_3 (constant S_ .f32 0x44400000#32),
    StableHlo.unary main_cst_3 main_v36 (broadcastInDim S192x192x4x1 ![] bcast_S_S192x192x4x1 : (⟨S_, .f32⟩ : BufTy).Contents (Elt F) → (⟨S192x192x4x1, .f32⟩ : BufTy).Contents (Elt F)),
    StableHlo.binary main_v35 main_v36 main_v37 (Host.divf : (⟨S192x192x4x1, .f32⟩ : BufTy).Contents (Elt F) → (⟨S192x192x4x1, .f32⟩ : BufTy).Contents (Elt F) → (⟨S192x192x4x1, .f32⟩ : BufTy).Contents (Elt F)),
    StableHlo.unary main_v30 main_v38 (broadcastInDim S192x192x4x768 ![0, 1, 2, 3] bcast_S192x192x4x1_S192x192x4x768_0_1_2_3 : (⟨S192x192x4x1, .f32⟩ : BufTy).Contents (Elt F) → (⟨S192x192x4x768, .f32⟩ : BufTy).Contents (Elt F)),
    StableHlo.binary main_v26 main_v38 main_v39 (subf : (⟨S192x192x4x768, .f32⟩ : BufTy).Contents (Elt F) → (⟨S192x192x4x768, .f32⟩ : BufTy).Contents (Elt F) → (⟨S192x192x4x768, .f32⟩ : BufTy).Contents (Elt F)),
    StableHlo.nullary main_cst_4 (constant S_ .f32 0x3727C5AC#32),
    StableHlo.unary main_cst_4 main_v40 (broadcastInDim S192x192x4x1 ![] bcast_S_S192x192x4x1 : (⟨S_, .f32⟩ : BufTy).Contents (Elt F) → (⟨S192x192x4x1, .f32⟩ : BufTy).Contents (Elt F)),
    StableHlo.binary main_v37 main_v40 main_v41 (addf : (⟨S192x192x4x1, .f32⟩ : BufTy).Contents (Elt F) → (⟨S192x192x4x1, .f32⟩ : BufTy).Contents (Elt F) → (⟨S192x192x4x1, .f32⟩ : BufTy).Contents (Elt F)),
    StableHlo.unary main_v41 main_v42 (Host.rsqrt : (⟨S192x192x4x1, .f32⟩ : BufTy).Contents (Elt F) → (⟨S192x192x4x1, .f32⟩ : BufTy).Contents (Elt F)),
    StableHlo.unary main_v42 main_v43 (broadcastInDim S192x192x4x768 ![0, 1, 2, 3] bcast_S192x192x4x1_S192x192x4x768_0_1_2_3 : (⟨S192x192x4x1, .f32⟩ : BufTy).Contents (Elt F) → (⟨S192x192x4x768, .f32⟩ : BufTy).Contents (Elt F)),
    StableHlo.binary main_v39 main_v43 main_v44 (mulf : (⟨S192x192x4x768, .f32⟩ : BufTy).Contents (Elt F) → (⟨S192x192x4x768, .f32⟩ : BufTy).Contents (Elt F) → (⟨S192x192x4x768, .f32⟩ : BufTy).Contents (Elt F)),
    StableHlo.unary main_arg7 main_v45 (broadcastInDim S1x1x1x768 ![3] bcast_S768_S1x1x1x768_3 : (⟨S768, .f32⟩ : BufTy).Contents (Elt F) → (⟨S1x1x1x768, .f32⟩ : BufTy).Contents (Elt F)),
    StableHlo.unary main_v45 main_v46 (broadcastInDim S192x192x4x768 ![0, 1, 2, 3] bcast_S1x1x1x768_S192x192x4x768_0_1_2_3 : (⟨S1x1x1x768, .f32⟩ : BufTy).Contents (Elt F) → (⟨S192x192x4x768, .f32⟩ : BufTy).Contents (Elt F)),
    StableHlo.binary main_v44 main_v46 main_v47 (mulf : (⟨S192x192x4x768, .f32⟩ : BufTy).Contents (Elt F) → (⟨S192x192x4x768, .f32⟩ : BufTy).Contents (Elt F) → (⟨S192x192x4x768, .f32⟩ : BufTy).Contents (Elt F)),
    StableHlo.unary main_arg8 main_v48 (broadcastInDim S1x1x1x768 ![3] bcast_S768_S1x1x1x768_3 : (⟨S768, .f32⟩ : BufTy).Contents (Elt F) → (⟨S1x1x1x768, .f32⟩ : BufTy).Contents (Elt F)),
    StableHlo.unary main_v48 main_v49 (broadcastInDim S192x192x4x768 ![0, 1, 2, 3] bcast_S1x1x1x768_S192x192x4x768_0_1_2_3 : (⟨S1x1x1x768, .f32⟩ : BufTy).Contents (Elt F) → (⟨S192x192x4x768, .f32⟩ : BufTy).Contents (Elt F)),
    StableHlo.binary main_v47 main_v49 main_v50 (addf : (⟨S192x192x4x768, .f32⟩ : BufTy).Contents (Elt F) → (⟨S192x192x4x768, .f32⟩ : BufTy).Contents (Elt F) → (⟨S192x192x4x768, .f32⟩ : BufTy).Contents (Elt F)),
    StableHlo.TRef.nullary main_call0.cst (constant S_ .f32 0x00000000#32),
    StableHlo.TRef.unary main_call0.cst main_call0.v0 (broadcastInDim S192x192x4x768 ![] bcast_S_S192x192x4x768),
    StableHlo.TRef.binary (.of main_v50 : TRef sig ⟨S192x192x4x768, .f32⟩) main_call0.v0 main_call0.v1 (cmpf .ogt),
    StableHlo.TRef.nullary main_call0.cst_0 (constant S_ .f32 0x00000000#32),
    StableHlo.TRef.unary main_call0.cst_0 main_call0.v2 (broadcastInDim S192x192x4x768 ![] bcast_S_S192x192x4x768),
    StableHlo.TRef.binary (.of main_v50 : TRef sig ⟨S192x192x4x768, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S192x192x4x768 ![] bcast_S_S192x192x4x768),
    StableHlo.TRef.ternary main_call0.v3 main_call0.call0.v1 (.of main_v50 : TRef sig ⟨S192x192x4x768, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S192x192x4x768 ![] bcast_S_S192x192x4x768),
    StableHlo.TRef.binary main_call0.v6 main_call0.v5 main_call0.v7 mulf,
    StableHlo.TRef.ternary main_call0.v1 (.of main_v50 : TRef sig ⟨S192x192x4x768, .f32⟩) main_call0.v7 main_call0.call1.v0 select,
    StableHlo.binary main_v51 main_arg9 main_v52 ((fun l r => Host.dotGeneral dot_S192x192x4x768_S16x768_S192x192x4x16_3_1_012_0_n_n none l r) : (⟨S192x192x4x768, .f32⟩ : BufTy).Contents (Elt F) → (⟨S16x768, .f32⟩ : BufTy).Contents (Elt F) → (⟨S192x192x4x16, .f32⟩ : BufTy).Contents (Elt F)),
    StableHlo.unary main_arg10 main_v53 (broadcastInDim S1x1x1x16 ![3] bcast_S16_S1x1x1x16_3 : (⟨S16, .f32⟩ : BufTy).Contents (Elt F) → (⟨S1x1x1x16, .f32⟩ : BufTy).Contents (Elt F)) ]

/-- The second window: its operations in order, the body of the upper-triangle function listed at the call. -/
abbrev ops_part1 : List (HloOp τ sig (Elt F)) :=
  [ StableHlo.unary main_v53 main_v54 (broadcastInDim S192x192x4x16 ![0, 1, 2, 3] bcast_S1x1x1x16_S192x192x4x16_0_1_2_3 : (⟨S1x1x1x16, .f32⟩ : BufTy).Contents (Elt F) → (⟨S192x192x4x16, .f32⟩ : BufTy).Contents (Elt F)),
    StableHlo.binary main_v52 main_v54 main_v55 (addf : (⟨S192x192x4x16, .f32⟩ : BufTy).Contents (Elt F) → (⟨S192x192x4x16, .f32⟩ : BufTy).Contents (Elt F) → (⟨S192x192x4x16, .f32⟩ : BufTy).Contents (Elt F)),
    StableHlo.unary main_v55 main_v56 (Host.negf : (⟨S192x192x4x16, .f32⟩ : BufTy).Contents (Elt F) → (⟨S192x192x4x16, .f32⟩ : BufTy).Contents (Elt F)),
    StableHlo.unary main_v56 main_v57 (Host.exp : (⟨S192x192x4x16, .f32⟩ : BufTy).Contents (Elt F) → (⟨S192x192x4x16, .f32⟩ : BufTy).Contents (Elt F)),
    StableHlo.nullary main_cst_5 (constant S_ .f32 0x3F800000#32),
    StableHlo.unary main_cst_5 main_v58 (broadcastInDim S192x192x4x16 ![] bcast_S_S192x192x4x16 : (⟨S_, .f32⟩ : BufTy).Contents (Elt F) → (⟨S192x192x4x16, .f32⟩ : BufTy).Contents (Elt F)),
    StableHlo.binary main_v58 main_v57 main_v59 (addf : (⟨S192x192x4x16, .f32⟩ : BufTy).Contents (Elt F) → (⟨S192x192x4x16, .f32⟩ : BufTy).Contents (Elt F) → (⟨S192x192x4x16, .f32⟩ : BufTy).Contents (Elt F)),
    StableHlo.nullary main_cst_6 (constant S_ .f32 0x3F800000#32),
    StableHlo.unary main_cst_6 main_v60 (broadcastInDim S192x192x4x16 ![] bcast_S_S192x192x4x16 : (⟨S_, .f32⟩ : BufTy).Contents (Elt F) → (⟨S192x192x4x16, .f32⟩ : BufTy).Contents (Elt F)),
    StableHlo.binary main_v60 main_v59 main_v61 (Host.divf : (⟨S192x192x4x16, .f32⟩ : BufTy).Contents (Elt F) → (⟨S192x192x4x16, .f32⟩ : BufTy).Contents (Elt F) → (⟨S192x192x4x16, .f32⟩ : BufTy).Contents (Elt F)),
    StableHlo.nullary main_cst_7 (constant S_ .f32 0x3F800000#32),
    StableHlo.unary main_cst_7 main_v62 (broadcastInDim S192x192 ![] bcast_S_S192x192 : (⟨S_, .f32⟩ : BufTy).Contents (Elt F) → (⟨S192x192, .f32⟩ : BufTy).Contents (Elt F)),
    StableHlo.TRef.nullary main_call1.v0 (iotaInDim S192x192 32 0),
    StableHlo.TRef.nullary main_call1.c (constantI S_ 32 4294967295#32),
    StableHlo.TRef.unary main_call1.c main_call1.v1 (broadcastInDim S192x192 ![] bcast_S_S192x192),
    StableHlo.TRef.binary main_call1.v0 main_call1.v1 main_call1.v2 addi,
    StableHlo.TRef.nullary main_call1.v3 (iotaInDim S192x192 32 1),
    StableHlo.TRef.binary main_call1.v2 main_call1.v3 main_call1.v4 (cmpi .sge),
    StableHlo.TRef.nullary main_call1.cst (constant S_ .f32 0x00000000#32),
    StableHlo.TRef.unary main_call1.cst main_call1.v5 (broadcastInDim S192x192 ![] bcast_S_S192x192),
    StableHlo.TRef.ternary main_call1.v4 main_call1.v5 (.of main_v62 : TRef sig ⟨S192x192, .f32⟩) main_call1.v6 select,
    StableHlo.unary main_arg2 main_v64 (broadcastInDim S192x1x4 ![0, 2] bcast_S192x4_S192x1x4_0_2 : (⟨S192x4, .f32⟩ : BufTy).Contents (Elt F) → (⟨S192x1x4, .f32⟩ : BufTy).Contents (Elt F)),
    StableHlo.unary main_arg2 main_v65 (broadcastInDim S1x192x4 ![1, 2] bcast_S192x4_S1x192x4_1_2 : (⟨S192x4, .f32⟩ : BufTy).Contents (Elt F) → (⟨S1x192x4, .f32⟩ : BufTy).Contents (Elt F)),
    StableHlo.unary main_v64 main_v66 (broadcastInDim S192x192x4 ![0, 1, 2] bcast_S192x1x4_S192x192x4_0_1_2 : (⟨S192x1x4, .f32⟩ : BufTy).Contents (Elt F) → (⟨S192x192x4, .f32⟩ : BufTy).Contents (Elt F)),
    StableHlo.unary main_v65 main_v67 (broadcastInDim S192x192x4 ![0, 1, 2] bcast_S1x192x4_S192x192x4_0_1_2 : (⟨S1x192x4, .f32⟩ : BufTy).Contents (Elt F) → (⟨S192x192x4, .f32⟩ : BufTy).Contents (Elt F)),
    StableHlo.binary main_v66 main_v67 main_v68 (mulf : (⟨S192x192x4, .f32⟩ : BufTy).Contents (Elt F) → (⟨S192x192x4, .f32⟩ : BufTy).Contents (Elt F) → (⟨S192x192x4, .f32⟩ : BufTy).Contents (Elt F)),
    StableHlo.unary main_v63 main_v69 (broadcastInDim S192x192x1 ![0, 1] bcast_S192x192_S192x192x1_0_1 : (⟨S192x192, .f32⟩ : BufTy).Contents (Elt F) → (⟨S192x192x1, .f32⟩ : BufTy).Contents (Elt F)),
    StableHlo.unary main_v69 main_v70 (broadcastInDim S192x192x4 ![0, 1, 2] bcast_S192x192x1_S192x192x4_0_1_2 : (⟨S192x192x1, .f32⟩ : BufTy).Contents (Elt F) → (⟨S192x192x4, .f32⟩ : BufTy).Contents (Elt F)),
    StableHlo.binary main_v68 main_v70 main_v71 (mulf : (⟨S192x192x4, .f32⟩ : BufTy).Contents (Elt F) → (⟨S192x192x4, .f32⟩ : BufTy).Contents (Elt F) → (⟨S192x192x4, .f32⟩ : BufTy).Contents (Elt F)),
    StableHlo.unary main_v71 main_v72 (broadcastInDim S192x192x4x1 ![0, 1, 2] bcast_S192x192x4_S192x192x4x1_0_1_2 : (⟨S192x192x4, .f32⟩ : BufTy).Contents (Elt F) → (⟨S192x192x4x1, .f32⟩ : BufTy).Contents (Elt F)),
    StableHlo.unary main_v72 main_v73 (broadcastInDim S192x192x4x16 ![0, 1, 2, 3] bcast_S192x192x4x1_S192x192x4x16_0_1_2_3 : (⟨S192x192x4x1, .f32⟩ : BufTy).Contents (Elt F) → (⟨S192x192x4x16, .f32⟩ : BufTy).Contents (Elt F)),
    StableHlo.binary main_v61 main_v73 main_v74 (mulf : (⟨S192x192x4x16, .f32⟩ : BufTy).Contents (Elt F) → (⟨S192x192x4x16, .f32⟩ : BufTy).Contents (Elt F) → (⟨S192x192x4x16, .f32⟩ : BufTy).Contents (Elt F)) ]

/-- All the operations, in order. -/
abbrev ops : List (HloOp τ sig (Elt F)) := ops_part0 ++ ops_part1

set_option maxRecDepth 8192 in
set_option maxHeartbeats 4000000 in
theorem main_part0_eq (c : Dev nD) : main_part0 (F := F) c = seq ops_part0 := by
  simp only [main_part0, fn_elu.body, fn_where.body, fn_where_0.body, seq, bind_assoc, pure_bind]
  rfl

set_option maxRecDepth 8192 in
set_option maxHeartbeats 4000000 in
theorem main_part1_eq (c : Dev nD) : main_part1 (F := F) c = seq ops_part1 := by
  simp only [main_part1, fn_triu.body, seq, bind_assoc, pure_bind]

set_option maxRecDepth 8192 in
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨unary_bufs_sub .., unary_bufs_sub .., binary_bufs_sub .., binary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., binary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub ..⟩
set_option maxRecDepth 8192 in
theorem ops_part1_sub : (ops_part1 : List (HloOp τ sig (Elt F))).Forall fun op => op.bufs ⊆ tcRefs τ sig :=
  ⟨unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]

end Cert.ReferenceIdeal.RefRun

end
-- ==== Proof.RefRun.lean ====
/-
  The run of the reference program, read back.

  The program's operations (the list of the imported module) are grouped into eleven consecutive
  stages.  Each stage's effect on the buffers is computed from the operations' result rules; a
  buffer a stage does not write keeps its contents.  Chaining the stages gives every buffer after
  the whole run as a term of the argument buffers at launch: the result buffer holds `out`, a
  composition of named intermediate terms, and every argument buffer is unchanged.
-/
import proofs.«124299_j40209483825381_1_alg».proof.Proof.RefOps

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as a term of the arguments -/

/-- The pre-activation of the pooled branch: the two projections of the inputs by the halves of the first weight, summed, plus the bias. -/
def res_main_v7 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) : (⟨S192x4x768, .f32⟩ : BufTy).Contents (Elt F) :=
  addf (addf (Host.dotGeneral dot_S192x4x768_S768x768_S192x4x768_2_1_01_0_n_n none a1 (extractStridedSlice S768x768 ![0, 0] a3 slices_S768x1536_S768x768_0_0)) (Host.dotGeneral dot_S192x4x768_S768x768_S192x4x768_2_1_01_0_n_n none a0 (extractStridedSlice S768x768 ![0, 768] a3 slices_S768x1536_S768x768_0_768))) (broadcastInDim S192x4x768 ![0, 1, 2] bcast_S1x1x768_S192x4x768_0_1_2 (broadcastInDim S1x1x768 ![2] bcast_S768_S1x1x768_2 a4))

/-- The pooled branch: the maximum over the leading axis of the hyperbolic tangent of that pre-activation. -/
def res_main_v9 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) : (⟨S4x768, .f32⟩ : BufTy).Contents (Elt F) :=
  Host.reduce FloatOps.maximumf (Host.tanh (res_main_v7 a0 a1 a3 a4)) (constant S_ .f32 0xFF800000#32) reducesTo_S192x4x768_S4x768_d0 h_S_

/-- The projection of the first input by the first third of the second weight. -/
def res_main_v13 (a0 : (⟨S192x4x768, .f32⟩ : BufTy).Contents (Elt F)) (a5 : (⟨S768x2304, .f32⟩ : BufTy).Contents (Elt F)) : (⟨S192x4x768, .f32⟩ : BufTy).Contents (Elt F) :=
  Host.dotGeneral dot_S192x4x768_S768x768_S192x4x768_2_1_01_0_n_n none a0 (extractStridedSlice S768x768 ![0, 0] a5 slices_S768x2304_S768x768_0_0)

/-- The projection of the first input by the second third of the second weight. -/
def res_main_v14 (a0 : (⟨S192x4x768, .f32⟩ : BufTy).Contents (Elt F)) (a5 : (⟨S768x2304, .f32⟩ : BufTy).Contents (Elt F)) : (⟨S192x4x768, .f32⟩ : BufTy).Contents (Elt F) :=
  Host.dotGeneral dot_S192x4x768_S768x768_S192x4x768_2_1_01_0_n_n none a0 (extractStridedSlice S768x768 ![0, 768] a5 slices_S768x2304_S768x768_0_768)

/-- The projection of the pooled branch by the last third of the second weight. -/
def res_main_v15 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) : (⟨S4x768, .f32⟩ : BufTy).Contents (Elt F) :=
  Host.dotGeneral dot_S4x768_S768x768_S4x768_1_1_0_0_n_n none (res_main_v9 a0 a1 a3 a4) (extractStridedSlice S768x768 ![0, 1536] a5 slices_S768x2304_S768x768_0_1536)

/-- The pair features: row term plus column term plus pooled term plus bias, over all pairs. -/
def res_main_v26 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) : (⟨S192x192x4x768, .f32⟩ : BufTy).Contents (Elt F) :=
  addf (addf (addf (broadcastInDim S192x192x4x768 ![0, 1, 2, 3] bcast_S192x1x4x768_S192x192x4x768_0_1_2_3 (broadcastInDim S192x1x4x768 ![0, 2, 3] bcast_S192x4x768_S192x1x4x768_0_2_3 (res_main_v13 a0 a5))) (broadcastInDim S192x192x4x768 ![0, 1, 2, 3] bcast_S1x192x4x768_S192x192x4x768_0_1_2_3 (broadcastInDim S1x192x4x768 ![1, 2, 3] bcast_S192x4x768_S1x192x4x768_1_2_3 (res_main_v14 a0 a5)))) (broadcastInDim S192x192x4x768 ![0, 1, 2, 3] bcast_S1x1x4x768_S192x192x4x768_0_1_2_3 (broadcastInDim S1x1x4x768 ![2, 3] bcast_S4x768_S1x1x4x768_2_3 (res_main_v15 a0 a1 a3 a4 a5)))) (broadcastInDim S192x192x4x768 ![0, 1, 2, 3] bcast_S1x1x1x768_S192x192x4x768_0_1_2_3 (broadcastInDim S1x1x1x768 ![3] bcast_S768_S1x1x1x768_3 a6))

/-- The mean of the pair features over the feature axis. -/
def res_main_v30 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) : (⟨S192x192x4x1, .f32⟩ : BufTy).Contents (Elt F) :=
  Host.divf (broadcastInDim S192x192x4x1 ![0, 1, 2] bcast_S192x192x4_S192x192x4x1_0_1_2 (Host.reduceAdd (res_main_v26 a0 a1 a3 a4 a5 a6) (constant S_ .f32 0x00000000#32) reducesTo_S192x192x4x768_S192x192x4_d3 h_S_)) (broadcastInDim S192x192x4x1 ![] bcast_S_S192x192x4x1 (constant S_ .f32 0x44400000#32))

/-- The variance of the pair features over the feature axis. -/
def res_main_v37 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) : (⟨S192x192x4x1, .f32⟩ : BufTy).Contents (Elt F) :=
  Host.divf (broadcastInDim S192x192x4x1 ![0, 1, 2] bcast_S192x192x4_S192x192x4x1_0_1_2 (Host.reduceAdd (mulf (subf (res_main_v26 a0 a1 a3 a4 a5 a6) (broadcastInDim S192x192x4x768 ![0, 1, 2, 3] bcast_S192x192x4x1_S192x192x4x768_0_1_2_3 (res_main_v30 a0 a1 a3 a4 a5 a6))) (subf (res_main_v26 a0 a1 a3 a4 a5 a6) (broadcastInDim S192x192x4x768 ![0, 1, 2, 3] bcast_S192x192x4x1_S192x192x4x768_0_1_2_3 (res_main_v30 a0 a1 a3 a4 a5 a6)))) (constant S_ .f32 0x00000000#32) reducesTo_S192x192x4x768_S192x192x4_d3 h_S_)) (broadcastInDim S192x192x4x1 ![] bcast_S_S192x192x4x1 (constant S_ .f32 0x44400000#32))

/-- The pair features centred at their mean. -/
def res_main_v39 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) : (⟨S192x192x4x768, .f32⟩ : BufTy).Contents (Elt F) :=
  subf (res_main_v26 a0 a1 a3 a4 a5 a6) (broadcastInDim S192x192x4x768 ![0, 1, 2, 3] bcast_S192x192x4x1_S192x192x4x768_0_1_2_3 (res_main_v30 a0 a1 a3 a4 a5 a6))

/-- The reciprocal square root of the variance plus the stabiliser. -/
def res_main_v42 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) : (⟨S192x192x4x1, .f32⟩ : BufTy).Contents (Elt F) :=
  Host.rsqrt (addf (res_main_v37 a0 a1 a3 a4 a5 a6) (broadcastInDim S192x192x4x1 ![] bcast_S_S192x192x4x1 (constant S_ .f32 0x3727C5AC#32)))

/-- The normalised pair features, scaled and shifted. -/
def res_main_v50 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) (a7 : (⟨S768, .f32⟩ : BufTy).Contents (Elt F)) (a8 : (⟨S768, .f32⟩ : BufTy).Contents (Elt F)) : (⟨S192x192x4x768, .f32⟩ : BufTy).Contents (Elt F) :=
  addf (mulf (mulf (res_main_v39 a0 a1 a3 a4 a5 a6) (broadcastInDim S192x192x4x768 ![0, 1, 2, 3] bcast_S192x192x4x1_S192x192x4x768_0_1_2_3 (res_main_v42 a0 a1 a3 a4 a5 a6))) (broadcastInDim S192x192x4x768 ![0, 1, 2, 3] bcast_S1x1x1x768_S192x192x4x768_0_1_2_3 (broadcastInDim S1x1x1x768 ![3] bcast_S768_S1x1x1x768_3 a7))) (broadcastInDim S192x192x4x768 ![0, 1, 2, 3] bcast_S1x1x1x768_S192x192x4x768_0_1_2_3 (broadcastInDim S1x1x1x768 ![3] bcast_S768_S1x1x1x768_3 a8))

/-- The exponential linear unit of the normalised pair features. -/
def res_main_v51 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) (a7 : (⟨S768, .f32⟩ : BufTy).Contents (Elt F)) (a8 : (⟨S768, .f32⟩ : BufTy).Contents (Elt F)) : (⟨S192x192x4x768, .f32⟩ : BufTy).Contents (Elt F) :=
  select (cmpf .ogt (res_main_v50 a0 a1 a3 a4 a5 a6 a7 a8) (broadcastInDim S192x192x4x768 ![] bcast_S_S192x192x4x768 (constant S_ .f32 0x00000000#32))) (res_main_v50 a0 a1 a3 a4 a5 a6 a7 a8) (mulf (broadcastInDim S192x192x4x768 ![] bcast_S_S192x192x4x768 (constant S_ .f32 0x3F800000#32)) (Host.expm1 (select (cmpf .ogt (res_main_v50 a0 a1 a3 a4 a5 a6 a7 a8) (broadcastInDim S192x192x4x768 ![] bcast_S_S192x192x4x768 (constant S_ .f32 0x00000000#32))) (broadcastInDim S192x192x4x768 ![] bcast_S_S192x192x4x768 (constant S_ .f32 0x00000000#32)) (res_main_v50 a0 a1 a3 a4 a5 a6 a7 a8))))

/-- The projection of the activated pair features to the output heads. -/
def res_main_v52 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) (a7 : (⟨S768, .f32⟩ : BufTy).Contents (Elt F)) (a8 : (⟨S768, .f32⟩ : BufTy).Contents (Elt F)) (a9 : (⟨S16x768, .f32⟩ : BufTy).Contents (Elt F)) : (⟨S192x192x4x16, .f32⟩ : BufTy).Contents (Elt F) :=
  Host.dotGeneral dot_S192x192x4x768_S16x768_S192x192x4x16_3_1_012_0_n_n none (res_main_v51 a0 a1 a3 a4 a5 a6 a7 a8) a9

/-- The head bias, as a rank-four array. -/
def res_main_v53 (a10 : (⟨S16, .f32⟩ : BufTy).Contents (Elt F)) : (⟨S1x1x1x16, .f32⟩ : BufTy).Contents (Elt F) :=
  broadcastInDim S1x1x1x16 ![3] bcast_S16_S1x1x1x16_3 a10

/-- The head logits: the projection plus the bias. -/
def res_main_v55 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) (a7 : (⟨S768, .f32⟩ : BufTy).Contents (Elt F)) (a8 : (⟨S768, .f32⟩ : BufTy).Contents (Elt F)) (a9 : (⟨S16x768, .f32⟩ : BufTy).Contents (Elt F)) (a10 : (⟨S16, .f32⟩ : BufTy).Contents (Elt F)) : (⟨S192x192x4x16, .f32⟩ : BufTy).Contents (Elt F) :=
  addf (res_main_v52 a0 a1 a3 a4 a5 a6 a7 a8 a9) (broadcastInDim S192x192x4x16 ![0, 1, 2, 3] bcast_S1x1x1x16_S192x192x4x16_0_1_2_3 (res_main_v53 a10))

/-- The logistic function of the head logits. -/
def res_main_v61 (a0 : (⟨S192x4x768, .f32⟩ : BufTy).Contents (Elt F)) (a1 : (⟨S192x4x768, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) (a7 : (⟨S768, .f32⟩ : BufTy).Contents (Elt F)) (a8 : (⟨S768, .f32⟩ : BufTy).Contents (Elt F)) (a9 : (⟨S16x768, .f32⟩ : BufTy).Contents (Elt F)) (a10 : (⟨S16, .f32⟩ : BufTy).Contents (Elt F)) : (⟨S192x192x4x16, .f32⟩ : BufTy).Contents (Elt F) :=
  Host.divf (broadcastInDim S192x192x4x16 ![] bcast_S_S192x192x4x16 (constant S_ .f32 0x3F800000#32)) (addf (broadcastInDim S192x192x4x16 ![] bcast_S_S192x192x4x16 (constant S_ .f32 0x3F800000#32)) (Host.exp (Host.negf (res_main_v55 a0 a1 a3 a4 a5 a6 a7 a8 a9 a10))))

/-- The upper triangle with its diagonal: one where the column index is at least the row index, zero below the diagonal. -/
def res_main_v63  : (⟨S192x192, .f32⟩ : BufTy).Contents (Elt F) :=
  select (cmpi .sge (addi (iotaInDim S192x192 32 0) (broadcastInDim S192x192 ![] bcast_S_S192x192 (constantI S_ 32 4294967295#32))) (iotaInDim S192x192 32 1)) (broadcastInDim S192x192 ![] bcast_S_S192x192 (constant S_ .f32 0x00000000#32)) (broadcastInDim S192x192 ![] bcast_S_S192x192 (constant S_ .f32 0x3F800000#32))

/-- The pair mask: the product of the two positions' masks, kept on and above the diagonal. -/
def res_main_v71 (a2 : (⟨S192x4, .f32⟩ : BufTy).Contents (Elt F)) : (⟨S192x192x4, .f32⟩ : BufTy).Contents (Elt F) :=
  mulf (mulf (broadcastInDim S192x192x4 ![0, 1, 2] bcast_S192x1x4_S192x192x4_0_1_2 (broadcastInDim S192x1x4 ![0, 2] bcast_S192x4_S192x1x4_0_2 a2)) (broadcastInDim S192x192x4 ![0, 1, 2] bcast_S1x192x4_S192x192x4_0_1_2 (broadcastInDim S1x192x4 ![1, 2] bcast_S192x4_S1x192x4_1_2 a2))) (broadcastInDim S192x192x4 ![0, 1, 2] bcast_S192x192x1_S192x192x4_0_1_2 (broadcastInDim S192x192x1 ![0, 1] bcast_S192x192_S192x192x1_0_1 res_main_v63))

/-- The pair mask broadcast over the heads. -/
def res_main_v73 (a2 : (⟨S192x4, .f32⟩ : BufTy).Contents (Elt F)) : (⟨S192x192x4x16, .f32⟩ : BufTy).Contents (Elt F) :=
  broadcastInDim S192x192x4x16 ![0, 1, 2, 3] bcast_S192x192x4x1_S192x192x4x16_0_1_2_3 (broadcastInDim S192x192x4x1 ![0, 1, 2] bcast_S192x192x4_S192x192x4x1_0_1_2 (res_main_v71 a2))

/-- The program's result as one term of its eleven arguments: the logistic head outputs times the pair mask. -/
def out (a0 : (⟨S192x4x768, .f32⟩ : BufTy).Contents (Elt F)) (a1 : (⟨S192x4x768, .f32⟩ : BufTy).Contents (Elt F)) (a2 : (⟨S192x4, .f32⟩ : BufTy).Contents (Elt F)) (a3 : (⟨S768x1536, .f32⟩ : BufTy).Contents (Elt F)) (a4 : (⟨S768, .f32⟩ : BufTy).Contents (Elt F)) (a5 : (⟨S768x2304, .f32⟩ : BufTy).Contents (Elt F)) (a6 : (⟨S768, .f32⟩ : BufTy).Contents (Elt F)) (a7 : (⟨S768, .f32⟩ : BufTy).Contents (Elt F)) (a8 : (⟨S768, .f32⟩ : BufTy).Contents (Elt F)) (a9 : (⟨S16x768, .f32⟩ : BufTy).Contents (Elt F)) (a10 : (⟨S16, .f32⟩ : BufTy).Contents (Elt F)) : (⟨S192x192x4x16, .f32⟩ : BufTy).Contents (Elt F) :=
  mulf (res_main_v61 a0 a1 a3 a4 a5 a6 a7 a8 a9 a10) (res_main_v73 a2)

/-! ## The stages -/

/-- Moving contents to a typed reference's own buffer type and back is the identity. -/
theorem ofBuf_toBuf {T : BufTy} (x : TRef sig T) (v : T.Contents (Elt F)) : x.ofBuf (x.toBuf v) = v := by
  obtain ⟨r, h, a, b⟩ := x
  subst h
  rfl

/-- Running two lists one after the other is running their concatenation. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- Stage 0: the operations writing main_v0 … main_v9. -/
abbrev ops_s0 : List (HloOp τ sig (Elt F)) :=
  [ StableHlo.unary main_arg3 main_v0 ((extractStridedSlice S768x768 ![0, 0] · slices_S768x1536_S768x768_0_0) : (⟨S768x1536, .f32⟩ : BufTy).Contents (Elt F) → (⟨S768x768, .f32⟩ : BufTy).Contents (Elt F)),
    StableHlo.unary main_arg3 main_v1 ((extractStridedSlice S768x768 ![0, 768] · slices_S768x1536_S768x768_0_768) : (⟨S768x1536, .f32⟩ : BufTy).Contents (Elt F) → (⟨S768x768, .f32⟩ : BufTy).Contents (Elt F)),
    StableHlo.binary main_arg1 main_v0 main_v2 ((fun l r => Host.dotGeneral dot_S192x4x768_S768x768_S192x4x768_2_1_01_0_n_n none l r) : (⟨S192x4x768, .f32⟩ : BufTy).Contents (Elt F) → (⟨S768x768, .f32⟩ : BufTy).Contents (Elt F) → (⟨S192x4x768, .f32⟩ : BufTy).Contents (Elt F)),
    StableHlo.binary main_arg0 main_v1 main_v3 ((fun l r => Host.dotGeneral dot_S192x4x768_S768x768_S192x4x768_2_1_01_0_n_n none l r) : (⟨S192x4x768, .f32⟩ : BufTy).Contents (Elt F) → (⟨S768x768, .f32⟩ : BufTy).Contents (Elt F) → (⟨S192x4x768, .f32⟩ : BufTy).Contents (Elt F)),
    StableHlo.binary main_v2 main_v3 main_v4 (addf : (⟨S192x4x768, .f32⟩ : BufTy).Contents (Elt F) → (⟨S192x4x768, .f32⟩ : BufTy).Contents (Elt F) → (⟨S192x4x768, .f32⟩ : BufTy).Contents (Elt F)),
    StableHlo.unary main_arg4 main_v5 (broadcastInDim S1x1x768 ![2] bcast_S768_S1x1x768_2 : (⟨S768, .f32⟩ : BufTy).Contents (Elt F) → (⟨S1x1x768, .f32⟩ : BufTy).Contents (Elt F)),
    StableHlo.unary main_v5 main_v6 (broadcastInDim S192x4x768 ![0, 1, 2] bcast_S1x1x768_S192x4x768_0_1_2 : (⟨S1x1x768, .f32⟩ : BufTy).Contents (Elt F) → (⟨S192x4x768, .f32⟩ : BufTy).Contents (Elt F)),
    StableHlo.binary main_v4 main_v6 main_v7 (addf : (⟨S192x4x768, .f32⟩ : BufTy).Contents (Elt F) → (⟨S192x4x768, .f32⟩ : BufTy).Contents (Elt F) → (⟨S192x4x768, .f32⟩ : BufTy).Contents (Elt F)),
    StableHlo.unary main_v7 main_v8 (Host.tanh : (⟨S192x4x768, .f32⟩ : BufTy).Contents (Elt F) → (⟨S192x4x768, .f32⟩ : BufTy).Contents (Elt F)),
    StableHlo.nullary main_cst (constant S_ .f32 0xFF800000#32),
    StableHlo.binary main_v8 main_cst main_v9 ((fun x v => Host.reduce FloatOps.maximumf x v reducesTo_S192x4x768_S4x768_d0 h_S_) : (⟨S192x4x768, .f32⟩ : BufTy).Contents (Elt F) → (⟨S_, .f32⟩ : BufTy).Contents (Elt F) → (⟨S4x768, .f32⟩ : BufTy).Contents (Elt F)) ]

/-- Stage 1: the operations writing main_v10 … main_v15. -/
abbrev ops_s1 : List (HloOp τ sig (Elt F)) :=
  [ StableHlo.unary main_arg5 main_v10 ((extractStridedSlice S768x768 ![0, 0] · slices_S768x2304_S768x768_0_0) : (⟨S768x2304, .f32⟩ : BufTy).Contents (Elt F) → (⟨S768x768, .f32⟩ : BufTy).Contents (Elt F)),
    StableHlo.unary main_arg5 main_v11 ((extractStridedSlice S768x768 ![0, 768] · slices_S768x2304_S768x768_0_768) : (⟨S768x2304, .f32⟩ : BufTy).Contents (Elt F) → (⟨S768x768, .f32⟩ : BufTy).Contents (Elt F)),
    StableHlo.unary main_arg5 main_v12 ((extractStridedSlice S768x768 ![0, 1536] · slices_S768x2304_S768x768_0_1536) : (⟨S768x2304, .f32⟩ : BufTy).Contents (Elt F) → (⟨S768x768, .f32⟩ : BufTy).Contents (Elt F)),
    StableHlo.binary main_arg0 main_v10 main_v13 ((fun l r => Host.dotGeneral dot_S192x4x768_S768x768_S192x4x768_2_1_01_0_n_n none l r) : (⟨S192x4x768, .f32⟩ : BufTy).Contents (Elt F) → (⟨S768x768, .f32⟩ : BufTy).Contents (Elt F) → (⟨S192x4x768, .f32⟩ : BufTy).Contents (Elt F)),
    StableHlo.binary main_arg0 main_v11 main_v14 ((fun l r => Host.dotGeneral dot_S192x4x768_S768x768_S192x4x768_2_1_01_0_n_n none l r) : (⟨S192x4x768, .f32⟩ : BufTy).Contents (Elt F) → (⟨S768x768, .f32⟩ : BufTy).Contents (Elt F) → (⟨S192x4x768, .f32⟩ : BufTy).Contents (Elt F)),
    StableHlo.binary main_v9 main_v12 main_v15 ((fun l r => Host.dotGeneral dot_S4x768_S768x768_S4x768_1_1_0_0_n_n none l r) : (⟨S4x768, .f32⟩ : BufTy).Contents (Elt F) → (⟨S768x768, .f32⟩ : BufTy).Contents (Elt F) → (⟨S4x768, .f32⟩ : BufTy).Contents (Elt F)) ]

/-- Stage 2: the operations writing main_v16 … main_v26. -/
abbrev ops_s2 : List (HloOp τ sig (Elt F)) :=
  [ StableHlo.unary main_v13 main_v16 (broadcastInDim S192x1x4x768 ![0, 2, 3] bcast_S192x4x768_S192x1x4x768_0_2_3 : (⟨S192x4x768, .f32⟩ : BufTy).Contents (Elt F) → (⟨S192x1x4x768, .f32⟩ : BufTy).Contents (Elt F)),
    StableHlo.unary main_v14 main_v17 (broadcastInDim S1x192x4x768 ![1, 2, 3] bcast_S192x4x768_S1x192x4x768_1_2_3 : (⟨S192x4x768, .f32⟩ : BufTy).Contents (Elt F) → (⟨S1x192x4x768, .f32⟩ : BufTy).Contents (Elt F)),
    StableHlo.unary main_v16 main_v18 (broadcastInDim S192x192x4x768 ![0, 1, 2, 3] bcast_S192x1x4x768_S192x192x4x768_0_1_2_3 : (⟨S192x1x4x768, .f32⟩ : BufTy).Contents (Elt F) → (⟨S192x192x4x768, .f32⟩ : BufTy).Contents (Elt F)),
    StableHlo.unary main_v17 main_v19 (broadcastInDim S192x192x4x768 ![0, 1, 2, 3] bcast_S1x192x4x768_S192x192x4x768_0_1_2_3 : (⟨S1x192x4x768, .f32⟩ : BufTy).Contents (Elt F) → (⟨S192x192x4x768, .f32⟩ : BufTy).Contents (Elt F)),
    StableHlo.binary main_v18 main_v19 main_v20 (addf : (⟨S192x192x4x768, .f32⟩ : BufTy).Contents (Elt F) → (⟨S192x192x4x768, .f32⟩ : BufTy).Contents (Elt F) → (⟨S192x192x4x768, .f32⟩ : BufTy).Contents (Elt F)),
    StableHlo.unary main_v15 main_v21 (broadcastInDim S1x1x4x768 ![2, 3] bcast_S4x768_S1x1x4x768_2_3 : (⟨S4x768, .f32⟩ : BufTy).Contents (Elt F) → (⟨S1x1x4x768, .f32⟩ : BufTy).Contents (Elt F)),
    StableHlo.unary main_v21 main_v22 (broadcastInDim S192x192x4x768 ![0, 1, 2, 3] bcast_S1x1x4x768_S192x192x4x768_0_1_2_3 : (⟨S1x1x4x768, .f32⟩ : BufTy).Contents (Elt F) → (⟨S192x192x4x768, .f32⟩ : BufTy).Contents (Elt F)),
    StableHlo.binary main_v20 main_v22 main_v23 (addf : (⟨S192x192x4x768, .f32⟩ : BufTy).Contents (Elt F) → (⟨S192x192x4x768, .f32⟩ : BufTy).Contents (Elt F) → (⟨S192x192x4x768, .f32⟩ : BufTy).Contents (Elt F)),
    StableHlo.unary main_arg6 main_v24 (broadcastInDim S1x1x1x768 ![3] bcast_S768_S1x1x1x768_3 : (⟨S768, .f32⟩ : BufTy).Contents (Elt F) → (⟨S1x1x1x768, .f32⟩ : BufTy).Contents (Elt F)),
    StableHlo.unary main_v24 main_v25 (broadcastInDim S192x192x4x768 ![0, 1, 2, 3] bcast_S1x1x1x768_S192x192x4x768_0_1_2_3 : (⟨S1x1x1x768, .f32⟩ : BufTy).Contents (Elt F) → (⟨S192x192x4x768, .f32⟩ : BufTy).Contents (Elt F)),
    StableHlo.binary main_v23 main_v25 main_v26 (addf : (⟨S192x192x4x768, .f32⟩ : BufTy).Contents (Elt F) → (⟨S192x192x4x768, .f32⟩ : BufTy).Contents (Elt F) → (⟨S192x192x4x768, .f32⟩ : BufTy).Contents (Elt F)) ]

/-- Stage 3: the operations writing main_cst_0 … main_v30. -/
abbrev ops_s3 : List (HloOp τ sig (Elt F)) :=
  [ StableHlo.nullary main_cst_0 (constant S_ .f32 0x00000000#32),
    StableHlo.binary main_v26 main_cst_0 main_v27 ((fun x v => Host.reduceAdd x v reducesTo_S192x192x4x768_S192x192x4_d3 h_S_) : (⟨S192x192x4x768, .f32⟩ : BufTy).Contents (Elt F) → (⟨S_, .f32⟩ : BufTy).Contents (Elt F) → (⟨S192x192x4, .f32⟩ : BufTy).Contents (Elt F)),
    StableHlo.unary main_v27 main_v28 (broadcastInDim S192x192x4x1 ![0, 1, 2] bcast_S192x192x4_S192x192x4x1_0_1_2 : (⟨S192x192x4, .f32⟩ : BufTy).Contents (Elt F) → (⟨S192x192x4x1, .f32⟩ : BufTy).Contents (Elt F)),
    StableHlo.nullary main_cst_1 (constant S_ .f32 0x44400000#32),
    StableHlo.unary main_cst_1 main_v29 (broadcastInDim S192x192x4x1 ![] bcast_S_S192x192x4x1 : (⟨S_, .f32⟩ : BufTy).Contents (Elt F) → (⟨S192x192x4x1, .f32⟩ : BufTy).Contents (Elt F)),
    StableHlo.binary main_v28 main_v29 main_v30 (Host.divf : (⟨S192x192x4x1, .f32⟩ : BufTy).Contents (Elt F) → (⟨S192x192x4x1, .f32⟩ : BufTy).Contents (Elt F) → (⟨S192x192x4x1, .f32⟩ : BufTy).Contents (Elt F)) ]

/-- Stage 4: the operations writing main_v31 … main_v42. -/
abbrev ops_s4 : List (HloOp τ sig (Elt F)) :=
  [ StableHlo.unary main_v30 main_v31 (broadcastInDim S192x192x4x768 ![0, 1, 2, 3] bcast_S192x192x4x1_S192x192x4x768_0_1_2_3 : (⟨S192x192x4x1, .f32⟩ : BufTy).Contents (Elt F) → (⟨S192x192x4x768, .f32⟩ : BufTy).Contents (Elt F)),
    StableHlo.binary main_v26 main_v31 main_v32 (subf : (⟨S192x192x4x768, .f32⟩ : BufTy).Contents (Elt F) → (⟨S192x192x4x768, .f32⟩ : BufTy).Contents (Elt F) → (⟨S192x192x4x768, .f32⟩ : BufTy).Contents (Elt F)),
    StableHlo.binary main_v32 main_v32 main_v33 (mulf : (⟨S192x192x4x768, .f32⟩ : BufTy).Contents (Elt F) → (⟨S192x192x4x768, .f32⟩ : BufTy).Contents (Elt F) → (⟨S192x192x4x768, .f32⟩ : BufTy).Contents (Elt F)),
    StableHlo.nullary main_cst_2 (constant S_ .f32 0x00000000#32),
    StableHlo.binary main_v33 main_cst_2 main_v34 ((fun x v => Host.reduceAdd x v reducesTo_S192x192x4x768_S192x192x4_d3 h_S_) : (⟨S192x192x4x768, .f32⟩ : BufTy).Contents (Elt F) → (⟨S_, .f32⟩ : BufTy).Contents (Elt F) → (⟨S192x192x4, .f32⟩ : BufTy).Contents (Elt F)),
    StableHlo.unary main_v34 main_v35 (broadcastInDim S192x192x4x1 ![0, 1, 2] bcast_S192x192x4_S192x192x4x1_0_1_2 : (⟨S192x192x4, .f32⟩ : BufTy).Contents (Elt F) → (⟨S192x192x4x1, .f32⟩ : BufTy).Contents (Elt F)),
    StableHlo.nullary main_cst_3 (constant S_ .f32 0x44400000#32),
    StableHlo.unary main_cst_3 main_v36 (broadcastInDim S192x192x4x1 ![] bcast_S_S192x192x4x1 : (⟨S_, .f32⟩ : BufTy).Contents (Elt F) → (⟨S192x192x4x1, .f32⟩ : BufTy).Contents (Elt F)),
    StableHlo.binary main_v35 main_v36 main_v37 (Host.divf : (⟨S192x192x4x1, .f32⟩ : BufTy).Contents (Elt F) → (⟨S192x192x4x1, .f32⟩ : BufTy).Contents (Elt F) → (⟨S192x192x4x1, .f32⟩ : BufTy).Contents (Elt F)),
    StableHlo.unary main_v30 main_v38 (broadcastInDim S192x192x4x768 ![0, 1, 2, 3] bcast_S192x192x4x1_S192x192x4x768_0_1_2_3 : (⟨S192x192x4x1, .f32⟩ : BufTy).Contents (Elt F) → (⟨S192x192x4x768, .f32⟩ : BufTy).Contents (Elt F)),
    StableHlo.binary main_v26 main_v38 main_v39 (subf : (⟨S192x192x4x768, .f32⟩ : BufTy).Contents (Elt F) → (⟨S192x192x4x768, .f32⟩ : BufTy).Contents (Elt F) → (⟨S192x192x4x768, .f32⟩ : BufTy).Contents (Elt F)),
    StableHlo.nullary main_cst_4 (constant S_ .f32 0x3727C5AC#32),
    StableHlo.unary main_cst_4 main_v40 (broadcastInDim S192x192x4x1 ![] bcast_S_S192x192x4x1 : (⟨S_, .f32⟩ : BufTy).Contents (Elt F) → (⟨S192x192x4x1, .f32⟩ : BufTy).Contents (Elt F)),
    StableHlo.binary main_v37 main_v40 main_v41 (addf : (⟨S192x192x4x1, .f32⟩ : BufTy).Contents (Elt F) → (⟨S192x192x4x1, .f32⟩ : BufTy).Contents (Elt F) → (⟨S192x192x4x1, .f32⟩ : BufTy).Contents (Elt F)),
    StableHlo.unary main_v41 main_v42 (Host.rsqrt : (⟨S192x192x4x1, .f32⟩ : BufTy).Contents (Elt F) → (⟨S192x192x4x1, .f32⟩ : BufTy).Contents (Elt F)) ]

/-- Stage 5: the operations writing main_v43 … main_v50. -/
abbrev ops_s5 : List (HloOp τ sig (Elt F)) :=
  [ StableHlo.unary main_v42 main_v43 (broadcastInDim S192x192x4x768 ![0, 1, 2, 3] bcast_S192x192x4x1_S192x192x4x768_0_1_2_3 : (⟨S192x192x4x1, .f32⟩ : BufTy).Contents (Elt F) → (⟨S192x192x4x768, .f32⟩ : BufTy).Contents (Elt F)),
    StableHlo.binary main_v39 main_v43 main_v44 (mulf : (⟨S192x192x4x768, .f32⟩ : BufTy).Contents (Elt F) → (⟨S192x192x4x768, .f32⟩ : BufTy).Contents (Elt F) → (⟨S192x192x4x768, .f32⟩ : BufTy).Contents (Elt F)),
    StableHlo.unary main_arg7 main_v45 (broadcastInDim S1x1x1x768 ![3] bcast_S768_S1x1x1x768_3 : (⟨S768, .f32⟩ : BufTy).Contents (Elt F) → (⟨S1x1x1x768, .f32⟩ : BufTy).Contents (Elt F)),
    StableHlo.unary main_v45 main_v46 (broadcastInDim S192x192x4x768 ![0, 1, 2, 3] bcast_S1x1x1x768_S192x192x4x768_0_1_2_3 : (⟨S1x1x1x768, .f32⟩ : BufTy).Contents (Elt F) → (⟨S192x192x4x768, .f32⟩ : BufTy).Contents (Elt F)),
    StableHlo.binary main_v44 main_v46 main_v47 (mulf : (⟨S192x192x4x768, .f32⟩ : BufTy).Contents (Elt F) → (⟨S192x192x4x768, .f32⟩ : BufTy).Contents (Elt F) → (⟨S192x192x4x768, .f32⟩ : BufTy).Contents (Elt F)),
    StableHlo.unary main_arg8 main_v48 (broadcastInDim S1x1x1x768 ![3] bcast_S768_S1x1x1x768_3 : (⟨S768, .f32⟩ : BufTy).Contents (Elt F) → (⟨S1x1x1x768, .f32⟩ : BufTy).Contents (Elt F)),
    StableHlo.unary main_v48 main_v49 (broadcastInDim S192x192x4x768 ![0, 1, 2, 3] bcast_S1x1x1x768_S192x192x4x768_0_1_2_3 : (⟨S1x1x1x768, .f32⟩ : BufTy).Contents (Elt F) → (⟨S192x192x4x768, .f32⟩ : BufTy).Contents (Elt F)),
    StableHlo.binary main_v47 main_v49 main_v50 (addf : (⟨S192x192x4x768, .f32⟩ : BufTy).Contents (Elt F) → (⟨S192x192x4x768, .f32⟩ : BufTy).Contents (Elt F) → (⟨S192x192x4x768, .f32⟩ : BufTy).Contents (Elt F)) ]

/-- Stage 6: the operations writing main_call0_cst … main_v51. -/
abbrev ops_s6 : List (HloOp τ sig (Elt F)) :=
  [ StableHlo.TRef.nullary main_call0.cst (constant S_ .f32 0x00000000#32),
    StableHlo.TRef.unary main_call0.cst main_call0.v0 (broadcastInDim S192x192x4x768 ![] bcast_S_S192x192x4x768),
    StableHlo.TRef.binary (.of main_v50 : TRef sig ⟨S192x192x4x768, .f32⟩) main_call0.v0 main_call0.v1 (cmpf .ogt),
    StableHlo.TRef.nullary main_call0.cst_0 (constant S_ .f32 0x00000000#32),
    StableHlo.TRef.unary main_call0.cst_0 main_call0.v2 (broadcastInDim S192x192x4x768 ![] bcast_S_S192x192x4x768),
    StableHlo.TRef.binary (.of main_v50 : TRef sig ⟨S192x192x4x768, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S192x192x4x768 ![] bcast_S_S192x192x4x768),
    StableHlo.TRef.ternary main_call0.v3 main_call0.call0.v1 (.of main_v50 : TRef sig ⟨S192x192x4x768, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S192x192x4x768 ![] bcast_S_S192x192x4x768),
    StableHlo.TRef.binary main_call0.v6 main_call0.v5 main_call0.v7 mulf,
    StableHlo.TRef.ternary main_call0.v1 (.of main_v50 : TRef sig ⟨S192x192x4x768, .f32⟩) main_call0.v7 main_call0.call1.v0 select ]

/-- Stage 7: the operations writing main_v52 … main_v53. -/
abbrev ops_s7 : List (HloOp τ sig (Elt F)) :=
  [ StableHlo.binary main_v51 main_arg9 main_v52 ((fun l r => Host.dotGeneral dot_S192x192x4x768_S16x768_S192x192x4x16_3_1_012_0_n_n none l r) : (⟨S192x192x4x768, .f32⟩ : BufTy).Contents (Elt F) → (⟨S16x768, .f32⟩ : BufTy).Contents (Elt F) → (⟨S192x192x4x16, .f32⟩ : BufTy).Contents (Elt F)),
    StableHlo.unary main_arg10 main_v53 (broadcastInDim S1x1x1x16 ![3] bcast_S16_S1x1x1x16_3 : (⟨S16, .f32⟩ : BufTy).Contents (Elt F) → (⟨S1x1x1x16, .f32⟩ : BufTy).Contents (Elt F)) ]

/-- Stage 8: the operations writing main_v54 … main_v61. -/
abbrev ops_s8 : List (HloOp τ sig (Elt F)) :=
  [ StableHlo.unary main_v53 main_v54 (broadcastInDim S192x192x4x16 ![0, 1, 2, 3] bcast_S1x1x1x16_S192x192x4x16_0_1_2_3 : (⟨S1x1x1x16, .f32⟩ : BufTy).Contents (Elt F) → (⟨S192x192x4x16, .f32⟩ : BufTy).Contents (Elt F)),
    StableHlo.binary main_v52 main_v54 main_v55 (addf : (⟨S192x192x4x16, .f32⟩ : BufTy).Contents (Elt F) → (⟨S192x192x4x16, .f32⟩ : BufTy).Contents (Elt F) → (⟨S192x192x4x16, .f32⟩ : BufTy).Contents (Elt F)),
    StableHlo.unary main_v55 main_v56 (Host.negf : (⟨S192x192x4x16, .f32⟩ : BufTy).Contents (Elt F) → (⟨S192x192x4x16, .f32⟩ : BufTy).Contents (Elt F)),
    StableHlo.unary main_v56 main_v57 (Host.exp : (⟨S192x192x4x16, .f32⟩ : BufTy).Contents (Elt F) → (⟨S192x192x4x16, .f32⟩ : BufTy).Contents (Elt F)),
    StableHlo.nullary main_cst_5 (constant S_ .f32 0x3F800000#32),
    StableHlo.unary main_cst_5 main_v58 (broadcastInDim S192x192x4x16 ![] bcast_S_S192x192x4x16 : (⟨S_, .f32⟩ : BufTy).Contents (Elt F) → (⟨S192x192x4x16, .f32⟩ : BufTy).Contents (Elt F)),
    StableHlo.binary main_v58 main_v57 main_v59 (addf : (⟨S192x192x4x16, .f32⟩ : BufTy).Contents (Elt F) → (⟨S192x192x4x16, .f32⟩ : BufTy).Contents (Elt F) → (⟨S192x192x4x16, .f32⟩ : BufTy).Contents (Elt F)),
    StableHlo.nullary main_cst_6 (constant S_ .f32 0x3F800000#32),
    StableHlo.unary main_cst_6 main_v60 (broadcastInDim S192x192x4x16 ![] bcast_S_S192x192x4x16 : (⟨S_, .f32⟩ : BufTy).Contents (Elt F) → (⟨S192x192x4x16, .f32⟩ : BufTy).Contents (Elt F)),
    StableHlo.binary main_v60 main_v59 main_v61 (Host.divf : (⟨S192x192x4x16, .f32⟩ : BufTy).Contents (Elt F) → (⟨S192x192x4x16, .f32⟩ : BufTy).Contents (Elt F) → (⟨S192x192x4x16, .f32⟩ : BufTy).Contents (Elt F)) ]

/-- Stage 9: the operations writing main_cst_7 … main_v63. -/
abbrev ops_s9 : List (HloOp τ sig (Elt F)) :=
  [ StableHlo.nullary main_cst_7 (constant S_ .f32 0x3F800000#32),
    StableHlo.unary main_cst_7 main_v62 (broadcastInDim S192x192 ![] bcast_S_S192x192 : (⟨S_, .f32⟩ : BufTy).Contents (Elt F) → (⟨S192x192, .f32⟩ : BufTy).Contents (Elt F)),
    StableHlo.TRef.nullary main_call1.v0 (iotaInDim S192x192 32 0),
    StableHlo.TRef.nullary main_call1.c (constantI S_ 32 4294967295#32),
    StableHlo.TRef.unary main_call1.c main_call1.v1 (broadcastInDim S192x192 ![] bcast_S_S192x192),
    StableHlo.TRef.binary main_call1.v0 main_call1.v1 main_call1.v2 addi,
    StableHlo.TRef.nullary main_call1.v3 (iotaInDim S192x192 32 1),
    StableHlo.TRef.binary main_call1.v2 main_call1.v3 main_call1.v4 (cmpi .sge),
    StableHlo.TRef.nullary main_call1.cst (constant S_ .f32 0x00000000#32),
    StableHlo.TRef.unary main_call1.cst main_call1.v5 (broadcastInDim S192x192 ![] bcast_S_S192x192),
    StableHlo.TRef.ternary main_call1.v4 main_call1.v5 (.of main_v62 : TRef sig ⟨S192x192, .f32⟩) main_call1.v6 select ]

/-- Stage 10: the operations writing main_v64 … main_v74. -/
abbrev ops_s10 : List (HloOp τ sig (Elt F)) :=
  [ StableHlo.unary main_arg2 main_v64 (broadcastInDim S192x1x4 ![0, 2] bcast_S192x4_S192x1x4_0_2 : (⟨S192x4, .f32⟩ : BufTy).Contents (Elt F) → (⟨S192x1x4, .f32⟩ : BufTy).Contents (Elt F)),
    StableHlo.unary main_arg2 main_v65 (broadcastInDim S1x192x4 ![1, 2] bcast_S192x4_S1x192x4_1_2 : (⟨S192x4, .f32⟩ : BufTy).Contents (Elt F) → (⟨S1x192x4, .f32⟩ : BufTy).Contents (Elt F)),
    StableHlo.unary main_v64 main_v66 (broadcastInDim S192x192x4 ![0, 1, 2] bcast_S192x1x4_S192x192x4_0_1_2 : (⟨S192x1x4, .f32⟩ : BufTy).Contents (Elt F) → (⟨S192x192x4, .f32⟩ : BufTy).Contents (Elt F)),
    StableHlo.unary main_v65 main_v67 (broadcastInDim S192x192x4 ![0, 1, 2] bcast_S1x192x4_S192x192x4_0_1_2 : (⟨S1x192x4, .f32⟩ : BufTy).Contents (Elt F) → (⟨S192x192x4, .f32⟩ : BufTy).Contents (Elt F)),
    StableHlo.binary main_v66 main_v67 main_v68 (mulf : (⟨S192x192x4, .f32⟩ : BufTy).Contents (Elt F) → (⟨S192x192x4, .f32⟩ : BufTy).Contents (Elt F) → (⟨S192x192x4, .f32⟩ : BufTy).Contents (Elt F)),
    StableHlo.unary main_v63 main_v69 (broadcastInDim S192x192x1 ![0, 1] bcast_S192x192_S192x192x1_0_1 : (⟨S192x192, .f32⟩ : BufTy).Contents (Elt F) → (⟨S192x192x1, .f32⟩ : BufTy).Contents (Elt F)),
    StableHlo.unary main_v69 main_v70 (broadcastInDim S192x192x4 ![0, 1, 2] bcast_S192x192x1_S192x192x4_0_1_2 : (⟨S192x192x1, .f32⟩ : BufTy).Contents (Elt F) → (⟨S192x192x4, .f32⟩ : BufTy).Contents (Elt F)),
    StableHlo.binary main_v68 main_v70 main_v71 (mulf : (⟨S192x192x4, .f32⟩ : BufTy).Contents (Elt F) → (⟨S192x192x4, .f32⟩ : BufTy).Contents (Elt F) → (⟨S192x192x4, .f32⟩ : BufTy).Contents (Elt F)),
    StableHlo.unary main_v71 main_v72 (broadcastInDim S192x192x4x1 ![0, 1, 2] bcast_S192x192x4_S192x192x4x1_0_1_2 : (⟨S192x192x4, .f32⟩ : BufTy).Contents (Elt F) → (⟨S192x192x4x1, .f32⟩ : BufTy).Contents (Elt F)),
    StableHlo.unary main_v72 main_v73 (broadcastInDim S192x192x4x16 ![0, 1, 2, 3] bcast_S192x192x4x1_S192x192x4x16_0_1_2_3 : (⟨S192x192x4x1, .f32⟩ : BufTy).Contents (Elt F) → (⟨S192x192x4x16, .f32⟩ : BufTy).Contents (Elt F)),
    StableHlo.binary main_v61 main_v73 main_v74 (mulf : (⟨S192x192x4x16, .f32⟩ : BufTy).Contents (Elt F) → (⟨S192x192x4x16, .f32⟩ : BufTy).Contents (Elt F) → (⟨S192x192x4x16, .f32⟩ : BufTy).Contents (Elt F)) ]

set_option maxRecDepth 8192 in
theorem ops_part0_split : (ops_part0 : List (HloOp τ sig (Elt F))) = ops_s0 ++ (ops_s1 ++ (ops_s2 ++ (ops_s3 ++ (ops_s4 ++ (ops_s5 ++ (ops_s6 ++ (ops_s7))))))) := rfl
set_option maxRecDepth 8192 in
theorem ops_part1_split : (ops_part1 : List (HloOp τ sig (Elt F))) = ops_s8 ++ (ops_s9 ++ (ops_s10)) := rfl

/-- The device's buffer contents before the first stage. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl
theorem val0_main_arg10 (V0 : Valuation τ sig (Elt F)) : val0 V0 (no_index (Proc.devRef .tc main_arg10)) = V0 (Proc.devRef .tc main_arg10) := rfl

/-- The device's buffer contents after stages 0 … 0. -/
def val1 (V0 : Valuation τ sig (Elt F)) : Valuation τ sig (Elt F) := after ops_s0 (val0 V0)
/-- The buffers stage 0 writes. -/
abbrev ops_s0_W : List (Ref sig .tc) := [main_v0, main_v1, main_v2, main_v3, main_v4, main_v5, main_v6, main_v7, main_v8, main_cst, main_v9]
set_option maxRecDepth 8192 in
theorem ops_s0_writes : (ops_s0 : List (HloOp τ sig (Elt F))).Forall fun op => op.writes ⊆ (ops_s0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 0 does not write keeps its contents through it. -/
theorem val1_keep (V0 : Valuation τ sig (Elt F)) (r : Ref sig .tc) (h : r ∉ ops_s0_W) :
    val1 V0 (Proc.devRef .tc r) = val0 V0 (Proc.devRef .tc r) :=
  after_of_writes_sub ops_s0 _ ops_s0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
theorem val1_main_arg8 (V0 : Valuation τ sig (Elt F)) : val1 V0 (no_index (Proc.devRef .tc main_arg8)) = V0 (Proc.devRef .tc main_arg8) :=
  (val1_keep V0 main_arg8 (by decide)).trans (val0_main_arg8 V0)
theorem val1_main_arg9 (V0 : Valuation τ sig (Elt F)) : val1 V0 (no_index (Proc.devRef .tc main_arg9)) = V0 (Proc.devRef .tc main_arg9) :=
  (val1_keep V0 main_arg9 (by decide)).trans (val0_main_arg9 V0)
theorem val1_main_arg10 (V0 : Valuation τ sig (Elt F)) : val1 V0 (no_index (Proc.devRef .tc main_arg10)) = V0 (Proc.devRef .tc main_arg10) :=
  (val1_keep V0 main_arg10 (by decide)).trans (val0_main_arg10 V0)
set_option maxRecDepth 8192 in
set_option maxHeartbeats 2000000 in
theorem val1_main_v9 (V0 : Valuation τ sig (Elt F)) : val1 V0 (no_index (Proc.devRef .tc main_v9)) = res_main_v9 (F := F) (V0 (Proc.devRef .tc main_arg0)) (V0 (Proc.devRef .tc main_arg1)) (V0 (Proc.devRef .tc main_arg3)) (V0 (Proc.devRef .tc main_arg4)) := by
  unfold val1
  simp only [ops_s0]
  after_results_simp
  simp only [val0_main_arg3, val0_main_arg1, val0_main_arg0, val0_main_arg4] <;> rfl

/-- The device's buffer contents after stages 0 … 1. -/
def val2 (V0 : Valuation τ sig (Elt F)) : Valuation τ sig (Elt F) := after ops_s1 (val1 V0)
/-- The buffers stage 1 writes. -/
abbrev ops_s1_W : List (Ref sig .tc) := [main_v10, main_v11, main_v12, main_v13, main_v14, main_v15]
set_option maxRecDepth 8192 in
theorem ops_s1_writes : (ops_s1 : List (HloOp τ sig (Elt F))).Forall fun op => op.writes ⊆ (ops_s1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 1 does not write keeps its contents through it. -/
theorem val2_keep (V0 : Valuation τ sig (Elt F)) (r : Ref sig .tc) (h : r ∉ ops_s1_W) :
    val2 V0 (Proc.devRef .tc r) = val1 V0 (Proc.devRef .tc r) :=
  after_of_writes_sub ops_s1 _ ops_s1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_arg8 (V0 : Valuation τ sig (Elt F)) : val2 V0 (no_index (Proc.devRef .tc main_arg8)) = V0 (Proc.devRef .tc main_arg8) :=
  (val2_keep V0 main_arg8 (by decide)).trans (val1_main_arg8 V0)
theorem val2_main_arg9 (V0 : Valuation τ sig (Elt F)) : val2 V0 (no_index (Proc.devRef .tc main_arg9)) = V0 (Proc.devRef .tc main_arg9) :=
  (val2_keep V0 main_arg9 (by decide)).trans (val1_main_arg9 V0)
theorem val2_main_arg10 (V0 : Valuation τ sig (Elt F)) : val2 V0 (no_index (Proc.devRef .tc main_arg10)) = V0 (Proc.devRef .tc main_arg10) :=
  (val2_keep V0 main_arg10 (by decide)).trans (val1_main_arg10 V0)
set_option maxRecDepth 8192 in
set_option maxHeartbeats 2000000 in
theorem val2_main_v13 (V0 : Valuation τ sig (Elt F)) : val2 V0 (no_index (Proc.devRef .tc main_v13)) = res_main_v13 (F := F) (V0 (Proc.devRef .tc main_arg0)) (V0 (Proc.devRef .tc main_arg5)) := by
  unfold val2
  simp only [ops_s1]
  after_results_simp
  simp only [val1_main_arg5, val1_main_arg0, val1_main_v9] <;> rfl
set_option maxRecDepth 8192 in
set_option maxHeartbeats 2000000 in
theorem val2_main_v14 (V0 : Valuation τ sig (Elt F)) : val2 V0 (no_index (Proc.devRef .tc main_v14)) = res_main_v14 (F := F) (V0 (Proc.devRef .tc main_arg0)) (V0 (Proc.devRef .tc main_arg5)) := by
  unfold val2
  simp only [ops_s1]
  after_results_simp
  simp only [val1_main_arg5, val1_main_arg0, val1_main_v9] <;> rfl
set_option maxRecDepth 8192 in
set_option maxHeartbeats 2000000 in
theorem val2_main_v15 (V0 : Valuation τ sig (Elt F)) : val2 V0 (no_index (Proc.devRef .tc main_v15)) = res_main_v15 (F := F) (V0 (Proc.devRef .tc main_arg0)) (V0 (Proc.devRef .tc main_arg1)) (V0 (Proc.devRef .tc main_arg3)) (V0 (Proc.devRef .tc main_arg4)) (V0 (Proc.devRef .tc main_arg5)) := by
  unfold val2
  simp only [ops_s1]
  after_results_simp
  simp only [val1_main_arg5, val1_main_arg0, val1_main_v9] <;> rfl

/-- The device's buffer contents after stages 0 … 2. -/
def val3 (V0 : Valuation τ sig (Elt F)) : Valuation τ sig (Elt F) := after ops_s2 (val2 V0)
/-- The buffers stage 2 writes. -/
abbrev ops_s2_W : List (Ref sig .tc) := [main_v16, main_v17, main_v18, main_v19, main_v20, main_v21, main_v22, main_v23, main_v24, main_v25, main_v26]
set_option maxRecDepth 8192 in
theorem ops_s2_writes : (ops_s2 : List (HloOp τ sig (Elt F))).Forall fun op => op.writes ⊆ (ops_s2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 2 does not write keeps its contents through it. -/
theorem val3_keep (V0 : Valuation τ sig (Elt F)) (r : Ref sig .tc) (h : r ∉ ops_s2_W) :
    val3 V0 (Proc.devRef .tc r) = val2 V0 (Proc.devRef .tc r) :=
  after_of_writes_sub ops_s2 _ ops_s2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_arg8 (V0 : Valuation τ sig (Elt F)) : val3 V0 (no_index (Proc.devRef .tc main_arg8)) = V0 (Proc.devRef .tc main_arg8) :=
  (val3_keep V0 main_arg8 (by decide)).trans (val2_main_arg8 V0)
theorem val3_main_arg9 (V0 : Valuation τ sig (Elt F)) : val3 V0 (no_index (Proc.devRef .tc main_arg9)) = V0 (Proc.devRef .tc main_arg9) :=
  (val3_keep V0 main_arg9 (by decide)).trans (val2_main_arg9 V0)
theorem val3_main_arg10 (V0 : Valuation τ sig (Elt F)) : val3 V0 (no_index (Proc.devRef .tc main_arg10)) = V0 (Proc.devRef .tc main_arg10) :=
  (val3_keep V0 main_arg10 (by decide)).trans (val2_main_arg10 V0)
set_option maxRecDepth 8192 in
set_option maxHeartbeats 2000000 in
theorem val3_main_v26 (V0 : Valuation τ sig (Elt F)) : val3 V0 (no_index (Proc.devRef .tc main_v26)) = res_main_v26 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val3
  simp only [ops_s2]
  after_results_simp
  simp only [val2_main_v13, val2_main_v14, val2_main_v15, val2_main_arg6] <;> rfl

/-- The device's buffer contents after stages 0 … 3. -/
def val4 (V0 : Valuation τ sig (Elt F)) : Valuation τ sig (Elt F) := after ops_s3 (val3 V0)
/-- The buffers stage 3 writes. -/
abbrev ops_s3_W : List (Ref sig .tc) := [main_cst_0, main_v27, main_v28, main_cst_1, main_v29, main_v30]
set_option maxRecDepth 8192 in
theorem ops_s3_writes : (ops_s3 : List (HloOp τ sig (Elt F))).Forall fun op => op.writes ⊆ (ops_s3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 3 does not write keeps its contents through it. -/
theorem val4_keep (V0 : Valuation τ sig (Elt F)) (r : Ref sig .tc) (h : r ∉ ops_s3_W) :
    val4 V0 (Proc.devRef .tc r) = val3 V0 (Proc.devRef .tc r) :=
  after_of_writes_sub ops_s3 _ ops_s3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_arg8 (V0 : Valuation τ sig (Elt F)) : val4 V0 (no_index (Proc.devRef .tc main_arg8)) = V0 (Proc.devRef .tc main_arg8) :=
  (val4_keep V0 main_arg8 (by decide)).trans (val3_main_arg8 V0)
theorem val4_main_arg9 (V0 : Valuation τ sig (Elt F)) : val4 V0 (no_index (Proc.devRef .tc main_arg9)) = V0 (Proc.devRef .tc main_arg9) :=
  (val4_keep V0 main_arg9 (by decide)).trans (val3_main_arg9 V0)
theorem val4_main_arg10 (V0 : Valuation τ sig (Elt F)) : val4 V0 (no_index (Proc.devRef .tc main_arg10)) = V0 (Proc.devRef .tc main_arg10) :=
  (val4_keep V0 main_arg10 (by decide)).trans (val3_main_arg10 V0)
set_option maxRecDepth 8192 in
set_option maxHeartbeats 2000000 in
theorem val4_main_v30 (V0 : Valuation τ sig (Elt F)) : val4 V0 (no_index (Proc.devRef .tc main_v30)) = res_main_v30 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val4
  simp only [ops_s3]
  after_results_simp
  simp only [val3_main_v26] <;> rfl
theorem val4_main_v26 (V0 : Valuation τ sig (Elt F)) : val4 V0 (no_index (Proc.devRef .tc main_v26)) = res_main_v26 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) :=
  (val4_keep V0 main_v26 (by decide)).trans (val3_main_v26 V0)

/-- The device's buffer contents after stages 0 … 4. -/
def val5 (V0 : Valuation τ sig (Elt F)) : Valuation τ sig (Elt F) := after ops_s4 (val4 V0)
/-- The buffers stage 4 writes. -/
abbrev ops_s4_W : List (Ref sig .tc) := [main_v31, main_v32, main_v33, main_cst_2, main_v34, main_v35, main_cst_3, main_v36, main_v37, main_v38, main_v39, main_cst_4, main_v40, main_v41, main_v42]
set_option maxRecDepth 8192 in
theorem ops_s4_writes : (ops_s4 : List (HloOp τ sig (Elt F))).Forall fun op => op.writes ⊆ (ops_s4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 4 does not write keeps its contents through it. -/
theorem val5_keep (V0 : Valuation τ sig (Elt F)) (r : Ref sig .tc) (h : r ∉ ops_s4_W) :
    val5 V0 (Proc.devRef .tc r) = val4 V0 (Proc.devRef .tc r) :=
  after_of_writes_sub ops_s4 _ ops_s4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_arg8 (V0 : Valuation τ sig (Elt F)) : val5 V0 (no_index (Proc.devRef .tc main_arg8)) = V0 (Proc.devRef .tc main_arg8) :=
  (val5_keep V0 main_arg8 (by decide)).trans (val4_main_arg8 V0)
theorem val5_main_arg9 (V0 : Valuation τ sig (Elt F)) : val5 V0 (no_index (Proc.devRef .tc main_arg9)) = V0 (Proc.devRef .tc main_arg9) :=
  (val5_keep V0 main_arg9 (by decide)).trans (val4_main_arg9 V0)
theorem val5_main_arg10 (V0 : Valuation τ sig (Elt F)) : val5 V0 (no_index (Proc.devRef .tc main_arg10)) = V0 (Proc.devRef .tc main_arg10) :=
  (val5_keep V0 main_arg10 (by decide)).trans (val4_main_arg10 V0)
set_option maxRecDepth 8192 in
set_option maxHeartbeats 2000000 in
theorem val5_main_v42 (V0 : Valuation τ sig (Elt F)) : val5 V0 (no_index (Proc.devRef .tc main_v42)) = res_main_v42 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val5
  simp only [ops_s4]
  after_results_simp
  simp only [val4_main_v30, val4_main_v26] <;> rfl
set_option maxRecDepth 8192 in
set_option maxHeartbeats 2000000 in
theorem val5_main_v39 (V0 : Valuation τ sig (Elt F)) : val5 V0 (no_index (Proc.devRef .tc main_v39)) = res_main_v39 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) := by
  unfold val5
  simp only [ops_s4]
  after_results_simp
  simp only [val4_main_v30, val4_main_v26] <;> rfl

/-- The device's buffer contents after stages 0 … 5. -/
def val6 (V0 : Valuation τ sig (Elt F)) : Valuation τ sig (Elt F) := after ops_s5 (val5 V0)
/-- The buffers stage 5 writes. -/
abbrev ops_s5_W : List (Ref sig .tc) := [main_v43, main_v44, main_v45, main_v46, main_v47, main_v48, main_v49, main_v50]
set_option maxRecDepth 8192 in
theorem ops_s5_writes : (ops_s5 : List (HloOp τ sig (Elt F))).Forall fun op => op.writes ⊆ (ops_s5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 5 does not write keeps its contents through it. -/
theorem val6_keep (V0 : Valuation τ sig (Elt F)) (r : Ref sig .tc) (h : r ∉ ops_s5_W) :
    val6 V0 (Proc.devRef .tc r) = val5 V0 (Proc.devRef .tc r) :=
  after_of_writes_sub ops_s5 _ ops_s5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_arg8 (V0 : Valuation τ sig (Elt F)) : val6 V0 (no_index (Proc.devRef .tc main_arg8)) = V0 (Proc.devRef .tc main_arg8) :=
  (val6_keep V0 main_arg8 (by decide)).trans (val5_main_arg8 V0)
theorem val6_main_arg9 (V0 : Valuation τ sig (Elt F)) : val6 V0 (no_index (Proc.devRef .tc main_arg9)) = V0 (Proc.devRef .tc main_arg9) :=
  (val6_keep V0 main_arg9 (by decide)).trans (val5_main_arg9 V0)
theorem val6_main_arg10 (V0 : Valuation τ sig (Elt F)) : val6 V0 (no_index (Proc.devRef .tc main_arg10)) = V0 (Proc.devRef .tc main_arg10) :=
  (val6_keep V0 main_arg10 (by decide)).trans (val5_main_arg10 V0)
set_option maxRecDepth 8192 in
set_option maxHeartbeats 2000000 in
theorem val6_main_v50 (V0 : Valuation τ sig (Elt F)) : val6 V0 (no_index (Proc.devRef .tc main_v50)) = res_main_v50 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val6
  simp only [ops_s5]
  after_results_simp
  simp only [val5_main_v42, val5_main_v39, val5_main_arg7, val5_main_arg8] <;> rfl

/-- The device's buffer contents after stages 0 … 6. -/
def val7 (V0 : Valuation τ sig (Elt F)) : Valuation τ sig (Elt F) := after ops_s6 (val6 V0)
/-- The buffers stage 6 writes. -/
abbrev ops_s6_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v51]
set_option maxRecDepth 8192 in
theorem ops_s6_writes : (ops_s6 : List (HloOp τ sig (Elt F))).Forall fun op => op.writes ⊆ (ops_s6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 6 does not write keeps its contents through it. -/
theorem val7_keep (V0 : Valuation τ sig (Elt F)) (r : Ref sig .tc) (h : r ∉ ops_s6_W) :
    val7 V0 (Proc.devRef .tc r) = val6 V0 (Proc.devRef .tc r) :=
  after_of_writes_sub ops_s6 _ ops_s6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_arg8 (V0 : Valuation τ sig (Elt F)) : val7 V0 (no_index (Proc.devRef .tc main_arg8)) = V0 (Proc.devRef .tc main_arg8) :=
  (val7_keep V0 main_arg8 (by decide)).trans (val6_main_arg8 V0)
theorem val7_main_arg9 (V0 : Valuation τ sig (Elt F)) : val7 V0 (no_index (Proc.devRef .tc main_arg9)) = V0 (Proc.devRef .tc main_arg9) :=
  (val7_keep V0 main_arg9 (by decide)).trans (val6_main_arg9 V0)
theorem val7_main_arg10 (V0 : Valuation τ sig (Elt F)) : val7 V0 (no_index (Proc.devRef .tc main_arg10)) = V0 (Proc.devRef .tc main_arg10) :=
  (val7_keep V0 main_arg10 (by decide)).trans (val6_main_arg10 V0)
set_option maxRecDepth 8192 in
set_option maxHeartbeats 2000000 in
theorem val7_main_v51 (V0 : Valuation τ sig (Elt F)) : val7 V0 (no_index (Proc.devRef .tc main_v51)) = res_main_v51 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val7
  simp only [ops_s6]
  after_results_simp
  simp only [ofBuf_toBuf, val6_main_v50]
  refine cast_eq_iff_heq.mpr (heq_of_eq ?_)
  rfl

/-- The device's buffer contents after stages 0 … 7. -/
def val8 (V0 : Valuation τ sig (Elt F)) : Valuation τ sig (Elt F) := after ops_s7 (val7 V0)
/-- The buffers stage 7 writes. -/
abbrev ops_s7_W : List (Ref sig .tc) := [main_v52, main_v53]
set_option maxRecDepth 8192 in
theorem ops_s7_writes : (ops_s7 : List (HloOp τ sig (Elt F))).Forall fun op => op.writes ⊆ (ops_s7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 7 does not write keeps its contents through it. -/
theorem val8_keep (V0 : Valuation τ sig (Elt F)) (r : Ref sig .tc) (h : r ∉ ops_s7_W) :
    val8 V0 (Proc.devRef .tc r) = val7 V0 (Proc.devRef .tc r) :=
  after_of_writes_sub ops_s7 _ ops_s7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_arg8 (V0 : Valuation τ sig (Elt F)) : val8 V0 (no_index (Proc.devRef .tc main_arg8)) = V0 (Proc.devRef .tc main_arg8) :=
  (val8_keep V0 main_arg8 (by decide)).trans (val7_main_arg8 V0)
theorem val8_main_arg9 (V0 : Valuation τ sig (Elt F)) : val8 V0 (no_index (Proc.devRef .tc main_arg9)) = V0 (Proc.devRef .tc main_arg9) :=
  (val8_keep V0 main_arg9 (by decide)).trans (val7_main_arg9 V0)
theorem val8_main_arg10 (V0 : Valuation τ sig (Elt F)) : val8 V0 (no_index (Proc.devRef .tc main_arg10)) = V0 (Proc.devRef .tc main_arg10) :=
  (val8_keep V0 main_arg10 (by decide)).trans (val7_main_arg10 V0)
set_option maxRecDepth 8192 in
set_option maxHeartbeats 2000000 in
theorem val8_main_v53 (V0 : Valuation τ sig (Elt F)) : val8 V0 (no_index (Proc.devRef .tc main_v53)) = res_main_v53 (F := F) (V0 (Proc.devRef .tc main_arg10)) := by
  unfold val8
  simp only [ops_s7]
  after_results_simp
  simp only [val7_main_v51, val7_main_arg9, val7_main_arg10] <;> rfl
set_option maxRecDepth 8192 in
set_option maxHeartbeats 2000000 in
theorem val8_main_v52 (V0 : Valuation τ sig (Elt F)) : val8 V0 (no_index (Proc.devRef .tc main_v52)) = res_main_v52 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold val8
  simp only [ops_s7]
  after_results_simp
  simp only [val7_main_v51, val7_main_arg9, val7_main_arg10] <;> rfl

/-- The device's buffer contents after stages 0 … 8. -/
def val9 (V0 : Valuation τ sig (Elt F)) : Valuation τ sig (Elt F) := after ops_s8 (val8 V0)
/-- The buffers stage 8 writes. -/
abbrev ops_s8_W : List (Ref sig .tc) := [main_v54, main_v55, main_v56, main_v57, main_cst_5, main_v58, main_v59, main_cst_6, main_v60, main_v61]
set_option maxRecDepth 8192 in
theorem ops_s8_writes : (ops_s8 : List (HloOp τ sig (Elt F))).Forall fun op => op.writes ⊆ (ops_s8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 8 does not write keeps its contents through it. -/
theorem val9_keep (V0 : Valuation τ sig (Elt F)) (r : Ref sig .tc) (h : r ∉ ops_s8_W) :
    val9 V0 (Proc.devRef .tc r) = val8 V0 (Proc.devRef .tc r) :=
  after_of_writes_sub ops_s8 _ ops_s8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_arg8 (V0 : Valuation τ sig (Elt F)) : val9 V0 (no_index (Proc.devRef .tc main_arg8)) = V0 (Proc.devRef .tc main_arg8) :=
  (val9_keep V0 main_arg8 (by decide)).trans (val8_main_arg8 V0)
theorem val9_main_arg9 (V0 : Valuation τ sig (Elt F)) : val9 V0 (no_index (Proc.devRef .tc main_arg9)) = V0 (Proc.devRef .tc main_arg9) :=
  (val9_keep V0 main_arg9 (by decide)).trans (val8_main_arg9 V0)
theorem val9_main_arg10 (V0 : Valuation τ sig (Elt F)) : val9 V0 (no_index (Proc.devRef .tc main_arg10)) = V0 (Proc.devRef .tc main_arg10) :=
  (val9_keep V0 main_arg10 (by decide)).trans (val8_main_arg10 V0)
set_option maxRecDepth 8192 in
set_option maxHeartbeats 2000000 in
theorem val9_main_v61 (V0 : Valuation τ sig (Elt F)) : val9 V0 (no_index (Proc.devRef .tc main_v61)) = res_main_v61 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val9
  simp only [ops_s8]
  after_results_simp
  simp only [val8_main_v53, val8_main_v52] <;> rfl

/-- The device's buffer contents after stages 0 … 9. -/
def val10 (V0 : Valuation τ sig (Elt F)) : Valuation τ sig (Elt F) := after ops_s9 (val9 V0)
/-- The buffers stage 9 writes. -/
abbrev ops_s9_W : List (Ref sig .tc) := [main_cst_7, main_v62, main_call1_v0, main_call1_c, main_call1_v1, main_call1_v2, main_call1_v3, main_call1_v4, main_call1_cst, main_call1_v5, main_v63]
set_option maxRecDepth 8192 in
theorem ops_s9_writes : (ops_s9 : List (HloOp τ sig (Elt F))).Forall fun op => op.writes ⊆ (ops_s9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 9 does not write keeps its contents through it. -/
theorem val10_keep (V0 : Valuation τ sig (Elt F)) (r : Ref sig .tc) (h : r ∉ ops_s9_W) :
    val10 V0 (Proc.devRef .tc r) = val9 V0 (Proc.devRef .tc r) :=
  after_of_writes_sub ops_s9 _ ops_s9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_arg8 (V0 : Valuation τ sig (Elt F)) : val10 V0 (no_index (Proc.devRef .tc main_arg8)) = V0 (Proc.devRef .tc main_arg8) :=
  (val10_keep V0 main_arg8 (by decide)).trans (val9_main_arg8 V0)
theorem val10_main_arg9 (V0 : Valuation τ sig (Elt F)) : val10 V0 (no_index (Proc.devRef .tc main_arg9)) = V0 (Proc.devRef .tc main_arg9) :=
  (val10_keep V0 main_arg9 (by decide)).trans (val9_main_arg9 V0)
theorem val10_main_arg10 (V0 : Valuation τ sig (Elt F)) : val10 V0 (no_index (Proc.devRef .tc main_arg10)) = V0 (Proc.devRef .tc main_arg10) :=
  (val10_keep V0 main_arg10 (by decide)).trans (val9_main_arg10 V0)
set_option maxRecDepth 8192 in
set_option maxHeartbeats 2000000 in
theorem val10_main_v63 (V0 : Valuation τ sig (Elt F)) : val10 V0 (no_index (Proc.devRef .tc main_v63)) = res_main_v63 (F := F) := by
  unfold val10
  simp only [ops_s9]
  after_results_simp
  simp only [ofBuf_toBuf]
  refine cast_eq_iff_heq.mpr (heq_of_eq ?_)
  rfl
theorem val10_main_v61 (V0 : Valuation τ sig (Elt F)) : val10 V0 (no_index (Proc.devRef .tc main_v61)) = res_main_v61 (F := F) (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) :=
  (val10_keep V0 main_v61 (by decide)).trans (val9_main_v61 V0)

/-- The device's buffer contents after stages 0 … 10. -/
def val11 (V0 : Valuation τ sig (Elt F)) : Valuation τ sig (Elt F) := after ops_s10 (val10 V0)
/-- The buffers stage 10 writes. -/
abbrev ops_s10_W : List (Ref sig .tc) := [main_v64, main_v65, main_v66, main_v67, main_v68, main_v69, main_v70, main_v71, main_v72, main_v73, main_v74]
set_option maxRecDepth 8192 in
theorem ops_s10_writes : (ops_s10 : List (HloOp τ sig (Elt F))).Forall fun op => op.writes ⊆ (ops_s10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 10 does not write keeps its contents through it. -/
theorem val11_keep (V0 : Valuation τ sig (Elt F)) (r : Ref sig .tc) (h : r ∉ ops_s10_W) :
    val11 V0 (Proc.devRef .tc r) = val10 V0 (Proc.devRef .tc r) :=
  after_of_writes_sub ops_s10 _ ops_s10_writes h
set_option maxRecDepth 8192 in
set_option maxHeartbeats 2000000 in
theorem val11_main_v74 (V0 : Valuation τ sig (Elt F)) : val11 V0 (no_index (Proc.devRef .tc main_v74)) = out (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) := by
  unfold val11
  simp only [ops_s10]
  after_results_simp
  simp only [val10_main_arg2, val10_main_v63, val10_main_v61] <;> rfl
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_arg8 (V0 : Valuation τ sig (Elt F)) : val11 V0 (no_index (Proc.devRef .tc main_arg8)) = V0 (Proc.devRef .tc main_arg8) :=
  (val11_keep V0 main_arg8 (by decide)).trans (val10_main_arg8 V0)
theorem val11_main_arg9 (V0 : Valuation τ sig (Elt F)) : val11 V0 (no_index (Proc.devRef .tc main_arg9)) = V0 (Proc.devRef .tc main_arg9) :=
  (val11_keep V0 main_arg9 (by decide)).trans (val10_main_arg9 V0)
theorem val11_main_arg10 (V0 : Valuation τ sig (Elt F)) : val11 V0 (no_index (Proc.devRef .tc main_arg10)) = V0 (Proc.devRef .tc main_arg10) :=
  (val11_keep V0 main_arg10 (by decide)).trans (val10_main_arg10 V0)

/-- The whole list is the stages in order. -/
theorem after_ops (V0 : Valuation τ sig (Elt F)) : after ops V0 = val11 V0 := by
  simp only [ops, ops_part0_split, ops_part1_split, after_app]
  rfl

/-! ## The run -/

set_option maxRecDepth 8192 in
/-- On every device, for any float values, from any memory with zero counters: every weakly fair execution of the
    program terminates with the result buffer at `out` of the arguments' launch contents, and every argument
    buffer unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v74) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v74).trans (by simp only [after_ops]; exact val11_main_v74 (launchContents m c)),
      (h c main_arg0).trans (by simp only [after_ops]; exact val11_main_arg0 (launchContents m c)),
      (h c main_arg1).trans (by simp only [after_ops]; exact val11_main_arg1 (launchContents m c)),
      (h c main_arg2).trans (by simp only [after_ops]; exact val11_main_arg2 (launchContents m c)),
      (h c main_arg3).trans (by simp only [after_ops]; exact val11_main_arg3 (launchContents m c)),
      (h c main_arg4).trans (by simp only [after_ops]; exact val11_main_arg4 (launchContents m c)),
      (h c main_arg5).trans (by simp only [after_ops]; exact val11_main_arg5 (launchContents m c)),
      (h c main_arg6).trans (by simp only [after_ops]; exact val11_main_arg6 (launchContents m c)),
      (h c main_arg7).trans (by simp only [after_ops]; exact val11_main_arg7 (launchContents m c)),
      (h c main_arg8).trans (by simp only [after_ops]; exact val11_main_arg8 (launchContents m c)),
      (h c main_arg9).trans (by simp only [after_ops]; exact val11_main_arg9 (launchContents m c)),
      (h c main_arg10).trans (by simp only [after_ops]; exact val11_main_arg10 (launchContents m c))⟩)
    (run_seq scopedRefs_eq scopedSems_eq defs main (fun _ => ops) main_eq (fun _ => ops_sub) m ρ)

end Cert.ReferenceIdeal.RefRun

end
-- ==== Proof.Spec.lean ====
import Idealize.ShloMosaic.PureOps.Ideal
import Idealize.ShloMosaic.Lib.ValueIdx

noncomputable section

open scoped BigOperators

/-! # What the two kernels compute, element by element, on the extended reals

A span-pair tagger. For every pair of positions (i, j) of a sequence, every batch row and every tag, the score is the
logistic of an affine read-out of the ELU of the layer-normalized sum of a start term, an end term, a global term and a
bias, masked by the two positions' masks and by "i is not after j". The global term is a projection of the maximum,
over the sequence, of the hyperbolic tangent of two projections' sum.

Float literals are kept as the words the program writes; no literal is evaluated. -/

namespace Cert.Spec

open Idealize.ShloMosaic

/-- The layer normalization's stabilizer, as the f32 word the program writes (about 1e-5). -/
def eps : EReal := Ideal.ofBits .f32 0x3727C5AC#32
/-- The normalized axis's length, 768, as the f32 word the program writes. -/
def n768 : EReal := Ideal.ofBits .f32 0x44400000#32
/-- The f32 words of one and of zero. -/
def one : EReal := Ideal.ofBits .f32 0x3F800000#32
def zero : EReal := Ideal.ofBits .f32 0x00000000#32

/-- The mean of a row of 768 values. -/
def mean (pre : Fin 768 → EReal) : EReal := Ideal.div (∑ k, pre k) n768

/-- The (biased) variance of a row of 768 values about its mean. -/
def var (pre : Fin 768 → EReal) : EReal :=
  Ideal.div (∑ k, (pre k - mean pre) * (pre k - mean pre)) n768

/-- Layer normalization of a row of 768 values, scaled by `gamma` and shifted by `beta`, at feature `h`. -/
def lnorm (pre gamma beta : Fin 768 → EReal) (h : Fin 768) : EReal :=
  (((pre h - mean pre) * Ideal.rsqrt (var pre + eps)) * gamma h) + beta h

/-- The exponential linear unit: the identity above zero, `exp x - 1` elsewhere. -/
def elu (x : EReal) : EReal := if zero < x then x else Ideal.exp x - one

/-- One tag's probability: the logistic of the read-out `wt` of the features `e` plus the bias `bt`. -/
def tagp (e wt : Fin 768 → EReal) (bt : EReal) : EReal := Ideal.logistic ((∑ h, e h * wt h) + bt)

/-- The pair mask "position i is not after position j". -/
def tri (i j : ℕ) : EReal := if i ≤ j then 1 else 0

/-- The score of the pair (i, j) for tag `o`: start term `a`, end term `c`, global term `d`, bias `b1`, the
    normalization's `gamma` and `beta`, the read-out `wt`, `bt`, the two positions' masks `mi`, `mj`. -/
def span (a c d b1 gamma beta : Fin 768 → EReal) (wt : Fin 16 → Fin 768 → EReal) (bt : Fin 16 → EReal)
    (mi mj : EReal) (i j : ℕ) (o : Fin 16) : EReal :=
  tagp (fun h => elu (lnorm (fun k => ((a k + c k) + d k) + b1 k) gamma beta h)) (wt o) (bt o) * ((mi * mj) * tri i j)

/-- A tile's contribution to the global term's maximum at one feature: the supremum over the tile's 64 positions of the
    hyperbolic tangent of the two projections' sum plus the bias. -/
def tileMax (hs hn : Fin 64 → Fin 768 → EReal) (wns wnr : Fin 768 → EReal) (bn : EReal) : EReal :=
  ⨆ l : Fin 64, Ideal.tanh (((∑ h, hs l h * wns h) + (∑ h, hn l h * wnr h)) + bn)

end Cert.Spec

end
-- ==== Proof.SpecG.lean ====
import proofs.«124299_j40209483825381_1_alg».proof.Proof.Spec

noncomputable section

open scoped BigOperators

/-! # The whole result as one function of the eleven argument arrays

The arguments: the two activations `hn`, `hs` over (position, batch row, feature), the token mask `mk`, the joint
weights `wn` (768 x 1536: the share half then the ner half, column-wise), their bias `bn`, the pair weights `w1`
(768 x 2304: start, end, global thirds), `b1`, the normalization's `gamma`, `beta`, the read-out `wt` (16 x 768), `bt`. -/

namespace Cert.Spec

open Idealize.ShloMosaic Idealize.ShloMosaic.ValueIdx

abbrev A3 : Type := (⟨3, ![192, 4, 768]⟩ : Shape).Idx → EReal
abbrev A2m : Type := (⟨2, ![192, 4]⟩ : Shape).Idx → EReal
abbrev Awn : Type := (⟨2, ![768, 1536]⟩ : Shape).Idx → EReal
abbrev Aw1 : Type := (⟨2, ![768, 2304]⟩ : Shape).Idx → EReal
abbrev Av : Type := (⟨1, ![768]⟩ : Shape).Idx → EReal
abbrev Awt : Type := (⟨2, ![16, 768]⟩ : Shape).Idx → EReal
abbrev Abt : Type := (⟨1, ![16]⟩ : Shape).Idx → EReal

/-- Column `k·768 + h` of a matrix with `n` columns. -/
def col (n k : ℕ) (hk : (k + 1) * 768 ≤ n) (h : Fin 768) : Fin n := ⟨k * 768 + h.val, by have := h.isLt; omega⟩

/-- The joint projection before the hyperbolic tangent, at (position, row, feature). -/
def glin (hn hs : A3) (wn : Awn) (bn : Av) (l : Fin 192) (b : Fin 4) (o : Fin 768) : EReal :=
  ((∑ h : Fin 768, hs (ix3 l b h) * wn (ix2 o (col 1536 0 (by omega) h)))
    + (∑ h : Fin 768, hn (ix3 l b h) * wn (ix2 o (col 1536 1 (by omega) h)))) + bn (ix1 o)

/-- The global maximum over the sequence. -/
def gmax (hn hs : A3) (wn : Awn) (bn : Av) (b : Fin 4) (o : Fin 768) : EReal :=
  ⨆ l : Fin 192, Ideal.tanh (glin hn hs wn bn l b o)

/-- The start term, the end term and the global term. -/
def aterm (hn : A3) (w1 : Aw1) (l : Fin 192) (b : Fin 4) (o : Fin 768) : EReal :=
  ∑ h : Fin 768, hn (ix3 l b h) * w1 (ix2 o (col 2304 0 (by omega) h))
def cterm (hn : A3) (w1 : Aw1) (l : Fin 192) (b : Fin 4) (o : Fin 768) : EReal :=
  ∑ h : Fin 768, hn (ix3 l b h) * w1 (ix2 o (col 2304 1 (by omega) h))
def dterm (hn hs : A3) (wn : Awn) (bn : Av) (w1 : Aw1) (b : Fin 4) (o : Fin 768) : EReal :=
  ∑ h : Fin 768, gmax hn hs wn bn b h * w1 (ix2 o (col 2304 2 (by omega) h))

/-- THE RESULT at (start position, end position, row, tag). -/
def G (hn hs : A3) (mk : A2m) (wn : Awn) (bn : Av) (w1 : Aw1) (b1 gamma beta : Av) (wt : Awt) (bt : Abt)
    (i j : Fin 192) (b : Fin 4) (o : Fin 16) : EReal :=
  span (fun h => aterm hn w1 i b h) (fun h => cterm hn w1 j b h) (fun h => dterm hn hs wn bn w1 b h)
    (fun h => b1 (ix1 h)) (fun h => gamma (ix1 h)) (fun h => beta (ix1 h)) (fun o h => wt (ix2 o h)) (fun o => bt (ix1 o))
    (mk (ix2 i b)) (mk (ix2 j b)) i.val j.val o

/-- The same as an array over the result's index. -/
def Garr (hn hs : A3) (mk : A2m) (wn : Awn) (bn : Av) (w1 : Aw1) (b1 gamma beta : Av) (wt : Awt) (bt : Abt) :
    (⟨4, ![192, 192, 4, 16]⟩ : Shape).Idx → EReal :=
  fun y => G hn hs mk wn bn w1 b1 gamma beta wt bt (y 0) (y 1) (y 2) (y 3)

end Cert.Spec

end
-- ==== Proof.LibMaxReduce.lean ====
/-
  Maximum reductions over one axis, on the extended reals (the twin of the minimum statements).

  * `fold_max_bot`: folding `max` from the bottom element over all of a finite type gives the supremum of the family
    (both are characterised by: the result is below `z` iff every member is below `z`).
  * `ofBits_neg_inf`: the f32 pattern of `-∞` is the bottom extended real.
  * `multiReduction_maximumf_sup`: a vector max-reduction over one axis from the accumulator `-∞`, read with exact
    values, is at each result index the supremum over that axis's coordinates.
-/
import Idealize.ShloMosaic.PureOps.Ideal.Laws

noncomputable section

namespace Cert.LibMaxReduce

open Idealize.ShloMosaic

/-- Folding `max` from `⊥` over a whole finite type is the supremum of the family. -/
theorem fold_max_bot {ι : Type*} [Fintype ι] (f : ι → EReal) :
    (Finset.univ : Finset ι).fold max ⊥ f = ⨆ k, f k := by
  refine eq_of_forall_ge_iff fun z => ?_
  rw [Finset.fold_max_le, iSup_le_iff]
  exact ⟨fun h k => h.2 k (Finset.mem_univ k), fun h => ⟨bot_le, fun k _ => h k⟩⟩

/-- The f32 pattern of `-∞` is the bottom extended real. -/
theorem ofBits_neg_inf : Ideal.ofBits .f32 0xFF800000#32 = (⊥ : EReal) := by
  simp [Ideal.ofBits, Ideal.ieee]

/-- From the accumulator `-∞` (f32), a max-reduction over one axis is the supremum over that axis's coordinates. -/
theorem multiReduction_maximumf_sup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [Ideal.multiReduction_maximumf_single]
  show (Finset.univ : Finset (Fin (s.size a))).fold max (Ideal.ofBits .f32 0xFF800000#32) (src ∘ h.lift j) = _
  rw [ofBits_neg_inf, fold_max_bot]
  rfl

end Cert.LibMaxReduce

end
-- ==== Proof.RefStagesA.lean ====
import proofs.«124299_j40209483825381_1_alg».proof.Proof.RefRun
import proofs.«124299_j40209483825381_1_alg».proof.Proof.SpecG
import proofs.«124299_j40209483825381_1_alg».proof.Proof.LibMaxReduce
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefStages

open Cert.ReferenceIdeal Cert.ReferenceIdeal.Gen Cert.ReferenceIdeal.RefRun Idealize.ShloMosaic Idealize.ShloMosaic.ValueIdx Cert.Spec

/-! # The projections and the pooled branch, read at an index -/

/-- The column `k·768 + h`, as a number. -/
theorem col_val (n k : ℕ) (hk : (k + 1) * 768 ≤ n) (h : Fin 768) : (col n k hk h).val = k * 768 + h.val := rfl

/-- The three contractions' dimension numbers. -/
abbrev D3 := dot_S192x4x768_S768x768_S192x4x768_2_1_01_0_n_n
abbrev D2 := dot_S4x768_S768x768_S4x768_1_1_0_0_n_n

theorem dot3_apply (L : FVec Ideal S192x4x768 .f32) (R : FVec Ideal S768x768 .f32) (l : Fin 192) (b : Fin 4) (o : Fin 768) :
    Host.dotGeneral D3 none L R (ix3 l b o) = ∑ h : Fin 768, L (ix3 l b h) * R (ix2 o h) := by
  show FloatOps.dotGeneral D3 none .single L R (ix3 l b o) = _
  rw [Ideal.dotGeneral_apply, ← Equiv.sum_comp (contrEquiv1 D3 768 rfl rfl).symm]
  refine Finset.sum_congr rfl fun h _ => ?_
  have hc := contrEquiv1_symm_val D3 768 rfl rfl h
  have el : D3.lhsIdx (ix3 l b o) ((contrEquiv1 D3 768 rfl rfl).symm h) = ix3 l b h := by
    funext ax; apply Fin.ext
    match ax with
    | ⟨0, _⟩ => simp [DotDims.lhsIdx, D3, dot_S192x4x768_S768x768_S192x4x768_2_1_01_0_n_n]; rfl
    | ⟨1, _⟩ => simp [DotDims.lhsIdx, D3, dot_S192x4x768_S768x768_S192x4x768_2_1_01_0_n_n]; rfl
    | ⟨2, _⟩ => simp [DotDims.lhsIdx, D3, dot_S192x4x768_S768x768_S192x4x768_2_1_01_0_n_n]; exact hc
  have er : D3.rhsIdx (ix3 l b o) ((contrEquiv1 D3 768 rfl rfl).symm h) = ix2 o h := by
    funext ax; apply Fin.ext
    match ax with
    | ⟨0, _⟩ => simp [DotDims.rhsIdx, D3, dot_S192x4x768_S768x768_S192x4x768_2_1_01_0_n_n]; rfl
    | ⟨1, _⟩ => simp [DotDims.rhsIdx, D3, dot_S192x4x768_S768x768_S192x4x768_2_1_01_0_n_n]; exact hc
  rw [el, er]

theorem dot2_apply (L : FVec Ideal S4x768 .f32) (R : FVec Ideal S768x768 .f32) (b : Fin 4) (o : Fin 768) :
    Host.dotGeneral D2 none L R (ix2 b o) = ∑ h : Fin 768, L (ix2 b h) * R (ix2 o h) := by
  show FloatOps.dotGeneral D2 none .single L R (ix2 b o) = _
  rw [Ideal.dotGeneral_apply, ← Equiv.sum_comp (contrEquiv1 D2 768 rfl rfl).symm]
  refine Finset.sum_congr rfl fun h _ => ?_
  have hc := contrEquiv1_symm_val D2 768 rfl rfl h
  have el : D2.lhsIdx (ix2 b o) ((contrEquiv1 D2 768 rfl rfl).symm h) = ix2 b h := by
    funext ax; apply Fin.ext
    match ax with
    | ⟨0, _⟩ => simp [DotDims.lhsIdx, D2, dot_S4x768_S768x768_S4x768_1_1_0_0_n_n]; rfl
    | ⟨1, _⟩ => simp [DotDims.lhsIdx, D2, dot_S4x768_S768x768_S4x768_1_1_0_0_n_n]; exact hc
  have er : D2.rhsIdx (ix2 b o) ((contrEquiv1 D2 768 rfl rfl).symm h) = ix2 o h := by
    funext ax; apply Fin.ext
    match ax with
    | ⟨0, _⟩ => simp [DotDims.rhsIdx, D2, dot_S4x768_S768x768_S4x768_1_1_0_0_n_n]; rfl
    | ⟨1, _⟩ => simp [DotDims.rhsIdx, D2, dot_S4x768_S768x768_S4x768_1_1_0_0_n_n]; exact hc
  rw [el, er]

/-- A block of 768 columns of a 768-row matrix, read at an entry: the matrix at the shifted column. -/
theorem slice_apply {n : ℕ} (x : FVec Ideal ⟨2, ![768, n]⟩ .f32) (c k : ℕ) (hc : c = k * 768) (hk : (k + 1) * 768 ≤ n)
    (hs : (⟨2, ![768, n]⟩ : Shape).Slices ![0, c] S768x768) (o h : Fin 768) :
    extractStridedSlice S768x768 ![0, c] x hs (ix2 o h) = x (ix2 o (col n k hk h)) := by
  subst hc
  refine Idealize.ShloMosaic.extractStridedSlice_apply _ x hs (ix2 o h) (ix2 o (col n k hk h)) fun a => ?_
  match a with
  | ⟨0, _⟩ => show o.val = 0 + o.val; omega
  | ⟨1, _⟩ => rfl

/-- A feature vector broadcast over (position, row), read at an index. -/
theorem bias3_apply (v : FVec Ideal S768 .f32) (l : Fin 192) (b : Fin 4) (o : Fin 768) :
    broadcastInDim S192x4x768 ![0, 1, 2] bcast_S1x1x768_S192x4x768_0_1_2 (broadcastInDim S1x1x768 ![2] bcast_S768_S1x1x768_2 v) (ix3 l b o) = v (ix1 o) := by
  rw [Idealize.ShloMosaic.broadcastInDim_apply _ _ _ (ix3 l b o) (ix3 0 0 o) (fun a => by match a with | ⟨0, _⟩ => rfl | ⟨1, _⟩ => rfl | ⟨2, _⟩ => rfl)]
  rw [Idealize.ShloMosaic.broadcastInDim_apply _ _ _ (ix3 0 0 o) (ix1 o) (fun a => by match a with | ⟨0, _⟩ => rfl)]

/-- The maximum over the positions from minus infinity, read at (row, feature): the supremum over the positions. -/
theorem max0_apply (x : FVec Ideal S192x4x768 .f32) (b : Fin 4) (o : Fin 768) :
    Host.reduce FloatOps.maximumf x (constant S_ .f32 0xFF800000#32) reducesTo_S192x4x768_S4x768_d0 h_S_ (ix2 b o)
      = ⨆ l : Fin 192, x (ix3 l b o) := by
  have h : S192x4x768.Reduces [0] S4x768 := by decide
  refine (Host.reduce_eq_fold_single FloatOps.maximumf x _ reducesTo_S192x4x768_S4x768_d0 h h_S_ (ix2 b o)).trans ?_
  refine Eq.trans (b := ⨆ l : Fin (S192x4x768.size 0), x (h.lift (ix2 b o) l)) ?_ ?_
  · show (Finset.univ : Finset (Fin (S192x4x768.size 0))).fold max (Ideal.ofBits .f32 0xFF800000#32) (x ∘ h.lift (ix2 b o)) = _
    rw [Cert.LibMaxReduce.ofBits_neg_inf, Cert.LibMaxReduce.fold_max_bot]
    rfl
  · show ⨆ l : Fin 192, x (h.lift (ix2 b o) l) = _
    refine iSup_congr fun l => congrArg x (funext fun ax => Fin.ext ?_)
    match ax with
    | ⟨0, _⟩ => rfl
    | ⟨1, _⟩ => rfl
    | ⟨2, _⟩ => rfl

/-- The joint pre-activation at (position, row, feature). -/
theorem v7_apply (a0 a1 : FVec Ideal S192x4x768 .f32) (a3 : FVec Ideal S768x1536 .f32) (a4 : FVec Ideal S768 .f32)
    (l : Fin 192) (b : Fin 4) (o : Fin 768) :
    res_main_v7 (F := Ideal) a0 a1 a3 a4 (ix3 l b o) = glin a0 a1 a3 a4 l b o := by
  unfold res_main_v7 glin
  rw [addf_apply, addf_apply, dot3_apply, dot3_apply, bias3_apply]
  simp only [slice_apply a3 0 0 rfl (by omega), slice_apply a3 768 1 rfl (by omega)]

/-- The pooled branch at (row, feature). -/
theorem v9_apply (a0 a1 : FVec Ideal S192x4x768 .f32) (a3 : FVec Ideal S768x1536 .f32) (a4 : FVec Ideal S768 .f32)
    (b : Fin 4) (o : Fin 768) :
    res_main_v9 (F := Ideal) a0 a1 a3 a4 (ix2 b o) = gmax a0 a1 a3 a4 b o := by
  unfold res_main_v9 gmax
  rw [max0_apply]
  exact iSup_congr fun l => congrArg Ideal.tanh (v7_apply a0 a1 a3 a4 l b o)

/-- The start term at (position, row, feature). -/
theorem v13_apply (a0 : FVec Ideal S192x4x768 .f32) (a5 : FVec Ideal S768x2304 .f32) (l : Fin 192) (b : Fin 4) (o : Fin 768) :
    res_main_v13 (F := Ideal) a0 a5 (ix3 l b o) = aterm a0 a5 l b o := by
  unfold res_main_v13 aterm
  rw [dot3_apply]
  simp only [slice_apply a5 0 0 rfl (by omega)]

/-- The end term at (position, row, feature). -/
theorem v14_apply (a0 : FVec Ideal S192x4x768 .f32) (a5 : FVec Ideal S768x2304 .f32) (l : Fin 192) (b : Fin 4) (o : Fin 768) :
    res_main_v14 (F := Ideal) a0 a5 (ix3 l b o) = cterm a0 a5 l b o := by
  unfold res_main_v14 cterm
  rw [dot3_apply]
  simp only [slice_apply a5 768 1 rfl (by omega)]

/-- The global term at (row, feature). -/
theorem v15_apply (a0 a1 : FVec Ideal S192x4x768 .f32) (a3 : FVec Ideal S768x1536 .f32) (a4 : FVec Ideal S768 .f32)
    (a5 : FVec Ideal S768x2304 .f32) (b : Fin 4) (o : Fin 768) :
    res_main_v15 (F := Ideal) a0 a1 a3 a4 a5 (ix2 b o) = dterm a0 a1 a3 a4 a5 b o := by
  unfold res_main_v15 dterm
  rw [dot2_apply]
  simp only [slice_apply a5 1536 2 rfl (by omega), v9_apply]

end Cert.ReferenceIdeal.RefStages

end
-- ==== Proof.RefStagesB.lean ====
import proofs.«124299_j40209483825381_1_alg».proof.Proof.RefStagesA
import proofs.«124299_j40209483825381_1_alg».proof.Proof.SpecG
import proofs.«124299_j40209483825381_1_alg».proof.Proof.LibMaxReduce
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefStages

open Cert.ReferenceIdeal Cert.ReferenceIdeal.Gen Cert.ReferenceIdeal.RefRun Idealize.ShloMosaic Idealize.ShloMosaic.ValueIdx Cert.Spec

/-! # The pair features and their normalization, read at an index -/

/-- A (position, row, feature) array spread along the second position axis. -/
theorem bc_row (x : FVec Ideal S192x4x768 .f32) (i j : Fin 192) (b : Fin 4) (h : Fin 768) :
    broadcastInDim S192x192x4x768 ![0, 1, 2, 3] bcast_S192x1x4x768_S192x192x4x768_0_1_2_3 (broadcastInDim S192x1x4x768 ![0, 2, 3] bcast_S192x4x768_S192x1x4x768_0_2_3 x) (ix4 i j b h) = x (ix3 i b h) := by
  rw [Idealize.ShloMosaic.broadcastInDim_apply _ _ _ (ix4 i j b h) (ix4 i 0 b h) (fun a => by match a with | ⟨0, _⟩ => rfl | ⟨1, _⟩ => rfl | ⟨2, _⟩ => rfl | ⟨3, _⟩ => rfl)]
  rw [Idealize.ShloMosaic.broadcastInDim_apply _ _ _ (ix4 i 0 b h) (ix3 i b h) (fun a => by match a with | ⟨0, _⟩ => rfl | ⟨1, _⟩ => rfl | ⟨2, _⟩ => rfl)]

/-- A (position, row, feature) array spread along the first position axis. -/
theorem bc_col (x : FVec Ideal S192x4x768 .f32) (i j : Fin 192) (b : Fin 4) (h : Fin 768) :
    broadcastInDim S192x192x4x768 ![0, 1, 2, 3] bcast_S1x192x4x768_S192x192x4x768_0_1_2_3 (broadcastInDim S1x192x4x768 ![1, 2, 3] bcast_S192x4x768_S1x192x4x768_1_2_3 x) (ix4 i j b h) = x (ix3 j b h) := by
  rw [Idealize.ShloMosaic.broadcastInDim_apply _ _ _ (ix4 i j b h) (ix4 0 j b h) (fun a => by match a with | ⟨0, _⟩ => rfl | ⟨1, _⟩ => rfl | ⟨2, _⟩ => rfl | ⟨3, _⟩ => rfl)]
  rw [Idealize.ShloMosaic.broadcastInDim_apply _ _ _ (ix4 0 j b h) (ix3 j b h) (fun a => by match a with | ⟨0, _⟩ => rfl | ⟨1, _⟩ => rfl | ⟨2, _⟩ => rfl)]

/-- A (row, feature) array spread along both position axes. -/
theorem bc_glob (x : FVec Ideal S4x768 .f32) (i j : Fin 192) (b : Fin 4) (h : Fin 768) :
    broadcastInDim S192x192x4x768 ![0, 1, 2, 3] bcast_S1x1x4x768_S192x192x4x768_0_1_2_3 (broadcastInDim S1x1x4x768 ![2, 3] bcast_S4x768_S1x1x4x768_2_3 x) (ix4 i j b h) = x (ix2 b h) := by
  rw [Idealize.ShloMosaic.broadcastInDim_apply _ _ _ (ix4 i j b h) (ix4 0 0 b h) (fun a => by match a with | ⟨0, _⟩ => rfl | ⟨1, _⟩ => rfl | ⟨2, _⟩ => rfl | ⟨3, _⟩ => rfl)]
  rw [Idealize.ShloMosaic.broadcastInDim_apply _ _ _ (ix4 0 0 b h) (ix2 b h) (fun a => by match a with | ⟨0, _⟩ => rfl | ⟨1, _⟩ => rfl)]

/-- A feature vector spread along the positions and the rows. -/
theorem bc_feat (x : FVec Ideal S768 .f32) (i j : Fin 192) (b : Fin 4) (h : Fin 768) :
    broadcastInDim S192x192x4x768 ![0, 1, 2, 3] bcast_S1x1x1x768_S192x192x4x768_0_1_2_3 (broadcastInDim S1x1x1x768 ![3] bcast_S768_S1x1x1x768_3 x) (ix4 i j b h) = x (ix1 h) := by
  rw [Idealize.ShloMosaic.broadcastInDim_apply _ _ _ (ix4 i j b h) (ix4 0 0 0 h) (fun a => by match a with | ⟨0, _⟩ => rfl | ⟨1, _⟩ => rfl | ⟨2, _⟩ => rfl | ⟨3, _⟩ => rfl)]
  rw [Idealize.ShloMosaic.broadcastInDim_apply _ _ _ (ix4 0 0 0 h) (ix1 h) (fun a => by match a with | ⟨0, _⟩ => rfl)]

/-- A per-(pair, row) statistic spread along the feature axis. -/
theorem bc_stat (x : FVec Ideal S192x192x4x1 .f32) (i j : Fin 192) (b : Fin 4) (h : Fin 768) :
    broadcastInDim S192x192x4x768 ![0, 1, 2, 3] bcast_S192x192x4x1_S192x192x4x768_0_1_2_3 x (ix4 i j b h) = x (ix4 i j b 0) := by
  rw [Idealize.ShloMosaic.broadcastInDim_apply _ _ _ (ix4 i j b h) (ix4 i j b 0) (fun a => by match a with | ⟨0, _⟩ => rfl | ⟨1, _⟩ => rfl | ⟨2, _⟩ => rfl | ⟨3, _⟩ => rfl)]

/-- A (pair, row) array given a trailing unit axis. -/
theorem bc_keep (x : FVec Ideal S192x192x4 .f32) (i j : Fin 192) (b : Fin 4) (q : Fin 1) :
    broadcastInDim S192x192x4x1 ![0, 1, 2] bcast_S192x192x4_S192x192x4x1_0_1_2 x (ix4 i j b q) = x (ix3 i j b) := by
  rw [Idealize.ShloMosaic.broadcastInDim_apply _ _ _ (ix4 i j b q) (ix3 i j b) (fun a => by match a with | ⟨0, _⟩ => rfl | ⟨1, _⟩ => rfl | ⟨2, _⟩ => rfl)]

/-- The sum over the features from the zero word, at (pair, row). -/
theorem sum3_apply (x : FVec Ideal S192x192x4x768 .f32) (i j : Fin 192) (b : Fin 4) :
    Host.reduceAdd x (constant S_ .f32 0x00000000#32) reducesTo_S192x192x4x768_S192x192x4_d3 h_S_ (ix3 i j b)
      = ∑ k : Fin 768, x (ix4 i j b k) := by
  have h : S192x192x4x768.Reduces [3] S192x192x4 := by decide
  rw [hostReduceAdd_apply, Ideal.hostReduceAdd_single _ h]
  show Ideal.ofBits .f32 0x00000000#32 + ∑ k : Fin 768, x (h.lift (ix3 i j b) k) = _
  rw [Ideal.ofBits_zero_f32, zero_add]
  refine Finset.sum_congr rfl fun k _ => congrArg x (funext fun ax => Fin.ext ?_)
  match ax with
  | ⟨0, _⟩ => rfl
  | ⟨1, _⟩ => rfl
  | ⟨2, _⟩ => rfl
  | ⟨3, _⟩ => rfl

/-- The host's reciprocal square root at an index. -/
theorem hostRsqrt_apply {s : Shape} {φ : FTy} (x : FVec Ideal s φ) (i : s.Idx) : Host.rsqrt x i = Ideal.rsqrt (x i) := rfl

section
variable (a0 a1 : FVec Ideal S192x4x768 .f32) (a3 : FVec Ideal S768x1536 .f32) (a4 : FVec Ideal S768 .f32)
  (a5 : FVec Ideal S768x2304 .f32) (a6 a7 a8 : FVec Ideal S768 .f32)

/-- The row of 768 pair features of the pair (i, j) and batch row b: start term plus end term plus global term plus bias. -/
def pre (i j : Fin 192) (b : Fin 4) : Fin 768 → EReal :=
  fun k => ((aterm a0 a5 i b k + cterm a0 a5 j b k) + dterm a0 a1 a3 a4 a5 b k) + a6 (ix1 k)

theorem v26_apply (i j : Fin 192) (b : Fin 4) (h : Fin 768) :
    res_main_v26 (F := Ideal) a0 a1 a3 a4 a5 a6 (ix4 i j b h) = pre a0 a1 a3 a4 a5 a6 i j b h := by
  unfold res_main_v26 pre
  rw [addf_apply, addf_apply, addf_apply, bc_row, bc_col, bc_glob, bc_feat, v13_apply, v14_apply, v15_apply]

/-- The mean of the row. -/
theorem v30_apply (i j : Fin 192) (b : Fin 4) (q : Fin 1) :
    res_main_v30 (F := Ideal) a0 a1 a3 a4 a5 a6 (ix4 i j b q) = mean (pre a0 a1 a3 a4 a5 a6 i j b) := by
  unfold res_main_v30 mean
  rw [hostDivf_apply, bc_keep, sum3_apply, broadcastInDim_scalar_apply]
  simp only [v26_apply]
  rfl

/-- The row centred at its mean. -/
theorem v39_apply (i j : Fin 192) (b : Fin 4) (h : Fin 768) :
    res_main_v39 (F := Ideal) a0 a1 a3 a4 a5 a6 (ix4 i j b h)
      = pre a0 a1 a3 a4 a5 a6 i j b h - mean (pre a0 a1 a3 a4 a5 a6 i j b) := by
  unfold res_main_v39
  rw [subf_apply, bc_stat, v26_apply, v30_apply]

/-- The variance of the row. -/
theorem v37_apply (i j : Fin 192) (b : Fin 4) (q : Fin 1) :
    res_main_v37 (F := Ideal) a0 a1 a3 a4 a5 a6 (ix4 i j b q) = var (pre a0 a1 a3 a4 a5 a6 i j b) := by
  unfold res_main_v37 var
  rw [hostDivf_apply, bc_keep, sum3_apply, broadcastInDim_scalar_apply]
  refine congrArg₂ Ideal.div (Finset.sum_congr rfl fun k _ => ?_) rfl
  rw [mulf_apply]
  exact congrArg₂ (· * ·) (v39_apply a0 a1 a3 a4 a5 a6 i j b k) (v39_apply a0 a1 a3 a4 a5 a6 i j b k)

/-- The reciprocal square root of the variance plus the stabilizer. -/
theorem v42_apply (i j : Fin 192) (b : Fin 4) (q : Fin 1) :
    res_main_v42 (F := Ideal) a0 a1 a3 a4 a5 a6 (ix4 i j b q) = Ideal.rsqrt (var (pre a0 a1 a3 a4 a5 a6 i j b) + eps) := by
  unfold res_main_v42
  rw [hostRsqrt_apply, addf_apply, v37_apply, broadcastInDim_scalar_apply]
  rfl

/-- The normalized, scaled and shifted row. -/
theorem v50_apply (i j : Fin 192) (b : Fin 4) (h : Fin 768) :
    res_main_v50 (F := Ideal) a0 a1 a3 a4 a5 a6 a7 a8 (ix4 i j b h)
      = lnorm (pre a0 a1 a3 a4 a5 a6 i j b) (fun k => a7 (ix1 k)) (fun k => a8 (ix1 k)) h := by
  unfold res_main_v50 lnorm
  rw [addf_apply, mulf_apply, mulf_apply, v39_apply, bc_stat, v42_apply, bc_feat, bc_feat]

end

end Cert.ReferenceIdeal.RefStages

end
-- ==== Proof.RefStagesC.lean ====
import proofs.«124299_j40209483825381_1_alg».proof.Proof.RefStagesB
import proofs.«124299_j40209483825381_1_alg».proof.Proof.SpecG
import proofs.«124299_j40209483825381_1_alg».proof.Proof.LibMaxReduce
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefStages

open Cert.ReferenceIdeal Cert.ReferenceIdeal.Gen Cert.ReferenceIdeal.RefRun Idealize.ShloMosaic Idealize.ShloMosaic.ValueIdx Cert.Spec

/-! # The activation, the read-out and the logistic, read at an index -/

abbrev D4 := dot_S192x192x4x768_S16x768_S192x192x4x16_3_1_012_0_n_n

theorem dot4_apply (L : FVec Ideal S192x192x4x768 .f32) (R : FVec Ideal S16x768 .f32) (i j : Fin 192) (b : Fin 4) (o : Fin 16) :
    Host.dotGeneral D4 none L R (ix4 i j b o) = ∑ h : Fin 768, L (ix4 i j b h) * R (ix2 o h) := by
  show FloatOps.dotGeneral D4 none .single L R (ix4 i j b o) = _
  rw [Ideal.dotGeneral_apply, ← Equiv.sum_comp (contrEquiv1 D4 768 rfl rfl).symm]
  refine Finset.sum_congr rfl fun h _ => ?_
  have hc := contrEquiv1_symm_val D4 768 rfl rfl h
  have el : D4.lhsIdx (ix4 i j b o) ((contrEquiv1 D4 768 rfl rfl).symm h) = ix4 i j b h := by
    funext ax; apply Fin.ext
    match ax with
    | ⟨0, _⟩ => simp [DotDims.lhsIdx, D4, dot_S192x192x4x768_S16x768_S192x192x4x16_3_1_012_0_n_n]; rfl
    | ⟨1, _⟩ => simp [DotDims.lhsIdx, D4, dot_S192x192x4x768_S16x768_S192x192x4x16_3_1_012_0_n_n]; rfl
    | ⟨2, _⟩ => simp [DotDims.lhsIdx, D4, dot_S192x192x4x768_S16x768_S192x192x4x16_3_1_012_0_n_n]; rfl
    | ⟨3, _⟩ => simp [DotDims.lhsIdx, D4, dot_S192x192x4x768_S16x768_S192x192x4x16_3_1_012_0_n_n]; exact hc
  have er : D4.rhsIdx (ix4 i j b o) ((contrEquiv1 D4 768 rfl rfl).symm h) = ix2 o h := by
    funext ax; apply Fin.ext
    match ax with
    | ⟨0, _⟩ => simp [DotDims.rhsIdx, D4, dot_S192x192x4x768_S16x768_S192x192x4x16_3_1_012_0_n_n]; rfl
    | ⟨1, _⟩ => simp [DotDims.rhsIdx, D4, dot_S192x192x4x768_S16x768_S192x192x4x16_3_1_012_0_n_n]; exact hc
  rw [el, er]

theorem hostExpm1_apply {s : Shape} {φ : FTy} (x : FVec Ideal s φ) (i : s.Idx) : Host.expm1 x i = Ideal.exp (x i) - 1 := rfl
theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl

/-- The exponential linear unit as the program spells it — a selection on "x above zero" between x and one times
    `exp − 1` of a second selection that replaces a positive x by zero — is the unit's two-branch definition. -/
theorem elu_eq (x z z' z'' o : EReal) (hz : z = zero) (hz' : z' = zero) (hz'' : z'' = zero) (ho : o = one) :
    Scalar.select (Ideal.cmp .ogt x z) x (o * (Ideal.exp (Scalar.select (Ideal.cmp .ogt x z') z'' x) - 1)) = elu x := by
  subst hz hz' hz'' ho
  unfold elu
  by_cases h : zero < x
  · have hc : Ideal.cmp .ogt x zero = 1#1 := by simp [Ideal.cmp, h]
    rw [hc, select_one, if_pos h]
  · have hc : Ideal.cmp .ogt x zero = 0#1 := by simp [Ideal.cmp, h]
    rw [hc, select_zero, select_zero, if_neg h]
    rw [show one = (1 : EReal) from Ideal.ofBits_one_f32, one_mul]

section
variable (a0 a1 : FVec Ideal S192x4x768 .f32) (a3 : FVec Ideal S768x1536 .f32) (a4 : FVec Ideal S768 .f32)
  (a5 : FVec Ideal S768x2304 .f32) (a6 a7 a8 : FVec Ideal S768 .f32) (a9 : FVec Ideal S16x768 .f32) (a10 : FVec Ideal S16 .f32)

/-- The activated features of the pair (i, j) and batch row b. -/
def act (i j : Fin 192) (b : Fin 4) : Fin 768 → EReal :=
  fun h => elu (lnorm (pre a0 a1 a3 a4 a5 a6 i j b) (fun k => a7 (ix1 k)) (fun k => a8 (ix1 k)) h)

theorem v51_apply (i j : Fin 192) (b : Fin 4) (h : Fin 768) :
    res_main_v51 (F := Ideal) a0 a1 a3 a4 a5 a6 a7 a8 (ix4 i j b h) = act a0 a1 a3 a4 a5 a6 a7 a8 i j b h := by
  unfold res_main_v51 act
  rw [select_apply, cmpf_apply, mulf_apply, hostExpm1_apply, select_apply, cmpf_apply, v50_apply,
    broadcastInDim_scalar_apply, broadcastInDim_scalar_apply]
  exact elu_eq _ _ _ _ _ rfl rfl rfl rfl

/-- The head logits at (i, j, row, tag). -/
theorem v55_apply (i j : Fin 192) (b : Fin 4) (o : Fin 16) :
    res_main_v55 (F := Ideal) a0 a1 a3 a4 a5 a6 a7 a8 a9 a10 (ix4 i j b o)
      = (∑ h : Fin 768, act a0 a1 a3 a4 a5 a6 a7 a8 i j b h * a9 (ix2 o h)) + a10 (ix1 o) := by
  unfold res_main_v55 res_main_v52 res_main_v53
  rw [addf_apply, dot4_apply]
  rw [Idealize.ShloMosaic.broadcastInDim_apply _ _ _ (ix4 i j b o) (ix4 0 0 0 o) (fun a => by match a with | ⟨0, _⟩ => rfl | ⟨1, _⟩ => rfl | ⟨2, _⟩ => rfl | ⟨3, _⟩ => rfl)]
  rw [Idealize.ShloMosaic.broadcastInDim_apply _ _ _ (ix4 0 0 0 o) (ix1 o) (fun a => by match a with | ⟨0, _⟩ => rfl)]
  simp only [v51_apply]

/-- The tag probability at (i, j, row, tag). -/
theorem v61_apply (i j : Fin 192) (b : Fin 4) (o : Fin 16) :
    res_main_v61 (F := Ideal) a0 a1 a3 a4 a5 a6 a7 a8 a9 a10 (ix4 i j b o)
      = tagp (act a0 a1 a3 a4 a5 a6 a7 a8 i j b) (fun h => a9 (ix2 o h)) (a10 (ix1 o)) := by
  unfold res_main_v61 tagp
  rw [hostDivf_apply, addf_apply, hostExp_apply, hostNegf_apply, v55_apply, broadcastInDim_scalar_apply]
  rw [show (constant S_ .f32 0x3F800000#32 : FVec Ideal S_ .f32) ix0 = 1 from Ideal.ofBits_one_f32]
  rfl

end

end Cert.ReferenceIdeal.RefStages

end
-- ==== Proof.RefStagesD.lean ====
import proofs.«124299_j40209483825381_1_alg».proof.Proof.RefRun
import proofs.«124299_j40209483825381_1_alg».proof.Proof.SpecG
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefStages

open Cert.ReferenceIdeal Cert.ReferenceIdeal.Gen Cert.ReferenceIdeal.RefRun Idealize.ShloMosaic Idealize.ShloMosaic.ValueIdx Cert.Spec

/-! # The pair mask, read at an index -/

/-- Adding the all-ones word to a small natural's word gives, read signed, the natural minus one. -/
theorem addm1_toInt (i : ℕ) (hi : i < 2 ^ 31) : (BitVec.ofNat 32 i + 4294967295#32).toInt = (i : Int) - 1 := by
  have e : (4294967295#32 : BitVec 32) = BitVec.ofNat 32 4294967295 := rfl
  rw [e, ← BitVec.ofNat_add, BitVec.toInt_ofNat', Int.bmod_def]
  have h2 : ((2 : Int) ^ 32) = 4294967296 := by norm_num
  simp only [Nat.cast_add, Nat.cast_ofNat]
  split_ifs <;> omega

/-- A small natural's word, read signed, is the natural. -/
theorem ofNat_toInt (j : ℕ) (hj : j < 2 ^ 31) : (BitVec.ofNat 32 j).toInt = (j : Int) := by
  rw [BitVec.toInt_ofNat', Int.bmod_def]
  split_ifs <;> omega

/-- The mask's word arithmetic: "i − 1 ≥ j, signed" selects zero, and that is "i ≤ j" selecting one. -/
theorem tri_word (i j : ℕ) (hi : i < 2 ^ 31) (hj : j < 2 ^ 31) (z o : EReal) (hz : z = 0) (ho : o = 1) :
    Scalar.select (IntOp.cmpi .sge (IntOp.addi (BitVec.ofNat 32 i) 4294967295#32) (BitVec.ofNat 32 j)) z o = tri i j := by
  subst hz ho
  unfold tri
  have hc : IntOp.cmpi .sge (IntOp.addi (BitVec.ofNat 32 i) 4294967295#32) (BitVec.ofNat 32 j)
      = BitVec.ofBool (decide ((j : Int) ≤ (i : Int) - 1)) := by
    show BitVec.ofBool ((BitVec.ofNat 32 j).sle (BitVec.ofNat 32 i + 4294967295#32)) = _
    unfold BitVec.sle
    rw [addm1_toInt i hi, ofNat_toInt j hj]
  rw [hc]
  by_cases h : i ≤ j
  · have : ¬ ((j : Int) ≤ (i : Int) - 1) := by omega
    rw [if_pos h, decide_eq_false this]
    exact select_zero _ _
  · have : (j : Int) ≤ (i : Int) - 1 := by omega
    rw [if_neg h, decide_eq_true this]
    exact select_one _ _

theorem cmpi_apply {s : Shape} {w : ℕ} (p : CmpIPredicate) (x y : IVec s w) (i : s.Idx) : cmpi p x y i = IntOp.cmpi p (x i) (y i) := rfl
theorem addi_apply {s : Shape} {w : ℕ} (x y : IVec s w) (i : s.Idx) : addi x y i = IntOp.addi (x i) (y i) := rfl

/-- The triangle at (i, j): one where i ≤ j, zero elsewhere. -/
theorem v63_apply (i j : Fin 192) : res_main_v63 (F := Ideal) (ix2 i j) = tri i.val j.val := by
  unfold res_main_v63
  rw [select_apply, cmpi_apply, addi_apply, iotaInDim_apply, iotaInDim_apply, broadcastInDim_scalar_apply,
    broadcastInDim_scalar_apply, broadcastInDim_scalar_apply]
  exact tri_word i.val j.val (by have := i.isLt; omega) (by have := j.isLt; omega) _ _ Ideal.ofBits_zero_f32 Ideal.ofBits_one_f32

/-- The pair mask at (i, j, row). -/
theorem v71_apply (a2 : FVec Ideal S192x4 .f32) (i j : Fin 192) (b : Fin 4) :
    res_main_v71 (F := Ideal) a2 (ix3 i j b) = (a2 (ix2 i b) * a2 (ix2 j b)) * tri i.val j.val := by
  unfold res_main_v71
  rw [mulf_apply, mulf_apply]
  rw [Idealize.ShloMosaic.broadcastInDim_apply _ _ _ (ix3 i j b) (ix3 i 0 b) (fun a => by match a with | ⟨0, _⟩ => rfl | ⟨1, _⟩ => rfl | ⟨2, _⟩ => rfl)]
  rw [Idealize.ShloMosaic.broadcastInDim_apply _ _ _ (ix3 i 0 b) (ix2 i b) (fun a => by match a with | ⟨0, _⟩ => rfl | ⟨1, _⟩ => rfl)]
  rw [Idealize.ShloMosaic.broadcastInDim_apply _ _ _ (ix3 i j b) (ix3 0 j b) (fun a => by match a with | ⟨0, _⟩ => rfl | ⟨1, _⟩ => rfl | ⟨2, _⟩ => rfl)]
  rw [Idealize.ShloMosaic.broadcastInDim_apply _ _ _ (ix3 0 j b) (ix2 j b) (fun a => by match a with | ⟨0, _⟩ => rfl | ⟨1, _⟩ => rfl)]
  rw [Idealize.ShloMosaic.broadcastInDim_apply _ _ _ (ix3 i j b) (ix3 i j 0) (fun a => by match a with | ⟨0, _⟩ => rfl | ⟨1, _⟩ => rfl | ⟨2, _⟩ => rfl)]
  rw [Idealize.ShloMosaic.broadcastInDim_apply _ _ _ (ix3 i j 0) (ix2 i j) (fun a => by match a with | ⟨0, _⟩ => rfl | ⟨1, _⟩ => rfl)]
  rw [v63_apply]

/-- The pair mask spread over the tags, at (i, j, row, tag). -/
theorem v73_apply (a2 : FVec Ideal S192x4 .f32) (i j : Fin 192) (b : Fin 4) (o : Fin 16) :
    res_main_v73 (F := Ideal) a2 (ix4 i j b o) = (a2 (ix2 i b) * a2 (ix2 j b)) * tri i.val j.val := by
  unfold res_main_v73
  rw [Idealize.ShloMosaic.broadcastInDim_apply _ _ _ (ix4 i j b o) (ix4 i j b 0) (fun a => by match a with | ⟨0, _⟩ => rfl | ⟨1, _⟩ => rfl | ⟨2, _⟩ => rfl | ⟨3, _⟩ => rfl)]
  rw [Idealize.ShloMosaic.broadcastInDim_apply _ _ _ (ix4 i j b 0) (ix3 i j b) (fun a => by match a with | ⟨0, _⟩ => rfl | ⟨1, _⟩ => rfl | ⟨2, _⟩ => rfl)]
  rw [v71_apply]

end Cert.ReferenceIdeal.RefStages

end
-- ==== Proof.RefStages.lean ====
import proofs.«124299_j40209483825381_1_alg».proof.Proof.RefStagesC
import proofs.«124299_j40209483825381_1_alg».proof.Proof.RefStagesD
import proofs.«124299_j40209483825381_1_alg».proof.Proof.SpecG
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefStages

open Cert.ReferenceIdeal Cert.ReferenceIdeal.Gen Cert.ReferenceIdeal.RefRun Idealize.ShloMosaic Idealize.ShloMosaic.ValueIdx Cert.Spec

/-! # The reference's result is the span-pair score, element by element -/

/-- The composed term of the reference program's operations, read at every (start, end, row, tag), is the
    span-pair score: the logistic read-out of the activated, normalized pair features times the pair mask. -/
theorem out_eq (a0 a1 : FVec Ideal S192x4x768 .f32) (a2 : FVec Ideal S192x4 .f32) (a3 : FVec Ideal S768x1536 .f32)
    (a4 : FVec Ideal S768 .f32) (a5 : FVec Ideal S768x2304 .f32) (a6 a7 a8 : FVec Ideal S768 .f32)
    (a9 : FVec Ideal S16x768 .f32) (a10 : FVec Ideal S16 .f32) :
    RefRun.out (F := Ideal) a0 a1 a2 a3 a4 a5 a6 a7 a8 a9 a10 = Cert.Spec.Garr a0 a1 a2 a3 a4 a5 a6 a7 a8 a9 a10 := by
  funext y
  obtain ⟨i, j, b, o, rfl⟩ : ∃ i j b o, y = ix4 i j b o := ⟨y 0, y 1, y 2, y 3, eq_ix4 y⟩
  unfold RefRun.out
  rw [mulf_apply, v61_apply, v73_apply]
  rfl

end Cert.ReferenceIdeal.RefStages

end
-- ==== Proof.LibExtremaRange.lean ====
/-
  Infima and suprema of an extended-real family over a range of consecutive indices of `Fin N`.

  For `f : Fin N → EReal`, `infRange f lo hi` is the infimum of `f k` over the indices with `lo ≤ k < hi`, and
  `supRange f lo hi` the supremum. An empty range gives `⊤` (resp. `⊥`); two adjacent ranges combine by `min`
  (resp. `max`); a range of `W` consecutive indices is the infimum (supremum) over `Fin W` of the shifted family;
  the range `[0, N)` is the whole infimum (supremum). These are what a running minimum or maximum, accumulated
  block of rows after block of rows, needs in order to be named in closed form.
-/
import Mathlib.Data.EReal.Basic

namespace Cert.LibExtremaRange

/-- The infimum of `f` over the indices `k` with `lo ≤ k < hi`. -/
noncomputable def infRange {N : ℕ} (f : Fin N → EReal) (lo hi : ℕ) : EReal :=
  ⨅ (k : Fin N) (_ : lo ≤ k.val ∧ k.val < hi), f k

/-- The supremum of `f` over the indices `k` with `lo ≤ k < hi`. -/
noncomputable def supRange {N : ℕ} (f : Fin N → EReal) (lo hi : ℕ) : EReal :=
  ⨆ (k : Fin N) (_ : lo ≤ k.val ∧ k.val < hi), f k

theorem le_infRange_iff {N : ℕ} (f : Fin N → EReal) (lo hi : ℕ) (c : EReal) :
    c ≤ infRange f lo hi ↔ ∀ k : Fin N, lo ≤ k.val → k.val < hi → c ≤ f k := by
  unfold infRange
  rw [le_iInf₂_iff]
  exact ⟨fun h k h1 h2 => h k ⟨h1, h2⟩, fun h k hk => h k hk.1 hk.2⟩

theorem supRange_le_iff {N : ℕ} (f : Fin N → EReal) (lo hi : ℕ) (c : EReal) :
    supRange f lo hi ≤ c ↔ ∀ k : Fin N, lo ≤ k.val → k.val < hi → f k ≤ c := by
  unfold supRange
  rw [iSup₂_le_iff]
  exact ⟨fun h k h1 h2 => h k ⟨h1, h2⟩, fun h k hk => h k hk.1 hk.2⟩

/-- Over an empty range the infimum is `⊤`. -/
theorem infRange_empty {N : ℕ} (f : Fin N → EReal) (lo hi : ℕ) (h : hi ≤ lo) : infRange f lo hi = ⊤ := by
  refine top_unique ((le_infRange_iff f lo hi ⊤).2 fun k h1 h2 => ?_)
  omega

/-- Over an empty range the supremum is `⊥`. -/
theorem supRange_empty {N : ℕ} (f : Fin N → EReal) (lo hi : ℕ) (h : hi ≤ lo) : supRange f lo hi = ⊥ := by
  refine bot_unique ((supRange_le_iff f lo hi ⊥).2 fun k h1 h2 => ?_)
  omega

/-- Two adjacent ranges: the infimum over `[lo, hi)` is the minimum of those over `[lo, mid)` and `[mid, hi)`. -/
theorem infRange_append {N : ℕ} (f : Fin N → EReal) (lo mid hi : ℕ) (h1 : lo ≤ mid) (h2 : mid ≤ hi) :
    min (infRange f lo mid) (infRange f mid hi) = infRange f lo hi := by
  refine eq_of_forall_le_iff fun c => ?_
  rw [le_min_iff, le_infRange_iff, le_infRange_iff, le_infRange_iff]
  constructor
  · rintro ⟨ha, hb⟩ k hk1 hk2
    by_cases hm : k.val < mid
    · exact ha k hk1 hm
    · exact hb k (by omega) hk2
  · intro hh
    exact ⟨fun k hk1 hk2 => hh k hk1 (by omega), fun k hk1 hk2 => hh k (by omega) hk2⟩

/-- Two adjacent ranges: the supremum over `[lo, hi)` is the maximum of those over `[lo, mid)` and `[mid, hi)`. -/
theorem supRange_append {N : ℕ} (f : Fin N → EReal) (lo mid hi : ℕ) (h1 : lo ≤ mid) (h2 : mid ≤ hi) :
    max (supRange f lo mid) (supRange f mid hi) = supRange f lo hi := by
  refine eq_of_forall_ge_iff fun c => ?_
  rw [max_le_iff, supRange_le_iff, supRange_le_iff, supRange_le_iff]
  constructor
  · rintro ⟨ha, hb⟩ k hk1 hk2
    by_cases hm : k.val < mid
    · exact ha k hk1 hm
    · exact hb k (by omega) hk2
  · intro hh
    exact ⟨fun k hk1 hk2 => hh k hk1 (by omega), fun k hk1 hk2 => hh k (by omega) hk2⟩

/-- A range of `W` consecutive indices starting at `lo`: the infimum over `Fin W` of the shifted family. -/
theorem infRange_block {N : ℕ} (f : Fin N → EReal) (lo W : ℕ) (h : lo + W ≤ N) :
    infRange f lo (lo + W) = ⨅ q : Fin W, f ⟨lo + q.val, by have := q.isLt; omega⟩ := by
  refine eq_of_forall_le_iff fun c => ?_
  rw [le_infRange_iff, le_iInf_iff]
  constructor
  · intro hh q
    exact hh _ (by simp only; omega) (by have := q.isLt; simp only; omega)
  · intro hh k hk1 hk2
    have h3 := hh ⟨k.val - lo, by omega⟩
    have e : (⟨lo + (k.val - lo), by omega⟩ : Fin N) = k := Fin.ext (by simp only; omega)
    rw [e] at h3
    exact h3

/-- A range of `W` consecutive indices starting at `lo`: the supremum over `Fin W` of the shifted family. -/
theorem supRange_block {N : ℕ} (f : Fin N → EReal) (lo W : ℕ) (h : lo + W ≤ N) :
    supRange f lo (lo + W) = ⨆ q : Fin W, f ⟨lo + q.val, by have := q.isLt; omega⟩ := by
  refine eq_of_forall_ge_iff fun c => ?_
  rw [supRange_le_iff, iSup_le_iff]
  constructor
  · intro hh q
    exact hh _ (by simp only; omega) (by have := q.isLt; simp only; omega)
  · intro hh k hk1 hk2
    have h3 := hh ⟨k.val - lo, by omega⟩
    have e : (⟨lo + (k.val - lo), by omega⟩ : Fin N) = k := Fin.ext (by simp only; omega)
    rw [e] at h3
    exact h3

/-- The range `[0, N)` is every index. -/
theorem infRange_all {N : ℕ} (f : Fin N → EReal) : infRange f 0 N = ⨅ k, f k := by
  refine eq_of_forall_le_iff fun c => ?_
  rw [le_infRange_iff, le_iInf_iff]
  exact ⟨fun hh k => hh k (Nat.zero_le _) k.isLt, fun hh k _ _ => hh k⟩

/-- The range `[0, N)` is every index. -/
theorem supRange_all {N : ℕ} (f : Fin N → EReal) : supRange f 0 N = ⨆ k, f k := by
  refine eq_of_forall_ge_iff fun c => ?_
  rw [supRange_le_iff, iSup_le_iff]
  exact ⟨fun hh k => hh k (Nat.zero_le _) k.isLt, fun hh k _ _ => hh k⟩

end Cert.LibExtremaRange
-- ==== Proof.KVal0.lean ====
import proofs.«124299_j40209483825381_1_alg».proof.Proof.Gen.KernelIdeal.Launch
import proofs.«124299_j40209483825381_1_alg».proof.Proof.Gen.KernelIdeal.Skeleton
import proofs.«124299_j40209483825381_1_alg».proof.Proof.Gen.KernelIdeal.Points
import proofs.«124299_j40209483825381_1_alg».proof.Proof.K0
import proofs.«124299_j40209483825381_1_alg».proof.Proof.LibExtremaRange
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The first region's blocks, read at an index of their arrays -/

section Blocks0

variable (V : (c : Dev nD) → (b : Ref sig .tc) → Buf (Elt F) ((c : Thread nD τ).loc b)) (c : Dev nD)

/-- The tiled windows' block index at point `t` is (t, 0, 0); the others' is zero. -/
theorem idx0_0 : ∀ t : Fin cfg0.N, win0_0.index t = ![t.val, 0, 0] := (by decide +kernel : ∀ t : Fin grid0.N, _)
theorem idx0_1 : ∀ t : Fin cfg0.N, win0_1.index t = ![t.val, 0, 0] := (by decide +kernel : ∀ t : Fin grid0.N, _)
theorem idx0_8 : ∀ t : Fin cfg0.N, win0_8.index t = ![t.val, 0, 0] := (by decide +kernel : ∀ t : Fin grid0.N, _)
theorem idx0_9 : ∀ t : Fin cfg0.N, win0_9.index t = ![t.val, 0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![0, 0] := (by decide +kernel : ∀ t : Fin grid0.N, _)
theorem idx0_10 : ∀ t : Fin cfg0.N, win0_10.index t = ![0, 0] := (by decide +kernel : ∀ t : Fin grid0.N, _)

/-- Position `64 t + l` of the sequence: the `l`-th position of tile `t`. -/
def pos0 (t : Fin cfg0.N) (l : Fin 64) : Fin 192 := ⟨t.val * 64 + l.val, by have := t.isLt; have h3 : cfg0.N = 3 := N_0; have := l.isLt; omega⟩

/-- A tile of an activation, read at an index: the array at the tile's position. -/
theorem iblk0_0_apply (t : Fin cfg0.N) (l : Fin 64) (b : Fin 4) (h : Fin 768) :
    iblk0 V c 0 t (ix3 l b h) = V c main_v17 (ix3 (pos0 t l) b h) := by
  show V c main_v17 (((cfg0.win 0).blk t).view.emb (ix3 l b h)) = V c main_v17 (ix3 (pos0 t l) b h)
  congr 1
  funext a; apply Fin.ext
  have e := idx0_0 t
  match a with
  | ⟨0, _⟩ => show win0_0.index t (0 : Fin 3) * 64 + 1 * l.val = t.val * 64 + l.val; rw [e]; show t.val * 64 + 1 * l.val = _; omega
  | ⟨1, _⟩ => show win0_0.index t (1 : Fin 3) * 4 + 1 * b.val = b.val; rw [e]; show 0 * 4 + 1 * b.val = _; omega
  | ⟨2, _⟩ => show win0_0.index t (2 : Fin 3) * 768 + 1 * h.val = h.val; rw [e]; show 0 * 768 + 1 * h.val = _; omega

theorem iblk0_1_apply (t : Fin cfg0.N) (l : Fin 64) (b : Fin 4) (h : Fin 768) :
    iblk0 V c 1 t (ix3 l b h) = V c main_v18 (ix3 (pos0 t l) b h) := by
  show V c main_v18 (((cfg0.win 1).blk t).view.emb (ix3 l b h)) = V c main_v18 (ix3 (pos0 t l) b h)
  congr 1
  funext a; apply Fin.ext
  have e := idx0_1 t
  match a with
  | ⟨0, _⟩ => show win0_1.index t (0 : Fin 3) * 64 + 1 * l.val = t.val * 64 + l.val; rw [e]; show t.val * 64 + 1 * l.val = _; omega
  | ⟨1, _⟩ => show win0_1.index t (1 : Fin 3) * 4 + 1 * b.val = b.val; rw [e]; show 0 * 4 + 1 * b.val = _; omega
  | ⟨2, _⟩ => show win0_1.index t (2 : Fin 3) * 768 + 1 * h.val = h.val; rw [e]; show 0 * 768 + 1 * h.val = _; omega

/-- A weight matrix's window is the whole matrix at every point. -/
theorem iblk0_2_apply (t : Fin cfg0.N) (h o : Fin 768) : iblk0 V c 2 t (ix2 h o) = V c main_v3 (ix2 h o) := by
  show V c main_v3 (((cfg0.win 2).blk t).view.emb (ix2 h o)) = V c main_v3 (ix2 h o)
  congr 1
  funext a; apply Fin.ext
  have e := idx0_2 t
  match a with
  | ⟨0, _⟩ => show win0_2.index t (0 : Fin 2) * 768 + 1 * h.val = h.val; rw [e]; show 0 * 768 + 1 * h.val = _; omega
  | ⟨1, _⟩ => show win0_2.index t (1 : Fin 2) * 768 + 1 * o.val = o.val; rw [e]; show 0 * 768 + 1 * o.val = _; omega
theorem iblk0_3_apply (t : Fin cfg0.N) (h o : Fin 768) : iblk0 V c 3 t (ix2 h o) = V c main_v5 (ix2 h o) := by
  show V c main_v5 (((cfg0.win 3).blk t).view.emb (ix2 h o)) = V c main_v5 (ix2 h o)
  congr 1
  funext a; apply Fin.ext
  have e := idx0_3 t
  match a with
  | ⟨0, _⟩ => show win0_3.index t (0 : Fin 2) * 768 + 1 * h.val = h.val; rw [e]; show 0 * 768 + 1 * h.val = _; omega
  | ⟨1, _⟩ => show win0_3.index t (1 : Fin 2) * 768 + 1 * o.val = o.val; rw [e]; show 0 * 768 + 1 * o.val = _; omega
theorem iblk0_4_apply (t : Fin cfg0.N) (o : Fin 768) : iblk0 V c 4 t (ix1 o) = V c main_arg4 (ix1 o) := by
  show V c main_arg4 (((cfg0.win 4).blk t).view.emb (ix1 o)) = V c main_arg4 (ix1 o)
  congr 1
  funext a; apply Fin.ext
  have e := idx0_4 t
  match a with
  | ⟨0, _⟩ => show win0_4.index t (0 : Fin 1) * 768 + 1 * o.val = o.val; rw [e]; show 0 * 768 + 1 * o.val = _; omega
theorem iblk0_5_apply (t : Fin cfg0.N) (h o : Fin 768) : iblk0 V c 5 t (ix2 h o) = V c main_v10 (ix2 h o) := by
  show V c main_v10 (((cfg0.win 5).blk t).view.emb (ix2 h o)) = V c main_v10 (ix2 h o)
  congr 1
  funext a; apply Fin.ext
  have e := idx0_5 t
  match a with
  | ⟨0, _⟩ => show win0_5.index t (0 : Fin 2) * 768 + 1 * h.val = h.val; rw [e]; show 0 * 768 + 1 * h.val = _; omega
  | ⟨1, _⟩ => show win0_5.index t (1 : Fin 2) * 768 + 1 * o.val = o.val; rw [e]; show 0 * 768 + 1 * o.val = _; omega
theorem iblk0_6_apply (t : Fin cfg0.N) (h o : Fin 768) : iblk0 V c 6 t (ix2 h o) = V c main_v12 (ix2 h o) := by
  show V c main_v12 (((cfg0.win 6).blk t).view.emb (ix2 h o)) = V c main_v12 (ix2 h o)
  congr 1
  funext a; apply Fin.ext
  have e := idx0_6 t
  match a with
  | ⟨0, _⟩ => show win0_6.index t (0 : Fin 2) * 768 + 1 * h.val = h.val; rw [e]; show 0 * 768 + 1 * h.val = _; omega
  | ⟨1, _⟩ => show win0_6.index t (1 : Fin 2) * 768 + 1 * o.val = o.val; rw [e]; show 0 * 768 + 1 * o.val = _; omega
theorem iblk0_7_apply (t : Fin cfg0.N) (h o : Fin 768) : iblk0 V c 7 t (ix2 h o) = V c main_v14 (ix2 h o) := by
  show V c main_v14 (((cfg0.win 7).blk t).view.emb (ix2 h o)) = V c main_v14 (ix2 h o)
  congr 1
  funext a; apply Fin.ext
  have e := idx0_7 t
  match a with
  | ⟨0, _⟩ => show win0_7.index t (0 : Fin 2) * 768 + 1 * h.val = h.val; rw [e]; show 0 * 768 + 1 * h.val = _; omega
  | ⟨1, _⟩ => show win0_7.index t (1 : Fin 2) * 768 + 1 * o.val = o.val; rw [e]; show 0 * 768 + 1 * o.val = _; omega

/-- Where an element of a projection's tile sits in its array. -/
theorem emb0_8 (t : Fin cfg0.N) (l : Fin 64) (b : Fin 4) (o : Fin 768) :
    ((cfg0.win 8).blk t).view.emb (ix3 l b o) = ix3 (pos0 t l) b o := by
  funext a; apply Fin.ext
  have e := idx0_8 t
  match a with
  | ⟨0, _⟩ => show win0_8.index t (0 : Fin 3) * 64 + 1 * l.val = t.val * 64 + l.val; rw [e]; show t.val * 64 + 1 * l.val = _; omega
  | ⟨1, _⟩ => show win0_8.index t (1 : Fin 3) * 4 + 1 * b.val = b.val; rw [e]; show 0 * 4 + 1 * b.val = _; omega
  | ⟨2, _⟩ => show win0_8.index t (2 : Fin 3) * 768 + 1 * o.val = o.val; rw [e]; show 0 * 768 + 1 * o.val = _; omega
theorem emb0_9 (t : Fin cfg0.N) (l : Fin 64) (b : Fin 4) (o : Fin 768) :
    ((cfg0.win 9).blk t).view.emb (ix3 l b o) = ix3 (pos0 t l) b o := by
  funext a; apply Fin.ext
  have e := idx0_9 t
  match a with
  | ⟨0, _⟩ => show win0_9.index t (0 : Fin 3) * 64 + 1 * l.val = t.val * 64 + l.val; rw [e]; show t.val * 64 + 1 * l.val = _; omega
  | ⟨1, _⟩ => show win0_9.index t (1 : Fin 3) * 4 + 1 * b.val = b.val; rw [e]; show 0 * 4 + 1 * b.val = _; omega
  | ⟨2, _⟩ => show win0_9.index t (2 : Fin 3) * 768 + 1 * o.val = o.val; rw [e]; show 0 * 768 + 1 * o.val = _; omega
theorem emb0_10 (t : Fin cfg0.N) (b : Fin 4) (o : Fin 768) :
    ((cfg0.win 10).blk t).view.emb (ix2 b o) = ix2 b o := by
  funext a; apply Fin.ext
  have e := idx0_10 t
  match a with
  | ⟨0, _⟩ => show win0_10.index t (0 : Fin 2) * 4 + 1 * b.val = b.val; rw [e]; show 0 * 4 + 1 * b.val = _; omega
  | ⟨1, _⟩ => show win0_10.index t (1 : Fin 2) * 768 + 1 * o.val = o.val; rw [e]; show 0 * 768 + 1 * o.val = _; omega

/-! ## Which points' blocks cover an index -/

theorem mem_blk0_8 (t : Fin cfg0.N) (i : S192x4x768.Idx) :
    i ∈ ((cfg0.win 8).blk t).view.set ↔ ∀ a : Fin 3, win0_8.index t a * S64x4x768.size a ≤ (i a).val ∧ (i a).val < win0_8.index t a * S64x4x768.size a + S64x4x768.size a := by
  show i ∈ ((View.whole main_v19_0).slice (win0_8.rect t)).set ↔ _
  rw [View.set_slice_whole, Rect.mem_set_unit]
  exact Iff.rfl
theorem mem_blk0_9 (t : Fin cfg0.N) (i : S192x4x768.Idx) :
    i ∈ ((cfg0.win 9).blk t).view.set ↔ ∀ a : Fin 3, win0_9.index t a * S64x4x768.size a ≤ (i a).val ∧ (i a).val < win0_9.index t a * S64x4x768.size a + S64x4x768.size a := by
  show i ∈ ((View.whole main_v19_1).slice (win0_9.rect t)).set ↔ _
  rw [View.set_slice_whole, Rect.mem_set_unit]
  exact Iff.rfl
theorem mem_blk0_10 (t : Fin cfg0.N) (i : S4x768.Idx) :
    i ∈ ((cfg0.win 10).blk t).view.set ↔ ∀ a : Fin 2, win0_10.index t a * S4x768.size a ≤ (i a).val ∧ (i a).val < win0_10.index t a * S4x768.size a + S4x768.size a := by
  show i ∈ ((View.whole main_v19_2).slice (win0_10.rect t)).set ↔ _
  rw [View.set_slice_whole, Rect.mem_set_unit]
  exact Iff.rfl

theorem cover0_8 (i : S192x4x768.Idx) : ∃ t : Fin cfg0.N, (cfg0.win 8).flush t = true ∧ i ∈ ((cfg0.win 8).blk t).view.set := by
  have hi0 : (i 0).val < 192 := (i 0).isLt
  have hi1 : (i 1).val < 4 := (i 1).isLt
  have hi2 : (i 2).val < 768 := (i 2).isLt
  have h3 : cfg0.N = 3 := N_0
  refine ⟨⟨(i 0).val / 64, by omega⟩, flush0_8 _, ?_⟩
  rw [mem_blk0_8]
  intro a
  have e := idx0_8 ⟨(i 0).val / 64, by omega⟩
  match a with
  | ⟨0, _⟩ => show win0_8.index _ (0 : Fin 3) * 64 ≤ (i 0).val ∧ (i 0).val < win0_8.index _ (0 : Fin 3) * 64 + 64; rw [e]; show (i 0).val / 64 * 64 ≤ (i 0).val ∧ (i 0).val < (i 0).val / 64 * 64 + 64; omega
  | ⟨1, _⟩ => show win0_8.index _ (1 : Fin 3) * 4 ≤ (i 1).val ∧ (i 1).val < win0_8.index _ (1 : Fin 3) * 4 + 4; rw [e]; show 0 * 4 ≤ (i 1).val ∧ (i 1).val < 0 * 4 + 4; omega
  | ⟨2, _⟩ => show win0_8.index _ (2 : Fin 3) * 768 ≤ (i 2).val ∧ (i 2).val < win0_8.index _ (2 : Fin 3) * 768 + 768; rw [e]; show 0 * 768 ≤ (i 2).val ∧ (i 2).val < 0 * 768 + 768; omega
theorem cover0_9 (i : S192x4x768.Idx) : ∃ t : Fin cfg0.N, (cfg0.win 9).flush t = true ∧ i ∈ ((cfg0.win 9).blk t).view.set := by
  have hi0 : (i 0).val < 192 := (i 0).isLt
  have hi1 : (i 1).val < 4 := (i 1).isLt
  have hi2 : (i 2).val < 768 := (i 2).isLt
  have h3 : cfg0.N = 3 := N_0
  refine ⟨⟨(i 0).val / 64, by omega⟩, flush0_9 _, ?_⟩
  rw [mem_blk0_9]
  intro a
  have e := idx0_9 ⟨(i 0).val / 64, by omega⟩
  match a with
  | ⟨0, _⟩ => show win0_9.index _ (0 : Fin 3) * 64 ≤ (i 0).val ∧ (i 0).val < win0_9.index _ (0 : Fin 3) * 64 + 64; rw [e]; show (i 0).val / 64 * 64 ≤ (i 0).val ∧ (i 0).val < (i 0).val / 64 * 64 + 64; omega
  | ⟨1, _⟩ => show win0_9.index _ (1 : Fin 3) * 4 ≤ (i 1).val ∧ (i 1).val < win0_9.index _ (1 : Fin 3) * 4 + 4; rw [e]; show 0 * 4 ≤ (i 1).val ∧ (i 1).val < 0 * 4 + 4; omega
  | ⟨2, _⟩ => show win0_9.index _ (2 : Fin 3) * 768 ≤ (i 2).val ∧ (i 2).val < win0_9.index _ (2 : Fin 3) * 768 + 768; rw [e]; show 0 * 768 ≤ (i 2).val ∧ (i 2).val < 0 * 768 + 768; omega
theorem cover0_10 (i : S4x768.Idx) : ∃ t : Fin cfg0.N, (cfg0.win 10).flush t = true ∧ i ∈ ((cfg0.win 10).blk t).view.set := by
  have hi0 : (i 0).val < 4 := (i 0).isLt
  have hi1 : (i 1).val < 768 := (i 1).isLt
  refine ⟨t0_2, (flush0_10 t0_2).mpr rfl, ?_⟩
  rw [mem_blk0_10]
  intro a
  have e := idx0_10 t0_2
  match a with
  | ⟨0, _⟩ => show win0_10.index _ (0 : Fin 2) * 4 ≤ (i 0).val ∧ (i 0).val < win0_10.index _ (0 : Fin 2) * 4 + 4; rw [e]; show 0 * 4 ≤ (i 0).val ∧ (i 0).val < 0 * 4 + 4; omega
  | ⟨1, _⟩ => show win0_10.index _ (1 : Fin 2) * 768 ≤ (i 1).val ∧ (i 1).val < win0_10.index _ (1 : Fin 2) * 768 + 768; rw [e]; show 0 * 768 ≤ (i 1).val ∧ (i 1).val < 0 * 768 + 768; omega

end Blocks0

end Cert.KernelIdeal.Gen2

end
-- ==== Proof.KVal1.lean ====
import proofs.«124299_j40209483825381_1_alg».proof.Proof.Gen.KernelIdeal.Launch
import proofs.«124299_j40209483825381_1_alg».proof.Proof.Gen.KernelIdeal.Skeleton
import proofs.«124299_j40209483825381_1_alg».proof.Proof.Gen.KernelIdeal.Points
import proofs.«124299_j40209483825381_1_alg».proof.Proof.K1
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The second region's blocks, read at an index of their arrays -/

section Blocks1

variable (V : (c : Dev nD) → (b : Ref sig .tc) → Buf (Elt F) ((c : Thread nD τ).loc b)) (c : Dev nD)

/-- Point `t` of the 8 x 8 grid is the block pair (t / 8, t % 8). -/
theorem coords1 : ∀ t : Fin cfg1.N, (grid1.coords t 0).val = t.val / 8 ∧ (grid1.coords t 1).val = t.val % 8 :=
  (by decide +kernel : ∀ t : Fin grid1.N, _)
theorem idx1_0 : ∀ t : Fin cfg1.N, win1_0.index t = ![t.val / 8, 0, 0] := (by decide +kernel : ∀ t : Fin grid1.N, _)
theorem idx1_1 : ∀ t : Fin cfg1.N, win1_1.index t = ![t.val % 8, 0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0] := (by decide +kernel : ∀ t : Fin grid1.N, _)
theorem idx1_4 : ∀ t : Fin cfg1.N, win1_4.index t = ![0] := (by decide +kernel : ∀ t : Fin grid1.N, _)
theorem idx1_5 : ∀ t : Fin cfg1.N, win1_5.index t = ![0] := (by decide +kernel : ∀ t : Fin grid1.N, _)
theorem idx1_6 : ∀ t : Fin cfg1.N, win1_6.index t = ![0, 0] := (by decide +kernel : ∀ t : Fin grid1.N, _)
theorem idx1_7 : ∀ t : Fin cfg1.N, win1_7.index t = ![0] := (by decide +kernel : ∀ t : Fin grid1.N, _)
theorem idx1_8 : ∀ t : Fin cfg1.N, win1_8.index t = ![t.val / 8, 0] := (by decide +kernel : ∀ t : Fin grid1.N, _)
theorem idx1_9 : ∀ t : Fin cfg1.N, win1_9.index t = ![t.val % 8, 0] := (by decide +kernel : ∀ t : Fin grid1.N, _)
theorem idx1_10 : ∀ t : Fin cfg1.N, win1_10.index t = ![t.val / 8, t.val % 8, 0, 0] := (by decide +kernel : ∀ t : Fin grid1.N, _)

/-- The start position and the end position of an element of point `t`'s block. -/
def posI (t : Fin cfg1.N) (p : Fin 24) : Fin 192 := ⟨t.val / 8 * 24 + p.val, by have := t.isLt; have h : cfg1.N = 64 := N_1; have := p.isLt; omega⟩
def posJ (t : Fin cfg1.N) (q : Fin 24) : Fin 192 := ⟨t.val % 8 * 24 + q.val, by have := q.isLt; omega⟩

theorem iblk1_0_apply (t : Fin cfg1.N) (p : Fin 24) (b : Fin 4) (h : Fin 768) :
    iblk1 V c 0 t (ix3 p b h) = V c main_v19_0 (ix3 (posI t p) b h) := by
  show V c main_v19_0 (((cfg1.win 0).blk t).view.emb (ix3 p b h)) = V c main_v19_0 (ix3 (posI t p) b h)
  congr 1
  funext a; apply Fin.ext
  have e := idx1_0 t
  match a with
  | ⟨0, _⟩ => show win1_0.index t (0 : Fin 3) * 24 + 1 * p.val = t.val / 8 * 24 + p.val; rw [e]; show t.val / 8 * 24 + 1 * p.val = _; omega
  | ⟨1, _⟩ => show win1_0.index t (1 : Fin 3) * 4 + 1 * b.val = b.val; rw [e]; show 0 * 4 + 1 * b.val = _; omega
  | ⟨2, _⟩ => show win1_0.index t (2 : Fin 3) * 768 + 1 * h.val = h.val; rw [e]; show 0 * 768 + 1 * h.val = _; omega
theorem iblk1_1_apply (t : Fin cfg1.N) (q : Fin 24) (b : Fin 4) (h : Fin 768) :
    iblk1 V c 1 t (ix3 q b h) = V c main_v19_1 (ix3 (posJ t q) b h) := by
  show V c main_v19_1 (((cfg1.win 1).blk t).view.emb (ix3 q b h)) = V c main_v19_1 (ix3 (posJ t q) b h)
  congr 1
  funext a; apply Fin.ext
  have e := idx1_1 t
  match a with
  | ⟨0, _⟩ => show win1_1.index t (0 : Fin 3) * 24 + 1 * q.val = t.val % 8 * 24 + q.val; rw [e]; show t.val % 8 * 24 + 1 * q.val = _; omega
  | ⟨1, _⟩ => show win1_1.index t (1 : Fin 3) * 4 + 1 * b.val = b.val; rw [e]; show 0 * 4 + 1 * b.val = _; omega
  | ⟨2, _⟩ => show win1_1.index t (2 : Fin 3) * 768 + 1 * h.val = h.val; rw [e]; show 0 * 768 + 1 * h.val = _; omega
theorem iblk1_2_apply (t : Fin cfg1.N) (b : Fin 4) (h : Fin 768) : iblk1 V c 2 t (ix2 b h) = V c main_v19_2 (ix2 b h) := by
  show V c main_v19_2 (((cfg1.win 2).blk t).view.emb (ix2 b h)) = V c main_v19_2 (ix2 b h)
  congr 1
  funext a; apply Fin.ext
  have e := idx1_2 t
  match a with
  | ⟨0, _⟩ => show win1_2.index t (0 : Fin 2) * 4 + 1 * b.val = b.val; rw [e]; show 0 * 4 + 1 * b.val = _; omega
  | ⟨1, _⟩ => show win1_2.index t (1 : Fin 2) * 768 + 1 * h.val = h.val; rw [e]; show 0 * 768 + 1 * h.val = _; omega
theorem iblk1_3_apply (t : Fin cfg1.N) (h : Fin 768) : iblk1 V c 3 t (ix1 h) = V c main_arg6 (ix1 h) := by
  show V c main_arg6 (((cfg1.win 3).blk t).view.emb (ix1 h)) = V c main_arg6 (ix1 h)
  congr 1
  funext a; apply Fin.ext
  have e := idx1_3 t
  match a with
  | ⟨0, _⟩ => show win1_3.index t (0 : Fin 1) * 768 + 1 * h.val = h.val; rw [e]; show 0 * 768 + 1 * h.val = _; omega
theorem iblk1_4_apply (t : Fin cfg1.N) (h : Fin 768) : iblk1 V c 4 t (ix1 h) = V c main_arg7 (ix1 h) := by
  show V c main_arg7 (((cfg1.win 4).blk t).view.emb (ix1 h)) = V c main_arg7 (ix1 h)
  congr 1
  funext a; apply Fin.ext
  have e := idx1_4 t
  match a with
  | ⟨0, _⟩ => show win1_4.index t (0 : Fin 1) * 768 + 1 * h.val = h.val; rw [e]; show 0 * 768 + 1 * h.val = _; omega
theorem iblk1_5_apply (t : Fin cfg1.N) (h : Fin 768) : iblk1 V c 5 t (ix1 h) = V c main_arg8 (ix1 h) := by
  show V c main_arg8 (((cfg1.win 5).blk t).view.emb (ix1 h)) = V c main_arg8 (ix1 h)
  congr 1
  funext a; apply Fin.ext
  have e := idx1_5 t
  match a with
  | ⟨0, _⟩ => show win1_5.index t (0 : Fin 1) * 768 + 1 * h.val = h.val; rw [e]; show 0 * 768 + 1 * h.val = _; omega
theorem iblk1_6_apply (t : Fin cfg1.N) (h : Fin 768) (o : Fin 16) : iblk1 V c 6 t (ix2 h o) = V c main_v16 (ix2 h o) := by
  show V c main_v16 (((cfg1.win 6).blk t).view.emb (ix2 h o)) = V c main_v16 (ix2 h o)
  congr 1
  funext a; apply Fin.ext
  have e := idx1_6 t
  match a with
  | ⟨0, _⟩ => show win1_6.index t (0 : Fin 2) * 768 + 1 * h.val = h.val; rw [e]; show 0 * 768 + 1 * h.val = _; omega
  | ⟨1, _⟩ => show win1_6.index t (1 : Fin 2) * 16 + 1 * o.val = o.val; rw [e]; show 0 * 16 + 1 * o.val = _; omega
theorem iblk1_7_apply (t : Fin cfg1.N) (o : Fin 16) : iblk1 V c 7 t (ix1 o) = V c main_arg10 (ix1 o) := by
  show V c main_arg10 (((cfg1.win 7).blk t).view.emb (ix1 o)) = V c main_arg10 (ix1 o)
  congr 1
  funext a; apply Fin.ext
  have e := idx1_7 t
  match a with
  | ⟨0, _⟩ => show win1_7.index t (0 : Fin 1) * 16 + 1 * o.val = o.val; rw [e]; show 0 * 16 + 1 * o.val = _; omega
theorem iblk1_8_apply (t : Fin cfg1.N) (p : Fin 24) (b : Fin 4) : iblk1 V c 8 t (ix2 p b) = V c main_arg2 (ix2 (posI t p) b) := by
  show V c main_arg2 (((cfg1.win 8).blk t).view.emb (ix2 p b)) = V c main_arg2 (ix2 (posI t p) b)
  congr 1
  funext a; apply Fin.ext
  have e := idx1_8 t
  match a with
  | ⟨0, _⟩ => show win1_8.index t (0 : Fin 2) * 24 + 1 * p.val = t.val / 8 * 24 + p.val; rw [e]; show t.val / 8 * 24 + 1 * p.val = _; omega
  | ⟨1, _⟩ => show win1_8.index t (1 : Fin 2) * 4 + 1 * b.val = b.val; rw [e]; show 0 * 4 + 1 * b.val = _; omega
theorem iblk1_9_apply (t : Fin cfg1.N) (q : Fin 24) (b : Fin 4) : iblk1 V c 9 t (ix2 q b) = V c main_arg2 (ix2 (posJ t q) b) := by
  show V c main_arg2 (((cfg1.win 9).blk t).view.emb (ix2 q b)) = V c main_arg2 (ix2 (posJ t q) b)
  congr 1
  funext a; apply Fin.ext
  have e := idx1_9 t
  match a with
  | ⟨0, _⟩ => show win1_9.index t (0 : Fin 2) * 24 + 1 * q.val = t.val % 8 * 24 + q.val; rw [e]; show t.val % 8 * 24 + 1 * q.val = _; omega
  | ⟨1, _⟩ => show win1_9.index t (1 : Fin 2) * 4 + 1 * b.val = b.val; rw [e]; show 0 * 4 + 1 * b.val = _; omega

/-- Where an element of point `t`'s output block sits in the result. -/
theorem emb1_10 (t : Fin cfg1.N) (p q : Fin 24) (b : Fin 4) (o : Fin 16) :
    ((cfg1.win 10).blk t).view.emb (ix4 p q b o) = ix4 (posI t p) (posJ t q) b o := by
  funext a; apply Fin.ext
  have e := idx1_10 t
  match a with
  | ⟨0, _⟩ => show win1_10.index t (0 : Fin 4) * 24 + 1 * p.val = t.val / 8 * 24 + p.val; rw [e]; show t.val / 8 * 24 + 1 * p.val = _; omega
  | ⟨1, _⟩ => show win1_10.index t (1 : Fin 4) * 24 + 1 * q.val = t.val % 8 * 24 + q.val; rw [e]; show t.val % 8 * 24 + 1 * q.val = _; omega
  | ⟨2, _⟩ => show win1_10.index t (2 : Fin 4) * 4 + 1 * b.val = b.val; rw [e]; show 0 * 4 + 1 * b.val = _; omega
  | ⟨3, _⟩ => show win1_10.index t (3 : Fin 4) * 16 + 1 * o.val = o.val; rw [e]; show 0 * 16 + 1 * o.val = _; omega

theorem mem_blk1_10 (t : Fin cfg1.N) (i : S192x192x4x16.Idx) :
    i ∈ ((cfg1.win 10).blk t).view.set ↔ ∀ a : Fin 4, win1_10.index t a * S24x24x4x16.size a ≤ (i a).val ∧ (i a).val < win1_10.index t a * S24x24x4x16.size a + S24x24x4x16.size a := by
  show i ∈ ((View.whole main_v20).slice (win1_10.rect t)).set ↔ _
  rw [View.set_slice_whole, Rect.mem_set_unit]
  exact Iff.rfl

theorem cover1_10 (i : S192x192x4x16.Idx) : ∃ t : Fin cfg1.N, (cfg1.win 10).flush t = true ∧ i ∈ ((cfg1.win 10).blk t).view.set := by
  have hi0 : (i 0).val < 192 := (i 0).isLt
  have hi1 : (i 1).val < 192 := (i 1).isLt
  have hi2 : (i 2).val < 4 := (i 2).isLt
  have hi3 : (i 3).val < 16 := (i 3).isLt
  have h64 : cfg1.N = 64 := N_1
  have ht : (i 0).val / 24 * 8 + (i 1).val / 24 < cfg1.N := by omega
  refine ⟨⟨(i 0).val / 24 * 8 + (i 1).val / 24, ht⟩, flush1_10 _, ?_⟩
  rw [mem_blk1_10]
  intro a
  have e := idx1_10 ⟨(i 0).val / 24 * 8 + (i 1).val / 24, ht⟩
  have d0 : ((i 0).val / 24 * 8 + (i 1).val / 24) / 8 = (i 0).val / 24 := by omega
  have d1 : ((i 0).val / 24 * 8 + (i 1).val / 24) % 8 = (i 1).val / 24 := by omega
  match a with
  | ⟨0, _⟩ => show win1_10.index _ (0 : Fin 4) * 24 ≤ (i 0).val ∧ (i 0).val < win1_10.index _ (0 : Fin 4) * 24 + 24; rw [e]; show ((i 0).val / 24 * 8 + (i 1).val / 24) / 8 * 24 ≤ (i 0).val ∧ (i 0).val < ((i 0).val / 24 * 8 + (i 1).val / 24) / 8 * 24 + 24; rw [d0]; omega
  | ⟨1, _⟩ => show win1_10.index _ (1 : Fin 4) * 24 ≤ (i 1).val ∧ (i 1).val < win1_10.index _ (1 : Fin 4) * 24 + 24; rw [e]; show ((i 0).val / 24 * 8 + (i 1).val / 24) % 8 * 24 ≤ (i 1).val ∧ (i 1).val < ((i 0).val / 24 * 8 + (i 1).val / 24) % 8 * 24 + 24; rw [d1]; omega
  | ⟨2, _⟩ => show win1_10.index _ (2 : Fin 4) * 4 ≤ (i 2).val ∧ (i 2).val < win1_10.index _ (2 : Fin 4) * 4 + 4; rw [e]; show 0 * 4 ≤ (i 2).val ∧ (i 2).val < 0 * 4 + 4; omega
  | ⟨3, _⟩ => show win1_10.index _ (3 : Fin 4) * 16 ≤ (i 3).val ∧ (i 3).val < win1_10.index _ (3 : Fin 4) * 16 + 16; rw [e]; show 0 * 16 ≤ (i 3).val ∧ (i 3).val < 0 * 16 + 16; omega

end Blocks1

end Cert.KernelIdeal.Gen2

end
-- ==== Proof.KHost.lean ====
import proofs.«124299_j40209483825381_1_alg».proof.Proof.Gen.KernelIdeal.Regions
import proofs.«124299_j40209483825381_1_alg».proof.Proof.SpecG
import Idealize.ShloMosaic.Lib.Pipeline.Value
import Idealize.ShloMosaic.Lib.ValueIdx
import Idealize.ShloMosaic.Lib.StableHlo.Run

set_option maxRecDepth 16384

noncomputable section

namespace Cert.KernelIdeal.Gen2

open Cert.KernelIdeal Cert.KernelIdeal.Gen
open Idealize.ShloMosaic Idealize.ShloMosaic.TcCoe Idealize.ShloMosaic.ValueIdx
open Idealize.SL Idealize.SL.Sem

/-! # What the host operations before the first kernel leave, at exact values

Conversions to bf16 are the identity; a weight block is a column slice of its matrix, transposed. -/

section Host

variable (m : (ℓ : Loc nD τ sig) → Buf (Elt Ideal) ℓ) (c : Dev nD)

theorem V1_v17 : (V1 m c main_v17 : S192x4x768.Idx → EReal) = (truncf (F := Ideal) .bf16 (m ((c : Thread nD τ).loc main_arg0) : FVec Ideal S192x4x768 .f32) bitsLt_bf16_f32 : S192x4x768.Idx → EReal) := by
  dsimp only [V1, V0, hostOps0]; after_results; all_goals rfl
theorem V1_v18 : (V1 m c main_v18 : S192x4x768.Idx → EReal) = (truncf (F := Ideal) .bf16 (m ((c : Thread nD τ).loc main_arg1) : FVec Ideal S192x4x768 .f32) bitsLt_bf16_f32 : S192x4x768.Idx → EReal) := by
  dsimp only [V1, V0, hostOps0]; after_results; all_goals rfl
theorem V1_v3 : (V1 m c main_v3 : S768x768.Idx → EReal) = (truncf (F := Ideal) .bf16 (transpose S768x768 [1, 0] (extractStridedSlice S768x768 ![0, 0] (m ((c : Thread nD τ).loc main_arg3) : FVec Ideal S768x1536 .f32) slices_S768x1536_S768x768_0_0) transposes_S768x768_S768x768_1_0 : FVec Ideal S768x768 .f32) bitsLt_bf16_f32 : S768x768.Idx → EReal) := by
  dsimp only [V1, V0, hostOps0]; after_results; all_goals rfl
theorem V1_v5 : (V1 m c main_v5 : S768x768.Idx → EReal) = (truncf (F := Ideal) .bf16 (transpose S768x768 [1, 0] (extractStridedSlice S768x768 ![0, 768] (m ((c : Thread nD τ).loc main_arg3) : FVec Ideal S768x1536 .f32) slices_S768x1536_S768x768_0_768) transposes_S768x768_S768x768_1_0 : FVec Ideal S768x768 .f32) bitsLt_bf16_f32 : S768x768.Idx → EReal) := by
  dsimp only [V1, V0, hostOps0]; after_results; all_goals rfl
theorem V1_v10 : (V1 m c main_v10 : S768x768.Idx → EReal) = (truncf (F := Ideal) .bf16 (transpose S768x768 [1, 0] (extractStridedSlice S768x768 ![0, 0] (m ((c : Thread nD τ).loc main_arg5) : FVec Ideal S768x2304 .f32) slices_S768x2304_S768x768_0_0) transposes_S768x768_S768x768_1_0 : FVec Ideal S768x768 .f32) bitsLt_bf16_f32 : S768x768.Idx → EReal) := by
  dsimp only [V1, V0, hostOps0]; after_results; all_goals rfl
theorem V1_v12 : (V1 m c main_v12 : S768x768.Idx → EReal) = (truncf (F := Ideal) .bf16 (transpose S768x768 [1, 0] (extractStridedSlice S768x768 ![0, 768] (m ((c : Thread nD τ).loc main_arg5) : FVec Ideal S768x2304 .f32) slices_S768x2304_S768x768_0_768) transposes_S768x768_S768x768_1_0 : FVec Ideal S768x768 .f32) bitsLt_bf16_f32 : S768x768.Idx → EReal) := by
  dsimp only [V1, V0, hostOps0]; after_results; all_goals rfl
theorem V1_v14 : (V1 m c main_v14 : S768x768.Idx → EReal) = (truncf (F := Ideal) .bf16 (transpose S768x768 [1, 0] (extractStridedSlice S768x768 ![0, 1536] (m ((c : Thread nD τ).loc main_arg5) : FVec Ideal S768x2304 .f32) slices_S768x2304_S768x768_0_1536) transposes_S768x768_S768x768_1_0 : FVec Ideal S768x768 .f32) bitsLt_bf16_f32 : S768x768.Idx → EReal) := by
  dsimp only [V1, V0, hostOps0]; after_results; all_goals rfl
theorem V1_v16 : (V1 m c main_v16 : S768x16.Idx → EReal) = (truncf (F := Ideal) .bf16 (transpose S768x16 [1, 0] (m ((c : Thread nD τ).loc main_arg9) : FVec Ideal S16x768 .f32) transposes_S16x768_S768x16_1_0 : FVec Ideal S768x16 .f32) bitsLt_bf16_f32 : S768x16.Idx → EReal) := by
  dsimp only [V1, V0, hostOps0]; after_results; all_goals rfl

/-! ## Read at an index -/

theorem V1_v17_apply (i : S192x4x768.Idx) : (V1 m c main_v17 : S192x4x768.Idx → EReal) i = m ((c : Thread nD τ).loc main_arg0) i := by
  rw [V1_v17]; rfl
theorem V1_v18_apply (i : S192x4x768.Idx) : (V1 m c main_v18 : S192x4x768.Idx → EReal) i = m ((c : Thread nD τ).loc main_arg1) i := by
  rw [V1_v18]; rfl

/-- A transposed column block of a matrix, at (h, o), is the matrix at (o, the block's column h). -/
theorem sliceT_apply {n : ℕ} (off : ℕ) (x : (⟨2, ![768, n]⟩ : Shape).Idx → EReal)
    (hs : (⟨2, ![768, n]⟩ : Shape).Slices ![0, off] S768x768) (ht : S768x768.Transposes [1, 0] S768x768) (h o : Fin 768)
    (j : Fin n) (hj : j.val = off + h.val) :
    transpose S768x768 [1, 0] (extractStridedSlice S768x768 ![0, off] x hs) ht (ix2 h o) = x (ix2 o j) := by
  rw [transpose_apply [1, 0] _ ht (ix2 h o) (ix2 o h) (fun b => by match b with | ⟨0, _⟩ => rfl | ⟨1, _⟩ => rfl)]
  exact extractStridedSlice_apply _ x hs (ix2 o h) (ix2 o j) (fun a => by
    match a with
    | ⟨0, _⟩ => show o.val = 0 + o.val; omega
    | ⟨1, _⟩ => exact hj)

theorem V1_v3_apply (h o : Fin 768) : (V1 m c main_v3 : S768x768.Idx → EReal) (ix2 h o) = m ((c : Thread nD τ).loc main_arg3) (ix2 o (Spec.col 1536 0 (by omega) h)) := by
  rw [V1_v3, truncf_apply]; exact sliceT_apply 0 _ slices_S768x1536_S768x768_0_0 transposes_S768x768_S768x768_1_0 h o _ (by show 0 * 768 + h.val = 0 + h.val; omega)
theorem V1_v5_apply (h o : Fin 768) : (V1 m c main_v5 : S768x768.Idx → EReal) (ix2 h o) = m ((c : Thread nD τ).loc main_arg3) (ix2 o (Spec.col 1536 1 (by omega) h)) := by
  rw [V1_v5, truncf_apply]; exact sliceT_apply 768 _ slices_S768x1536_S768x768_0_768 transposes_S768x768_S768x768_1_0 h o _ (by show 1 * 768 + h.val = 768 + h.val; omega)
theorem V1_v10_apply (h o : Fin 768) : (V1 m c main_v10 : S768x768.Idx → EReal) (ix2 h o) = m ((c : Thread nD τ).loc main_arg5) (ix2 o (Spec.col 2304 0 (by omega) h)) := by
  rw [V1_v10, truncf_apply]; exact sliceT_apply 0 _ slices_S768x2304_S768x768_0_0 transposes_S768x768_S768x768_1_0 h o _ (by show 0 * 768 + h.val = 0 + h.val; omega)
theorem V1_v12_apply (h o : Fin 768) : (V1 m c main_v12 : S768x768.Idx → EReal) (ix2 h o) = m ((c : Thread nD τ).loc main_arg5) (ix2 o (Spec.col 2304 1 (by omega) h)) := by
  rw [V1_v12, truncf_apply]; exact sliceT_apply 768 _ slices_S768x2304_S768x768_0_768 transposes_S768x768_S768x768_1_0 h o _ (by show 1 * 768 + h.val = 768 + h.val; omega)
theorem V1_v14_apply (h o : Fin 768) : (V1 m c main_v14 : S768x768.Idx → EReal) (ix2 h o) = m ((c : Thread nD τ).loc main_arg5) (ix2 o (Spec.col 2304 2 (by omega) h)) := by
  rw [V1_v14, truncf_apply]; exact sliceT_apply 1536 _ slices_S768x2304_S768x768_0_1536 transposes_S768x768_S768x768_1_0 h o _ (by show 2 * 768 + h.val = 1536 + h.val; omega)
theorem V1_v16_apply (h : Fin 768) (o : Fin 16) : (V1 m c main_v16 : S768x16.Idx → EReal) (ix2 h o) = m ((c : Thread nD τ).loc main_arg9) (ix2 o h) := by
  rw [V1_v16, truncf_apply]
  exact transpose_apply [1, 0] _ transposes_S16x768_S768x16_1_0 (ix2 h o) (ix2 o h) (fun b => by match b with | ⟨0, _⟩ => rfl | ⟨1, _⟩ => rfl)

end Host

end Cert.KernelIdeal.Gen2

end
-- ==== Proof.KMax.lean ====
import proofs.«124299_j40209483825381_1_alg».proof.Proof.LibExtremaRange

/-! # The running maximum over three tiles of 64 positions is the maximum over the 192 positions -/

namespace Cert.KernelIdeal.Gen2

open Cert.LibExtremaRange

theorem sup_three_tiles (f : Fin 192 → EReal) (g0 g1 g2 : Fin 64 → EReal)
    (h0 : ∀ l : Fin 64, g0 l = f ⟨0 + l.val, by have := l.isLt; omega⟩)
    (h1 : ∀ l : Fin 64, g1 l = f ⟨64 + l.val, by have := l.isLt; omega⟩)
    (h2 : ∀ l : Fin 64, g2 l = f ⟨128 + l.val, by have := l.isLt; omega⟩) :
    max (max (max ⊥ (⨆ l, g0 l)) (⨆ l, g1 l)) (⨆ l, g2 l) = ⨆ k, f k := by
  have e0 : (⨆ l, g0 l) = supRange f 0 (0 + 64) := by
    rw [supRange_block f 0 64 (by omega)]; exact iSup_congr h0
  have e1 : (⨆ l, g1 l) = supRange f 64 (64 + 64) := by
    rw [supRange_block f 64 64 (by omega)]; exact iSup_congr h1
  have e2 : (⨆ l, g2 l) = supRange f 128 (128 + 64) := by
    rw [supRange_block f 128 64 (by omega)]; exact iSup_congr h2
  rw [e0, e1, e2, ← supRange_empty f 0 0 le_rfl, supRange_append f 0 0 64 (by omega) (by omega),
    supRange_append f 0 64 128 (by omega) (by omega), supRange_append f 0 128 192 (by omega) (by omega), supRange_all]

end Cert.KernelIdeal.Gen2
-- ==== Proof.LibLayout.lean ====
import Idealize.ShloMosaic.Lib.Pipeline.Value
import Idealize.ShloMosaic.Lib.ValueIdx
import Idealize.ShloMosaic.Lib.ValueLayout

/-! # Shape casts and broadcasts read at an index, by coordinates

A shape cast reads the operand at the index with the same row-major position; a broadcast reads it at the same
coordinates, `0` on the operand's unit axes. Each statement names both indices by their coordinates, at any extents:
casts that add unit axes, casts that merge the leading axes into one or split one into several, and broadcasts along
unit axes. -/

namespace Cert.LibLayout

open Idealize.ShloMosaic Idealize.ShloMosaic.ValueIdx
variable {α : Type}

/-! ## Unit axes added by a shape cast -/

/-- An `[a, b, c]` array cast to `[a, 1, b, c]`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_three, Shape.rowMajor_val_four]
    show (i.val * b + j.val) * c + k.val = ((i.val * 1 + u.val) * b + j.val) * c + k.val
    rw [hu]; simp only [Nat.mul_one, Nat.add_zero, Nat.zero_mul, Nat.zero_add])

/-- An `[a, b]` array cast to `[1, 1, a, b]`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp only [Nat.mul_one, Nat.add_zero, Nat.zero_mul, Nat.zero_add])

/-- An `[a]` array cast to `[1, 1, 1, a]`. -/
theorem shapeCast_a_111a_apply {a : ℕ} (x : (⟨1, ![a]⟩ : Shape).Idx → α)
    (h : (⟨1, ![a]⟩ : Shape).ShapeCasts ⟨4, ![1, 1, 1, a]⟩) (u v w : Fin 1) (i : Fin a) :
    shapeCast ⟨4, ![1, 1, 1, a]⟩ x h (ix4 u v w i) = x (ix1 i) :=
  shapeCast_apply x h _ _ (by
    have hu : u.val = 0 := by omega
    have hv : v.val = 0 := by omega
    have hw : w.val = 0 := by omega
    rw [Shape.rowMajor_val_one, Shape.rowMajor_val_four]
    show i.val = ((u.val * 1 + v.val) * 1 + w.val) * a + i.val
    rw [hu, hv, hw]; simp only [Nat.mul_one, Nat.add_zero, Nat.zero_mul, Nat.zero_add])

/-- An `[a]` array cast to `[1, 1, a]`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_one, Shape.rowMajor_val_three]
    show i.val = (u.val * 1 + v.val) * a + i.val
    rw [hu, hv]; simp only [Nat.mul_one, Nat.add_zero, Nat.zero_mul, Nat.zero_add])

/-- An `[a, b, c]` array cast to `[a, b, c, 1]`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu]; simp only [Nat.mul_one, Nat.add_zero, Nat.zero_mul, Nat.zero_add])

/-- An `[a, b]` array cast to `[a, 1, b]`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu]; simp only [Nat.mul_one, Nat.add_zero, Nat.zero_mul, Nat.zero_add])

/-- An `[a, b]` array cast to `[a, b, 1]`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu]; simp only [Nat.mul_one, Nat.add_zero, Nat.zero_mul, Nat.zero_add])

/-! ## Leading axes merged into one, or one split into several -/

/-- An `[a, b, c, d]` array cast to `[n, d]` (the three leading axes merged): row `r` is the leading coordinates' row-major position. -/
theorem shapeCast_abcd_nd_apply {a b c d n : ℕ} (x : (⟨4, ![a, b, c, d]⟩ : Shape).Idx → α)
    (h : (⟨4, ![a, b, c, d]⟩ : Shape).ShapeCasts ⟨2, ![n, d]⟩) (i : Fin a) (j : Fin b) (k : Fin c) (l : Fin d) (r : Fin n) (hr : r.val = (i.val * b + j.val) * c + k.val) :
    shapeCast ⟨2, ![n, d]⟩ x h (ix2 r l) = x (ix4 i j k l) :=
  shapeCast_apply x h _ _ (by
    rw [Shape.rowMajor_val_four, Shape.rowMajor_val_two]
    show ((i.val * b + j.val) * c + k.val) * d + l.val = r.val * d + l.val
    rw [hr])

/-- An `[n, d]` array cast to `[a, b, c, d]` (the leading axis split in three). -/
theorem shapeCast_nd_abcd_apply {a b c d n : ℕ} (x : (⟨2, ![n, d]⟩ : Shape).Idx → α)
    (h : (⟨2, ![n, d]⟩ : Shape).ShapeCasts ⟨4, ![a, b, c, d]⟩) (i : Fin a) (j : Fin b) (k : Fin c) (l : Fin d) (r : Fin n) (hr : r.val = (i.val * b + j.val) * c + k.val) :
    shapeCast ⟨4, ![a, b, c, d]⟩ x h (ix4 i j k l) = x (ix2 r l) :=
  shapeCast_apply x h _ _ (by
    rw [Shape.rowMajor_val_two, Shape.rowMajor_val_four]
    show r.val * d + l.val = ((i.val * b + j.val) * c + k.val) * d + l.val
    rw [hr])

/-- An `[a, b, c]` array cast to `[n, c]` (the two leading axes merged). -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n) (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` array cast to `[a, b, c]` (the leading axis split in two). -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n) (hr : r.val = i.val * b + j.val) :
    shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

/-! ## Broadcasts along unit axes -/

/-- An `[a, 1, c, d]` array broadcast to `[a, b, c, d]`. -/
theorem broadcastTo_a1cd_abcd_apply {a b c d : ℕ} (x : (⟨4, ![a, 1, c, d]⟩ : Shape).Idx → α)
    (h : (⟨4, ![a, 1, c, d]⟩ : Shape).Broadcasts ⟨4, ![a, b, c, d]⟩) (i : Fin a) (j : Fin b) (k : Fin c) (l : Fin d) :
    broadcastTo ⟨4, ![a, b, c, d]⟩ x h (ix4 i j k l) = x (ix4 i (0 : Fin 1) k l) := by
  refine broadcastTo_apply x h (ix4 i j k l) (ix4 i (0 : Fin 1) k l) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, b, c, d]` array broadcast to `[a, b, c, d]`. -/
theorem broadcastTo_1bcd_abcd_apply {a b c d : ℕ} (x : (⟨4, ![1, b, c, d]⟩ : Shape).Idx → α)
    (h : (⟨4, ![1, b, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) j k l) := by
  refine broadcastTo_apply x h (ix4 i j k l) (ix4 (0 : Fin 1) j k l) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, c, d]` array broadcast to `[a, b, c, d]`. -/
theorem broadcastTo_11cd_abcd_apply {a b c d : ℕ} (x : (⟨4, ![1, 1, c, d]⟩ : Shape).Idx → α)
    (h : (⟨4, ![1, 1, c, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) k l) := by
  refine broadcastTo_apply x h (ix4 i j k l) (ix4 (0 : Fin 1) (0 : Fin 1) k l) fun ax => ?_
  match ax with
  | ⟨0, _⟩ => rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-- A `[1, 1, 1, d]` array broadcast to `[a, b, c, d]`. -/
theorem broadcastTo_111d_abcd_apply {a b c d : ℕ} (x : (⟨4, ![1, 1, 1, d]⟩ : Shape).Idx → α)
    (h : (⟨4, ![1, 1, 1, d]⟩ : Shape).Broadcasts ⟨4, ![a, b, c, d]⟩) (i : Fin a) (j : Fin b) (k : Fin c) (l : Fin d) :
    broadcastTo ⟨4, ![a, b, c, d]⟩ x h (ix4 i j k l) = x (ix4 (0 : Fin 1) (0 : Fin 1) (0 : Fin 1) l) := by
  refine broadcastTo_apply x h (ix4 i j k l) (ix4 (0 : Fin 1) (0 : Fin 1) (0 : Fin 1) l) fun ax => ?_
  match ax with
  | ⟨0, _⟩ => rfl
  | ⟨1, _⟩ => rfl
  | ⟨2, _⟩ => rfl
  | ⟨3, _⟩ =>
    show l.val = if d = 1 then 0 else l.val
    split
    · have := l.isLt; omega
    · rfl

/-- An `[a, b, c, 1]` array broadcast to `[a, b, c, d]`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1, c]` array broadcast to `[a, b, c]`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]`. -/
theorem broadcastTo_11c_abc_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibLayout
-- ==== Proof.LibAxisReduce.lean ====
import Idealize.ShloMosaic.PureOps.Ideal.Laws
import Idealize.ShloMosaic.Lib.ValueIdx
import proofs.«124299_j40209483825381_1_alg».proof.Proof.LibMaxReduce

/-! # One-axis reductions read at an index, by coordinates

A sum over the last axis of a rank-4 array, and a maximum from -∞ over the first axis of a rank-3 array: at a result
index, the sum (the supremum) over the reduced axis's coordinate of the source at the index with that coordinate put
back. The accumulator's neutrality is asked as the equation between words a printed reduction carries. -/

namespace Cert.LibAxisReduce

open Idealize.ShloMosaic Idealize.ShloMosaic.ValueIdx
open scoped BigOperators

/-- The sum over the last axis of an `[a, b, c, d]` array, from the zero word, at `(i, j, k)`. -/
theorem sum_last4_apply {a b c d : ℕ} (src : FVec Ideal ⟨4, ![a, b, c, d]⟩ .f32)
    (h : (⟨4, ![a, b, c, d]⟩ : Shape).Reduces [3] ⟨3, ![a, b, c]⟩) (hφ : FKind.Formats .f32)
    (hacc : (0x00000000#32 : BitVec 32) = 0x00000000#32) (i : Fin a) (j : Fin b) (k : Fin c) :
    multiReduction .add [3] ⟨3, ![a, b, c]⟩ src 0x00000000#32 h hφ hacc (ix3 i j k) = ∑ l : Fin d, src (ix4 i j k l) := by
  refine (Ideal.multiReduction_add_single src 0x00000000#32 h hφ hacc (ix3 i j k)).trans ?_
  show ∑ l : Fin d, src (h.lift (ix3 i j k) l) = _
  refine Finset.sum_congr rfl fun l _ => congrArg src (funext fun ax => Fin.ext ?_)
  match ax with
  | ⟨0, _⟩ => rfl
  | ⟨1, _⟩ => rfl
  | ⟨2, _⟩ => rfl
  | ⟨3, _⟩ => rfl

/-- The maximum over the first axis of an `[a, b, c]` array, from the word of -∞, at `(j, k)`: the supremum. -/
theorem max_first3_apply {a b c : ℕ} (src : FVec Ideal ⟨3, ![a, b, c]⟩ .f32)
    (h : (⟨3, ![a, b, c]⟩ : Shape).Reduces [0] ⟨2, ![b, c]⟩) (hφ : FKind.Formats .f32)
    (hacc : (0xFF800000#32 : BitVec 32) = 0xFF800000#32) (j : Fin b) (k : Fin c) :
    multiReduction .maximumf [0] ⟨2, ![b, c]⟩ src 0xFF800000#32 h hφ hacc (ix2 j k) = ⨆ l : Fin a, src (ix3 l j k) := by
  refine (Cert.LibMaxReduce.multiReduction_maximumf_sup src h hφ hacc (ix2 j k)).trans ?_
  show ⨆ l : Fin a, src (h.lift (ix2 j k) l) = _
  refine iSup_congr fun l => congrArg src (funext fun ax => Fin.ext ?_)
  match ax with
  | ⟨0, _⟩ => rfl
  | ⟨1, _⟩ => rfl
  | ⟨2, _⟩ => rfl

end Cert.LibAxisReduce
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.KValue0.lean ====
import proofs.«124299_j40209483825381_1_alg».proof.Proof.Body0
import proofs.«124299_j40209483825381_1_alg».proof.Proof.Spec
import proofs.«124299_j40209483825381_1_alg».proof.Proof.LibLayout
import proofs.«124299_j40209483825381_1_alg».proof.Proof.LibAxisReduce
import proofs.«124299_j40209483825381_1_alg».proof.Proof.LibPlainMatmul
import Idealize.ShloMosaic.Lib.ValueLayout

set_option maxRecDepth 16384

noncomputable section

open scoped BigOperators

namespace Cert.KernelIdeal.Gen2

open Cert.KernelIdeal Cert.KernelIdeal.Gen
open Idealize.ShloMosaic Idealize.ShloMosaic.ValueIdx
open Cert.LibLayout Cert.LibAxisReduce

/-! # The first kernel's blocks at an index, on the extended reals

The two projections' tiles are plain matrix products of the activations' tile, its two leading axes merged, with a
weight matrix; the scratch block is the running maximum, over the tile's positions, of the hyperbolic tangent of two
such products' sum plus the bias; the third output is the product of the scratch block with a weight matrix. -/

/-! ## The stages, as the payloads write them -/

/-- A plain product of a `256 × 768` matrix with a `768 × 768` one, into the zero matrix. -/
def proj0 (A : FVec Ideal S256x768 .bf16) (w : Vec Ideal S768x768 .bf16) : FVec Ideal S256x768 .f32 :=
  matmul dot_S256x768_S768x768_S256x768_1_0_0_1_n_n none A (shapeCast S768x768 w shapeCasts_S768x768_S768x768 : FVec Ideal S768x768 .bf16)
    (constant S256x768 .f32 0x00000000#32 : FVec Ideal S256x768 .f32)

theorem k0_pay4_eq (v : Vec Ideal S64x4x768 .bf16) :
    k0_pay4 v = shapeCast S256x768 (shapeCast S64x4x768 v shapeCasts_S64x4x768_S64x4x768 : FVec Ideal S64x4x768 .bf16) shapeCasts_S64x4x768_S256x768 := rfl

theorem k0_pay6_eq (v3 : Vec Ideal S64x4x768 .bf16) (v13 : Vec Ideal S768x768 .bf16) :
    k0_pay6 v3 v13 = shapeCast S64x4x768 (proj0 (k0_pay4 v3) v13) shapeCasts_S256x768_S64x4x768 := rfl

theorem k0_pay7_eq (v3 : Vec Ideal S64x4x768 .bf16) (v15 : Vec Ideal S768x768 .bf16) :
    k0_pay7 v3 v15 = shapeCast S64x4x768 (proj0 (k0_pay4 v3) v15) shapeCasts_S256x768_S64x4x768 := rfl

theorem k0_pay5_eq (v3 v5 : Vec Ideal S64x4x768 .bf16) (v9 v11 : Vec Ideal S768x768 .bf16) (v21 : Vec Ideal S768 .f32) :
    k0_pay5 v3 v5 v9 v11 v21
      = tanh (addf (shapeCast S64x4x768 (addf (proj0 (k0_pay4 v5) v9) (proj0 (k0_pay4 v3) v11)) shapeCasts_S256x768_S64x4x768 : FVec Ideal S64x4x768 .f32)
          (broadcastTo S64x4x768 (shapeCast S1x1x768 v21 shapeCasts_S768_S1x1x768 : FVec Ideal S1x1x768 .f32) broadcasts_S1x1x768_S64x4x768 : FVec Ideal S64x4x768 .f32) : FVec Ideal S64x4x768 .f32) := rfl

theorem k0_pay1_eq (v25 : FVec Ideal S64x4x768 .f32) (v32 : Vec Ideal S4x768 .f32) :
    k0_pay1 v25 v32
      = shapeCast S4x768 (maximumf (v32 : FVec Ideal S4x768 .f32) (multiReduction .maximumf [0] S4x768 v25 0xFF800000#32 reduces_S64x4x768_S4x768 (.inl rfl) rfl) : FVec Ideal S4x768 .f32)
          shapeCasts_S4x768_S4x768 := rfl

theorem k0_pay3_eq :
    k0_pay3 (F := Ideal) = shapeCast S4x768 (broadcast S4x768 (Scalar.ofBits (F := Ideal) .f32 0xFF800000#32) : FVec Ideal S4x768 .f32) shapeCasts_S4x768_S4x768 := rfl

theorem k0_pay2_eq (v41 : Vec Ideal S768x768 .bf16) (v43 : Vec Ideal S4x768 .f32) :
    k0_pay2 v41 v43
      = matmul dot_S4x768_S768x768_S4x768_1_0_0_1_n_n none (truncf .bf16 (v43 : FVec Ideal S4x768 .f32) bitsLt_bf16_f32 : FVec Ideal S4x768 .bf16)
          (shapeCast S768x768 v41 shapeCasts_S768x768_S768x768 : FVec Ideal S768x768 .bf16) (constant S4x768 .f32 0x00000000#32 : FVec Ideal S4x768 .f32) := rfl

theorem tanh_apply {s : Shape} {φ : FTy} (a : FVec Ideal s φ) (i : s.Idx) : tanh a i = Ideal.tanh (a i) := rfl

theorem dot256_eq : dot_S256x768_S768x768_S256x768_1_0_0_1_n_n = DotDims.plain 256 768 768 := rfl
theorem dot4_eq : dot_S4x768_S768x768_S4x768_1_0_0_1_n_n = DotDims.plain 4 768 768 := rfl

/-! ## The stages at an index -/

theorem k0_pay4_apply (v : Vec Ideal S64x4x768 .bf16) (l : Fin 64) (b : Fin 4) (h : Fin 768) (r : Fin 256)
    (hr : r.val = l.val * 4 + b.val) : k0_pay4 v (ix2 r h) = v (ix3 l b h) := by
  rw [k0_pay4_eq, shapeCast_abc_nc_apply _ _ l b h r hr, shapeCast_self]

theorem proj0_apply (A : FVec Ideal S256x768 .bf16) (w : Vec Ideal S768x768 .bf16) (r : Fin 256) (o : Fin 768) :
    proj0 A w (ix2 r o) = ∑ c : Fin 768, A (ix2 r c) * w (ix2 c o) := by
  unfold proj0
  rw [dot256_eq, matmul_plain_zero_apply, shapeCast_self]

/-- A projection's tile at (l, b, o): the activations' row (l, b) against the weight matrix's column o. -/
theorem projTile_apply (v3 : Vec Ideal S64x4x768 .bf16) (w : Vec Ideal S768x768 .bf16) (l : Fin 64) (b : Fin 4) (o : Fin 768) :
    shapeCast S64x4x768 (proj0 (k0_pay4 v3) w) shapeCasts_S256x768_S64x4x768 (ix3 l b o)
      = ∑ c : Fin 768, v3 (ix3 l b c) * w (ix2 c o) := by
  rw [shapeCast_nc_abc_apply _ _ l b o ⟨l.val * 4 + b.val, by omega⟩ rfl, proj0_apply]
  exact Finset.sum_congr rfl fun c _ => by rw [k0_pay4_apply v3 l b c _ rfl]

theorem k0_pay6_apply (v3 : Vec Ideal S64x4x768 .bf16) (v13 : Vec Ideal S768x768 .bf16) (l : Fin 64) (b : Fin 4) (o : Fin 768) :
    k0_pay6 v3 v13 (ix3 l b o) = ∑ c : Fin 768, v3 (ix3 l b c) * v13 (ix2 c o) := by
  rw [k0_pay6_eq, projTile_apply]

theorem k0_pay7_apply (v3 : Vec Ideal S64x4x768 .bf16) (v15 : Vec Ideal S768x768 .bf16) (l : Fin 64) (b : Fin 4) (o : Fin 768) :
    k0_pay7 v3 v15 (ix3 l b o) = ∑ c : Fin 768, v3 (ix3 l b c) * v15 (ix2 c o) := by
  rw [k0_pay7_eq, projTile_apply]

theorem k0_pay5_apply (v3 v5 : Vec Ideal S64x4x768 .bf16) (v9 v11 : Vec Ideal S768x768 .bf16) (v21 : Vec Ideal S768 .f32)
    (l : Fin 64) (b : Fin 4) (o : Fin 768) :
    k0_pay5 v3 v5 v9 v11 v21 (ix3 l b o)
      = Ideal.tanh (((∑ c : Fin 768, v5 (ix3 l b c) * v9 (ix2 c o)) + (∑ c : Fin 768, v3 (ix3 l b c) * v11 (ix2 c o))) + v21 (ix1 o)) := by
  have hA : ∀ (v : Vec Ideal S64x4x768 .bf16) (c : Fin 768),
      k0_pay4 v (ix2 (⟨l.val * 4 + b.val, by omega⟩ : Fin 256) c) = v (ix3 l b c) := fun v c => k0_pay4_apply v l b c _ rfl
  rw [k0_pay5_eq, tanh_apply, addf_apply, shapeCast_nc_abc_apply _ _ l b o ⟨l.val * 4 + b.val, by omega⟩ rfl, addf_apply,
    proj0_apply, proj0_apply, broadcastTo_11c_abc_apply, shapeCast_a_11a_apply]
  simp only [hA]

theorem k0_pay1_apply (v25 : FVec Ideal S64x4x768 .f32) (v32 : Vec Ideal S4x768 .f32) (b : Fin 4) (o : Fin 768) :
    k0_pay1 v25 v32 (ix2 b o) = max (v32 (ix2 b o)) (⨆ l : Fin 64, v25 (ix3 l b o)) := by
  rw [k0_pay1_eq, shapeCast_self, maximumf_apply, max_first3_apply]

theorem k0_pay3_apply (j : S4x768.Idx) : k0_pay3 (F := Ideal) j = (⊥ : EReal) := by
  rw [k0_pay3_eq, shapeCast_self]
  exact Cert.LibMaxReduce.ofBits_neg_inf

theorem k0_pay2_apply (v41 : Vec Ideal S768x768 .bf16) (v43 : Vec Ideal S4x768 .f32) (b : Fin 4) (o : Fin 768) :
    k0_pay2 v41 v43 (ix2 b o) = ∑ h : Fin 768, v43 (ix2 b h) * v41 (ix2 h o) := by
  rw [k0_pay2_eq, dot4_eq, matmul_plain_zero_apply, shapeCast_self]
  rfl

/-! ## The blocks at an index -/

theorem hz1 : (![0] : Fin 1 → ℕ) = fun _ => 0 := by funext a; fin_cases a <;> rfl
theorem hz2 : (![0, 0] : Fin 2 → ℕ) = fun _ => 0 := by funext a; fin_cases a <;> rfl
theorem hz3 : (![0, 0, 0] : Fin 3 → ℕ) = fun _ => 0 := by funext a; fin_cases a <;> rfl

/-- The first projection's tile. -/
theorem out0_8_apply (x0 : Vec Ideal S64x4x768 .bf16) (x5 : Vec Ideal S768x768 .bf16) (l : Fin 64) (b : Fin 4) (o : Fin 768) :
    out0_8 x0 x5 (ix3 l b o) = ∑ h : Fin 768, x0 (ix3 l b h) * x5 (ix2 h o) := by
  unfold out0_8
  rw [View.canon_unit_zero hz3, show View.ld x0 rX = x0 from View.ld_unit_zero hz3 _ x0,
    show View.ld x5 rW = x5 from View.ld_unit_zero hz2 _ x5, k0_pay6_apply]

/-- The second projection's tile. -/
theorem out0_9_apply (x0 : Vec Ideal S64x4x768 .bf16) (x6 : Vec Ideal S768x768 .bf16) (l : Fin 64) (b : Fin 4) (o : Fin 768) :
    out0_9 x0 x6 (ix3 l b o) = ∑ h : Fin 768, x0 (ix3 l b h) * x6 (ix2 h o) := by
  unfold out0_9
  rw [View.canon_unit_zero hz3, show View.ld x0 rX = x0 from View.ld_unit_zero hz3 _ x0,
    show View.ld x6 rW = x6 from View.ld_unit_zero hz2 _ x6, k0_pay7_apply]

/-- The scratch block once filled: -∞ everywhere. -/
theorem sc_init_apply (b : Fin 4) (o : Fin 768) : sc_init (F := Ideal) (ix2 b o) = (⊥ : EReal) := by
  unfold sc_init
  rw [View.canon_unit_zero hz2, k0_pay3_apply]

/-- The scratch block after a point that found it at `s`: the maximum of `s` and the tile's contribution. -/
theorem sc_B_apply (x0 x1 : Vec Ideal S64x4x768 .bf16) (x2 x3 : Vec Ideal S768x768 .bf16) (x4 : Vec Ideal S768 .f32)
    (s : Vec Ideal S4x768 .f32) (b : Fin 4) (o : Fin 768) :
    sc_B x0 x1 x2 x3 x4 s (ix2 b o)
      = max (s (ix2 b o)) (Spec.tileMax (fun l h => x1 (ix3 l b h)) (fun l h => x0 (ix3 l b h))
          (fun h => x2 (ix2 h o)) (fun h => x3 (ix2 h o)) (x4 (ix1 o))) := by
  unfold sc_B val0
  rw [View.canon_unit_zero hz2, show View.ld x0 rX = x0 from View.ld_unit_zero hz3 _ x0,
    show View.ld x1 rX = x1 from View.ld_unit_zero hz3 _ x1, show View.ld x2 rW = x2 from View.ld_unit_zero hz2 _ x2,
    show View.ld x3 rW = x3 from View.ld_unit_zero hz2 _ x3, show View.ld x4 rV = x4 from View.ld_unit_zero hz1 _ x4,
    show View.ld s rS = s from View.ld_unit_zero hz2 _ s, k0_pay1_apply]
  simp only [k0_pay5_apply]
  rfl

/-- The third output's block: the scratch block's rows against the weight matrix's columns. -/
theorem out0_10_apply (x7 : Vec Ideal S768x768 .bf16) (sc : Vec Ideal S4x768 .f32) (b : Fin 4) (o : Fin 768) :
    out0_10 x7 sc (ix2 b o) = ∑ h : Fin 768, sc (ix2 b h) * x7 (ix2 h o) := by
  unfold out0_10
  rw [View.canon_unit_zero hz2, show View.ld x7 rW = x7 from View.ld_unit_zero hz2 _ x7,
    show View.ld sc rS = sc from View.ld_unit_zero hz2 _ sc, k0_pay2_apply]

end Cert.KernelIdeal.Gen2

end
-- ==== Proof.LibTri.lean ====
import Idealize.ShloMosaic.PureOps.Ideal
import Idealize.ShloMosaic.PureOps.Float
import proofs.«124299_j40209483825381_1_alg».proof.Proof.Spec

/-! # The pair mask's words

On 32-bit words below 2^31 the signed comparison is the naturals' order; a compared bit widened and converted is the
mask's 1 or 0. -/

namespace Cert.LibTri
open Idealize.ShloMosaic

theorem ofNat_add_mul24 (x y : ℕ) : BitVec.ofNat 32 x + BitVec.ofNat 32 y * 24#32 = BitVec.ofNat 32 (y * 24 + x) := by
  rw [show (24#32 : BitVec 32) = BitVec.ofNat 32 24 from rfl, ← BitVec.ofNat_mul, ← BitVec.ofNat_add, Nat.add_comm]

theorem sle_ofNat (m n : ℕ) (hm : m < 2 ^ 31) (hn : n < 2 ^ 31) :
    (BitVec.ofNat 32 m).sle (BitVec.ofNat 32 n) = decide (m ≤ n) := by
  have h1 : (BitVec.ofNat 32 m).toInt = (m : Int) := by
    rw [BitVec.toInt_ofNat']; rw [Int.bmod_eq_of_le (by omega) (by omega)]
  have h2 : (BitVec.ofNat 32 n).toInt = (n : Int) := by
    rw [BitVec.toInt_ofNat']; rw [Int.bmod_eq_of_le (by omega) (by omega)]
  unfold BitVec.sle
  rw [h1, h2]
  simp

theorem tri_word (m n : ℕ) (hm : m < 2 ^ 31) (hn : n < 2 ^ 31) :
    ((((IntOp.cmpi .sge (BitVec.ofNat 32 n) (BitVec.ofNat 32 m)).setWidth 32).toInt : ℝ) : EReal) = Cert.Spec.tri m n := by
  unfold IntOp.cmpi Cert.Spec.tri
  show ((((BitVec.ofBool ((BitVec.ofNat 32 m).sle (BitVec.ofNat 32 n))).setWidth 32).toInt : ℝ) : EReal) = _
  rw [sle_ofNat m n hm hn]
  by_cases h : m ≤ n
  · simp [h]
  · simp [h]

end Cert.LibTri
-- ==== Proof.KValue1.lean ====
import proofs.«124299_j40209483825381_1_alg».proof.Proof.Body1
import proofs.«124299_j40209483825381_1_alg».proof.Proof.Spec
import proofs.«124299_j40209483825381_1_alg».proof.Proof.LibLayout
import proofs.«124299_j40209483825381_1_alg».proof.Proof.LibAxisReduce
import proofs.«124299_j40209483825381_1_alg».proof.Proof.LibPlainMatmul
import proofs.«124299_j40209483825381_1_alg».proof.Proof.LibTri
import Idealize.ShloMosaic.Lib.ValueLayout

set_option maxRecDepth 16384

noncomputable section

open scoped BigOperators

namespace Cert.KernelIdeal.Gen2

open Cert.KernelIdeal Cert.KernelIdeal.Gen
open Idealize.ShloMosaic Idealize.ShloMosaic.ValueIdx
open Cert.LibLayout Cert.LibAxisReduce

/-! # The second kernel's block at an index, on the extended reals

The body's payload is cut into its stages — the summed pre-activation, the centring, the normalization, the ELU, the
tag read-out and the pair mask —, each read at an index by coordinates; composed, the block's entry at
(p, q, b, o) is the specification's span score. -/

/-! ## The stages, as the payload writes them -/

/-- The pre-activation: start rows, end rows, global term and bias, each broadcast over the pair block. -/
def pre1 (v0 v2 : Vec Ideal S24x4x768 .f32) (v4 : Vec Ideal S4x768 .f32) (v6 : Vec Ideal S768 .f32) : FVec Ideal S24x24x4x768 .f32 :=
  addf (addf (addf
    (broadcastTo S24x24x4x768 (shapeCast S24x1x4x768 (shapeCast S24x4x768 v0 shapeCasts_S24x4x768_S24x4x768) shapeCasts_S24x4x768_S24x1x4x768) broadcasts_S24x1x4x768_S24x24x4x768)
    (broadcastTo S24x24x4x768 (shapeCast S1x24x4x768 (shapeCast S24x4x768 v2 shapeCasts_S24x4x768_S24x4x768) shapeCasts_S24x4x768_S1x24x4x768) broadcasts_S1x24x4x768_S24x24x4x768))
    (broadcastTo S24x24x4x768 (shapeCast S1x1x4x768 (shapeCast S4x768 v4 shapeCasts_S4x768_S4x768) shapeCasts_S4x768_S1x1x4x768) broadcasts_S1x1x4x768_S24x24x4x768))
    (broadcastTo S24x24x4x768 (shapeCast S1x1x1x768 v6 shapeCasts_S768_S1x1x1x768) broadcasts_S1x1x1x768_S24x24x4x768)

/-- The row mean over the feature axis, kept as a unit axis. -/
def mean1 (x : FVec Ideal S24x24x4x768 .f32) : FVec Ideal S24x24x4x1 .f32 :=
  divf (shapeCast S24x24x4x1 (multiReduction .add [3] S24x24x4 x 0x00000000#32 reduces_S24x24x4x768_S24x24x4 (.inl rfl) rfl) shapeCasts_S24x24x4_S24x24x4x1)
    (broadcast S24x24x4x1 (Scalar.ofBits .f32 0x44400000#32))

/-- The centring: each row less its mean. -/
def ctr1 (x : FVec Ideal S24x24x4x768 .f32) : FVec Ideal S24x24x4x768 .f32 :=
  subf x (broadcastTo S24x24x4x768 (mean1 x) broadcasts_S24x24x4x1_S24x24x4x768)

/-- The normalization of centred rows, scaled and shifted. -/
def nrm1 (xm : FVec Ideal S24x24x4x768 .f32) (v34 v38 : Vec Ideal S768 .f32) : FVec Ideal S24x24x4x768 .f32 :=
  addf (mulf (mulf xm
      (broadcastTo S24x24x4x768 (rsqrt (addf (mean1 (mulf xm xm)) (broadcast S24x24x4x1 (Scalar.ofBits .f32 0x3727C5AC#32)))) broadcasts_S24x24x4x1_S24x24x4x768))
      (broadcastTo S24x24x4x768 (shapeCast S1x1x1x768 v34 shapeCasts_S768_S1x1x1x768) broadcasts_S1x1x1x768_S24x24x4x768))
    (broadcastTo S24x24x4x768 (shapeCast S1x1x1x768 v38 shapeCasts_S768_S1x1x1x768) broadcasts_S1x1x1x768_S24x24x4x768)

theorem k1_pay1_eq (v0 v2 : Vec Ideal S24x4x768 .f32) (v4 : Vec Ideal S4x768 .f32) (v6 v34 v38 : Vec Ideal S768 .f32) :
    k1_pay1 v0 v2 v4 v6 v34 v38 = nrm1 (ctr1 (pre1 v0 v2 v4 v6)) v34 v38 := rfl

/-- The ELU, lane by lane. -/
def elu1 (x : FVec Ideal S24x24x4x768 .f32) : FVec Ideal S24x24x4x768 .f32 :=
  select (cmpf .ogt x (broadcast S24x24x4x768 (Scalar.ofBits .f32 0x00000000#32))) x
    (subf (exp x) (broadcast S24x24x4x768 (Scalar.ofBits .f32 0x3F800000#32)))

/-- The tag read-out: the features' rows times the tag matrix, plus the tag bias, through the logistic. -/
def tag1 (e : FVec Ideal S24x24x4x768 .f32) (v50 : Vec Ideal S768x16 .bf16) (v53 : Vec Ideal S16 .f32) : FVec Ideal S24x24x4x16 .f32 :=
  logistic (shapeCast S24x24x4x16
    (addf (matmul dot_S2304x768_S768x16_S2304x16_1_0_0_1_n_n none
        (truncf .bf16 (shapeCast S2304x768 e shapeCasts_S24x24x4x768_S2304x768 : FVec Ideal S2304x768 .f32) bitsLt_bf16_f32 : FVec Ideal S2304x768 .bf16)
        (shapeCast S768x16 v50 shapeCasts_S768x16_S768x16 : FVec Ideal S768x16 .bf16) (constant S2304x16 .f32 0x00000000#32 : FVec Ideal S2304x16 .f32) : FVec Ideal S2304x16 .f32)
      (broadcastTo S2304x16 (shapeCast S1x16 v53 shapeCasts_S16_S1x16 : FVec Ideal S1x16 .f32) broadcasts_S1x16_S2304x16 : FVec Ideal S2304x16 .f32))
    shapeCasts_S2304x16_S24x24x4x16)

/-- The pair mask: the two positions' masks times "the column's position is not before the row's". -/
def msk1 (arg0 arg1 : BitVec 32) (v70 v71 : Vec Ideal S24x4 .f32) : FVec Ideal S24x24x4x16 .f32 :=
  broadcastTo S24x24x4x16 (shapeCast S24x24x4x1
    (mulf (mulf (broadcastTo S24x24x4 (shapeCast S24x1x4 v70 shapeCasts_S24x4_S24x1x4 : FVec Ideal S24x1x4 .f32) broadcasts_S24x1x4_S24x24x4 : FVec Ideal S24x24x4 .f32)
        (broadcastTo S24x24x4 (shapeCast S1x24x4 v71 shapeCasts_S24x4_S1x24x4 : FVec Ideal S1x24x4 .f32) broadcasts_S1x24x4_S24x24x4 : FVec Ideal S24x24x4 .f32))
      (broadcastTo S24x24x4 (shapeCast S24x24x1
        (sitofp (F := Ideal) .f32 (extui 32 (cmpi .sge
          (addi (iota .tc S24x24 32 [1] iota_S24x24_d1_w32) (broadcast S24x24 (Scalar.muli arg1 24#32)))
          (addi (iota .tc S24x24 32 [0] iota_S24x24_d0_w32) (broadcast S24x24 (Scalar.muli arg0 24#32)))) natLt_1_32))
        shapeCasts_S24x24_S24x24x1) broadcasts_S24x24x1_S24x24x4))
    shapeCasts_S24x24x4_S24x24x4x1) broadcasts_S24x24x4x1_S24x24x4x16

theorem k1_pay2_eq (arg0 arg1 : BitVec 32) (v41 : FVec Ideal S24x24x4x768 .f32) (v50 : Vec Ideal S768x16 .bf16) (v53 : Vec Ideal S16 .f32)
    (v70 v71 : Vec Ideal S24x4 .f32) :
    k1_pay2 arg0 arg1 v41 v50 v53 v70 v71 = mulf (tag1 (elu1 v41) v50 v53) (msk1 arg0 arg1 v70 v71) := rfl

/-! ## Lane-wise functions at an index -/

theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-! ## The stages at an index -/

theorem pre1_apply (v0 v2 : Vec Ideal S24x4x768 .f32) (v4 : Vec Ideal S4x768 .f32) (v6 : Vec Ideal S768 .f32)
    (p q : Fin 24) (b : Fin 4) (k : Fin 768) :
    pre1 v0 v2 v4 v6 (ix4 p q b k) = ((v0 (ix3 p b k) + v2 (ix3 q b k)) + v4 (ix2 b k)) + v6 (ix1 k) := by
  unfold pre1
  rw [addf_apply, addf_apply, addf_apply,
    broadcastTo_a1cd_abcd_apply, shapeCast_abc_a1bc_apply, shapeCast_self,
    broadcastTo_1bcd_abcd_apply, shapeCast_abc_1abc_apply, shapeCast_self,
    broadcastTo_11cd_abcd_apply, shapeCast_ab_11ab_apply, shapeCast_self,
    broadcastTo_111d_abcd_apply, shapeCast_a_111a_apply]

theorem mean1_apply (x : FVec Ideal S24x24x4x768 .f32) (p q : Fin 24) (b : Fin 4) (u : Fin 1) :
    mean1 x (ix4 p q b u) = Ideal.div (∑ l : Fin 768, x (ix4 p q b l)) Spec.n768 := by
  unfold mean1
  rw [divf_apply, shapeCast_abc_abc1_apply, sum_last4_apply, broadcast_apply]
  rfl

theorem ctr1_apply (x : FVec Ideal S24x24x4x768 .f32) (p q : Fin 24) (b : Fin 4) (k : Fin 768) :
    ctr1 x (ix4 p q b k) = x (ix4 p q b k) - Ideal.div (∑ l : Fin 768, x (ix4 p q b l)) Spec.n768 := by
  unfold ctr1
  rw [subf_apply, broadcastTo_abc1_abcd_apply, mean1_apply]

theorem nrm1_apply (xm : FVec Ideal S24x24x4x768 .f32) (v34 v38 : Vec Ideal S768 .f32) (p q : Fin 24) (b : Fin 4) (k : Fin 768) :
    nrm1 xm v34 v38 (ix4 p q b k)
      = ((xm (ix4 p q b k) * Ideal.rsqrt (Ideal.div (∑ l : Fin 768, xm (ix4 p q b l) * xm (ix4 p q b l)) Spec.n768 + Spec.eps))
          * v34 (ix1 k)) + v38 (ix1 k) := by
  unfold nrm1
  rw [addf_apply, mulf_apply, mulf_apply, broadcastTo_abc1_abcd_apply, rsqrt_apply, addf_apply, mean1_apply, broadcast_apply,
    broadcastTo_111d_abcd_apply, shapeCast_a_111a_apply, broadcastTo_111d_abcd_apply, shapeCast_a_111a_apply]
  rfl

/-- The first stage's payload at an index: the layer normalization of the summed pre-activation. -/
theorem k1_pay1_apply (v0 v2 : Vec Ideal S24x4x768 .f32) (v4 : Vec Ideal S4x768 .f32) (v6 v34 v38 : Vec Ideal S768 .f32)
    (p q : Fin 24) (b : Fin 4) (h : Fin 768) :
    k1_pay1 v0 v2 v4 v6 v34 v38 (ix4 p q b h)
      = Spec.lnorm (fun k => ((v0 (ix3 p b k) + v2 (ix3 q b k)) + v4 (ix2 b k)) + v6 (ix1 k))
          (fun k => v34 (ix1 k)) (fun k => v38 (ix1 k)) h := by
  rw [k1_pay1_eq, nrm1_apply]
  simp only [ctr1_apply, pre1_apply]
  rfl

theorem elu1_apply (x : FVec Ideal S24x24x4x768 .f32) (j : S24x24x4x768.Idx) : elu1 x j = Spec.elu (x j) := by
  show (if BitVec.ofBool (decide (Ideal.ofBits .f32 0x00000000#32 < x j)) = 1 then x j
      else Ideal.exp (x j) - Ideal.ofBits .f32 0x3F800000#32) = if Ideal.ofBits .f32 0x00000000#32 < x j then x j else Ideal.exp (x j) - Ideal.ofBits .f32 0x3F800000#32
  by_cases h : Ideal.ofBits .f32 0x00000000#32 < x j
  · rw [if_pos h, decide_eq_true h]; rfl
  · rw [if_neg h, decide_eq_false h]; rfl

theorem dot1_eq : dot_S2304x768_S768x16_S2304x16_1_0_0_1_n_n = DotDims.plain 2304 768 16 := rfl

theorem tag1_apply (e : FVec Ideal S24x24x4x768 .f32) (v50 : Vec Ideal S768x16 .bf16) (v53 : Vec Ideal S16 .f32)
    (p q : Fin 24) (b : Fin 4) (o : Fin 16) :
    tag1 e v50 v53 (ix4 p q b o) = Ideal.logistic ((∑ h : Fin 768, e (ix4 p q b h) * v50 (ix2 h o)) + v53 (ix1 o)) := by
  unfold tag1
  rw [logistic_apply, shapeCast_nd_abcd_apply _ _ p q b o ⟨(p.val * 24 + q.val) * 4 + b.val, by omega⟩ rfl, addf_apply, dot1_eq,
    matmul_plain_zero_apply, broadcastTo_1b_ab_apply, shapeCast_a_1a_apply]
  refine congrArg (fun s => Ideal.logistic (s + v53 (ix1 o))) (Finset.sum_congr rfl fun c _ => ?_)
  rw [truncf_apply, shapeCast_abcd_nd_apply _ _ p q b c ⟨(p.val * 24 + q.val) * 4 + b.val, by omega⟩ rfl, shapeCast_self]

theorem msk1_apply (i0 i1 : ℕ) (h0 : i0 < 8) (h1 : i1 < 8) (v70 v71 : Vec Ideal S24x4 .f32) (p q : Fin 24) (b : Fin 4) (o : Fin 16) :
    msk1 (BitVec.ofNat 32 i0) (BitVec.ofNat 32 i1) v70 v71 (ix4 p q b o)
      = (v70 (ix2 p b) * v71 (ix2 q b)) * Spec.tri (i0 * 24 + p.val) (i1 * 24 + q.val) := by
  unfold msk1
  rw [broadcastTo_abc1_abcd_apply, shapeCast_abc_abc1_apply, mulf_apply, mulf_apply, broadcastTo_a1c_abc_apply, shapeCast_ab_a1b_apply,
    broadcastTo_1bc_abc_apply, shapeCast_ab_1ab_apply, broadcastTo_ab1_abc_apply, shapeCast_ab_ab1_apply]
  show (v70 (ix2 p b) * v71 (ix2 q b)) * ((((IntOp.cmpi .sge (BitVec.ofNat 32 (0 * 24 + q.val) + BitVec.ofNat 32 i1 * 24#32)
      (BitVec.ofNat 32 (0 * 24 + p.val) + BitVec.ofNat 32 i0 * 24#32)).setWidth 32).toInt : ℝ) : EReal) = _
  rw [Nat.zero_mul, Nat.zero_add, Nat.zero_add, Cert.LibTri.ofNat_add_mul24, Cert.LibTri.ofNat_add_mul24,
    Cert.LibTri.tri_word _ _ (by omega) (by omega)]

/-! ## The block at an index -/

/-- The second kernel's output block at (p, q, b, o), at grid point `i`, is the specification's span score of the
    point's rows, at the pair of sequence positions the point and the block coordinates name. -/
theorem out1_apply (i : grid1.Coords) (x0 x1 : Vec Ideal S24x4x768 .f32) (x2 : Vec Ideal S4x768 .f32) (x3 x4 x5 : Vec Ideal S768 .f32)
    (x6 : Vec Ideal S768x16 .bf16) (x7 : Vec Ideal S16 .f32) (x8 x9 : Vec Ideal S24x4 .f32)
    (p q : Fin 24) (b : Fin 4) (o : Fin 16) :
    out1 i x0 x1 x2 x3 x4 x5 x6 x7 x8 x9 (ix4 p q b o)
      = Spec.span (fun h => x0 (ix3 p b h)) (fun h => x1 (ix3 q b h)) (fun h => x2 (ix2 b h)) (fun h => x3 (ix1 h))
          (fun h => x4 (ix1 h)) (fun h => x5 (ix1 h)) (fun o h => x6 (ix2 h o)) (fun o => x7 (ix1 o))
          (x8 (ix2 p b)) (x9 (ix2 q b)) ((i 0).val * 24 + p.val) ((i 1).val * 24 + q.val) o := by
  have hz1 : (![0] : Fin 1 → ℕ) = fun _ => 0 := by funext a; fin_cases a <;> rfl
  have hz2 : (![0, 0] : Fin 2 → ℕ) = fun _ => 0 := by funext a; fin_cases a <;> rfl
  have hz3 : (![0, 0, 0] : Fin 3 → ℕ) = fun _ => 0 := by funext a; fin_cases a <;> rfl
  have hz4 : (![0, 0, 0, 0] : Fin 4 → ℕ) = fun _ => 0 := by funext a; fin_cases a <;> rfl
  have e0 : View.ld x0 rA = x0 := View.ld_unit_zero hz3 _ x0
  have e1 : View.ld x1 rA = x1 := View.ld_unit_zero hz3 _ x1
  have e2 : View.ld x2 rB = x2 := View.ld_unit_zero hz2 _ x2
  have e3 : View.ld x3 rC = x3 := View.ld_unit_zero hz1 _ x3
  have e4 : View.ld x4 rC = x4 := View.ld_unit_zero hz1 _ x4
  have e5 : View.ld x5 rC = x5 := View.ld_unit_zero hz1 _ x5
  have e6 : View.ld x6 rD = x6 := View.ld_unit_zero hz2 _ x6
  have e7 : View.ld x7 rE = x7 := View.ld_unit_zero hz1 _ x7
  have e8 : View.ld x8 rG = x8 := View.ld_unit_zero hz2 _ x8
  have e9 : View.ld x9 rG = x9 := View.ld_unit_zero hz2 _ x9
  have h0 : (i 0).val < 8 := (i 0).isLt
  have h1 : (i 1).val < 8 := (i 1).isLt
  unfold out1
  rw [e0, e1, e2, e3, e4, e5, e6, e7, e8, e9, View.canon_unit_zero hz4, k1_pay2_eq, mulf_apply, tag1_apply,
    msk1_apply _ _ h0 h1]
  simp only [elu1_apply, k1_pay1_apply]
  rfl

end Cert.KernelIdeal.Gen2

end
-- ==== Proof.KFinal.lean ====
import proofs.«124299_j40209483825381_1_alg».proof.Proof.Gen.KernelIdeal.Launch
import proofs.«124299_j40209483825381_1_alg».proof.Proof.Gen.KernelIdeal.Skeleton
import proofs.«124299_j40209483825381_1_alg».proof.Proof.Gen.KernelIdeal.Points
import proofs.«124299_j40209483825381_1_alg».proof.Proof.KFrame
import proofs.«124299_j40209483825381_1_alg».proof.Proof.KVal0
import proofs.«124299_j40209483825381_1_alg».proof.Proof.KVal1
import proofs.«124299_j40209483825381_1_alg».proof.Proof.KHost
import proofs.«124299_j40209483825381_1_alg».proof.Proof.KMax
import proofs.«124299_j40209483825381_1_alg».proof.Proof.KValue0
import proofs.«124299_j40209483825381_1_alg».proof.Proof.KValue1
import proofs.«124299_j40209483825381_1_alg».proof.Proof.SpecG
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! # The kernel's result is the specification's function of the arguments

The first region's results: the start term and the end term, tile by tile; the global term, a projection of the running
maximum the scratch holds after the third tile, which is the maximum over the whole sequence. The second region's
result: block by block, the score of the pair at the block's positions. -/

section Final

variable (m : (ℓ : Loc nD τ sig) → Buf (Elt Ideal) ℓ) (c : Dev nD)

/-! ## Buffers no host operation and no region writes hold their launch contents -/

theorem VA_arg4 : (VA m c main_arg4 : S768.Idx → EReal) = m ((c : Thread nD τ).loc main_arg4) := V1_of m c main_arg4 (by decide)

theorem VA_v17 (i : S192x4x768.Idx) : VA m c main_v17 i = m ((c : Thread nD τ).loc main_arg0) i := V1_v17_apply m c i
theorem VA_v18 (i : S192x4x768.Idx) : VA m c main_v18 i = m ((c : Thread nD τ).loc main_arg1) i := V1_v18_apply m c i
theorem VA_v3 (h o : Fin 768) : VA m c main_v3 (ix2 h o) = m ((c : Thread nD τ).loc main_arg3) (ix2 o (Spec.col 1536 0 (by omega) h)) := V1_v3_apply m c h o
theorem VA_v5 (h o : Fin 768) : VA m c main_v5 (ix2 h o) = m ((c : Thread nD τ).loc main_arg3) (ix2 o (Spec.col 1536 1 (by omega) h)) := V1_v5_apply m c h o
theorem VA_v10 (h o : Fin 768) : VA m c main_v10 (ix2 h o) = m ((c : Thread nD τ).loc main_arg5) (ix2 o (Spec.col 2304 0 (by omega) h)) := V1_v10_apply m c h o
theorem VA_v12 (h o : Fin 768) : VA m c main_v12 (ix2 h o) = m ((c : Thread nD τ).loc main_arg5) (ix2 o (Spec.col 2304 1 (by omega) h)) := V1_v12_apply m c h o
theorem VA_v14 (h o : Fin 768) : VA m c main_v14 (ix2 h o) = m ((c : Thread nD τ).loc main_arg5) (ix2 o (Spec.col 2304 2 (by omega) h)) := V1_v14_apply m c h o
theorem VA_v16 (h : Fin 768) (o : Fin 16) : VA m c main_v16 (ix2 h o) = m ((c : Thread nD τ).loc main_arg9) (ix2 o h) := V1_v16_apply m c h o

theorem VB_of_VA (b : Ref sig .tc) (hb : b ∉ ([main_v19_0, main_v19_1, main_v19_2] : List (Ref sig .tc))) : VB m c b = VA m c b :=
  V2_of m (outsA m) c b hb
theorem VB_arg (b : Ref sig .tc) (hb : b ∉ ([main_v19_0, main_v19_1, main_v19_2] : List (Ref sig .tc))) (hb' : b ∉ hostOps0_W) :
    VB m c b = m ((c : Thread nD τ).loc b) :=
  (VB_of_VA m c b hb).trans (V1_of m c b hb')

theorem VB_v19_0 : VB m c main_v19_0 = (dat0 (VA m) c).arrAt 8 cfg0.N :=
  (congrFun (V2_outs m c) (Proc.devRef .tc main_v19_0)).symm.trans (V2_0 m c)
theorem VB_v19_1 : VB m c main_v19_1 = (dat0 (VA m) c).arrAt 9 cfg0.N :=
  (congrFun (V2_outs m c) (Proc.devRef .tc main_v19_1)).symm.trans (V2_1 m c)
theorem VB_v19_2 : VB m c main_v19_2 = (dat0 (VA m) c).arrAt 10 cfg0.N :=
  (congrFun (V2_outs m c) (Proc.devRef .tc main_v19_2)).symm.trans (V2_2 m c)

/-! ## The first region's three results -/

/-- The start term. -/
theorem final0_8 : (dat0 (VA m) c).arrAt 8 cfg0.N
    = fun i : S192x4x768.Idx => Spec.aterm (m ((c : Thread nD τ).loc main_arg0)) (m ((c : Thread nD τ).loc main_arg5)) (i 0) (i 1) (i 2) := by
  refine (dat0 (VA m) c).arrAt_eq_of_cover 8 _ (fun t _ => ?_) cover0_8
  show (cfg0.win 8).cut (grid0.coords t) ((dat0 (VA m) c).after 8 t) = _
  rw [after0_8]
  funext y
  obtain ⟨l, b, o, rfl⟩ : ∃ (l : Fin 64) (b : Fin 4) (o : Fin 768), y = ix3 l b o := ⟨y 0, y 1, y 2, eq_ix3 y⟩
  show out0_8 (iblk0 (VA m) c 0 t) (iblk0 (VA m) c 5 t) (ix3 l b o)
    = (fun i : S192x4x768.Idx => Spec.aterm (m ((c : Thread nD τ).loc main_arg0)) (m ((c : Thread nD τ).loc main_arg5)) (i 0) (i 1) (i 2)) (((cfg0.win 8).blk t).view.emb (ix3 l b o))
  rw [out0_8_apply, emb0_8]
  show _ = Spec.aterm _ _ (pos0 t l) b o
  unfold Spec.aterm
  refine Finset.sum_congr rfl fun h _ => ?_
  rw [iblk0_0_apply, iblk0_5_apply]
  rw [VA_v17, VA_v10]

/-- The end term. -/
theorem final0_9 : (dat0 (VA m) c).arrAt 9 cfg0.N
    = fun i : S192x4x768.Idx => Spec.cterm (m ((c : Thread nD τ).loc main_arg0)) (m ((c : Thread nD τ).loc main_arg5)) (i 0) (i 1) (i 2) := by
  refine (dat0 (VA m) c).arrAt_eq_of_cover 9 _ (fun t _ => ?_) cover0_9
  show (cfg0.win 9).cut (grid0.coords t) ((dat0 (VA m) c).after 9 t) = _
  rw [after0_9]
  funext y
  obtain ⟨l, b, o, rfl⟩ : ∃ (l : Fin 64) (b : Fin 4) (o : Fin 768), y = ix3 l b o := ⟨y 0, y 1, y 2, eq_ix3 y⟩
  show out0_9 (iblk0 (VA m) c 0 t) (iblk0 (VA m) c 6 t) (ix3 l b o)
    = (fun i : S192x4x768.Idx => Spec.cterm (m ((c : Thread nD τ).loc main_arg0)) (m ((c : Thread nD τ).loc main_arg5)) (i 0) (i 1) (i 2)) (((cfg0.win 9).blk t).view.emb (ix3 l b o))
  rw [out0_9_apply, emb0_9]
  show _ = Spec.cterm _ _ (pos0 t l) b o
  unfold Spec.cterm
  refine Finset.sum_congr rfl fun h _ => ?_
  rw [iblk0_0_apply, iblk0_6_apply]
  rw [VA_v17, VA_v12]

/-- One tile's maximum, in terms of the arguments. -/
theorem tile_eq (t : Fin cfg0.N) (b : Fin 4) (o : Fin 768) :
    Spec.tileMax (fun l h => iblk0 (VA m) c 1 t (ix3 l b h)) (fun l h => iblk0 (VA m) c 0 t (ix3 l b h))
      (fun h => iblk0 (VA m) c 2 t (ix2 h o)) (fun h => iblk0 (VA m) c 3 t (ix2 h o)) (iblk0 (VA m) c 4 t (ix1 o))
    = ⨆ l : Fin 64, Ideal.tanh (Spec.glin (m ((c : Thread nD τ).loc main_arg0)) (m ((c : Thread nD τ).loc main_arg1))
        (m ((c : Thread nD τ).loc main_arg3)) (m ((c : Thread nD τ).loc main_arg4)) (pos0 t l) b o) := by
  unfold Spec.tileMax Spec.glin
  refine iSup_congr fun l => ?_
  have e3 : iblk0 (VA m) c 4 t (ix1 o) = m ((c : Thread nD τ).loc main_arg4) (ix1 o) := by
    rw [iblk0_4_apply]; exact congrFun (VA_arg4 m c) _
  exact congrArg Ideal.tanh (congrArg₂ (· + ·) (congrArg₂ (· + ·)
    (Finset.sum_congr rfl fun h _ => by beta_reduce; rw [iblk0_1_apply, iblk0_2_apply, VA_v18, VA_v3])
    (Finset.sum_congr rfl fun h _ => by beta_reduce; rw [iblk0_0_apply, iblk0_3_apply, VA_v17, VA_v5])) e3)

/-- The scratch after the third tile holds the maximum over the whole sequence. -/
theorem acc0_two (b : Fin 4) (o : Fin 768) :
    acc0 (VA m) c 2 (by rw [show cfg0.N = 3 from N_0]; decide) (ix2 b o)
    = Spec.gmax (m ((c : Thread nD τ).loc main_arg0)) (m ((c : Thread nD τ).loc main_arg1)) (m ((c : Thread nD τ).loc main_arg3)) (m ((c : Thread nD τ).loc main_arg4)) b o := by
  have hN : cfg0.N = 3 := N_0
  show sc_B _ _ _ _ _ (sc_B _ _ _ _ _ (sc_A _ _ _ _ _)) (ix2 b o) = _
  rw [sc_B_apply, sc_B_apply, sc_A_eq, sc_B_apply, sc_init_apply]
  rw [tile_eq m c ⟨2, by omega⟩ b o, tile_eq m c ⟨1, by omega⟩ b o, tile_eq m c ⟨0, by omega⟩ b o]
  unfold Spec.gmax
  exact sup_three_tiles (fun l => Ideal.tanh (Spec.glin _ _ _ _ l b o)) _ _ _
    (fun l => congrArg (fun p => Ideal.tanh (Spec.glin _ _ _ _ p b o)) (Fin.ext (by show 0 * 64 + l.val = 0 + l.val; omega)))
    (fun l => congrArg (fun p => Ideal.tanh (Spec.glin _ _ _ _ p b o)) (Fin.ext (by show 1 * 64 + l.val = 64 + l.val; omega)))
    (fun l => congrArg (fun p => Ideal.tanh (Spec.glin _ _ _ _ p b o)) (Fin.ext (by show 2 * 64 + l.val = 128 + l.val; omega)))

/-- The global term. -/
theorem final0_10 : (dat0 (VA m) c).arrAt 10 cfg0.N
    = fun i : S4x768.Idx => Spec.dterm (m ((c : Thread nD τ).loc main_arg0)) (m ((c : Thread nD τ).loc main_arg1)) (m ((c : Thread nD τ).loc main_arg3))
        (m ((c : Thread nD τ).loc main_arg4)) (m ((c : Thread nD τ).loc main_arg5)) (i 0) (i 1) := by
  refine (dat0 (VA m) c).arrAt_eq_of_cover 10 _ (fun t ht => ?_) cover0_10
  have h2 : t.val = 2 := by have := (flush0_10 t).mp ht; have := t.isLt; have hN : cfg0.N = 3 := N_0; omega
  obtain rfl : t = t0_2 := Fin.ext h2
  show (cfg0.win 10).cut (grid0.coords t0_2) ((dat0 (VA m) c).after 10 t0_2) = _
  rw [after0_10]
  funext y
  obtain ⟨b, o, rfl⟩ : ∃ (b : Fin 4) (o : Fin 768), y = ix2 b o := ⟨y 0, y 1, eq_ix2 y⟩
  show out0_10 (iblk0 (VA m) c 7 t0_2) (acc0 (VA m) c t0_2.val t0_2.isLt) (ix2 b o)
    = (fun i : S4x768.Idx => Spec.dterm _ _ _ _ _ (i 0) (i 1)) (((cfg0.win 10).blk t0_2).view.emb (ix2 b o))
  rw [out0_10_apply, emb0_10]
  show _ = Spec.dterm _ _ _ _ _ b o
  unfold Spec.dterm
  refine Finset.sum_congr rfl fun h _ => ?_
  rw [iblk0_7_apply]
  show acc0 (VA m) c 2 _ (ix2 b h) * _ = _
  rw [acc0_two, VA_v14]

/-! ## The second region's result -/

theorem final1_10 : (dat1 (VB m) c).arrAt 10 cfg1.N
    = Spec.Garr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dat1 (VB m) c).arrAt_eq_of_cover 10 _ (fun t _ => ?_) cover1_10
  show (cfg1.win 10).cut (grid1.coords t) ((dat1 (VB m) c).after 10 t) = _
  rw [after1_10]
  funext y
  obtain ⟨p, q, b, o, rfl⟩ : ∃ (p q : Fin 24) (b : Fin 4) (o : Fin 16), y = ix4 p q b o := ⟨y 0, y 1, y 2, y 3, eq_ix4 y⟩
  show out1 (grid1.coords t) (iblk1 (VB m) c 0 t) (iblk1 (VB m) c 1 t) (iblk1 (VB m) c 2 t) (iblk1 (VB m) c 3 t) (iblk1 (VB m) c 4 t)
      (iblk1 (VB m) c 5 t) (iblk1 (VB m) c 6 t) (iblk1 (VB m) c 7 t) (iblk1 (VB m) c 8 t) (iblk1 (VB m) c 9 t) (ix4 p q b o)
    = Spec.Garr _ _ _ _ _ _ _ _ _ _ _ (((cfg1.win 10).blk t).view.emb (ix4 p q b o))
  rw [out1_apply, emb1_10]
  show _ = Spec.G _ _ _ _ _ _ _ _ _ _ _ (posI t p) (posJ t q) b o
  unfold Spec.G
  obtain ⟨hc0, hc1⟩ := coords1 t
  simp only [iblk1_0_apply, iblk1_1_apply, iblk1_2_apply, iblk1_3_apply, iblk1_4_apply, iblk1_5_apply, iblk1_6_apply, iblk1_7_apply,
    iblk1_8_apply, iblk1_9_apply]
  rw [show (grid1.coords t 0).val * 24 + p.val = (posI t p).val from by rw [hc0]; rfl,
    show (grid1.coords t 1).val * 24 + q.val = (posJ t q).val from by rw [hc1]; rfl]
  rw [VB_v19_0, VB_v19_1, VB_v19_2, final0_8, final0_9, final0_10,
    VB_arg m c main_arg6 (by decide) (by decide), VB_arg m c main_arg7 (by decide) (by decide), VB_arg m c main_arg8 (by decide) (by decide),
    VB_arg m c main_arg10 (by decide) (by decide), VB_arg m c main_arg2 (by decide) (by decide), VB_of_VA m c main_v16 (by decide)]
  congr 1
  funext o' h
  exact VA_v16 m c h o'

end Final

end Cert.KernelIdeal.Gen2

end
-- ==== Proof.lean ====
/- The proof of `Cert.Claim`: the span-pair tagging kernel against its jnp reference.

   The program runs two Pallas kernels. The first walks the sequence in three tiles of 64 positions: per tile it
   projects the activations onto the start and end weights (two results, written back tile by tile) and keeps, in a
   scratch buffer, the running maximum over positions of tanh of the joint projection; at the last tile it projects that
   maximum onto the global weights (the third result). The second walks the 8 x 8 grid of 24 x 24 blocks of position
   pairs: start term + end term + global term + bias, layer normalisation over the hidden axis, ELU, the tag projection,
   the logistic function, and the upper-triangular and token masks. At exact values a change of float format is the
   identity, a running maximum over tiles is the maximum, and the tiling of the pair grid is a re-indexing, so the
   kernel and the reference compute one function.

   The frames: each kernel region is a segment of @main with its own proof data — the first region's carries the
   scratch from point to point and leaves its third output idle until the last point; the second reads the mask through
   two windows of one array, held half and half. -/
import proofs.«124299_j40209483825381_1_alg».proof.Defs
import proofs.«124299_j40209483825381_1_alg».proof.Proof.Gen.Kernel
import proofs.«124299_j40209483825381_1_alg».proof.Proof.Gen.KernelIdeal
import proofs.«124299_j40209483825381_1_alg».proof.Proof.Gen.ReferenceIdeal
import proofs.«124299_j40209483825381_1_alg».proof.Proof.Gen.Pre_finite_inputs
import proofs.«124299_j40209483825381_1_alg».proof.Proof.KFrame
import proofs.«124299_j40209483825381_1_alg».proof.Proof.Bits.KFrame
import proofs.«124299_j40209483825381_1_alg».proof.Proof.RefRun
import proofs.«124299_j40209483825381_1_alg».proof.Proof.RefStages
import proofs.«124299_j40209483825381_1_alg».proof.Proof.KFinal
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen2.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Gen2.frame (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The ideal pass rewrote nothing: the idealization is the program's own text read at exact values. -/
theorem preserves : Cert.preserves_Kernel_KernelIdeal := trivial

/-- At exact values both programs end with the specification's function of the (agreeing) arguments in their result
    buffers: the kernel's by its two regions' write-backs, the reference's by its operations read index by index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.Garr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono (fun _ h c => ⟨(h c).1.trans (Cert.KernelIdeal.Gen2.final1_10 m c), (h c).2⟩)
      (Cert.KernelIdeal.Gen2.run_value (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9, e10⟩ := hagree c
    rw [e0, e1, e2, e3, e4, e5, e6, e7, e8, e9, e10]
    exact Cert.ReferenceIdeal.RefStages.out_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
